-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2)) (m ((c.tc : Thread Cert.Kernel.nD Cert.Kernel.τ).loc Cert.Kernel.main_arg3)) (m ((c.tc : Thread Cert.Kernel.nD Cert.Kernel.τ).loc Cert.Kernel.main_arg4)) (m ((c.tc : Thread Cert.Kernel.nD Cert.Kernel.τ).loc Cert.Kernel.main_arg5)) (m ((c.tc : Thread Cert.Kernel.nD Cert.Kernel.τ).loc Cert.Kernel.main_arg6)) (m ((c.tc : Thread Cert.Kernel.nD Cert.Kernel.τ).loc Cert.Kernel.main_arg7)) (m ((c.tc : Thread Cert.Kernel.nD Cert.Kernel.τ).loc Cert.Kernel.main_arg8)) (m ((c.tc : Thread Cert.Kernel.nD Cert.Kernel.τ).loc Cert.Kernel.main_arg9)) (m ((c.tc : Thread Cert.Kernel.nD Cert.Kernel.τ).loc Cert.Kernel.main_arg10)) (m ((c.tc : Thread Cert.Kernel.nD Cert.Kernel.τ).loc Cert.Kernel.main_arg11)) (m ((c.tc : Thread Cert.Kernel.nD Cert.Kernel.τ).loc Cert.Kernel.main_arg12)) (m ((c.tc : Thread Cert.Kernel.nD Cert.Kernel.τ).loc Cert.Kernel.main_arg13)) (m ((c.tc : Thread Cert.Kernel.nD Cert.Kernel.τ).loc Cert.Kernel.main_arg14)) (m ((c.tc : Thread Cert.Kernel.nD Cert.Kernel.τ).loc Cert.Kernel.main_arg15)) (m ((c.tc : Thread Cert.Kernel.nD Cert.Kernel.τ).loc Cert.Kernel.main_arg16)) (m ((c.tc : Thread Cert.Kernel.nD Cert.Kernel.τ).loc Cert.Kernel.main_arg17)) (m ((c.tc : Thread Cert.Kernel.nD Cert.Kernel.τ).loc Cert.Kernel.main_arg18)) (m ((c.tc : Thread Cert.Kernel.nD Cert.Kernel.τ).loc Cert.Kernel.main_arg19)) (m ((c.tc : Thread Cert.Kernel.nD Cert.Kernel.τ).loc Cert.Kernel.main_arg20)) (m ((c.tc : Thread Cert.Kernel.nD Cert.Kernel.τ).loc Cert.Kernel.main_arg21)) (m ((c.tc : Thread Cert.Kernel.nD Cert.Kernel.τ).loc Cert.Kernel.main_arg22)) (m ((c.tc : Thread Cert.Kernel.nD Cert.Kernel.τ).loc Cert.Kernel.main_arg23))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7)) (m ((c.tc : Thread Cert.KernelIdeal.nD Cert.KernelIdeal.τ).loc Cert.KernelIdeal.main_arg8)) (m ((c.tc : Thread Cert.KernelIdeal.nD Cert.KernelIdeal.τ).loc Cert.KernelIdeal.main_arg9)) (m ((c.tc : Thread Cert.KernelIdeal.nD Cert.KernelIdeal.τ).loc Cert.KernelIdeal.main_arg10)) (m ((c.tc : Thread Cert.KernelIdeal.nD Cert.KernelIdeal.τ).loc Cert.KernelIdeal.main_arg11)) (m ((c.tc : Thread Cert.KernelIdeal.nD Cert.KernelIdeal.τ).loc Cert.KernelIdeal.main_arg12)) (m ((c.tc : Thread Cert.KernelIdeal.nD Cert.KernelIdeal.τ).loc Cert.KernelIdeal.main_arg13)) (m ((c.tc : Thread Cert.KernelIdeal.nD Cert.KernelIdeal.τ).loc Cert.KernelIdeal.main_arg14)) (m ((c.tc : Thread Cert.KernelIdeal.nD Cert.KernelIdeal.τ).loc Cert.KernelIdeal.main_arg15)) (m ((c.tc : Thread Cert.KernelIdeal.nD Cert.KernelIdeal.τ).loc Cert.KernelIdeal.main_arg16)) (m ((c.tc : Thread Cert.KernelIdeal.nD Cert.KernelIdeal.τ).loc Cert.KernelIdeal.main_arg17)) (m ((c.tc : Thread Cert.KernelIdeal.nD Cert.KernelIdeal.τ).loc Cert.KernelIdeal.main_arg18)) (m ((c.tc : Thread Cert.KernelIdeal.nD Cert.KernelIdeal.τ).loc Cert.KernelIdeal.main_arg19)) (m ((c.tc : Thread Cert.KernelIdeal.nD Cert.KernelIdeal.τ).loc Cert.KernelIdeal.main_arg20)) (m ((c.tc : Thread Cert.KernelIdeal.nD Cert.KernelIdeal.τ).loc Cert.KernelIdeal.main_arg21)) (m ((c.tc : Thread Cert.KernelIdeal.nD Cert.KernelIdeal.τ).loc Cert.KernelIdeal.main_arg22)) (m ((c.tc : Thread Cert.KernelIdeal.nD Cert.KernelIdeal.τ).loc Cert.KernelIdeal.main_arg23))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5)) (m ((c.tc : Thread Cert.ReferenceIdeal.nD Cert.ReferenceIdeal.τ).loc Cert.ReferenceIdeal.main_arg6)) (m ((c.tc : Thread Cert.ReferenceIdeal.nD Cert.ReferenceIdeal.τ).loc Cert.ReferenceIdeal.main_arg7)) (m ((c.tc : Thread Cert.ReferenceIdeal.nD Cert.ReferenceIdeal.τ).loc Cert.ReferenceIdeal.main_arg8)) (m ((c.tc : Thread Cert.ReferenceIdeal.nD Cert.ReferenceIdeal.τ).loc Cert.ReferenceIdeal.main_arg9)) (m ((c.tc : Thread Cert.ReferenceIdeal.nD Cert.ReferenceIdeal.τ).loc Cert.ReferenceIdeal.main_arg10)) (m ((c.tc : Thread Cert.ReferenceIdeal.nD Cert.ReferenceIdeal.τ).loc Cert.ReferenceIdeal.main_arg11)) (m ((c.tc : Thread Cert.ReferenceIdeal.nD Cert.ReferenceIdeal.τ).loc Cert.ReferenceIdeal.main_arg12)) (m ((c.tc : Thread Cert.ReferenceIdeal.nD Cert.ReferenceIdeal.τ).loc Cert.ReferenceIdeal.main_arg13)) (m ((c.tc : Thread Cert.ReferenceIdeal.nD Cert.ReferenceIdeal.τ).loc Cert.ReferenceIdeal.main_arg14)) (m ((c.tc : Thread Cert.ReferenceIdeal.nD Cert.ReferenceIdeal.τ).loc Cert.ReferenceIdeal.main_arg15)) (m ((c.tc : Thread Cert.ReferenceIdeal.nD Cert.ReferenceIdeal.τ).loc Cert.ReferenceIdeal.main_arg16)) (m ((c.tc : Thread Cert.ReferenceIdeal.nD Cert.ReferenceIdeal.τ).loc Cert.ReferenceIdeal.main_arg17)) (m ((c.tc : Thread Cert.ReferenceIdeal.nD Cert.ReferenceIdeal.τ).loc Cert.ReferenceIdeal.main_arg18)) (m ((c.tc : Thread Cert.ReferenceIdeal.nD Cert.ReferenceIdeal.τ).loc Cert.ReferenceIdeal.main_arg19)) (m ((c.tc : Thread Cert.ReferenceIdeal.nD Cert.ReferenceIdeal.τ).loc Cert.ReferenceIdeal.main_arg20)) (m ((c.tc : Thread Cert.ReferenceIdeal.nD Cert.ReferenceIdeal.τ).loc Cert.ReferenceIdeal.main_arg21)) (m ((c.tc : Thread Cert.ReferenceIdeal.nD Cert.ReferenceIdeal.τ).loc Cert.ReferenceIdeal.main_arg22)) (m ((c.tc : Thread Cert.ReferenceIdeal.nD Cert.ReferenceIdeal.τ).loc Cert.ReferenceIdeal.main_arg23))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4)
      ∧ r.2.mem ((c.tc : Thread Cert.Kernel.nD Cert.Kernel.τ).loc Cert.Kernel.main_arg5) = m ((c.tc : Thread Cert.Kernel.nD Cert.Kernel.τ).loc Cert.Kernel.main_arg5)
      ∧ r.2.mem ((c.tc : Thread Cert.Kernel.nD Cert.Kernel.τ).loc Cert.Kernel.main_arg6) = m ((c.tc : Thread Cert.Kernel.nD Cert.Kernel.τ).loc Cert.Kernel.main_arg6)
      ∧ r.2.mem ((c.tc : Thread Cert.Kernel.nD Cert.Kernel.τ).loc Cert.Kernel.main_arg7) = m ((c.tc : Thread Cert.Kernel.nD Cert.Kernel.τ).loc Cert.Kernel.main_arg7)
      ∧ r.2.mem ((c.tc : Thread Cert.Kernel.nD Cert.Kernel.τ).loc Cert.Kernel.main_arg8) = m ((c.tc : Thread Cert.Kernel.nD Cert.Kernel.τ).loc Cert.Kernel.main_arg8)
      ∧ r.2.mem ((c.tc : Thread Cert.Kernel.nD Cert.Kernel.τ).loc Cert.Kernel.main_arg9) = m ((c.tc : Thread Cert.Kernel.nD Cert.Kernel.τ).loc Cert.Kernel.main_arg9)
      ∧ r.2.mem ((c.tc : Thread Cert.Kernel.nD Cert.Kernel.τ).loc Cert.Kernel.main_arg10) = m ((c.tc : Thread Cert.Kernel.nD Cert.Kernel.τ).loc Cert.Kernel.main_arg10)
      ∧ r.2.mem ((c.tc : Thread Cert.Kernel.nD Cert.Kernel.τ).loc Cert.Kernel.main_arg11) = m ((c.tc : Thread Cert.Kernel.nD Cert.Kernel.τ).loc Cert.Kernel.main_arg11)
      ∧ r.2.mem ((c.tc : Thread Cert.Kernel.nD Cert.Kernel.τ).loc Cert.Kernel.main_arg12) = m ((c.tc : Thread Cert.Kernel.nD Cert.Kernel.τ).loc Cert.Kernel.main_arg12)
      ∧ r.2.mem ((c.tc : Thread Cert.Kernel.nD Cert.Kernel.τ).loc Cert.Kernel.main_arg13) = m ((c.tc : Thread Cert.Kernel.nD Cert.Kernel.τ).loc Cert.Kernel.main_arg13)
      ∧ r.2.mem ((c.tc : Thread Cert.Kernel.nD Cert.Kernel.τ).loc Cert.Kernel.main_arg14) = m ((c.tc : Thread Cert.Kernel.nD Cert.Kernel.τ).loc Cert.Kernel.main_arg14)
      ∧ r.2.mem ((c.tc : Thread Cert.Kernel.nD Cert.Kernel.τ).loc Cert.Kernel.main_arg15) = m ((c.tc : Thread Cert.Kernel.nD Cert.Kernel.τ).loc Cert.Kernel.main_arg15)
      ∧ r.2.mem ((c.tc : Thread Cert.Kernel.nD Cert.Kernel.τ).loc Cert.Kernel.main_arg16) = m ((c.tc : Thread Cert.Kernel.nD Cert.Kernel.τ).loc Cert.Kernel.main_arg16)
      ∧ r.2.mem ((c.tc : Thread Cert.Kernel.nD Cert.Kernel.τ).loc Cert.Kernel.main_arg17) = m ((c.tc : Thread Cert.Kernel.nD Cert.Kernel.τ).loc Cert.Kernel.main_arg17)
      ∧ r.2.mem ((c.tc : Thread Cert.Kernel.nD Cert.Kernel.τ).loc Cert.Kernel.main_arg18) = m ((c.tc : Thread Cert.Kernel.nD Cert.Kernel.τ).loc Cert.Kernel.main_arg18)
      ∧ r.2.mem ((c.tc : Thread Cert.Kernel.nD Cert.Kernel.τ).loc Cert.Kernel.main_arg19) = m ((c.tc : Thread Cert.Kernel.nD Cert.Kernel.τ).loc Cert.Kernel.main_arg19)
      ∧ r.2.mem ((c.tc : Thread Cert.Kernel.nD Cert.Kernel.τ).loc Cert.Kernel.main_arg20) = m ((c.tc : Thread Cert.Kernel.nD Cert.Kernel.τ).loc Cert.Kernel.main_arg20)
      ∧ r.2.mem ((c.tc : Thread Cert.Kernel.nD Cert.Kernel.τ).loc Cert.Kernel.main_arg21) = m ((c.tc : Thread Cert.Kernel.nD Cert.Kernel.τ).loc Cert.Kernel.main_arg21)
      ∧ r.2.mem ((c.tc : Thread Cert.Kernel.nD Cert.Kernel.τ).loc Cert.Kernel.main_arg22) = m ((c.tc : Thread Cert.Kernel.nD Cert.Kernel.τ).loc Cert.Kernel.main_arg22)
      ∧ r.2.mem ((c.tc : Thread Cert.Kernel.nD Cert.Kernel.τ).loc Cert.Kernel.main_arg23) = m ((c.tc : Thread Cert.Kernel.nD Cert.Kernel.τ).loc Cert.Kernel.main_arg23))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
      ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
      ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
      ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8)
      ∧ r.2.mem ((c.tc : Thread Cert.KernelIdeal.nD Cert.KernelIdeal.τ).loc Cert.KernelIdeal.main_arg9) = m ((c.tc : Thread Cert.KernelIdeal.nD Cert.KernelIdeal.τ).loc Cert.KernelIdeal.main_arg9)
      ∧ r.2.mem ((c.tc : Thread Cert.KernelIdeal.nD Cert.KernelIdeal.τ).loc Cert.KernelIdeal.main_arg10) = m ((c.tc : Thread Cert.KernelIdeal.nD Cert.KernelIdeal.τ).loc Cert.KernelIdeal.main_arg10)
      ∧ r.2.mem ((c.tc : Thread Cert.KernelIdeal.nD Cert.KernelIdeal.τ).loc Cert.KernelIdeal.main_arg11) = m ((c.tc : Thread Cert.KernelIdeal.nD Cert.KernelIdeal.τ).loc Cert.KernelIdeal.main_arg11)
      ∧ r.2.mem ((c.tc : Thread Cert.KernelIdeal.nD Cert.KernelIdeal.τ).loc Cert.KernelIdeal.main_arg12) = m ((c.tc : Thread Cert.KernelIdeal.nD Cert.KernelIdeal.τ).loc Cert.KernelIdeal.main_arg12)
      ∧ r.2.mem ((c.tc : Thread Cert.KernelIdeal.nD Cert.KernelIdeal.τ).loc Cert.KernelIdeal.main_arg13) = m ((c.tc : Thread Cert.KernelIdeal.nD Cert.KernelIdeal.τ).loc Cert.KernelIdeal.main_arg13)
      ∧ r.2.mem ((c.tc : Thread Cert.KernelIdeal.nD Cert.KernelIdeal.τ).loc Cert.KernelIdeal.main_arg14) = m ((c.tc : Thread Cert.KernelIdeal.nD Cert.KernelIdeal.τ).loc Cert.KernelIdeal.main_arg14)
      ∧ r.2.mem ((c.tc : Thread Cert.KernelIdeal.nD Cert.KernelIdeal.τ).loc Cert.KernelIdeal.main_arg15) = m ((c.tc : Thread Cert.KernelIdeal.nD Cert.KernelIdeal.τ).loc Cert.KernelIdeal.main_arg15)
      ∧ r.2.mem ((c.tc : Thread Cert.KernelIdeal.nD Cert.KernelIdeal.τ).loc Cert.KernelIdeal.main_arg16) = m ((c.tc : Thread Cert.KernelIdeal.nD Cert.KernelIdeal.τ).loc Cert.KernelIdeal.main_arg16)
      ∧ r.2.mem ((c.tc : Thread Cert.KernelIdeal.nD Cert.KernelIdeal.τ).loc Cert.KernelIdeal.main_arg17) = m ((c.tc : Thread Cert.KernelIdeal.nD Cert.KernelIdeal.τ).loc Cert.KernelIdeal.main_arg17)
      ∧ r.2.mem ((c.tc : Thread Cert.KernelIdeal.nD Cert.KernelIdeal.τ).loc Cert.KernelIdeal.main_arg18) = m ((c.tc : Thread Cert.KernelIdeal.nD Cert.KernelIdeal.τ).loc Cert.KernelIdeal.main_arg18)
      ∧ r.2.mem ((c.tc : Thread Cert.KernelIdeal.nD Cert.KernelIdeal.τ).loc Cert.KernelIdeal.main_arg19) = m ((c.tc : Thread Cert.KernelIdeal.nD Cert.KernelIdeal.τ).loc Cert.KernelIdeal.main_arg19)
      ∧ r.2.mem ((c.tc : Thread Cert.KernelIdeal.nD Cert.KernelIdeal.τ).loc Cert.KernelIdeal.main_arg20) = m ((c.tc : Thread Cert.KernelIdeal.nD Cert.KernelIdeal.τ).loc Cert.KernelIdeal.main_arg20)
      ∧ r.2.mem ((c.tc : Thread Cert.KernelIdeal.nD Cert.KernelIdeal.τ).loc Cert.KernelIdeal.main_arg21) = m ((c.tc : Thread Cert.KernelIdeal.nD Cert.KernelIdeal.τ).loc Cert.KernelIdeal.main_arg21)
      ∧ r.2.mem ((c.tc : Thread Cert.KernelIdeal.nD Cert.KernelIdeal.τ).loc Cert.KernelIdeal.main_arg22) = m ((c.tc : Thread Cert.KernelIdeal.nD Cert.KernelIdeal.τ).loc Cert.KernelIdeal.main_arg22)
      ∧ r.2.mem ((c.tc : Thread Cert.KernelIdeal.nD Cert.KernelIdeal.τ).loc Cert.KernelIdeal.main_arg23) = m ((c.tc : Thread Cert.KernelIdeal.nD Cert.KernelIdeal.τ).loc Cert.KernelIdeal.main_arg23))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5)
      ∧ r.2.mem ((c.tc : Thread Cert.ReferenceIdeal.nD Cert.ReferenceIdeal.τ).loc Cert.ReferenceIdeal.main_arg6) = m ((c.tc : Thread Cert.ReferenceIdeal.nD Cert.ReferenceIdeal.τ).loc Cert.ReferenceIdeal.main_arg6)
      ∧ r.2.mem ((c.tc : Thread Cert.ReferenceIdeal.nD Cert.ReferenceIdeal.τ).loc Cert.ReferenceIdeal.main_arg7) = m ((c.tc : Thread Cert.ReferenceIdeal.nD Cert.ReferenceIdeal.τ).loc Cert.ReferenceIdeal.main_arg7)
      ∧ r.2.mem ((c.tc : Thread Cert.ReferenceIdeal.nD Cert.ReferenceIdeal.τ).loc Cert.ReferenceIdeal.main_arg8) = m ((c.tc : Thread Cert.ReferenceIdeal.nD Cert.ReferenceIdeal.τ).loc Cert.ReferenceIdeal.main_arg8)
      ∧ r.2.mem ((c.tc : Thread Cert.ReferenceIdeal.nD Cert.ReferenceIdeal.τ).loc Cert.ReferenceIdeal.main_arg9) = m ((c.tc : Thread Cert.ReferenceIdeal.nD Cert.ReferenceIdeal.τ).loc Cert.ReferenceIdeal.main_arg9)
      ∧ r.2.mem ((c.tc : Thread Cert.ReferenceIdeal.nD Cert.ReferenceIdeal.τ).loc Cert.ReferenceIdeal.main_arg10) = m ((c.tc : Thread Cert.ReferenceIdeal.nD Cert.ReferenceIdeal.τ).loc Cert.ReferenceIdeal.main_arg10)
      ∧ r.2.mem ((c.tc : Thread Cert.ReferenceIdeal.nD Cert.ReferenceIdeal.τ).loc Cert.ReferenceIdeal.main_arg11) = m ((c.tc : Thread Cert.ReferenceIdeal.nD Cert.ReferenceIdeal.τ).loc Cert.ReferenceIdeal.main_arg11)
      ∧ r.2.mem ((c.tc : Thread Cert.ReferenceIdeal.nD Cert.ReferenceIdeal.τ).loc Cert.ReferenceIdeal.main_arg12) = m ((c.tc : Thread Cert.ReferenceIdeal.nD Cert.ReferenceIdeal.τ).loc Cert.ReferenceIdeal.main_arg12)
      ∧ r.2.mem ((c.tc : Thread Cert.ReferenceIdeal.nD Cert.ReferenceIdeal.τ).loc Cert.ReferenceIdeal.main_arg13) = m ((c.tc : Thread Cert.ReferenceIdeal.nD Cert.ReferenceIdeal.τ).loc Cert.ReferenceIdeal.main_arg13)
      ∧ r.2.mem ((c.tc : Thread Cert.ReferenceIdeal.nD Cert.ReferenceIdeal.τ).loc Cert.ReferenceIdeal.main_arg14) = m ((c.tc : Thread Cert.ReferenceIdeal.nD Cert.ReferenceIdeal.τ).loc Cert.ReferenceIdeal.main_arg14)
      ∧ r.2.mem ((c.tc : Thread Cert.ReferenceIdeal.nD Cert.ReferenceIdeal.τ).loc Cert.ReferenceIdeal.main_arg15) = m ((c.tc : Thread Cert.ReferenceIdeal.nD Cert.ReferenceIdeal.τ).loc Cert.ReferenceIdeal.main_arg15)
      ∧ r.2.mem ((c.tc : Thread Cert.ReferenceIdeal.nD Cert.ReferenceIdeal.τ).loc Cert.ReferenceIdeal.main_arg16) = m ((c.tc : Thread Cert.ReferenceIdeal.nD Cert.ReferenceIdeal.τ).loc Cert.ReferenceIdeal.main_arg16)
      ∧ r.2.mem ((c.tc : Thread Cert.ReferenceIdeal.nD Cert.ReferenceIdeal.τ).loc Cert.ReferenceIdeal.main_arg17) = m ((c.tc : Thread Cert.ReferenceIdeal.nD Cert.ReferenceIdeal.τ).loc Cert.ReferenceIdeal.main_arg17)
      ∧ r.2.mem ((c.tc : Thread Cert.ReferenceIdeal.nD Cert.ReferenceIdeal.τ).loc Cert.ReferenceIdeal.main_arg18) = m ((c.tc : Thread Cert.ReferenceIdeal.nD Cert.ReferenceIdeal.τ).loc Cert.ReferenceIdeal.main_arg18)
      ∧ r.2.mem ((c.tc : Thread Cert.ReferenceIdeal.nD Cert.ReferenceIdeal.τ).loc Cert.ReferenceIdeal.main_arg19) = m ((c.tc : Thread Cert.ReferenceIdeal.nD Cert.ReferenceIdeal.τ).loc Cert.ReferenceIdeal.main_arg19)
      ∧ r.2.mem ((c.tc : Thread Cert.ReferenceIdeal.nD Cert.ReferenceIdeal.τ).loc Cert.ReferenceIdeal.main_arg20) = m ((c.tc : Thread Cert.ReferenceIdeal.nD Cert.ReferenceIdeal.τ).loc Cert.ReferenceIdeal.main_arg20)
      ∧ r.2.mem ((c.tc : Thread Cert.ReferenceIdeal.nD Cert.ReferenceIdeal.τ).loc Cert.ReferenceIdeal.main_arg21) = m ((c.tc : Thread Cert.ReferenceIdeal.nD Cert.ReferenceIdeal.τ).loc Cert.ReferenceIdeal.main_arg21)
      ∧ r.2.mem ((c.tc : Thread Cert.ReferenceIdeal.nD Cert.ReferenceIdeal.τ).loc Cert.ReferenceIdeal.main_arg22) = m ((c.tc : Thread Cert.ReferenceIdeal.nD Cert.ReferenceIdeal.τ).loc Cert.ReferenceIdeal.main_arg22)
      ∧ r.2.mem ((c.tc : Thread Cert.ReferenceIdeal.nD Cert.ReferenceIdeal.τ).loc Cert.ReferenceIdeal.main_arg23) = m ((c.tc : Thread Cert.ReferenceIdeal.nD Cert.ReferenceIdeal.τ).loc Cert.ReferenceIdeal.main_arg23))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)
      ∧ m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5)
      ∧ m' ((c.tc : Thread Cert.ReferenceIdeal.nD Cert.ReferenceIdeal.τ).loc Cert.ReferenceIdeal.main_arg6) = m ((c.tc : Thread Cert.KernelIdeal.nD Cert.KernelIdeal.τ).loc Cert.KernelIdeal.main_arg6)
      ∧ m' ((c.tc : Thread Cert.ReferenceIdeal.nD Cert.ReferenceIdeal.τ).loc Cert.ReferenceIdeal.main_arg7) = m ((c.tc : Thread Cert.KernelIdeal.nD Cert.KernelIdeal.τ).loc Cert.KernelIdeal.main_arg7)
      ∧ m' ((c.tc : Thread Cert.ReferenceIdeal.nD Cert.ReferenceIdeal.τ).loc Cert.ReferenceIdeal.main_arg8) = m ((c.tc : Thread Cert.KernelIdeal.nD Cert.KernelIdeal.τ).loc Cert.KernelIdeal.main_arg8)
      ∧ m' ((c.tc : Thread Cert.ReferenceIdeal.nD Cert.ReferenceIdeal.τ).loc Cert.ReferenceIdeal.main_arg9) = m ((c.tc : Thread Cert.KernelIdeal.nD Cert.KernelIdeal.τ).loc Cert.KernelIdeal.main_arg9)
      ∧ m' ((c.tc : Thread Cert.ReferenceIdeal.nD Cert.ReferenceIdeal.τ).loc Cert.ReferenceIdeal.main_arg10) = m ((c.tc : Thread Cert.KernelIdeal.nD Cert.KernelIdeal.τ).loc Cert.KernelIdeal.main_arg10)
      ∧ m' ((c.tc : Thread Cert.ReferenceIdeal.nD Cert.ReferenceIdeal.τ).loc Cert.ReferenceIdeal.main_arg11) = m ((c.tc : Thread Cert.KernelIdeal.nD Cert.KernelIdeal.τ).loc Cert.KernelIdeal.main_arg11)
      ∧ m' ((c.tc : Thread Cert.ReferenceIdeal.nD Cert.ReferenceIdeal.τ).loc Cert.ReferenceIdeal.main_arg12) = m ((c.tc : Thread Cert.KernelIdeal.nD Cert.KernelIdeal.τ).loc Cert.KernelIdeal.main_arg12)
      ∧ m' ((c.tc : Thread Cert.ReferenceIdeal.nD Cert.ReferenceIdeal.τ).loc Cert.ReferenceIdeal.main_arg13) = m ((c.tc : Thread Cert.KernelIdeal.nD Cert.KernelIdeal.τ).loc Cert.KernelIdeal.main_arg13)
      ∧ m' ((c.tc : Thread Cert.ReferenceIdeal.nD Cert.ReferenceIdeal.τ).loc Cert.ReferenceIdeal.main_arg14) = m ((c.tc : Thread Cert.KernelIdeal.nD Cert.KernelIdeal.τ).loc Cert.KernelIdeal.main_arg14)
      ∧ m' ((c.tc : Thread Cert.ReferenceIdeal.nD Cert.ReferenceIdeal.τ).loc Cert.ReferenceIdeal.main_arg15) = m ((c.tc : Thread Cert.KernelIdeal.nD Cert.KernelIdeal.τ).loc Cert.KernelIdeal.main_arg15)
      ∧ m' ((c.tc : Thread Cert.ReferenceIdeal.nD Cert.ReferenceIdeal.τ).loc Cert.ReferenceIdeal.main_arg16) = m ((c.tc : Thread Cert.KernelIdeal.nD Cert.KernelIdeal.τ).loc Cert.KernelIdeal.main_arg16)
      ∧ m' ((c.tc : Thread Cert.ReferenceIdeal.nD Cert.ReferenceIdeal.τ).loc Cert.ReferenceIdeal.main_arg17) = m ((c.tc : Thread Cert.KernelIdeal.nD Cert.KernelIdeal.τ).loc Cert.KernelIdeal.main_arg17)
      ∧ m' ((c.tc : Thread Cert.ReferenceIdeal.nD Cert.ReferenceIdeal.τ).loc Cert.ReferenceIdeal.main_arg18) = m ((c.tc : Thread Cert.KernelIdeal.nD Cert.KernelIdeal.τ).loc Cert.KernelIdeal.main_arg18)
      ∧ m' ((c.tc : Thread Cert.ReferenceIdeal.nD Cert.ReferenceIdeal.τ).loc Cert.ReferenceIdeal.main_arg19) = m ((c.tc : Thread Cert.KernelIdeal.nD Cert.KernelIdeal.τ).loc Cert.KernelIdeal.main_arg19)
      ∧ m' ((c.tc : Thread Cert.ReferenceIdeal.nD Cert.ReferenceIdeal.τ).loc Cert.ReferenceIdeal.main_arg20) = m ((c.tc : Thread Cert.KernelIdeal.nD Cert.KernelIdeal.τ).loc Cert.KernelIdeal.main_arg20)
      ∧ m' ((c.tc : Thread Cert.ReferenceIdeal.nD Cert.ReferenceIdeal.τ).loc Cert.ReferenceIdeal.main_arg21) = m ((c.tc : Thread Cert.KernelIdeal.nD Cert.KernelIdeal.τ).loc Cert.KernelIdeal.main_arg21)
      ∧ m' ((c.tc : Thread Cert.ReferenceIdeal.nD Cert.ReferenceIdeal.τ).loc Cert.ReferenceIdeal.main_arg22) = m ((c.tc : Thread Cert.KernelIdeal.nD Cert.KernelIdeal.τ).loc Cert.KernelIdeal.main_arg22)
      ∧ m' ((c.tc : Thread Cert.ReferenceIdeal.nD Cert.ReferenceIdeal.τ).loc Cert.ReferenceIdeal.main_arg23) = m ((c.tc : Thread Cert.KernelIdeal.nD Cert.KernelIdeal.τ).loc Cert.KernelIdeal.main_arg23)) →
    ∃ (v0 : (c : Dev Cert.KernelIdeal.nD) → Buf (Elt Ideal) ((c.tc : Thread Cert.KernelIdeal.nD Cert.KernelIdeal.τ).loc Cert.KernelIdeal.main_v75)) (v1 : (c : Dev Cert.KernelIdeal.nD) → Buf (Elt Ideal) ((c.tc : Thread Cert.KernelIdeal.nD Cert.KernelIdeal.τ).loc Cert.KernelIdeal.main_v62)) (v2 : (c : Dev Cert.KernelIdeal.nD) → Buf (Elt Ideal) ((c.tc : Thread Cert.KernelIdeal.nD Cert.KernelIdeal.τ).loc Cert.KernelIdeal.main_v50_2)) (v3 : (c : Dev Cert.KernelIdeal.nD) → Buf (Elt Ideal) ((c.tc : Thread Cert.KernelIdeal.nD Cert.KernelIdeal.τ).loc Cert.KernelIdeal.main_v50_3)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v75) = v0 c
          ∧ r.2.mem ((c.tc : Thread Cert.KernelIdeal.nD Cert.KernelIdeal.τ).loc Cert.KernelIdeal.main_v62) = v1 c
          ∧ r.2.mem ((c.tc : Thread Cert.KernelIdeal.nD Cert.KernelIdeal.τ).loc Cert.KernelIdeal.main_v50_2) = v2 c
          ∧ r.2.mem ((c.tc : Thread Cert.KernelIdeal.nD Cert.KernelIdeal.τ).loc Cert.KernelIdeal.main_v50_3) = v3 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
          ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
          ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
          ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
          ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8)
          ∧ r.2.mem ((c.tc : Thread Cert.KernelIdeal.nD Cert.KernelIdeal.τ).loc Cert.KernelIdeal.main_arg9) = m ((c.tc : Thread Cert.KernelIdeal.nD Cert.KernelIdeal.τ).loc Cert.KernelIdeal.main_arg9)
          ∧ r.2.mem ((c.tc : Thread Cert.KernelIdeal.nD Cert.KernelIdeal.τ).loc Cert.KernelIdeal.main_arg10) = m ((c.tc : Thread Cert.KernelIdeal.nD Cert.KernelIdeal.τ).loc Cert.KernelIdeal.main_arg10)
          ∧ r.2.mem ((c.tc : Thread Cert.KernelIdeal.nD Cert.KernelIdeal.τ).loc Cert.KernelIdeal.main_arg11) = m ((c.tc : Thread Cert.KernelIdeal.nD Cert.KernelIdeal.τ).loc Cert.KernelIdeal.main_arg11)
          ∧ r.2.mem ((c.tc : Thread Cert.KernelIdeal.nD Cert.KernelIdeal.τ).loc Cert.KernelIdeal.main_arg12) = m ((c.tc : Thread Cert.KernelIdeal.nD Cert.KernelIdeal.τ).loc Cert.KernelIdeal.main_arg12)
          ∧ r.2.mem ((c.tc : Thread Cert.KernelIdeal.nD Cert.KernelIdeal.τ).loc Cert.KernelIdeal.main_arg13) = m ((c.tc : Thread Cert.KernelIdeal.nD Cert.KernelIdeal.τ).loc Cert.KernelIdeal.main_arg13)
          ∧ r.2.mem ((c.tc : Thread Cert.KernelIdeal.nD Cert.KernelIdeal.τ).loc Cert.KernelIdeal.main_arg14) = m ((c.tc : Thread Cert.KernelIdeal.nD Cert.KernelIdeal.τ).loc Cert.KernelIdeal.main_arg14)
          ∧ r.2.mem ((c.tc : Thread Cert.KernelIdeal.nD Cert.KernelIdeal.τ).loc Cert.KernelIdeal.main_arg15) = m ((c.tc : Thread Cert.KernelIdeal.nD Cert.KernelIdeal.τ).loc Cert.KernelIdeal.main_arg15)
          ∧ r.2.mem ((c.tc : Thread Cert.KernelIdeal.nD Cert.KernelIdeal.τ).loc Cert.KernelIdeal.main_arg16) = m ((c.tc : Thread Cert.KernelIdeal.nD Cert.KernelIdeal.τ).loc Cert.KernelIdeal.main_arg16)
          ∧ r.2.mem ((c.tc : Thread Cert.KernelIdeal.nD Cert.KernelIdeal.τ).loc Cert.KernelIdeal.main_arg17) = m ((c.tc : Thread Cert.KernelIdeal.nD Cert.KernelIdeal.τ).loc Cert.KernelIdeal.main_arg17)
          ∧ r.2.mem ((c.tc : Thread Cert.KernelIdeal.nD Cert.KernelIdeal.τ).loc Cert.KernelIdeal.main_arg18) = m ((c.tc : Thread Cert.KernelIdeal.nD Cert.KernelIdeal.τ).loc Cert.KernelIdeal.main_arg18)
          ∧ r.2.mem ((c.tc : Thread Cert.KernelIdeal.nD Cert.KernelIdeal.τ).loc Cert.KernelIdeal.main_arg19) = m ((c.tc : Thread Cert.KernelIdeal.nD Cert.KernelIdeal.τ).loc Cert.KernelIdeal.main_arg19)
          ∧ r.2.mem ((c.tc : Thread Cert.KernelIdeal.nD Cert.KernelIdeal.τ).loc Cert.KernelIdeal.main_arg20) = m ((c.tc : Thread Cert.KernelIdeal.nD Cert.KernelIdeal.τ).loc Cert.KernelIdeal.main_arg20)
          ∧ r.2.mem ((c.tc : Thread Cert.KernelIdeal.nD Cert.KernelIdeal.τ).loc Cert.KernelIdeal.main_arg21) = m ((c.tc : Thread Cert.KernelIdeal.nD Cert.KernelIdeal.τ).loc Cert.KernelIdeal.main_arg21)
          ∧ r.2.mem ((c.tc : Thread Cert.KernelIdeal.nD Cert.KernelIdeal.τ).loc Cert.KernelIdeal.main_arg22) = m ((c.tc : Thread Cert.KernelIdeal.nD Cert.KernelIdeal.τ).loc Cert.KernelIdeal.main_arg22)
          ∧ r.2.mem ((c.tc : Thread Cert.KernelIdeal.nD Cert.KernelIdeal.τ).loc Cert.KernelIdeal.main_arg23) = m ((c.tc : Thread Cert.KernelIdeal.nD Cert.KernelIdeal.τ).loc Cert.KernelIdeal.main_arg23))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v113) = v0 c
          ∧ r.2.mem ((c.tc : Thread Cert.ReferenceIdeal.nD Cert.ReferenceIdeal.τ).loc Cert.ReferenceIdeal.main_v96) = v1 c
          ∧ r.2.mem ((c.tc : Thread Cert.ReferenceIdeal.nD Cert.ReferenceIdeal.τ).loc Cert.ReferenceIdeal.main_v61) = v2 c
          ∧ r.2.mem ((c.tc : Thread Cert.ReferenceIdeal.nD Cert.ReferenceIdeal.τ).loc Cert.ReferenceIdeal.main_v66) = v3 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4)
          ∧ r.2.mem ((c.tc : Thread Cert.ReferenceIdeal.nD Cert.ReferenceIdeal.τ).loc Cert.ReferenceIdeal.main_arg5) = m' ((c.tc : Thread Cert.ReferenceIdeal.nD Cert.ReferenceIdeal.τ).loc Cert.ReferenceIdeal.main_arg5)
          ∧ r.2.mem ((c.tc : Thread Cert.ReferenceIdeal.nD Cert.ReferenceIdeal.τ).loc Cert.ReferenceIdeal.main_arg6) = m' ((c.tc : Thread Cert.ReferenceIdeal.nD Cert.ReferenceIdeal.τ).loc Cert.ReferenceIdeal.main_arg6)
          ∧ r.2.mem ((c.tc : Thread Cert.ReferenceIdeal.nD Cert.ReferenceIdeal.τ).loc Cert.ReferenceIdeal.main_arg7) = m' ((c.tc : Thread Cert.ReferenceIdeal.nD Cert.ReferenceIdeal.τ).loc Cert.ReferenceIdeal.main_arg7)
          ∧ r.2.mem ((c.tc : Thread Cert.ReferenceIdeal.nD Cert.ReferenceIdeal.τ).loc Cert.ReferenceIdeal.main_arg8) = m' ((c.tc : Thread Cert.ReferenceIdeal.nD Cert.ReferenceIdeal.τ).loc Cert.ReferenceIdeal.main_arg8)
          ∧ r.2.mem ((c.tc : Thread Cert.ReferenceIdeal.nD Cert.ReferenceIdeal.τ).loc Cert.ReferenceIdeal.main_arg9) = m' ((c.tc : Thread Cert.ReferenceIdeal.nD Cert.ReferenceIdeal.τ).loc Cert.ReferenceIdeal.main_arg9)
          ∧ r.2.mem ((c.tc : Thread Cert.ReferenceIdeal.nD Cert.ReferenceIdeal.τ).loc Cert.ReferenceIdeal.main_arg10) = m' ((c.tc : Thread Cert.ReferenceIdeal.nD Cert.ReferenceIdeal.τ).loc Cert.ReferenceIdeal.main_arg10)
          ∧ r.2.mem ((c.tc : Thread Cert.ReferenceIdeal.nD Cert.ReferenceIdeal.τ).loc Cert.ReferenceIdeal.main_arg11) = m' ((c.tc : Thread Cert.ReferenceIdeal.nD Cert.ReferenceIdeal.τ).loc Cert.ReferenceIdeal.main_arg11)
          ∧ r.2.mem ((c.tc : Thread Cert.ReferenceIdeal.nD Cert.ReferenceIdeal.τ).loc Cert.ReferenceIdeal.main_arg12) = m' ((c.tc : Thread Cert.ReferenceIdeal.nD Cert.ReferenceIdeal.τ).loc Cert.ReferenceIdeal.main_arg12)
          ∧ r.2.mem ((c.tc : Thread Cert.ReferenceIdeal.nD Cert.ReferenceIdeal.τ).loc Cert.ReferenceIdeal.main_arg13) = m' ((c.tc : Thread Cert.ReferenceIdeal.nD Cert.ReferenceIdeal.τ).loc Cert.ReferenceIdeal.main_arg13)
          ∧ r.2.mem ((c.tc : Thread Cert.ReferenceIdeal.nD Cert.ReferenceIdeal.τ).loc Cert.ReferenceIdeal.main_arg14) = m' ((c.tc : Thread Cert.ReferenceIdeal.nD Cert.ReferenceIdeal.τ).loc Cert.ReferenceIdeal.main_arg14)
          ∧ r.2.mem ((c.tc : Thread Cert.ReferenceIdeal.nD Cert.ReferenceIdeal.τ).loc Cert.ReferenceIdeal.main_arg15) = m' ((c.tc : Thread Cert.ReferenceIdeal.nD Cert.ReferenceIdeal.τ).loc Cert.ReferenceIdeal.main_arg15)
          ∧ r.2.mem ((c.tc : Thread Cert.ReferenceIdeal.nD Cert.ReferenceIdeal.τ).loc Cert.ReferenceIdeal.main_arg16) = m' ((c.tc : Thread Cert.ReferenceIdeal.nD Cert.ReferenceIdeal.τ).loc Cert.ReferenceIdeal.main_arg16)
          ∧ r.2.mem ((c.tc : Thread Cert.ReferenceIdeal.nD Cert.ReferenceIdeal.τ).loc Cert.ReferenceIdeal.main_arg17) = m' ((c.tc : Thread Cert.ReferenceIdeal.nD Cert.ReferenceIdeal.τ).loc Cert.ReferenceIdeal.main_arg17)
          ∧ r.2.mem ((c.tc : Thread Cert.ReferenceIdeal.nD Cert.ReferenceIdeal.τ).loc Cert.ReferenceIdeal.main_arg18) = m' ((c.tc : Thread Cert.ReferenceIdeal.nD Cert.ReferenceIdeal.τ).loc Cert.ReferenceIdeal.main_arg18)
          ∧ r.2.mem ((c.tc : Thread Cert.ReferenceIdeal.nD Cert.ReferenceIdeal.τ).loc Cert.ReferenceIdeal.main_arg19) = m' ((c.tc : Thread Cert.ReferenceIdeal.nD Cert.ReferenceIdeal.τ).loc Cert.ReferenceIdeal.main_arg19)
          ∧ r.2.mem ((c.tc : Thread Cert.ReferenceIdeal.nD Cert.ReferenceIdeal.τ).loc Cert.ReferenceIdeal.main_arg20) = m' ((c.tc : Thread Cert.ReferenceIdeal.nD Cert.ReferenceIdeal.τ).loc Cert.ReferenceIdeal.main_arg20)
          ∧ r.2.mem ((c.tc : Thread Cert.ReferenceIdeal.nD Cert.ReferenceIdeal.τ).loc Cert.ReferenceIdeal.main_arg21) = m' ((c.tc : Thread Cert.ReferenceIdeal.nD Cert.ReferenceIdeal.τ).loc Cert.ReferenceIdeal.main_arg21)
          ∧ r.2.mem ((c.tc : Thread Cert.ReferenceIdeal.nD Cert.ReferenceIdeal.τ).loc Cert.ReferenceIdeal.main_arg22) = m' ((c.tc : Thread Cert.ReferenceIdeal.nD Cert.ReferenceIdeal.τ).loc Cert.ReferenceIdeal.main_arg22)
          ∧ r.2.mem ((c.tc : Thread Cert.ReferenceIdeal.nD Cert.ReferenceIdeal.τ).loc Cert.ReferenceIdeal.main_arg23) = m' ((c.tc : Thread Cert.ReferenceIdeal.nD Cert.ReferenceIdeal.τ).loc Cert.ReferenceIdeal.main_arg23))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S50000x16 : Shape := ⟨2, ![50000, 16]⟩
abbrev S2x640000 : Shape := ⟨2, ![2, 640000]⟩
abbrev S50000 : Shape := ⟨1, ![50000]⟩
abbrev S256x64 : Shape := ⟨2, ![256, 64]⟩
abbrev S16x128 : Shape := ⟨2, ![16, 128]⟩
abbrev S128 : Shape := ⟨1, ![128]⟩
abbrev S128x128 : Shape := ⟨2, ![128, 128]⟩
abbrev S128x64 : Shape := ⟨2, ![128, 64]⟩
abbrev S64 : Shape := ⟨1, ![64]⟩
abbrev S64x128 : Shape := ⟨2, ![64, 128]⟩
abbrev S128x1600 : Shape := ⟨2, ![128, 1600]⟩
abbrev S1600 : Shape := ⟨1, ![1600]⟩
abbrev S128x10000 : Shape := ⟨2, ![128, 10000]⟩
abbrev S10000 : Shape := ⟨1, ![10000]⟩
abbrev S_ : Shape := ⟨0, ![]⟩

class Facts : Prop where
  bcast_S_S50000x16 : S_.BroadcastsInDim S50000x16 (![] : Fin 0 → Fin S50000x16.rank)
  reducesTo_S50000x16_S_d0_1 : S50000x16.ReducesTo [0, 1] S_
  h_S_ : 0 < S_.numel
  bcast_S_S256x64 : S_.BroadcastsInDim S256x64 (![] : Fin 0 → Fin S256x64.rank)
  reducesTo_S256x64_S_d0_1 : S256x64.ReducesTo [0, 1] S_
  bcast_S_S16x128 : S_.BroadcastsInDim S16x128 (![] : Fin 0 → Fin S16x128.rank)
  reducesTo_S16x128_S_d0_1 : S16x128.ReducesTo [0, 1] S_
  bcast_S_S128 : S_.BroadcastsInDim S128 (![] : Fin 0 → Fin S128.rank)
  reducesTo_S128_S_d0 : S128.ReducesTo [0] S_
  bcast_S_S128x128 : S_.BroadcastsInDim S128x128 (![] : Fin 0 → Fin S128x128.rank)
  reducesTo_S128x128_S_d0_1 : S128x128.ReducesTo [0, 1] S_
  bcast_S_S128x64 : S_.BroadcastsInDim S128x64 (![] : Fin 0 → Fin S128x64.rank)
  reducesTo_S128x64_S_d0_1 : S128x64.ReducesTo [0, 1] S_
  bcast_S_S64 : S_.BroadcastsInDim S64 (![] : Fin 0 → Fin S64.rank)
  reducesTo_S64_S_d0 : S64.ReducesTo [0] S_
  bcast_S_S64x128 : S_.BroadcastsInDim S64x128 (![] : Fin 0 → Fin S64x128.rank)
  reducesTo_S64x128_S_d0_1 : S64x128.ReducesTo [0, 1] S_
  bcast_S_S128x1600 : S_.BroadcastsInDim S128x1600 (![] : Fin 0 → Fin S128x1600.rank)
  reducesTo_S128x1600_S_d0_1 : S128x1600.ReducesTo [0, 1] S_
  bcast_S_S1600 : S_.BroadcastsInDim S1600 (![] : Fin 0 → Fin S1600.rank)
  reducesTo_S1600_S_d0 : S1600.ReducesTo [0] S_
  bcast_S_S128x10000 : S_.BroadcastsInDim S128x10000 (![] : Fin 0 → Fin S128x10000.rank)
  reducesTo_S128x10000_S_d0_1 : S128x10000.ReducesTo [0, 1] S_
  bcast_S_S10000 : S_.BroadcastsInDim S10000 (![] : Fin 0 → Fin S10000.rank)
  reducesTo_S10000_S_d0 : S10000.ReducesTo [0] S_

variable [Facts]

def fn_part6 {F : FTy → Type} [FloatOps F] (main_arg23 : FVec F S10000 .f32) (main_v98 : IVec S_ 1) (main_v101 : IVec S128x10000 1) (main_c_39 : IVec S_ 1) : IVec S_ 1 :=
  let main_v102 : IVec S_ 1 := (fun x v => Host.reduce IntOp.andi x v reducesTo_S128x10000_S_d0_1 h_S_) main_v101 main_c_39
  let main_v103 : IVec S_ 1 := andi main_v98 main_v102
  let main_v104 : FVec F S10000 .f32 := Host.absf main_arg23
  let main_cst_40 : FVec F S_ .f32 := constant S_ .f32 0x7F800000#32
  let main_v105 : FVec F S10000 .f32 := broadcastInDim S10000 ![] bcast_S_S10000 main_cst_40
  let main_v106 : IVec S10000 1 := cmpf .olt main_v104 main_v105
  let main_c_41 : IVec S_ 1 := constantI S_ 1 1#1
  let main_v107 : IVec S_ 1 := (fun x v => Host.reduce IntOp.andi x v reducesTo_S10000_S_d0 h_S_) main_v106 main_c_41
  let main_v108 : IVec S_ 1 := andi main_v103 main_v107
  main_v108

def fn_part5 {F : FTy → Type} [FloatOps F] (main_arg20 : FVec F S128x1600 .f32) (main_arg21 : FVec F S1600 .f32) (main_arg22 : FVec F S128x10000 .f32) (main_arg23 : FVec F S10000 .f32) (main_v83 : IVec S_ 1) (main_v84 : FVec F S128 .f32) (main_cst_32 : FVec F S_ .f32) : IVec S_ 1 :=
  let main_v85 : FVec F S128 .f32 := broadcastInDim S128 ![] bcast_S_S128 main_cst_32
  let main_v86 : IVec S128 1 := cmpf .olt main_v84 main_v85
  let main_c_33 : IVec S_ 1 := constantI S_ 1 1#1
  let main_v87 : IVec S_ 1 := (fun x v => Host.reduce IntOp.andi x v reducesTo_S128_S_d0 h_S_) main_v86 main_c_33
  let main_v88 : IVec S_ 1 := andi main_v83 main_v87
  let main_v89 : FVec F S128x1600 .f32 := Host.absf main_arg20
  let main_cst_34 : FVec F S_ .f32 := constant S_ .f32 0x7F800000#32
  let main_v90 : FVec F S128x1600 .f32 := broadcastInDim S128x1600 ![] bcast_S_S128x1600 main_cst_34
  let main_v91 : IVec S128x1600 1 := cmpf .olt main_v89 main_v90
  let main_c_35 : IVec S_ 1 := constantI S_ 1 1#1
  let main_v92 : IVec S_ 1 := (fun x v => Host.reduce IntOp.andi x v reducesTo_S128x1600_S_d0_1 h_S_) main_v91 main_c_35
  let main_v93 : IVec S_ 1 := andi main_v88 main_v92
  let main_v94 : FVec F S1600 .f32 := Host.absf main_arg21
  let main_cst_36 : FVec F S_ .f32 := constant S_ .f32 0x7F800000#32
  let main_v95 : FVec F S1600 .f32 := broadcastInDim S1600 ![] bcast_S_S1600 main_cst_36
  let main_v96 : IVec S1600 1 := cmpf .olt main_v94 main_v95
  let main_c_37 : IVec S_ 1 := constantI S_ 1 1#1
  let main_v97 : IVec S_ 1 := (fun x v => Host.reduce IntOp.andi x v reducesTo_S1600_S_d0 h_S_) main_v96 main_c_37
  let main_v98 : IVec S_ 1 := andi main_v93 main_v97
  let main_v99 : FVec F S128x10000 .f32 := Host.absf main_arg22
  let main_cst_38 : FVec F S_ .f32 := constant S_ .f32 0x7F800000#32
  let main_v100 : FVec F S128x10000 .f32 := broadcastInDim S128x10000 ![] bcast_S_S128x10000 main_cst_38
  let main_v101 : IVec S128x10000 1 := cmpf .olt main_v99 main_v100
  let main_c_39 : IVec S_ 1 := constantI S_ 1 1#1
  fn_part6 (F := F) main_arg23 main_v98 main_v101 main_c_39

def fn_part4 {F : FTy → Type} [FloatOps F] (main_arg16 : FVec F S64x128 .f32) (main_arg17 : FVec F S128 .f32) (main_arg18 : FVec F S128x128 .f32) (main_arg19 : FVec F S128 .f32) (main_arg20 : FVec F S128x1600 .f32) (main_arg21 : FVec F S1600 .f32) (main_arg22 : FVec F S128x10000 .f32) (main_arg23 : FVec F S10000 .f32) (main_v63 : IVec S_ 1) (main_v67 : IVec S_ 1) : IVec S_ 1 :=
  let main_v68 : IVec S_ 1 := andi main_v63 main_v67
  let main_v69 : FVec F S64x128 .f32 := Host.absf main_arg16
  let main_cst_26 : FVec F S_ .f32 := constant S_ .f32 0x7F800000#32
  let main_v70 : FVec F S64x128 .f32 := broadcastInDim S64x128 ![] bcast_S_S64x128 main_cst_26
  let main_v71 : IVec S64x128 1 := cmpf .olt main_v69 main_v70
  let main_c_27 : IVec S_ 1 := constantI S_ 1 1#1
  let main_v72 : IVec S_ 1 := (fun x v => Host.reduce IntOp.andi x v reducesTo_S64x128_S_d0_1 h_S_) main_v71 main_c_27
  let main_v73 : IVec S_ 1 := andi main_v68 main_v72
  let main_v74 : FVec F S128 .f32 := Host.absf main_arg17
  let main_cst_28 : FVec F S_ .f32 := constant S_ .f32 0x7F800000#32
  let main_v75 : FVec F S128 .f32 := broadcastInDim S128 ![] bcast_S_S128 main_cst_28
  let main_v76 : IVec S128 1 := cmpf .olt main_v74 main_v75
  let main_c_29 : IVec S_ 1 := constantI S_ 1 1#1
  let main_v77 : IVec S_ 1 := (fun x v => Host.reduce IntOp.andi x v reducesTo_S128_S_d0 h_S_) main_v76 main_c_29
  let main_v78 : IVec S_ 1 := andi main_v73 main_v77
  let main_v79 : FVec F S128x128 .f32 := Host.absf main_arg18
  let main_cst_30 : FVec F S_ .f32 := constant S_ .f32 0x7F800000#32
  let main_v80 : FVec F S128x128 .f32 := broadcastInDim S128x128 ![] bcast_S_S128x128 main_cst_30
  let main_v81 : IVec S128x128 1 := cmpf .olt main_v79 main_v80
  let main_c_31 : IVec S_ 1 := constantI S_ 1 1#1
  let main_v82 : IVec S_ 1 := (fun x v => Host.reduce IntOp.andi x v reducesTo_S128x128_S_d0_1 h_S_) main_v81 main_c_31
  let main_v83 : IVec S_ 1 := andi main_v78 main_v82
  let main_v84 : FVec F S128 .f32 := Host.absf main_arg19
  let main_cst_32 : FVec F S_ .f32 := constant S_ .f32 0x7F800000#32
  fn_part5 (F := F) main_arg20 main_arg21 main_arg22 main_arg23 main_v83 main_v84 main_cst_32

def fn_part3 {F : FTy → Type} [FloatOps F] (main_arg13 : FVec F S64 .f32) (main_arg14 : FVec F S128x64 .f32) (main_arg15 : FVec F S64 .f32) (main_arg16 : FVec F S64x128 .f32) (main_arg17 : FVec F S128 .f32) (main_arg18 : FVec F S128x128 .f32) (main_arg19 : FVec F S128 .f32) (main_arg20 : FVec F S128x1600 .f32) (main_arg21 : FVec F S1600 .f32) (main_arg22 : FVec F S128x10000 .f32) (main_arg23 : FVec F S10000 .f32) (main_v48 : IVec S_ 1) (main_v49 : FVec F S128x64 .f32) (main_v50 : FVec F S128x64 .f32) : IVec S_ 1 :=
  let main_v51 : IVec S128x64 1 := cmpf .olt main_v49 main_v50
  let main_c_19 : IVec S_ 1 := constantI S_ 1 1#1
  let main_v52 : IVec S_ 1 := (fun x v => Host.reduce IntOp.andi x v reducesTo_S128x64_S_d0_1 h_S_) main_v51 main_c_19
  let main_v53 : IVec S_ 1 := andi main_v48 main_v52
  let main_v54 : FVec F S64 .f32 := Host.absf main_arg13
  let main_cst_20 : FVec F S_ .f32 := constant S_ .f32 0x7F800000#32
  let main_v55 : FVec F S64 .f32 := broadcastInDim S64 ![] bcast_S_S64 main_cst_20
  let main_v56 : IVec S64 1 := cmpf .olt main_v54 main_v55
  let main_c_21 : IVec S_ 1 := constantI S_ 1 1#1
  let main_v57 : IVec S_ 1 := (fun x v => Host.reduce IntOp.andi x v reducesTo_S64_S_d0 h_S_) main_v56 main_c_21
  let main_v58 : IVec S_ 1 := andi main_v53 main_v57
  let main_v59 : FVec F S128x64 .f32 := Host.absf main_arg14
  let main_cst_22 : FVec F S_ .f32 := constant S_ .f32 0x7F800000#32
  let main_v60 : FVec F S128x64 .f32 := broadcastInDim S128x64 ![] bcast_S_S128x64 main_cst_22
  let main_v61 : IVec S128x64 1 := cmpf .olt main_v59 main_v60
  let main_c_23 : IVec S_ 1 := constantI S_ 1 1#1
  let main_v62 : IVec S_ 1 := (fun x v => Host.reduce IntOp.andi x v reducesTo_S128x64_S_d0_1 h_S_) main_v61 main_c_23
  let main_v63 : IVec S_ 1 := andi main_v58 main_v62
  let main_v64 : FVec F S64 .f32 := Host.absf main_arg15
  let main_cst_24 : FVec F S_ .f32 := constant S_ .f32 0x7F800000#32
  let main_v65 : FVec F S64 .f32 := broadcastInDim S64 ![] bcast_S_S64 main_cst_24
  let main_v66 : IVec S64 1 := cmpf .olt main_v64 main_v65
  let main_c_25 : IVec S_ 1 := constantI S_ 1 1#1
  let main_v67 : IVec S_ 1 := (fun x v => Host.reduce IntOp.andi x v reducesTo_S64_S_d0 h_S_) main_v66 main_c_25
  fn_part4 (F := F) main_arg16 main_arg17 main_arg18 main_arg19 main_arg20 main_arg21 main_arg22 main_arg23 main_v63 main_v67

def fn_part2 {F : FTy → Type} [FloatOps F] (main_arg9 : FVec F S128 .f32) (main_arg10 : FVec F S128x128 .f32) (main_arg11 : FVec F S128 .f32) (main_arg12 : FVec F S128x64 .f32) (main_arg13 : FVec F S64 .f32) (main_arg14 : FVec F S128x64 .f32) (main_arg15 : FVec F S64 .f32) (main_arg16 : FVec F S64x128 .f32) (main_arg17 : FVec F S128 .f32) (main_arg18 : FVec F S128x128 .f32) (main_arg19 : FVec F S128 .f32) (main_arg20 : FVec F S128x1600 .f32) (main_arg21 : FVec F S1600 .f32) (main_arg22 : FVec F S128x10000 .f32) (main_arg23 : FVec F S10000 .f32) (main_v33 : IVec S_ 1) : IVec S_ 1 :=
  let main_v34 : FVec F S128 .f32 := Host.absf main_arg9
  let main_cst_12 : FVec F S_ .f32 := constant S_ .f32 0x7F800000#32
  let main_v35 : FVec F S128 .f32 := broadcastInDim S128 ![] bcast_S_S128 main_cst_12
  let main_v36 : IVec S128 1 := cmpf .olt main_v34 main_v35
  let main_c_13 : IVec S_ 1 := constantI S_ 1 1#1
  let main_v37 : IVec S_ 1 := (fun x v => Host.reduce IntOp.andi x v reducesTo_S128_S_d0 h_S_) main_v36 main_c_13
  let main_v38 : IVec S_ 1 := andi main_v33 main_v37
  let main_v39 : FVec F S128x128 .f32 := Host.absf main_arg10
  let main_cst_14 : FVec F S_ .f32 := constant S_ .f32 0x7F800000#32
  let main_v40 : FVec F S128x128 .f32 := broadcastInDim S128x128 ![] bcast_S_S128x128 main_cst_14
  let main_v41 : IVec S128x128 1 := cmpf .olt main_v39 main_v40
  let main_c_15 : IVec S_ 1 := constantI S_ 1 1#1
  let main_v42 : IVec S_ 1 := (fun x v => Host.reduce IntOp.andi x v reducesTo_S128x128_S_d0_1 h_S_) main_v41 main_c_15
  let main_v43 : IVec S_ 1 := andi main_v38 main_v42
  let main_v44 : FVec F S128 .f32 := Host.absf main_arg11
  let main_cst_16 : FVec F S_ .f32 := constant S_ .f32 0x7F800000#32
  let main_v45 : FVec F S128 .f32 := broadcastInDim S128 ![] bcast_S_S128 main_cst_16
  let main_v46 : IVec S128 1 := cmpf .olt main_v44 main_v45
  let main_c_17 : IVec S_ 1 := constantI S_ 1 1#1
  let main_v47 : IVec S_ 1 := (fun x v => Host.reduce IntOp.andi x v reducesTo_S128_S_d0 h_S_) main_v46 main_c_17
  let main_v48 : IVec S_ 1 := andi main_v43 main_v47
  let main_v49 : FVec F S128x64 .f32 := Host.absf main_arg12
  let main_cst_18 : FVec F S_ .f32 := constant S_ .f32 0x7F800000#32
  let main_v50 : FVec F S128x64 .f32 := broadcastInDim S128x64 ![] bcast_S_S128x64 main_cst_18
  fn_part3 (F := F) main_arg13 main_arg14 main_arg15 main_arg16 main_arg17 main_arg18 main_arg19 main_arg20 main_arg21 main_arg22 main_arg23 main_v48 main_v49 main_v50

def fn_part1 {F : FTy → Type} [FloatOps F] (main_arg6 : FVec F S128x128 .f32) (main_arg7 : FVec F S128 .f32) (main_arg8 : FVec F S128x128 .f32) (main_arg9 : FVec F S128 .f32) (main_arg10 : FVec F S128x128 .f32) (main_arg11 : FVec F S128 .f32) (main_arg12 : FVec F S128x64 .f32) (main_arg13 : FVec F S64 .f32) (main_arg14 : FVec F S128x64 .f32) (main_arg15 : FVec F S64 .f32) (main_arg16 : FVec F S64x128 .f32) (main_arg17 : FVec F S128 .f32) (main_arg18 : FVec F S128x128 .f32) (main_arg19 : FVec F S128 .f32) (main_arg20 : FVec F S128x1600 .f32) (main_arg21 : FVec F S1600 .f32) (main_arg22 : FVec F S128x10000 .f32) (main_arg23 : FVec F S10000 .f32) (main_v13 : IVec S_ 1) (main_v16 : IVec S128 1) : IVec S_ 1 :=
  let main_c_5 : IVec S_ 1 := constantI S_ 1 1#1
  let main_v17 : IVec S_ 1 := (fun x v => Host.reduce IntOp.andi x v reducesTo_S128_S_d0 h_S_) main_v16 main_c_5
  let main_v18 : IVec S_ 1 := andi main_v13 main_v17
  let main_v19 : FVec F S128x128 .f32 := Host.absf main_arg6
  let main_cst_6 : FVec F S_ .f32 := constant S_ .f32 0x7F800000#32
  let main_v20 : FVec F S128x128 .f32 := broadcastInDim S128x128 ![] bcast_S_S128x128 main_cst_6
  let main_v21 : IVec S128x128 1 := cmpf .olt main_v19 main_v20
  let main_c_7 : IVec S_ 1 := constantI S_ 1 1#1
  let main_v22 : IVec S_ 1 := (fun x v => Host.reduce IntOp.andi x v reducesTo_S128x128_S_d0_1 h_S_) main_v21 main_c_7
  let main_v23 : IVec S_ 1 := andi main_v18 main_v22
  let main_v24 : FVec F S128 .f32 := Host.absf main_arg7
  let main_cst_8 : FVec F S_ .f32 := constant S_ .f32 0x7F800000#32
  let main_v25 : FVec F S128 .f32 := broadcastInDim S128 ![] bcast_S_S128 main_cst_8
  let main_v26 : IVec S128 1 := cmpf .olt main_v24 main_v25
  let main_c_9 : IVec S_ 1 := constantI S_ 1 1#1
  let main_v27 : IVec S_ 1 := (fun x v => Host.reduce IntOp.andi x v reducesTo_S128_S_d0 h_S_) main_v26 main_c_9
  let main_v28 : IVec S_ 1 := andi main_v23 main_v27
  let main_v29 : FVec F S128x128 .f32 := Host.absf main_arg8
  let main_cst_10 : FVec F S_ .f32 := constant S_ .f32 0x7F800000#32
  let main_v30 : FVec F S128x128 .f32 := broadcastInDim S128x128 ![] bcast_S_S128x128 main_cst_10
  let main_v31 : IVec S128x128 1 := cmpf .olt main_v29 main_v30
  let main_c_11 : IVec S_ 1 := constantI S_ 1 1#1
  let main_v32 : IVec S_ 1 := (fun x v => Host.reduce IntOp.andi x v reducesTo_S128x128_S_d0_1 h_S_) main_v31 main_c_11
  let main_v33 : IVec S_ 1 := andi main_v28 main_v32
  fn_part2 (F := F) main_arg9 main_arg10 main_arg11 main_arg12 main_arg13 main_arg14 main_arg15 main_arg16 main_arg17 main_arg18 main_arg19 main_arg20 main_arg21 main_arg22 main_arg23 main_v33

def fn {F : FTy → Type} [FloatOps F] (main_arg0 : FVec F S50000x16 .f32) (main_arg1 : IVec S2x640000 32) (main_arg2 : IVec S50000 32) (main_arg3 : FVec F S256x64 .f32) (main_arg4 : FVec F S16x128 .f32) (main_arg5 : FVec F S128 .f32) (main_arg6 : FVec F S128x128 .f32) (main_arg7 : FVec F S128 .f32) (main_arg8 : FVec F S128x128 .f32) (main_arg9 : FVec F S128 .f32) (main_arg10 : FVec F S128x128 .f32) (main_arg11 : FVec F S128 .f32) (main_arg12 : FVec F S128x64 .f32) (main_arg13 : FVec F S64 .f32) (main_arg14 : FVec F S128x64 .f32) (main_arg15 : FVec F S64 .f32) (main_arg16 : FVec F S64x128 .f32) (main_arg17 : FVec F S128 .f32) (main_arg18 : FVec F S128x128 .f32) (main_arg19 : FVec F S128 .f32) (main_arg20 : FVec F S128x1600 .f32) (main_arg21 : FVec F S1600 .f32) (main_arg22 : FVec F S128x10000 .f32) (main_arg23 : FVec F S10000 .f32) : IVec S_ 1 :=
  let main_v0 : FVec F S50000x16 .f32 := Host.absf main_arg0
  let main_cst : FVec F S_ .f32 := constant S_ .f32 0x7F800000#32
  let main_v1 : FVec F S50000x16 .f32 := broadcastInDim S50000x16 ![] bcast_S_S50000x16 main_cst
  let main_v2 : IVec S50000x16 1 := cmpf .olt main_v0 main_v1
  let main_c : IVec S_ 1 := constantI S_ 1 1#1
  let main_v3 : IVec S_ 1 := (fun x v => Host.reduce IntOp.andi x v reducesTo_S50000x16_S_d0_1 h_S_) main_v2 main_c
  let main_v4 : FVec F S256x64 .f32 := Host.absf main_arg3
  let main_cst_0 : FVec F S_ .f32 := constant S_ .f32 0x7F800000#32
  let main_v5 : FVec F S256x64 .f32 := broadcastInDim S256x64 ![] bcast_S_S256x64 main_cst_0
  let main_v6 : IVec S256x64 1 := cmpf .olt main_v4 main_v5
  let main_c_1 : IVec S_ 1 := constantI S_ 1 1#1
  let main_v7 : IVec S_ 1 := (fun x v => Host.reduce IntOp.andi x v reducesTo_S256x64_S_d0_1 h_S_) main_v6 main_c_1
  let main_v8 : IVec S_ 1 := andi main_v3 main_v7
  let main_v9 : FVec F S16x128 .f32 := Host.absf main_arg4
  let main_cst_2 : FVec F S_ .f32 := constant S_ .f32 0x7F800000#32
  let main_v10 : FVec F S16x128 .f32 := broadcastInDim S16x128 ![] bcast_S_S16x128 main_cst_2
  let main_v11 : IVec S16x128 1 := cmpf .olt main_v9 main_v10
  let main_c_3 : IVec S_ 1 := constantI S_ 1 1#1
  let main_v12 : IVec S_ 1 := (fun x v => Host.reduce IntOp.andi x v reducesTo_S16x128_S_d0_1 h_S_) main_v11 main_c_3
  let main_v13 : IVec S_ 1 := andi main_v8 main_v12
  let main_v14 : FVec F S128 .f32 := Host.absf main_arg5
  let main_cst_4 : FVec F S_ .f32 := constant S_ .f32 0x7F800000#32
  let main_v15 : FVec F S128 .f32 := broadcastInDim S128 ![] bcast_S_S128 main_cst_4
  let main_v16 : IVec S128 1 := cmpf .olt main_v14 main_v15
  fn_part1 (F := F) main_arg6 main_arg7 main_arg8 main_arg9 main_arg10 main_arg11 main_arg12 main_arg13 main_arg14 main_arg15 main_arg16 main_arg17 main_arg18 main_arg19 main_arg20 main_arg21 main_arg22 main_arg23 main_v13 main_v16
-- ==== Kernel.lean ====
abbrev S50000x16 : Shape := ⟨2, ![50000, 16]⟩
abbrev S2x640000 : Shape := ⟨2, ![2, 640000]⟩
abbrev S50000 : Shape := ⟨1, ![50000]⟩
abbrev S256x64 : Shape := ⟨2, ![256, 64]⟩
abbrev S16x128 : Shape := ⟨2, ![16, 128]⟩
abbrev S128 : Shape := ⟨1, ![128]⟩
abbrev S128x128 : Shape := ⟨2, ![128, 128]⟩
abbrev S128x64 : Shape := ⟨2, ![128, 64]⟩
abbrev S64 : Shape := ⟨1, ![64]⟩
abbrev S64x128 : Shape := ⟨2, ![64, 128]⟩
abbrev S128x1600 : Shape := ⟨2, ![128, 1600]⟩
abbrev S1600 : Shape := ⟨1, ![1600]⟩
abbrev S128x10000 : Shape := ⟨2, ![128, 10000]⟩
abbrev S10000 : Shape := ⟨1, ![10000]⟩
abbrev S1x640000 : Shape := ⟨2, ![1, 640000]⟩
abbrev S640000 : Shape := ⟨1, ![640000]⟩
abbrev S_ : Shape := ⟨0, ![]⟩
abbrev S640000x1 : Shape := ⟨2, ![640000, 1]⟩
abbrev S640000x16 : Shape := ⟨2, ![640000, 16]⟩
abbrev S1x128 : Shape := ⟨2, ![1, 128]⟩
abbrev S50000x128 : Shape := ⟨2, ![50000, 128]⟩
abbrev S5000x16 : Shape := ⟨2, ![5000, 16]⟩
abbrev S5000x128 : Shape := ⟨2, ![5000, 128]⟩
abbrev S640000x128 : Shape := ⟨2, ![640000, 128]⟩
abbrev S256x128 : Shape := ⟨2, ![256, 128]⟩
abbrev S50000x1 : Shape := ⟨2, ![50000, 1]⟩
abbrev S256 : Shape := ⟨1, ![256]⟩
abbrev S256x1 : Shape := ⟨2, ![256, 1]⟩
abbrev S1x64 : Shape := ⟨2, ![1, 64]⟩
abbrev S1x1600 : Shape := ⟨2, ![1, 1600]⟩
abbrev S1x10000 : Shape := ⟨2, ![1, 10000]⟩
abbrev S256x1600 : Shape := ⟨2, ![256, 1600]⟩
abbrev S256x10000 : Shape := ⟨2, ![256, 10000]⟩
abbrev S64x64 : Shape := ⟨2, ![64, 64]⟩
abbrev S64x1600 : Shape := ⟨2, ![64, 1600]⟩
abbrev S64x10000 : Shape := ⟨2, ![64, 10000]⟩
abbrev S256x100x16 : Shape := ⟨3, ![256, 100, 16]⟩
abbrev S256x100 : Shape := ⟨2, ![256, 100]⟩
abbrev S256x100x1 : Shape := ⟨3, ![256, 100, 1]⟩
abbrev S256x100x100 : Shape := ⟨3, ![256, 100, 100]⟩
abbrev S100x100 : Shape := ⟨2, ![100, 100]⟩
abbrev S1x100x100 : Shape := ⟨3, ![1, 100, 100]⟩

abbrev nBuf : Space → Nat
  | .hbm => 129
  | .vmem => 40
  | .smem => 0
  | _ => 0

abbrev hbmTy0_0 (i : Nat) : BufTy := match i % 128 with
  | 0 => ⟨S50000x16, .f32⟩
  | 1 => ⟨S2x640000, .i32⟩
  | 2 => ⟨S50000, .i32⟩
  | 3 => ⟨S256x64, .f32⟩
  | 4 => ⟨S16x128, .f32⟩
  | 5 => ⟨S128, .f32⟩
  | 6 => ⟨S128x128, .f32⟩
  | 7 => ⟨S128, .f32⟩
  | 8 => ⟨S128x128, .f32⟩
  | 9 => ⟨S128, .f32⟩
  | 10 => ⟨S128x128, .f32⟩
  | 11 => ⟨S128, .f32⟩
  | 12 => ⟨S128x64, .f32⟩
  | 13 => ⟨S64, .f32⟩
  | 14 => ⟨S128x64, .f32⟩
  | 15 => ⟨S64, .f32⟩
  | 16 => ⟨S64x128, .f32⟩
  | 17 => ⟨S128, .f32⟩
  | 18 => ⟨S128x128, .f32⟩
  | 19 => ⟨S128, .f32⟩
  | 20 => ⟨S128x1600, .f32⟩
  | 21 => ⟨S1600, .f32⟩
  | 22 => ⟨S128x10000, .f32⟩
  | 23 => ⟨S10000, .f32⟩
  | 24 => ⟨S1x640000, .i32⟩
  | 25 => ⟨S640000, .i32⟩
  | 26 => ⟨S1x640000, .i32⟩
  | 27 => ⟨S640000, .i32⟩
  | 28 => ⟨S_, .i32⟩
  | 29 => ⟨S640000, .i32⟩
  | 30 => ⟨S640000, .i1⟩
  | 31 => ⟨S_, .i32⟩
  | 32 => ⟨S640000, .i32⟩
  | 33 => ⟨S640000, .i32⟩
  | 34 => ⟨S640000, .i32⟩
  | 35 => ⟨S640000x1, .i32⟩
  | 36 => ⟨S640000x16, .f32⟩
  | 37 => ⟨S_, .f32⟩
  | 38 => ⟨S50000x16, .f32⟩
  | 39 => ⟨S640000x1, .i32⟩
  | 40 => ⟨S50000x16, .f32⟩
  | 41 => ⟨S50000x16, .f32⟩
  | 42 => ⟨S1x128, .f32⟩
  | 43 => ⟨S1x128, .f32⟩
  | 44 => ⟨S50000x128, .f32⟩
  | 45 => ⟨S_, .i32⟩
  | 46 => ⟨S640000, .i32⟩
  | 47 => ⟨S640000, .i1⟩
  | 48 => ⟨S_, .i32⟩
  | 49 => ⟨S640000, .i32⟩
  | 50 => ⟨S640000, .i32⟩
  | 51 => ⟨S640000, .i32⟩
  | 52 => ⟨S640000x1, .i32⟩
  | 53 => ⟨S640000x128, .f32⟩
  | 54 => ⟨S_, .f32⟩
  | 55 => ⟨S50000x128, .f32⟩
  | 56 => ⟨S640000x1, .i32⟩
  | 57 => ⟨S50000x128, .f32⟩
  | 58 => ⟨S50000x128, .f32⟩
  | 59 => ⟨S1x128, .f32⟩
  | 60 => ⟨S1x128, .f32⟩
  | 61 => ⟨S50000x128, .f32⟩
  | 62 => ⟨S_, .f32⟩
  | 63 => ⟨S256x128, .f32⟩
  | 64 => ⟨S50000x1, .i32⟩
  | 65 => ⟨S256x128, .f32⟩
  | 66 => ⟨S_, .f32⟩
  | 67 => ⟨S50000, .f32⟩
  | 68 => ⟨S_, .f32⟩
  | 69 => ⟨S256, .f32⟩
  | 70 => ⟨S50000x1, .i32⟩
  | 71 => ⟨S256, .f32⟩
  | 72 => ⟨S_, .f32⟩
  | 73 => ⟨S256, .f32⟩
  | 74 => ⟨S256, .f32⟩
  | 75 => ⟨S256x1, .f32⟩
  | 76 => ⟨S256x128, .f32⟩
  | 77 => ⟨S256x128, .f32⟩
  | 78 => ⟨S1x64, .f32⟩
  | 79 => ⟨S1x64, .f32⟩
  | 80 => ⟨S1x128, .f32⟩
  | 81 => ⟨S1x128, .f32⟩
  | 82 => ⟨S1x1600, .f32⟩
  | 83 => ⟨S1x10000, .f32⟩
  | 84 => ⟨S256x1600, .f32⟩
  | 85 => ⟨S256x10000, .f32⟩
  | 86 => ⟨S256x64, .f32⟩
  | 87 => ⟨S256x64, .f32⟩
  | 88 => ⟨S256x100x16, .f32⟩
  | 89 => ⟨S_, .f32⟩
  | 90 => ⟨S256x100, .f32⟩
  | 91 => ⟨S_, .f32⟩
  | 92 => ⟨S256x100, .f32⟩
  | 93 => ⟨S256x100, .f32⟩
  | 94 => ⟨S256x100x1, .f32⟩
  | 95 => ⟨S256x100x16, .f32⟩
  | 96 => ⟨S256x100x16, .f32⟩
  | 97 => ⟨S256x100x16, .f32⟩
  | 98 => ⟨S_, .f32⟩
  | 99 => ⟨S256x100, .f32⟩
  | 100 => ⟨S256x100x1, .f32⟩
  | 101 => ⟨S256x100x16, .f32⟩
  | 102 => ⟨S256x100x16, .f32⟩
  | 103 => ⟨S256x100x100, .f32⟩
  | 104 => ⟨S256x100x100, .f32⟩
  | 105 => ⟨S256x100x100, .f32⟩
  | 106 => ⟨S_, .f32⟩
  | 107 => ⟨S256x100x100, .f32⟩
  | 108 => ⟨S256x100x100, .f32⟩
  | 109 => ⟨S100x100, .i32⟩
  | 110 => ⟨S100x100, .i32⟩
  | 111 => ⟨S_, .i32⟩
  | 112 => ⟨S100x100, .i32⟩
  | 113 => ⟨S100x100, .i32⟩
  | 114 => ⟨S100x100, .i1⟩
  | 115 => ⟨S1x100x100, .i1⟩
  | 116 => ⟨S_, .f32⟩
  | 117 => ⟨S_, .f32⟩
  | 118 => ⟨S256x100x100, .i1⟩
  | 119 => ⟨S256x100x100, .f32⟩
  | 120 => ⟨S256x100x100, .f32⟩
  | 121 => ⟨S_, .f32⟩
  | 122 => ⟨S_, .f32⟩
  | 123 => ⟨S_, .f32⟩
  | 124 => ⟨S256x100x100, .f32⟩
  | 125 => ⟨S256x100x100, .f32⟩
  | 126 => ⟨S_, .f32⟩
  | 127 => ⟨S256x100x100, .f32⟩
  | _ => ⟨S50000x16, .f32⟩

abbrev hbmTy0_1 (i : Nat) : BufTy := match i % 128 with
  | 0 => ⟨S256x100x100, .f32⟩
  | _ => ⟨S50000x16, .f32⟩

abbrev hbmTy (i : Nat) : BufTy := match i / 128 with
  | 0 => hbmTy0_0 i
  | 1 => hbmTy0_1 i
  | _ => ⟨S50000x16, .f32⟩

abbrev bufTy : (tb : Table) → Fin (tcTables nBuf tb) → BufTy
  | .hbm, ⟨i, _⟩ => hbmTy i
  | .local _ .vmem, ⟨0, _⟩ => ⟨S5000x16, .f32⟩
  | .local _ .vmem, ⟨1, _⟩ => ⟨S5000x16, .f32⟩
  | .local _ .vmem, ⟨2, _⟩ => ⟨S16x128, .f32⟩
  | .local _ .vmem, ⟨3, _⟩ => ⟨S1x128, .f32⟩
  | .local _ .vmem, ⟨4, _⟩ => ⟨S128x128, .f32⟩
  | .local _ .vmem, ⟨5, _⟩ => ⟨S1x128, .f32⟩
  | .local _ .vmem, ⟨6, _⟩ => ⟨S5000x128, .f32⟩
  | .local _ .vmem, ⟨7, _⟩ => ⟨S5000x128, .f32⟩
  | .local _ .vmem, ⟨8, _⟩ => ⟨S5000x128, .f32⟩
  | .local _ .vmem, ⟨9, _⟩ => ⟨S5000x128, .f32⟩
  | .local _ .vmem, ⟨10, _⟩ => ⟨S128x128, .f32⟩
  | .local _ .vmem, ⟨11, _⟩ => ⟨S1x128, .f32⟩
  | .local _ .vmem, ⟨12, _⟩ => ⟨S128x128, .f32⟩
  | .local _ .vmem, ⟨13, _⟩ => ⟨S1x128, .f32⟩
  | .local _ .vmem, ⟨14, _⟩ => ⟨S5000x128, .f32⟩
  | .local _ .vmem, ⟨15, _⟩ => ⟨S5000x128, .f32⟩
  | .local _ .vmem, ⟨16, _⟩ => ⟨S64x128, .f32⟩
  | .local _ .vmem, ⟨17, _⟩ => ⟨S64x128, .f32⟩
  | .local _ .vmem, ⟨18, _⟩ => ⟨S64x64, .f32⟩
  | .local _ .vmem, ⟨19, _⟩ => ⟨S64x64, .f32⟩
  | .local _ .vmem, ⟨20, _⟩ => ⟨S128x64, .f32⟩
  | .local _ .vmem, ⟨21, _⟩ => ⟨S1x64, .f32⟩
  | .local _ .vmem, ⟨22, _⟩ => ⟨S128x64, .f32⟩
  | .local _ .vmem, ⟨23, _⟩ => ⟨S1x64, .f32⟩
  | .local _ .vmem, ⟨24, _⟩ => ⟨S64x128, .f32⟩
  | .local _ .vmem, ⟨25, _⟩ => ⟨S1x128, .f32⟩
  | .local _ .vmem, ⟨26, _⟩ => ⟨S128x128, .f32⟩
  | .local _ .vmem, ⟨27, _⟩ => ⟨S1x128, .f32⟩
  | .local _ .vmem, ⟨28, _⟩ => ⟨S128x1600, .f32⟩
  | .local _ .vmem, ⟨29, _⟩ => ⟨S1x1600, .f32⟩
  | .local _ .vmem, ⟨30, _⟩ => ⟨S128x10000, .f32⟩
  | .local _ .vmem, ⟨31, _⟩ => ⟨S1x10000, .f32⟩
  | .local _ .vmem, ⟨32, _⟩ => ⟨S64x1600, .f32⟩
  | .local _ .vmem, ⟨33, _⟩ => ⟨S64x1600, .f32⟩
  | .local _ .vmem, ⟨34, _⟩ => ⟨S64x10000, .f32⟩
  | .local _ .vmem, ⟨35, _⟩ => ⟨S64x10000, .f32⟩
  | .local _ .vmem, ⟨36, _⟩ => ⟨S64x64, .f32⟩
  | .local _ .vmem, ⟨37, _⟩ => ⟨S64x64, .f32⟩
  | .local _ .vmem, ⟨38, _⟩ => ⟨S64x64, .f32⟩
  | .local _ .vmem, ⟨39, _⟩ => ⟨S64x64, .f32⟩
  | _, _ => ⟨S50000x16, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | .vmem, ⟨20, _⟩ => true
  | .vmem, ⟨21, _⟩ => true
  | .vmem, ⟨22, _⟩ => true
  | .vmem, ⟨23, _⟩ => true
  | .vmem, ⟨24, _⟩ => true
  | .vmem, ⟨25, _⟩ => true
  | .vmem, ⟨26, _⟩ => true
  | .vmem, ⟨27, _⟩ => true
  | .vmem, ⟨28, _⟩ => true
  | .vmem, ⟨29, _⟩ => true
  | .vmem, ⟨30, _⟩ => true
  | .vmem, ⟨31, _⟩ => true
  | .vmem, ⟨32, _⟩ => true
  | .vmem, ⟨33, _⟩ => true
  | .vmem, ⟨34, _⟩ => true
  | .vmem, ⟨35, _⟩ => true
  | .vmem, ⟨36, _⟩ => true
  | .vmem, ⟨37, _⟩ => true
  | .vmem, ⟨38, _⟩ => true
  | .vmem, ⟨39, _⟩ => true
  | _, _ => false

abbrev semScoped : Fin 0 → Bool
  | ⟨_, h⟩ => absurd h (Nat.not_lt_zero _)

abbrev dmaSemScoped : Fin 40 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | ⟨20, _⟩ => true
  | ⟨21, _⟩ => true
  | ⟨22, _⟩ => true
  | ⟨23, _⟩ => true
  | ⟨24, _⟩ => true
  | ⟨25, _⟩ => true
  | ⟨26, _⟩ => true
  | ⟨27, _⟩ => true
  | ⟨28, _⟩ => true
  | ⟨29, _⟩ => true
  | ⟨30, _⟩ => true
  | ⟨31, _⟩ => true
  | ⟨32, _⟩ => true
  | ⟨33, _⟩ => true
  | ⟨34, _⟩ => true
  | ⟨35, _⟩ => true
  | ⟨36, _⟩ => true
  | ⟨37, _⟩ => true
  | ⟨38, _⟩ => true
  | ⟨39, _⟩ => true
  | _ => false

abbrev sig : RefSig :=
  ofTc nBuf bufTy 0 40 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_arg10 : Ref sig .tc := ⟨.hbm, 10, rfl⟩
abbrev main_arg11 : Ref sig .tc := ⟨.hbm, 11, rfl⟩
abbrev main_arg12 : Ref sig .tc := ⟨.hbm, 12, rfl⟩
abbrev main_arg13 : Ref sig .tc := ⟨.hbm, 13, rfl⟩
abbrev main_arg14 : Ref sig .tc := ⟨.hbm, 14, rfl⟩
abbrev main_arg15 : Ref sig .tc := ⟨.hbm, 15, rfl⟩
abbrev main_arg16 : Ref sig .tc := ⟨.hbm, 16, rfl⟩
abbrev main_arg17 : Ref sig .tc := ⟨.hbm, 17, rfl⟩
abbrev main_arg18 : Ref sig .tc := ⟨.hbm, 18, rfl⟩
abbrev main_arg19 : Ref sig .tc := ⟨.hbm, 19, rfl⟩
abbrev main_arg20 : Ref sig .tc := ⟨.hbm, 20, rfl⟩
abbrev main_arg21 : Ref sig .tc := ⟨.hbm, 21, rfl⟩
abbrev main_arg22 : Ref sig .tc := ⟨.hbm, 22, rfl⟩
abbrev main_arg23 : Ref sig .tc := ⟨.hbm, 23, rfl⟩
abbrev main_v0 : Ref sig .tc := ⟨.hbm, 24, rfl⟩
abbrev main_v1 : Ref sig .tc := ⟨.hbm, 25, rfl⟩
abbrev main_v2 : Ref sig .tc := ⟨.hbm, 26, rfl⟩
abbrev main_v3 : Ref sig .tc := ⟨.hbm, 27, rfl⟩
abbrev main_c : Ref sig .tc := ⟨.hbm, 28, rfl⟩
abbrev main_v4 : Ref sig .tc := ⟨.hbm, 29, rfl⟩
abbrev main_v5 : Ref sig .tc := ⟨.hbm, 30, rfl⟩
abbrev main_c_0 : Ref sig .tc := ⟨.hbm, 31, rfl⟩
abbrev main_v6 : Ref sig .tc := ⟨.hbm, 32, rfl⟩
abbrev main_v7 : Ref sig .tc := ⟨.hbm, 33, rfl⟩
abbrev main_v8 : Ref sig .tc := ⟨.hbm, 34, rfl⟩
abbrev main_v9 : Ref sig .tc := ⟨.hbm, 35, rfl⟩
abbrev main_v10 : Ref sig .tc := ⟨.hbm, 36, rfl⟩
abbrev main_cst : Ref sig .tc := ⟨.hbm, 37, rfl⟩
abbrev main_v11 : Ref sig .tc := ⟨.hbm, 38, rfl⟩
abbrev main_v12 : Ref sig .tc := ⟨.hbm, 39, rfl⟩
abbrev main_v13 : Ref sig .tc := ⟨.hbm, 40, rfl⟩
abbrev main_v14 : Ref sig .tc := ⟨.hbm, 41, rfl⟩
abbrev main_v15 : Ref sig .tc := ⟨.hbm, 42, rfl⟩
abbrev main_v16 : Ref sig .tc := ⟨.hbm, 43, rfl⟩
abbrev main_v17 : Ref sig .tc := ⟨.hbm, 44, rfl⟩
abbrev main_c_1 : Ref sig .tc := ⟨.hbm, 45, rfl⟩
abbrev main_v18 : Ref sig .tc := ⟨.hbm, 46, rfl⟩
abbrev main_v19 : Ref sig .tc := ⟨.hbm, 47, rfl⟩
abbrev main_c_2 : Ref sig .tc := ⟨.hbm, 48, rfl⟩
abbrev main_v20 : Ref sig .tc := ⟨.hbm, 49, rfl⟩
abbrev main_v21 : Ref sig .tc := ⟨.hbm, 50, rfl⟩
abbrev main_v22 : Ref sig .tc := ⟨.hbm, 51, rfl⟩
abbrev main_v23 : Ref sig .tc := ⟨.hbm, 52, rfl⟩
abbrev main_v24 : Ref sig .tc := ⟨.hbm, 53, rfl⟩
abbrev main_cst_3 : Ref sig .tc := ⟨.hbm, 54, rfl⟩
abbrev main_v25 : Ref sig .tc := ⟨.hbm, 55, rfl⟩
abbrev main_v26 : Ref sig .tc := ⟨.hbm, 56, rfl⟩
abbrev main_v27 : Ref sig .tc := ⟨.hbm, 57, rfl⟩
abbrev main_v28 : Ref sig .tc := ⟨.hbm, 58, rfl⟩
abbrev main_v29 : Ref sig .tc := ⟨.hbm, 59, rfl⟩
abbrev main_v30 : Ref sig .tc := ⟨.hbm, 60, rfl⟩
abbrev main_v31 : Ref sig .tc := ⟨.hbm, 61, rfl⟩
abbrev main_cst_4 : Ref sig .tc := ⟨.hbm, 62, rfl⟩
abbrev main_v32 : Ref sig .tc := ⟨.hbm, 63, rfl⟩
abbrev main_v33 : Ref sig .tc := ⟨.hbm, 64, rfl⟩
abbrev main_v34 : Ref sig .tc := ⟨.hbm, 65, rfl⟩
abbrev main_cst_5 : Ref sig .tc := ⟨.hbm, 66, rfl⟩
abbrev main_v35 : Ref sig .tc := ⟨.hbm, 67, rfl⟩
abbrev main_cst_6 : Ref sig .tc := ⟨.hbm, 68, rfl⟩
abbrev main_v36 : Ref sig .tc := ⟨.hbm, 69, rfl⟩
abbrev main_v37 : Ref sig .tc := ⟨.hbm, 70, rfl⟩
abbrev main_v38 : Ref sig .tc := ⟨.hbm, 71, rfl⟩
abbrev main_cst_7 : Ref sig .tc := ⟨.hbm, 72, rfl⟩
abbrev main_v39 : Ref sig .tc := ⟨.hbm, 73, rfl⟩
abbrev main_v40 : Ref sig .tc := ⟨.hbm, 74, rfl⟩
abbrev main_v41 : Ref sig .tc := ⟨.hbm, 75, rfl⟩
abbrev main_v42 : Ref sig .tc := ⟨.hbm, 76, rfl⟩
abbrev main_v43 : Ref sig .tc := ⟨.hbm, 77, rfl⟩
abbrev main_v44 : Ref sig .tc := ⟨.hbm, 78, rfl⟩
abbrev main_v45 : Ref sig .tc := ⟨.hbm, 79, rfl⟩
abbrev main_v46 : Ref sig .tc := ⟨.hbm, 80, rfl⟩
abbrev main_v47 : Ref sig .tc := ⟨.hbm, 81, rfl⟩
abbrev main_v48 : Ref sig .tc := ⟨.hbm, 82, rfl⟩
abbrev main_v49 : Ref sig .tc := ⟨.hbm, 83, rfl⟩
abbrev main_v50_0 : Ref sig .tc := ⟨.hbm, 84, rfl⟩
abbrev main_v50_1 : Ref sig .tc := ⟨.hbm, 85, rfl⟩
abbrev main_v50_2 : Ref sig .tc := ⟨.hbm, 86, rfl⟩
abbrev main_v50_3 : Ref sig .tc := ⟨.hbm, 87, rfl⟩
abbrev main_v51 : Ref sig .tc := ⟨.hbm, 88, rfl⟩
abbrev main_cst_8 : Ref sig .tc := ⟨.hbm, 89, rfl⟩
abbrev main_v52 : Ref sig .tc := ⟨.hbm, 90, rfl⟩
abbrev main_cst_9 : Ref sig .tc := ⟨.hbm, 91, rfl⟩
abbrev main_v53 : Ref sig .tc := ⟨.hbm, 92, rfl⟩
abbrev main_v54 : Ref sig .tc := ⟨.hbm, 93, rfl⟩
abbrev main_v55 : Ref sig .tc := ⟨.hbm, 94, rfl⟩
abbrev main_v56 : Ref sig .tc := ⟨.hbm, 95, rfl⟩
abbrev main_v57 : Ref sig .tc := ⟨.hbm, 96, rfl⟩
abbrev main_v58 : Ref sig .tc := ⟨.hbm, 97, rfl⟩
abbrev main_cst_10 : Ref sig .tc := ⟨.hbm, 98, rfl⟩
abbrev main_v59 : Ref sig .tc := ⟨.hbm, 99, rfl⟩
abbrev main_v60 : Ref sig .tc := ⟨.hbm, 100, rfl⟩
abbrev main_v61 : Ref sig .tc := ⟨.hbm, 101, rfl⟩
abbrev main_v62 : Ref sig .tc := ⟨.hbm, 102, rfl⟩
abbrev main_v63 : Ref sig .tc := ⟨.hbm, 103, rfl⟩
abbrev main_v64 : Ref sig .tc := ⟨.hbm, 104, rfl⟩
abbrev main_v65 : Ref sig .tc := ⟨.hbm, 105, rfl⟩
abbrev main_cst_11 : Ref sig .tc := ⟨.hbm, 106, rfl⟩
abbrev main_v66 : Ref sig .tc := ⟨.hbm, 107, rfl⟩
abbrev main_v67 : Ref sig .tc := ⟨.hbm, 108, rfl⟩
abbrev main_v68 : Ref sig .tc := ⟨.hbm, 109, rfl⟩
abbrev main_v69 : Ref sig .tc := ⟨.hbm, 110, rfl⟩
abbrev main_c_12 : Ref sig .tc := ⟨.hbm, 111, rfl⟩
abbrev main_v70 : Ref sig .tc := ⟨.hbm, 112, rfl⟩
abbrev main_v71 : Ref sig .tc := ⟨.hbm, 113, rfl⟩
abbrev main_v72 : Ref sig .tc := ⟨.hbm, 114, rfl⟩
abbrev main_v73 : Ref sig .tc := ⟨.hbm, 115, rfl⟩
abbrev main_cst_13 : Ref sig .tc := ⟨.hbm, 116, rfl⟩
abbrev main_call0_v0 : Ref sig .tc := ⟨.hbm, 117, rfl⟩
abbrev main_call0_v1 : Ref sig .tc := ⟨.hbm, 118, rfl⟩
abbrev main_call0_v2 : Ref sig .tc := ⟨.hbm, 119, rfl⟩
abbrev main_v74 : Ref sig .tc := ⟨.hbm, 120, rfl⟩
abbrev main_cst_14 : Ref sig .tc := ⟨.hbm, 121, rfl⟩
abbrev main_cst_15 : Ref sig .tc := ⟨.hbm, 122, rfl⟩
abbrev main_call1_v0 : Ref sig .tc := ⟨.hbm, 123, rfl⟩
abbrev main_call1_v1 : Ref sig .tc := ⟨.hbm, 124, rfl⟩
abbrev main_call1_v2 : Ref sig .tc := ⟨.hbm, 125, rfl⟩
abbrev main_call1_v3 : Ref sig .tc := ⟨.hbm, 126, rfl⟩
abbrev main_call1_v4 : Ref sig .tc := ⟨.hbm, 127, rfl⟩
abbrev main_v75 : Ref sig .tc := ⟨.hbm, 128, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg3_0 : Ref sig .tc := ⟨.vmem, 4, rfl⟩
abbrev cc0_stg4_0 : Ref sig .tc := ⟨.vmem, 5, rfl⟩
abbrev cc0_stg5_0 : Ref sig .tc := ⟨.vmem, 6, rfl⟩
abbrev cc0_stg5_1 : Ref sig .tc := ⟨.vmem, 7, rfl⟩
abbrev cc1_stg0_0 : Ref sig .tc := ⟨.vmem, 8, rfl⟩
abbrev cc1_stg0_1 : Ref sig .tc := ⟨.vmem, 9, rfl⟩
abbrev cc1_stg1_0 : Ref sig .tc := ⟨.vmem, 10, rfl⟩
abbrev cc1_stg2_0 : Ref sig .tc := ⟨.vmem, 11, rfl⟩
abbrev cc1_stg3_0 : Ref sig .tc := ⟨.vmem, 12, rfl⟩
abbrev cc1_stg4_0 : Ref sig .tc := ⟨.vmem, 13, rfl⟩
abbrev cc1_stg5_0 : Ref sig .tc := ⟨.vmem, 14, rfl⟩
abbrev cc1_stg5_1 : Ref sig .tc := ⟨.vmem, 15, rfl⟩
abbrev cc2_stg0_0 : Ref sig .tc := ⟨.vmem, 16, rfl⟩
abbrev cc2_stg0_1 : Ref sig .tc := ⟨.vmem, 17, rfl⟩
abbrev cc2_stg1_0 : Ref sig .tc := ⟨.vmem, 18, rfl⟩
abbrev cc2_stg1_1 : Ref sig .tc := ⟨.vmem, 19, rfl⟩
abbrev cc2_stg2_0 : Ref sig .tc := ⟨.vmem, 20, rfl⟩
abbrev cc2_stg3_0 : Ref sig .tc := ⟨.vmem, 21, rfl⟩
abbrev cc2_stg4_0 : Ref sig .tc := ⟨.vmem, 22, rfl⟩
abbrev cc2_stg5_0 : Ref sig .tc := ⟨.vmem, 23, rfl⟩
abbrev cc2_stg6_0 : Ref sig .tc := ⟨.vmem, 24, rfl⟩
abbrev cc2_stg7_0 : Ref sig .tc := ⟨.vmem, 25, rfl⟩
abbrev cc2_stg8_0 : Ref sig .tc := ⟨.vmem, 26, rfl⟩
abbrev cc2_stg9_0 : Ref sig .tc := ⟨.vmem, 27, rfl⟩
abbrev cc2_stg10_0 : Ref sig .tc := ⟨.vmem, 28, rfl⟩
abbrev cc2_stg11_0 : Ref sig .tc := ⟨.vmem, 29, rfl⟩
abbrev cc2_stg12_0 : Ref sig .tc := ⟨.vmem, 30, rfl⟩
abbrev cc2_stg13_0 : Ref sig .tc := ⟨.vmem, 31, rfl⟩
abbrev cc2_stg14_0 : Ref sig .tc := ⟨.vmem, 32, rfl⟩
abbrev cc2_stg14_1 : Ref sig .tc := ⟨.vmem, 33, rfl⟩
abbrev cc2_stg15_0 : Ref sig .tc := ⟨.vmem, 34, rfl⟩
abbrev cc2_stg15_1 : Ref sig .tc := ⟨.vmem, 35, rfl⟩
abbrev cc2_stg16_0 : Ref sig .tc := ⟨.vmem, 36, rfl⟩
abbrev cc2_stg16_1 : Ref sig .tc := ⟨.vmem, 37, rfl⟩
abbrev cc2_stg17_0 : Ref sig .tc := ⟨.vmem, 38, rfl⟩
abbrev cc2_stg17_1 : Ref sig .tc := ⟨.vmem, 39, rfl⟩
abbrev cc0_sem0_0 : DmaSem sig := 0
abbrev cc0_sem0_1 : DmaSem sig := 1
abbrev cc0_sem1_0 : DmaSem sig := 2
abbrev cc0_sem2_0 : DmaSem sig := 3
abbrev cc0_sem3_0 : DmaSem sig := 4
abbrev cc0_sem4_0 : DmaSem sig := 5
abbrev cc0_sem5_0 : DmaSem sig := 6
abbrev cc0_sem5_1 : DmaSem sig := 7
abbrev cc1_sem0_0 : DmaSem sig := 8
abbrev cc1_sem0_1 : DmaSem sig := 9
abbrev cc1_sem1_0 : DmaSem sig := 10
abbrev cc1_sem2_0 : DmaSem sig := 11
abbrev cc1_sem3_0 : DmaSem sig := 12
abbrev cc1_sem4_0 : DmaSem sig := 13
abbrev cc1_sem5_0 : DmaSem sig := 14
abbrev cc1_sem5_1 : DmaSem sig := 15
abbrev cc2_sem0_0 : DmaSem sig := 16
abbrev cc2_sem0_1 : DmaSem sig := 17
abbrev cc2_sem1_0 : DmaSem sig := 18
abbrev cc2_sem1_1 : DmaSem sig := 19
abbrev cc2_sem2_0 : DmaSem sig := 20
abbrev cc2_sem3_0 : DmaSem sig := 21
abbrev cc2_sem4_0 : DmaSem sig := 22
abbrev cc2_sem5_0 : DmaSem sig := 23
abbrev cc2_sem6_0 : DmaSem sig := 24
abbrev cc2_sem7_0 : DmaSem sig := 25
abbrev cc2_sem8_0 : DmaSem sig := 26
abbrev cc2_sem9_0 : DmaSem sig := 27
abbrev cc2_sem10_0 : DmaSem sig := 28
abbrev cc2_sem11_0 : DmaSem sig := 29
abbrev cc2_sem12_0 : DmaSem sig := 30
abbrev cc2_sem13_0 : DmaSem sig := 31
abbrev cc2_sem14_0 : DmaSem sig := 32
abbrev cc2_sem14_1 : DmaSem sig := 33
abbrev cc2_sem15_0 : DmaSem sig := 34
abbrev cc2_sem15_1 : DmaSem sig := 35
abbrev cc2_sem16_0 : DmaSem sig := 36
abbrev cc2_sem16_1 : DmaSem sig := 37
abbrev cc2_sem17_0 : DmaSem sig := 38
abbrev cc2_sem17_1 : DmaSem sig := 39

abbrev nD : Nat := 1
abbrev τ : Topo := Topo.v7x

variable {F : FTy → Type} [FloatOps F]

abbrev grid0 : Pipeline.Grid := ⟨1, ![10], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_5 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S5000x16 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 1 → Memref sig .tc .vmem S16x128 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 1 → Memref sig .tc .vmem S1x128 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

abbrev stage0_3 : Fin 1 → Memref sig .tc .vmem S128x128 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false]

abbrev stage0_4 : Fin 1 → Memref sig .tc .vmem S1x128 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false]

abbrev stage0_5 : Fin 2 → Memref sig .tc .vmem S5000x128 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true]

abbrev grid1 : Pipeline.Grid := ⟨1, ![10], ![false]⟩

def cc1_transform_0 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

def cc1_transform_1 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_2 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_3 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_4 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_5 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage1_0 : Fin 2 → Memref sig .tc .vmem S5000x128 .f32 := fun | 0 => Memref.whole cc1_stg0_0 | 1 => Memref.whole cc1_stg0_1 | ⟨_ + 2, h⟩ => absurd h (Nat.not_lt.2 (Nat.le_add_left _ _))
abbrev sem1_0 : Fin 2 → DmaSem sig := fun | 0 => cc1_sem0_0 | 1 => cc1_sem0_1 | ⟨_ + 2, h⟩ => absurd h (Nat.not_lt.2 (Nat.le_add_left _ _))
abbrev reads1_0 : Fin grid1.rank → Bool := ![true]

abbrev stage1_1 : Fin 1 → Memref sig .tc .vmem S128x128 .f32 := fun | 0 => Memref.whole cc1_stg1_0 | ⟨_ + 1, h⟩ => absurd h (Nat.not_lt.2 (Nat.le_add_left _ _))
abbrev sem1_1 : Fin 1 → DmaSem sig := fun | 0 => cc1_sem1_0 | ⟨_ + 1, h⟩ => absurd h (Nat.not_lt.2 (Nat.le_add_left _ _))
abbrev reads1_1 : Fin grid1.rank → Bool := ![false]

abbrev stage1_2 : Fin 1 → Memref sig .tc .vmem S1x128 .f32 := fun | 0 => Memref.whole cc1_stg2_0 | ⟨_ + 1, h⟩ => absurd h (Nat.not_lt.2 (Nat.le_add_left _ _))
abbrev sem1_2 : Fin 1 → DmaSem sig := fun | 0 => cc1_sem2_0 | ⟨_ + 1, h⟩ => absurd h (Nat.not_lt.2 (Nat.le_add_left _ _))
abbrev reads1_2 : Fin grid1.rank → Bool := ![false]

abbrev stage1_3 : Fin 1 → Memref sig .tc .vmem S128x128 .f32 := fun | 0 => Memref.whole cc1_stg3_0 | ⟨_ + 1, h⟩ => absurd h (Nat.not_lt.2 (Nat.le_add_left _ _))
abbrev sem1_3 : Fin 1 → DmaSem sig := fun | 0 => cc1_sem3_0 | ⟨_ + 1, h⟩ => absurd h (Nat.not_lt.2 (Nat.le_add_left _ _))
abbrev reads1_3 : Fin grid1.rank → Bool := ![false]

abbrev stage1_4 : Fin 1 → Memref sig .tc .vmem S1x128 .f32 := fun | 0 => Memref.whole cc1_stg4_0 | ⟨_ + 1, h⟩ => absurd h (Nat.not_lt.2 (Nat.le_add_left _ _))
abbrev sem1_4 : Fin 1 → DmaSem sig := fun | 0 => cc1_sem4_0 | ⟨_ + 1, h⟩ => absurd h (Nat.not_lt.2 (Nat.le_add_left _ _))
abbrev reads1_4 : Fin grid1.rank → Bool := ![false]

abbrev stage1_5 : Fin 2 → Memref sig .tc .vmem S5000x128 .f32 := fun | 0 => Memref.whole cc1_stg5_0 | 1 => Memref.whole cc1_stg5_1 | ⟨_ + 2, h⟩ => absurd h (Nat.not_lt.2 (Nat.le_add_left _ _))
abbrev sem1_5 : Fin 2 → DmaSem sig := fun | 0 => cc1_sem5_0 | 1 => cc1_sem5_1 | ⟨_ + 2, h⟩ => absurd h (Nat.not_lt.2 (Nat.le_add_left _ _))
abbrev reads1_5 : Fin grid1.rank → Bool := ![true]

abbrev grid2 : Pipeline.Grid := ⟨1, ![4], ![false]⟩

def cc2_transform_0 (i : grid2.Coords) : Fin 2 → Nat :=
  let arg0 : BitVec 32 := BitVec.ofNat 32 (i 0).val
  let c0_i32 : BitVec 32 := 0#32
  let c0_i32_0 : BitVec 32 := 0#32
  ![arg0.toNat, c0_i32.toNat]

def cc2_transform_1 (i : grid2.Coords) : Fin 2 → Nat :=
  let arg0 : BitVec 32 := BitVec.ofNat 32 (i 0).val
  let c0_i32 : BitVec 32 := 0#32
  let c0_i32_0 : BitVec 32 := 0#32
  ![arg0.toNat, c0_i32.toNat]

def cc2_transform_2 (i : grid2.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc2_transform_3 (i : grid2.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc2_transform_4 (i : grid2.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc2_transform_5 (i : grid2.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc2_transform_6 (i : grid2.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc2_transform_7 (i : grid2.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc2_transform_8 (i : grid2.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc2_transform_9 (i : grid2.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc2_transform_10 (i : grid2.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc2_transform_11 (i : grid2.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc2_transform_12 (i : grid2.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc2_transform_13 (i : grid2.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc2_transform_14 (i : grid2.Coords) : Fin 2 → Nat :=
  let arg0 : BitVec 32 := BitVec.ofNat 32 (i 0).val
  let c0_i32 : BitVec 32 := 0#32
  let c0_i32_0 : BitVec 32 := 0#32
  ![arg0.toNat, c0_i32.toNat]

def cc2_transform_15 (i : grid2.Coords) : Fin 2 → Nat :=
  let arg0 : BitVec 32 := BitVec.ofNat 32 (i 0).val
  let c0_i32 : BitVec 32 := 0#32
  let c0_i32_0 : BitVec 32 := 0#32
  ![arg0.toNat, c0_i32.toNat]

def cc2_transform_16 (i : grid2.Coords) : Fin 2 → Nat :=
  let arg0 : BitVec 32 := BitVec.ofNat 32 (i 0).val
  let c0_i32 : BitVec 32 := 0#32
  let c0_i32_0 : BitVec 32 := 0#32
  ![arg0.toNat, c0_i32.toNat]

def cc2_transform_17 (i : grid2.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage2_0 : Fin 2 → Memref sig .tc .vmem S64x128 .f32 := fun | 0 => Memref.whole cc2_stg0_0 | 1 => Memref.whole cc2_stg0_1 | ⟨_ + 2, h⟩ => absurd h (Nat.not_lt.2 (Nat.le_add_left _ _))
abbrev sem2_0 : Fin 2 → DmaSem sig := fun | 0 => cc2_sem0_0 | 1 => cc2_sem0_1 | ⟨_ + 2, h⟩ => absurd h (Nat.not_lt.2 (Nat.le_add_left _ _))
abbrev reads2_0 : Fin grid2.rank → Bool := ![true]

abbrev stage2_1 : Fin 2 → Memref sig .tc .vmem S64x64 .f32 := fun | 0 => Memref.whole cc2_stg1_0 | 1 => Memref.whole cc2_stg1_1 | ⟨_ + 2, h⟩ => absurd h (Nat.not_lt.2 (Nat.le_add_left _ _))
abbrev sem2_1 : Fin 2 → DmaSem sig := fun | 0 => cc2_sem1_0 | 1 => cc2_sem1_1 | ⟨_ + 2, h⟩ => absurd h (Nat.not_lt.2 (Nat.le_add_left _ _))
abbrev reads2_1 : Fin grid2.rank → Bool := ![true]

abbrev stage2_2 : Fin 1 → Memref sig .tc .vmem S128x64 .f32 := fun | 0 => Memref.whole cc2_stg2_0 | ⟨_ + 1, h⟩ => absurd h (Nat.not_lt.2 (Nat.le_add_left _ _))
abbrev sem2_2 : Fin 1 → DmaSem sig := fun | 0 => cc2_sem2_0 | ⟨_ + 1, h⟩ => absurd h (Nat.not_lt.2 (Nat.le_add_left _ _))
abbrev reads2_2 : Fin grid2.rank → Bool := ![false]

abbrev stage2_3 : Fin 1 → Memref sig .tc .vmem S1x64 .f32 := fun | 0 => Memref.whole cc2_stg3_0 | ⟨_ + 1, h⟩ => absurd h (Nat.not_lt.2 (Nat.le_add_left _ _))
abbrev sem2_3 : Fin 1 → DmaSem sig := fun | 0 => cc2_sem3_0 | ⟨_ + 1, h⟩ => absurd h (Nat.not_lt.2 (Nat.le_add_left _ _))
abbrev reads2_3 : Fin grid2.rank → Bool := ![false]

abbrev stage2_4 : Fin 1 → Memref sig .tc .vmem S128x64 .f32 := fun | 0 => Memref.whole cc2_stg4_0 | ⟨_ + 1, h⟩ => absurd h (Nat.not_lt.2 (Nat.le_add_left _ _))
abbrev sem2_4 : Fin 1 → DmaSem sig := fun | 0 => cc2_sem4_0 | ⟨_ + 1, h⟩ => absurd h (Nat.not_lt.2 (Nat.le_add_left _ _))
abbrev reads2_4 : Fin grid2.rank → Bool := ![false]

abbrev stage2_5 : Fin 1 → Memref sig .tc .vmem S1x64 .f32 := fun | 0 => Memref.whole cc2_stg5_0 | ⟨_ + 1, h⟩ => absurd h (Nat.not_lt.2 (Nat.le_add_left _ _))
abbrev sem2_5 : Fin 1 → DmaSem sig := fun | 0 => cc2_sem5_0 | ⟨_ + 1, h⟩ => absurd h (Nat.not_lt.2 (Nat.le_add_left _ _))
abbrev reads2_5 : Fin grid2.rank → Bool := ![false]

abbrev stage2_6 : Fin 1 → Memref sig .tc .vmem S64x128 .f32 := fun | 0 => Memref.whole cc2_stg6_0 | ⟨_ + 1, h⟩ => absurd h (Nat.not_lt.2 (Nat.le_add_left _ _))
abbrev sem2_6 : Fin 1 → DmaSem sig := fun | 0 => cc2_sem6_0 | ⟨_ + 1, h⟩ => absurd h (Nat.not_lt.2 (Nat.le_add_left _ _))
abbrev reads2_6 : Fin grid2.rank → Bool := ![false]

abbrev stage2_7 : Fin 1 → Memref sig .tc .vmem S1x128 .f32 := fun | 0 => Memref.whole cc2_stg7_0 | ⟨_ + 1, h⟩ => absurd h (Nat.not_lt.2 (Nat.le_add_left _ _))
abbrev sem2_7 : Fin 1 → DmaSem sig := fun | 0 => cc2_sem7_0 | ⟨_ + 1, h⟩ => absurd h (Nat.not_lt.2 (Nat.le_add_left _ _))
abbrev reads2_7 : Fin grid2.rank → Bool := ![false]

abbrev stage2_8 : Fin 1 → Memref sig .tc .vmem S128x128 .f32 := fun | 0 => Memref.whole cc2_stg8_0 | ⟨_ + 1, h⟩ => absurd h (Nat.not_lt.2 (Nat.le_add_left _ _))
abbrev sem2_8 : Fin 1 → DmaSem sig := fun | 0 => cc2_sem8_0 | ⟨_ + 1, h⟩ => absurd h (Nat.not_lt.2 (Nat.le_add_left _ _))
abbrev reads2_8 : Fin grid2.rank → Bool := ![false]

abbrev stage2_9 : Fin 1 → Memref sig .tc .vmem S1x128 .f32 := fun | 0 => Memref.whole cc2_stg9_0 | ⟨_ + 1, h⟩ => absurd h (Nat.not_lt.2 (Nat.le_add_left _ _))
abbrev sem2_9 : Fin 1 → DmaSem sig := fun | 0 => cc2_sem9_0 | ⟨_ + 1, h⟩ => absurd h (Nat.not_lt.2 (Nat.le_add_left _ _))
abbrev reads2_9 : Fin grid2.rank → Bool := ![false]

abbrev stage2_10 : Fin 1 → Memref sig .tc .vmem S128x1600 .f32 := fun | 0 => Memref.whole cc2_stg10_0 | ⟨_ + 1, h⟩ => absurd h (Nat.not_lt.2 (Nat.le_add_left _ _))
abbrev sem2_10 : Fin 1 → DmaSem sig := fun | 0 => cc2_sem10_0 | ⟨_ + 1, h⟩ => absurd h (Nat.not_lt.2 (Nat.le_add_left _ _))
abbrev reads2_10 : Fin grid2.rank → Bool := ![false]

abbrev stage2_11 : Fin 1 → Memref sig .tc .vmem S1x1600 .f32 := fun | 0 => Memref.whole cc2_stg11_0 | ⟨_ + 1, h⟩ => absurd h (Nat.not_lt.2 (Nat.le_add_left _ _))
abbrev sem2_11 : Fin 1 → DmaSem sig := fun | 0 => cc2_sem11_0 | ⟨_ + 1, h⟩ => absurd h (Nat.not_lt.2 (Nat.le_add_left _ _))
abbrev reads2_11 : Fin grid2.rank → Bool := ![false]

abbrev stage2_12 : Fin 1 → Memref sig .tc .vmem S128x10000 .f32 := fun | 0 => Memref.whole cc2_stg12_0 | ⟨_ + 1, h⟩ => absurd h (Nat.not_lt.2 (Nat.le_add_left _ _))
abbrev sem2_12 : Fin 1 → DmaSem sig := fun | 0 => cc2_sem12_0 | ⟨_ + 1, h⟩ => absurd h (Nat.not_lt.2 (Nat.le_add_left _ _))
abbrev reads2_12 : Fin grid2.rank → Bool := ![false]

abbrev stage2_13 : Fin 1 → Memref sig .tc .vmem S1x10000 .f32 := fun | 0 => Memref.whole cc2_stg13_0 | ⟨_ + 1, h⟩ => absurd h (Nat.not_lt.2 (Nat.le_add_left _ _))
abbrev sem2_13 : Fin 1 → DmaSem sig := fun | 0 => cc2_sem13_0 | ⟨_ + 1, h⟩ => absurd h (Nat.not_lt.2 (Nat.le_add_left _ _))
abbrev reads2_13 : Fin grid2.rank → Bool := ![false]

abbrev stage2_14 : Fin 2 → Memref sig .tc .vmem S64x1600 .f32 := fun | 0 => Memref.whole cc2_stg14_0 | 1 => Memref.whole cc2_stg14_1 | ⟨_ + 2, h⟩ => absurd h (Nat.not_lt.2 (Nat.le_add_left _ _))
abbrev sem2_14 : Fin 2 → DmaSem sig := fun | 0 => cc2_sem14_0 | 1 => cc2_sem14_1 | ⟨_ + 2, h⟩ => absurd h (Nat.not_lt.2 (Nat.le_add_left _ _))
abbrev reads2_14 : Fin grid2.rank → Bool := ![true]

abbrev stage2_15 : Fin 2 → Memref sig .tc .vmem S64x10000 .f32 := fun | 0 => Memref.whole cc2_stg15_0 | 1 => Memref.whole cc2_stg15_1 | ⟨_ + 2, h⟩ => absurd h (Nat.not_lt.2 (Nat.le_add_left _ _))
abbrev sem2_15 : Fin 2 → DmaSem sig := fun | 0 => cc2_sem15_0 | 1 => cc2_sem15_1 | ⟨_ + 2, h⟩ => absurd h (Nat.not_lt.2 (Nat.le_add_left _ _))
abbrev reads2_15 : Fin grid2.rank → Bool := ![true]

abbrev stage2_16 : Fin 2 → Memref sig .tc .vmem S64x64 .f32 := fun | 0 => Memref.whole cc2_stg16_0 | 1 => Memref.whole cc2_stg16_1 | ⟨_ + 2, h⟩ => absurd h (Nat.not_lt.2 (Nat.le_add_left _ _))
abbrev sem2_16 : Fin 2 → DmaSem sig := fun | 0 => cc2_sem16_0 | 1 => cc2_sem16_1 | ⟨_ + 2, h⟩ => absurd h (Nat.not_lt.2 (Nat.le_add_left _ _))
abbrev reads2_16 : Fin grid2.rank → Bool := ![true]

abbrev stage2_17 : Fin 2 → Memref sig .tc .vmem S64x64 .f32 := fun | 0 => Memref.whole cc2_stg17_0 | 1 => Memref.whole cc2_stg17_1 | ⟨_ + 2, h⟩ => absurd h (Nat.not_lt.2 (Nat.le_add_left _ _))
abbrev sem2_17 : Fin 2 → DmaSem sig := fun | 0 => cc2_sem17_0 | 1 => cc2_sem17_1 | ⟨_ + 2, h⟩ => absurd h (Nat.not_lt.2 (Nat.le_add_left _ _))
abbrev reads2_17 : Fin grid2.rank → Bool := ![true]

class Facts₀ : Prop where
  slices_S2x640000_S1x640000_0_0 : S2x640000.Slices ![0, 0] S1x640000
  shapeCasts_S1x640000_S640000 : S1x640000.ShapeCasts S640000
  slices_S2x640000_S1x640000_1_0 : S2x640000.Slices ![1, 0] S1x640000
  bcast_S_S640000 : S_.BroadcastsInDim S640000 (![] : Fin 0 → Fin S640000.rank)
  bcast_S640000_S640000x1_0 : S640000.BroadcastsInDim S640000x1 (![0] : Fin 1 → Fin S640000x1.rank)
  bcast_S_S50000x16 : S_.BroadcastsInDim S50000x16 (![] : Fin 0 → Fin S50000x16.rank)
  shapeCasts_S128_S1x128 : S128.ShapeCasts S1x128
  inb_S5000x16_S5000x16_0_0 : ∀ a, (![0, 0] : Fin 2 → Nat) a + S5000x16.size a ≤ S5000x16.size a
  h_S5000x16 : 0 < S5000x16.numel
  shapeCasts_S5000x16_S5000x16 : S5000x16.ShapeCasts S5000x16
  bitsLt_bf16_f32 : FTy.bits .bf16 < FTy.bits .f32
  inb_S16x128_S16x128_0_0 : ∀ a, (![0, 0] : Fin 2 → Nat) a + S16x128.size a ≤ S16x128.size a
  h_S16x128 : 0 < S16x128.numel
  inb_S1x128_S1x128_0_0 : ∀ a, (![0, 0] : Fin 2 → Nat) a + S1x128.size a ≤ S1x128.size a
  h_S1x128 : 0 < S1x128.numel
  shapeCasts_S1x128_S1x128 : S1x128.ShapeCasts S1x128
  broadcasts_S1x128_S5000x128 : S1x128.Broadcasts S5000x128
  inb_S128x128_S128x128_0_0 : ∀ a, (![0, 0] : Fin 2 → Nat) a + S128x128.size a ≤ S128x128.size a
  h_S128x128 : 0 < S128x128.numel
  inb_S5000x128_S5000x128_0_0 : ∀ a, (![0, 0] : Fin 2 → Nat) a + S5000x128.size a ≤ S5000x128.size a
  h_S5000x128 : 0 < S5000x128.numel
  bcast_S_S50000x128 : S_.BroadcastsInDim S50000x128 (![] : Fin 0 → Fin S50000x128.rank)
  shapeCasts_S5000x128_S5000x128 : S5000x128.ShapeCasts S5000x128
  bcast_S_S256x128 : S_.BroadcastsInDim S256x128 (![] : Fin 0 → Fin S256x128.rank)
  bcast_S50000_S50000x1_0 : S50000.BroadcastsInDim S50000x1 (![0] : Fin 1 → Fin S50000x1.rank)
  bcast_S_S50000 : S_.BroadcastsInDim S50000 (![] : Fin 0 → Fin S50000.rank)
  bcast_S_S256 : S_.BroadcastsInDim S256 (![] : Fin 0 → Fin S256.rank)
  bcast_S256_S256x1_0 : S256.BroadcastsInDim S256x1 (![0] : Fin 1 → Fin S256x1.rank)
  bcast_S256x1_S256x128_0_1 : S256x1.BroadcastsInDim S256x128 (![0, 1] : Fin 2 → Fin S256x128.rank)
  shapeCasts_S64_S1x64 : S64.ShapeCasts S1x64
  shapeCasts_S1600_S1x1600 : S1600.ShapeCasts S1x1600
  shapeCasts_S10000_S1x10000 : S10000.ShapeCasts S1x10000
  inb_S64x128_S64x128_0_0 : ∀ a, (![0, 0] : Fin 2 → Nat) a + S64x128.size a ≤ S64x128.size a
  h_S64x128 : 0 < S64x128.numel
  shapeCasts_S64x128_S64x128 : S64x128.ShapeCasts S64x128
  inb_S64x64_S64x64_0_0 : ∀ a, (![0, 0] : Fin 2 → Nat) a + S64x64.size a ≤ S64x64.size a
  h_S64x64 : 0 < S64x64.numel
  inb_S128x64_S128x64_0_0 : ∀ a, (![0, 0] : Fin 2 → Nat) a + S128x64.size a ≤ S128x64.size a
  h_S128x64 : 0 < S128x64.numel
  inb_S1x64_S1x64_0_0 : ∀ a, (![0, 0] : Fin 2 → Nat) a + S1x64.size a ≤ S1x64.size a
  h_S1x64 : 0 < S1x64.numel
  shapeCasts_S1x64_S1x64 : S1x64.ShapeCasts S1x64
  broadcasts_S1x64_S64x64 : S1x64.Broadcasts S64x64
  broadcasts_S1x128_S64x128 : S1x128.Broadcasts S64x128
  inb_S128x1600_S128x1600_0_0 : ∀ a, (![0, 0] : Fin 2 → Nat) a + S128x1600.size a ≤ S128x1600.size a
  h_S128x1600 : 0 < S128x1600.numel
  inb_S1x1600_S1x1600_0_0 : ∀ a, (![0, 0] : Fin 2 → Nat) a + S1x1600.size a ≤ S1x1600.size a
  h_S1x1600 : 0 < S1x1600.numel
  shapeCasts_S1x1600_S1x1600 : S1x1600.ShapeCasts S1x1600
  broadcasts_S1x1600_S64x1600 : S1x1600.Broadcasts S64x1600
  inb_S64x1600_S64x1600_0_0 : ∀ a, (![0, 0] : Fin 2 → Nat) a + S64x1600.size a ≤ S64x1600.size a
  h_S64x1600 : 0 < S64x1600.numel
  inb_S128x10000_S128x10000_0_0 : ∀ a, (![0, 0] : Fin 2 → Nat) a + S128x10000.size a ≤ S128x10000.size a
  h_S128x10000 : 0 < S128x10000.numel
  inb_S1x10000_S1x10000_0_0 : ∀ a, (![0, 0] : Fin 2 → Nat) a + S1x10000.size a ≤ S1x10000.size a
  h_S1x10000 : 0 < S1x10000.numel
  shapeCasts_S1x10000_S1x10000 : S1x10000.ShapeCasts S1x10000
  broadcasts_S1x10000_S64x10000 : S1x10000.Broadcasts S64x10000
  inb_S64x10000_S64x10000_0_0 : ∀ a, (![0, 0] : Fin 2 → Nat) a + S64x10000.size a ≤ S64x10000.size a
  h_S64x10000 : 0 < S64x10000.numel
  shapeCasts_S256x1600_S256x100x16 : S256x1600.ShapeCasts S256x100x16
  reducesTo_S256x100x16_S256x100_d2 : S256x100x16.ReducesTo [2] S256x100
  h_S_ : 0 < S_.numel
  bcast_S_S256x100 : S_.BroadcastsInDim S256x100 (![] : Fin 0 → Fin S256x100.rank)
  bcast_S256x100_S256x100x1_0_1 : S256x100.BroadcastsInDim S256x100x1 (![0, 1] : Fin 2 → Fin S256x100x1.rank)
  bcast_S256x100x1_S256x100x16_0_1_2 : S256x100x1.BroadcastsInDim S256x100x16 (![0, 1, 2] : Fin 3 → Fin S256x100x16.rank)
  shapeCasts_S256x10000_S256x100x100 : S256x10000.ShapeCasts S256x100x100
  transposes_S256x100x100_S256x100x100_0_2_1 : S256x100x100.Transposes [0, 2, 1] S256x100x100
  bcast_S_S256x100x100 : S_.BroadcastsInDim S256x100x100 (![] : Fin 0 → Fin S256x100x100.rank)
  bcast_S_S100x100 : S_.BroadcastsInDim S100x100 (![] : Fin 0 → Fin S100x100.rank)
  bcast_S100x100_S1x100x100_1_2 : S100x100.BroadcastsInDim S1x100x100 (![1, 2] : Fin 2 → Fin S1x100x100.rank)
  bcast_S1x100x100_S256x100x100_0_1_2 : S1x100x100.BroadcastsInDim S256x100x100 (![0, 1, 2] : Fin 3 → Fin S256x100x100.rank)
  gather_S50000x16_S640000x1_S640000x16_1_0_n_n_0_1_116_wf : GatherDims.WF S50000x16 S640000x1 S640000x16 [1] [0] [] [0] [] 1 ![1, 16]
  scatter_S50000x16_S640000x1_S640000x16_1_0_0_1_wf : ScatterDims.WF S50000x16 S640000x1 S640000x16 [1] [0] [0] 1
  dot_S5000x16_S16x128_S5000x128_1_0_0_1_n_n_wf : DotDims.WF S5000x16 S16x128 S5000x128 [1] [0] [0] [1] [] []
  dot_S5000x128_S128x128_S5000x128_1_0_0_1_n_n_wf : DotDims.WF S5000x128 S128x128 S5000x128 [1] [0] [0] [1] [] []
  gather_S50000x128_S640000x1_S640000x128_1_0_n_n_0_1_1128_wf : GatherDims.WF S50000x128 S640000x1 S640000x128 [1] [0] [] [0] [] 1 ![1, 128]
  scatter_S50000x128_S640000x1_S640000x128_1_0_0_1_wf : ScatterDims.WF S50000x128 S640000x1 S640000x128 [1] [0] [0] 1
  scatter_S256x128_S50000x1_S50000x128_1_0_0_1_wf : ScatterDims.WF S256x128 S50000x1 S50000x128 [1] [0] [0] 1
  scatter_S256_S50000x1_S50000_n_0_0_1_wf : ScatterDims.WF S256 S50000x1 S50000 [] [0] [0] 1
  dot_S64x128_S128x64_S64x64_1_0_0_1_n_n_wf : DotDims.WF S64x128 S128x64 S64x64 [1] [0] [0] [1] [] []
  dot_S64x64_S64x128_S64x128_1_0_0_1_n_n_wf : DotDims.WF S64x64 S64x128 S64x128 [1] [0] [0] [1] [] []
  dot_S64x128_S128x128_S64x128_1_0_0_1_n_n_wf : DotDims.WF S64x128 S128x128 S64x128 [1] [0] [0] [1] [] []
  dot_S64x128_S128x1600_S64x1600_1_0_0_1_n_n_wf : DotDims.WF S64x128 S128x1600 S64x1600 [1] [0] [0] [1] [] []
  dot_S64x128_S128x10000_S64x10000_1_0_0_1_n_n_wf : DotDims.WF S64x128 S128x10000 S64x10000 [1] [0] [0] [1] [] []
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S5000x16.size a ≤ S50000x16.size a
  hwx0_0 : ∀ i : grid0.Coords, EltTy.bits .f32 = 32 ∨ (Rect.block (s := S50000x16) S5000x16.size (cc0_transform_0 i) (hinb0_0 i)).WholeWords (EltTy.packing .f32)
  hstage0_1 : ∀ j, (stage0_1 j).IsWhole
  nbuf0_1 : grid0.bufCount reads0_1 true = 1
  hreads0_1 : ∀ i i' : grid0.Coords, (∀ a, reads0_1 a = true → i a = i' a) → cc0_transform_1 i = cc0_transform_1 i'
  hinb0_1 : ∀ (i : grid0.Coords) a, (cc0_transform_1 i a + 1) * S16x128.size a ≤ S16x128.size a
  hwx0_1 : ∀ i : grid0.Coords, EltTy.bits .f32 = 32 ∨ (Rect.block (s := S16x128) S16x128.size (cc0_transform_1 i) (hinb0_1 i)).WholeWords (EltTy.packing .f32)
  hstage0_2 : ∀ j, (stage0_2 j).IsWhole
  nbuf0_2 : grid0.bufCount reads0_2 true = 1
  hreads0_2 : ∀ i i' : grid0.Coords, (∀ a, reads0_2 a = true → i a = i' a) → cc0_transform_2 i = cc0_transform_2 i'
  hinb0_2 : ∀ (i : grid0.Coords) a, (cc0_transform_2 i a + 1) * S1x128.size a ≤ S1x128.size a
  hwx0_2 : ∀ i : grid0.Coords, EltTy.bits .f32 = 32 ∨ (Rect.block (s := S1x128) S1x128.size (cc0_transform_2 i) (hinb0_2 i)).WholeWords (EltTy.packing .f32)
  hstage0_3 : ∀ j, (stage0_3 j).IsWhole
  nbuf0_3 : grid0.bufCount reads0_3 true = 1
  hreads0_3 : ∀ i i' : grid0.Coords, (∀ a, reads0_3 a = true → i a = i' a) → cc0_transform_3 i = cc0_transform_3 i'
  hinb0_3 : ∀ (i : grid0.Coords) a, (cc0_transform_3 i a + 1) * S128x128.size a ≤ S128x128.size a
  hwx0_3 : ∀ i : grid0.Coords, EltTy.bits .f32 = 32 ∨ (Rect.block (s := S128x128) S128x128.size (cc0_transform_3 i) (hinb0_3 i)).WholeWords (EltTy.packing .f32)
  hstage0_4 : ∀ j, (stage0_4 j).IsWhole
  nbuf0_4 : grid0.bufCount reads0_4 true = 1
  hreads0_4 : ∀ i i' : grid0.Coords, (∀ a, reads0_4 a = true → i a = i' a) → cc0_transform_4 i = cc0_transform_4 i'
  hinb0_4 : ∀ (i : grid0.Coords) a, (cc0_transform_4 i a + 1) * S1x128.size a ≤ S1x128.size a
  hwx0_4 : ∀ i : grid0.Coords, EltTy.bits .f32 = 32 ∨ (Rect.block (s := S1x128) S1x128.size (cc0_transform_4 i) (hinb0_4 i)).WholeWords (EltTy.packing .f32)
  hstage0_5 : ∀ j, (stage0_5 j).IsWhole
  nbuf0_5 : grid0.bufCount reads0_5 false = 2
  hreads0_5 : ∀ i i' : grid0.Coords, (∀ a, reads0_5 a = true → i a = i' a) → cc0_transform_5 i = cc0_transform_5 i'
  hinb0_5 : ∀ (i : grid0.Coords) a, (cc0_transform_5 i a + 1) * S5000x128.size a ≤ S50000x128.size a
  hwx0_5 : ∀ i : grid0.Coords, EltTy.bits .f32 = 32 ∨ (Rect.block (s := S50000x128) S5000x128.size (cc0_transform_5 i) (hinb0_5 i)).WholeWords (EltTy.packing .f32)
  hrank1 : 0 < grid1.rank
  hstage1_0 : ∀ j, (stage1_0 j).IsWhole
  nbuf1_0 : grid1.bufCount reads1_0 false = 2
  hreads1_0 : ∀ i i' : grid1.Coords, (∀ a, reads1_0 a = true → i a = i' a) → cc1_transform_0 i = cc1_transform_0 i'
  hinb1_0 : ∀ (i : grid1.Coords) a, (cc1_transform_0 i a + 1) * S5000x128.size a ≤ S50000x128.size a
  hwx1_0 : ∀ i : grid1.Coords, EltTy.bits .f32 = 32 ∨ (Rect.block (s := S50000x128) S5000x128.size (cc1_transform_0 i) (hinb1_0 i)).WholeWords (EltTy.packing .f32)
  hstage1_1 : ∀ j, (stage1_1 j).IsWhole
  nbuf1_1 : grid1.bufCount reads1_1 true = 1
  hreads1_1 : ∀ i i' : grid1.Coords, (∀ a, reads1_1 a = true → i a = i' a) → cc1_transform_1 i = cc1_transform_1 i'
  hinb1_1 : ∀ (i : grid1.Coords) a, (cc1_transform_1 i a + 1) * S128x128.size a ≤ S128x128.size a
  hwx1_1 : ∀ i : grid1.Coords, EltTy.bits .f32 = 32 ∨ (Rect.block (s := S128x128) S128x128.size (cc1_transform_1 i) (hinb1_1 i)).WholeWords (EltTy.packing .f32)
  hstage1_2 : ∀ j, (stage1_2 j).IsWhole
  nbuf1_2 : grid1.bufCount reads1_2 true = 1
  hreads1_2 : ∀ i i' : grid1.Coords, (∀ a, reads1_2 a = true → i a = i' a) → cc1_transform_2 i = cc1_transform_2 i'
  hinb1_2 : ∀ (i : grid1.Coords) a, (cc1_transform_2 i a + 1) * S1x128.size a ≤ S1x128.size a
  hwx1_2 : ∀ i : grid1.Coords, EltTy.bits .f32 = 32 ∨ (Rect.block (s := S1x128) S1x128.size (cc1_transform_2 i) (hinb1_2 i)).WholeWords (EltTy.packing .f32)
  hstage1_3 : ∀ j, (stage1_3 j).IsWhole
  nbuf1_3 : grid1.bufCount reads1_3 true = 1
  hreads1_3 : ∀ i i' : grid1.Coords, (∀ a, reads1_3 a = true → i a = i' a) → cc1_transform_3 i = cc1_transform_3 i'
  hinb1_3 : ∀ (i : grid1.Coords) a, (cc1_transform_3 i a + 1) * S128x128.size a ≤ S128x128.size a
  hwx1_3 : ∀ i : grid1.Coords, EltTy.bits .f32 = 32 ∨ (Rect.block (s := S128x128) S128x128.size (cc1_transform_3 i) (hinb1_3 i)).WholeWords (EltTy.packing .f32)
  hstage1_4 : ∀ j, (stage1_4 j).IsWhole
  nbuf1_4 : grid1.bufCount reads1_4 true = 1
  hreads1_4 : ∀ i i' : grid1.Coords, (∀ a, reads1_4 a = true → i a = i' a) → cc1_transform_4 i = cc1_transform_4 i'
  hinb1_4 : ∀ (i : grid1.Coords) a, (cc1_transform_4 i a + 1) * S1x128.size a ≤ S1x128.size a
  hwx1_4 : ∀ i : grid1.Coords, EltTy.bits .f32 = 32 ∨ (Rect.block (s := S1x128) S1x128.size (cc1_transform_4 i) (hinb1_4 i)).WholeWords (EltTy.packing .f32)
  hstage1_5 : ∀ j, (stage1_5 j).IsWhole
  nbuf1_5 : grid1.bufCount reads1_5 false = 2
  hreads1_5 : ∀ i i' : grid1.Coords, (∀ a, reads1_5 a = true → i a = i' a) → cc1_transform_5 i = cc1_transform_5 i'
  hinb1_5 : ∀ (i : grid1.Coords) a, (cc1_transform_5 i a + 1) * S5000x128.size a ≤ S50000x128.size a
  hwx1_5 : ∀ i : grid1.Coords, EltTy.bits .f32 = 32 ∨ (Rect.block (s := S50000x128) S5000x128.size (cc1_transform_5 i) (hinb1_5 i)).WholeWords (EltTy.packing .f32)
  hrank2 : 0 < grid2.rank
  hstage2_0 : ∀ j, (stage2_0 j).IsWhole
  nbuf2_0 : grid2.bufCount reads2_0 false = 2
  hreads2_0 : ∀ i i' : grid2.Coords, (∀ a, reads2_0 a = true → i a = i' a) → cc2_transform_0 i = cc2_transform_0 i'
  hinb2_0 : ∀ (i : grid2.Coords) a, (cc2_transform_0 i a + 1) * S64x128.size a ≤ S256x128.size a
  hwx2_0 : ∀ i : grid2.Coords, EltTy.bits .f32 = 32 ∨ (Rect.block (s := S256x128) S64x128.size (cc2_transform_0 i) (hinb2_0 i)).WholeWords (EltTy.packing .f32)
  hstage2_1 : ∀ j, (stage2_1 j).IsWhole
  nbuf2_1 : grid2.bufCount reads2_1 false = 2
  hreads2_1 : ∀ i i' : grid2.Coords, (∀ a, reads2_1 a = true → i a = i' a) → cc2_transform_1 i = cc2_transform_1 i'
  hinb2_1 : ∀ (i : grid2.Coords) a, (cc2_transform_1 i a + 1) * S64x64.size a ≤ S256x64.size a
  hwx2_1 : ∀ i : grid2.Coords, EltTy.bits .f32 = 32 ∨ (Rect.block (s := S256x64) S64x64.size (cc2_transform_1 i) (hinb2_1 i)).WholeWords (EltTy.packing .f32)
  hstage2_2 : ∀ j, (stage2_2 j).IsWhole
  nbuf2_2 : grid2.bufCount reads2_2 true = 1
  hreads2_2 : ∀ i i' : grid2.Coords, (∀ a, reads2_2 a = true → i a = i' a) → cc2_transform_2 i = cc2_transform_2 i'
  hinb2_2 : ∀ (i : grid2.Coords) a, (cc2_transform_2 i a + 1) * S128x64.size a ≤ S128x64.size a
  hwx2_2 : ∀ i : grid2.Coords, EltTy.bits .f32 = 32 ∨ (Rect.block (s := S128x64) S128x64.size (cc2_transform_2 i) (hinb2_2 i)).WholeWords (EltTy.packing .f32)
  hstage2_3 : ∀ j, (stage2_3 j).IsWhole
  nbuf2_3 : grid2.bufCount reads2_3 true = 1
  hreads2_3 : ∀ i i' : grid2.Coords, (∀ a, reads2_3 a = true → i a = i' a) → cc2_transform_3 i = cc2_transform_3 i'
  hinb2_3 : ∀ (i : grid2.Coords) a, (cc2_transform_3 i a + 1) * S1x64.size a ≤ S1x64.size a
  hwx2_3 : ∀ i : grid2.Coords, EltTy.bits .f32 = 32 ∨ (Rect.block (s := S1x64) S1x64.size (cc2_transform_3 i) (hinb2_3 i)).WholeWords (EltTy.packing .f32)
  hstage2_4 : ∀ j, (stage2_4 j).IsWhole
  nbuf2_4 : grid2.bufCount reads2_4 true = 1
  hreads2_4 : ∀ i i' : grid2.Coords, (∀ a, reads2_4 a = true → i a = i' a) → cc2_transform_4 i = cc2_transform_4 i'
  hinb2_4 : ∀ (i : grid2.Coords) a, (cc2_transform_4 i a + 1) * S128x64.size a ≤ S128x64.size a
  hwx2_4 : ∀ i : grid2.Coords, EltTy.bits .f32 = 32 ∨ (Rect.block (s := S128x64) S128x64.size (cc2_transform_4 i) (hinb2_4 i)).WholeWords (EltTy.packing .f32)
  hstage2_5 : ∀ j, (stage2_5 j).IsWhole
  nbuf2_5 : grid2.bufCount reads2_5 true = 1
  hreads2_5 : ∀ i i' : grid2.Coords, (∀ a, reads2_5 a = true → i a = i' a) → cc2_transform_5 i = cc2_transform_5 i'
  hinb2_5 : ∀ (i : grid2.Coords) a, (cc2_transform_5 i a + 1) * S1x64.size a ≤ S1x64.size a
  hwx2_5 : ∀ i : grid2.Coords, EltTy.bits .f32 = 32 ∨ (Rect.block (s := S1x64) S1x64.size (cc2_transform_5 i) (hinb2_5 i)).WholeWords (EltTy.packing .f32)
  hstage2_6 : ∀ j, (stage2_6 j).IsWhole
  nbuf2_6 : grid2.bufCount reads2_6 true = 1
  hreads2_6 : ∀ i i' : grid2.Coords, (∀ a, reads2_6 a = true → i a = i' a) → cc2_transform_6 i = cc2_transform_6 i'
  hinb2_6 : ∀ (i : grid2.Coords) a, (cc2_transform_6 i a + 1) * S64x128.size a ≤ S64x128.size a
  hwx2_6 : ∀ i : grid2.Coords, EltTy.bits .f32 = 32 ∨ (Rect.block (s := S64x128) S64x128.size (cc2_transform_6 i) (hinb2_6 i)).WholeWords (EltTy.packing .f32)
  hstage2_7 : ∀ j, (stage2_7 j).IsWhole
  nbuf2_7 : grid2.bufCount reads2_7 true = 1
  hreads2_7 : ∀ i i' : grid2.Coords, (∀ a, reads2_7 a = true → i a = i' a) → cc2_transform_7 i = cc2_transform_7 i'
  hinb2_7 : ∀ (i : grid2.Coords) a, (cc2_transform_7 i a + 1) * S1x128.size a ≤ S1x128.size a
  hwx2_7 : ∀ i : grid2.Coords, EltTy.bits .f32 = 32 ∨ (Rect.block (s := S1x128) S1x128.size (cc2_transform_7 i) (hinb2_7 i)).WholeWords (EltTy.packing .f32)
  hstage2_8 : ∀ j, (stage2_8 j).IsWhole
  nbuf2_8 : grid2.bufCount reads2_8 true = 1
  hreads2_8 : ∀ i i' : grid2.Coords, (∀ a, reads2_8 a = true → i a = i' a) → cc2_transform_8 i = cc2_transform_8 i'
  hinb2_8 : ∀ (i : grid2.Coords) a, (cc2_transform_8 i a + 1) * S128x128.size a ≤ S128x128.size a
  hwx2_8 : ∀ i : grid2.Coords, EltTy.bits .f32 = 32 ∨ (Rect.block (s := S128x128) S128x128.size (cc2_transform_8 i) (hinb2_8 i)).WholeWords (EltTy.packing .f32)
  hstage2_9 : ∀ j, (stage2_9 j).IsWhole
  nbuf2_9 : grid2.bufCount reads2_9 true = 1
  hreads2_9 : ∀ i i' : grid2.Coords, (∀ a, reads2_9 a = true → i a = i' a) → cc2_transform_9 i = cc2_transform_9 i'
  hinb2_9 : ∀ (i : grid2.Coords) a, (cc2_transform_9 i a + 1) * S1x128.size a ≤ S1x128.size a
  hwx2_9 : ∀ i : grid2.Coords, EltTy.bits .f32 = 32 ∨ (Rect.block (s := S1x128) S1x128.size (cc2_transform_9 i) (hinb2_9 i)).WholeWords (EltTy.packing .f32)
  hstage2_10 : ∀ j, (stage2_10 j).IsWhole
  nbuf2_10 : grid2.bufCount reads2_10 true = 1
  hreads2_10 : ∀ i i' : grid2.Coords, (∀ a, reads2_10 a = true → i a = i' a) → cc2_transform_10 i = cc2_transform_10 i'
  hinb2_10 : ∀ (i : grid2.Coords) a, (cc2_transform_10 i a + 1) * S128x1600.size a ≤ S128x1600.size a
  hwx2_10 : ∀ i : grid2.Coords, EltTy.bits .f32 = 32 ∨ (Rect.block (s := S128x1600) S128x1600.size (cc2_transform_10 i) (hinb2_10 i)).WholeWords (EltTy.packing .f32)
  hstage2_11 : ∀ j, (stage2_11 j).IsWhole
  nbuf2_11 : grid2.bufCount reads2_11 true = 1
  hreads2_11 : ∀ i i' : grid2.Coords, (∀ a, reads2_11 a = true → i a = i' a) → cc2_transform_11 i = cc2_transform_11 i'
  hinb2_11 : ∀ (i : grid2.Coords) a, (cc2_transform_11 i a + 1) * S1x1600.size a ≤ S1x1600.size a
  hwx2_11 : ∀ i : grid2.Coords, EltTy.bits .f32 = 32 ∨ (Rect.block (s := S1x1600) S1x1600.size (cc2_transform_11 i) (hinb2_11 i)).WholeWords (EltTy.packing .f32)
  hstage2_12 : ∀ j, (stage2_12 j).IsWhole
  nbuf2_12 : grid2.bufCount reads2_12 true = 1
  hreads2_12 : ∀ i i' : grid2.Coords, (∀ a, reads2_12 a = true → i a = i' a) → cc2_transform_12 i = cc2_transform_12 i'
  hinb2_12 : ∀ (i : grid2.Coords) a, (cc2_transform_12 i a + 1) * S128x10000.size a ≤ S128x10000.size a
  hwx2_12 : ∀ i : grid2.Coords, EltTy.bits .f32 = 32 ∨ (Rect.block (s := S128x10000) S128x10000.size (cc2_transform_12 i) (hinb2_12 i)).WholeWords (EltTy.packing .f32)
  hstage2_13 : ∀ j, (stage2_13 j).IsWhole
  nbuf2_13 : grid2.bufCount reads2_13 true = 1
  hreads2_13 : ∀ i i' : grid2.Coords, (∀ a, reads2_13 a = true → i a = i' a) → cc2_transform_13 i = cc2_transform_13 i'
  hinb2_13 : ∀ (i : grid2.Coords) a, (cc2_transform_13 i a + 1) * S1x10000.size a ≤ S1x10000.size a
  hwx2_13 : ∀ i : grid2.Coords, EltTy.bits .f32 = 32 ∨ (Rect.block (s := S1x10000) S1x10000.size (cc2_transform_13 i) (hinb2_13 i)).WholeWords (EltTy.packing .f32)
  hstage2_14 : ∀ j, (stage2_14 j).IsWhole
  nbuf2_14 : grid2.bufCount reads2_14 false = 2
  hreads2_14 : ∀ i i' : grid2.Coords, (∀ a, reads2_14 a = true → i a = i' a) → cc2_transform_14 i = cc2_transform_14 i'
  hinb2_14 : ∀ (i : grid2.Coords) a, (cc2_transform_14 i a + 1) * S64x1600.size a ≤ S256x1600.size a
  hwx2_14 : ∀ i : grid2.Coords, EltTy.bits .f32 = 32 ∨ (Rect.block (s := S256x1600) S64x1600.size (cc2_transform_14 i) (hinb2_14 i)).WholeWords (EltTy.packing .f32)
  hstage2_15 : ∀ j, (stage2_15 j).IsWhole
  nbuf2_15 : grid2.bufCount reads2_15 false = 2
  hreads2_15 : ∀ i i' : grid2.Coords, (∀ a, reads2_15 a = true → i a = i' a) → cc2_transform_15 i = cc2_transform_15 i'
  hinb2_15 : ∀ (i : grid2.Coords) a, (cc2_transform_15 i a + 1) * S64x10000.size a ≤ S256x10000.size a
  hwx2_15 : ∀ i : grid2.Coords, EltTy.bits .f32 = 32 ∨ (Rect.block (s := S256x10000) S64x10000.size (cc2_transform_15 i) (hinb2_15 i)).WholeWords (EltTy.packing .f32)
  hstage2_16 : ∀ j, (stage2_16 j).IsWhole
  nbuf2_16 : grid2.bufCount reads2_16 false = 2
  hreads2_16 : ∀ i i' : grid2.Coords, (∀ a, reads2_16 a = true → i a = i' a) → cc2_transform_16 i = cc2_transform_16 i'
  hinb2_16 : ∀ (i : grid2.Coords) a, (cc2_transform_16 i a + 1) * S64x64.size a ≤ S256x64.size a
  hwx2_16 : ∀ i : grid2.Coords, EltTy.bits .f32 = 32 ∨ (Rect.block (s := S256x64) S64x64.size (cc2_transform_16 i) (hinb2_16 i)).WholeWords (EltTy.packing .f32)
  hstage2_17 : ∀ j, (stage2_17 j).IsWhole
  nbuf2_17 : grid2.bufCount reads2_17 false = 2
  hreads2_17 : ∀ i i' : grid2.Coords, (∀ a, reads2_17 a = true → i a = i' a) → cc2_transform_17 i = cc2_transform_17 i'
  hinb2_17 : ∀ (i : grid2.Coords) a, (cc2_transform_17 i a + 1) * S64x64.size a ≤ S256x64.size a
  hwx2_17 : ∀ i : grid2.Coords, EltTy.bits .f32 = 32 ∨ (Rect.block (s := S256x64) S64x64.size (cc2_transform_17 i) (hinb2_17 i)).WholeWords (EltTy.packing .f32)

variable [Facts₀]

def gather_S50000x16_S640000x1_S640000x16_1_0_n_n_0_1_116 : GatherDims S50000x16 S640000x1 S640000x16 where
  offsetDims := [1]
  collapsedSliceDims := [0]
  operandBatchingDims := []
  startIndicesBatchingDims := []
  startIndexMap := [0]
  indexVectorDim := 1
  sliceSizes := ![1, 16]
  wf := gather_S50000x16_S640000x1_S640000x16_1_0_n_n_0_1_116_wf
def scatter_S50000x16_S640000x1_S640000x16_1_0_0_1 : ScatterDims S50000x16 S640000x1 S640000x16 where
  updateWindowDims := [1]
  insertedWindowDims := [0]
  scatterDimsToOperandDims := [0]
  indexVectorDim := 1
  wf := scatter_S50000x16_S640000x1_S640000x16_1_0_0_1_wf
def dot_S5000x16_S16x128_S5000x128_1_0_0_1_n_n : DotDims S5000x16 S16x128 S5000x128 where
  lhsContracting := [1]
  rhsContracting := [0]
  lhsNonContracting := [0]
  rhsNonContracting := [1]
  lhsBatch := []
  rhsBatch := []
  wf := dot_S5000x16_S16x128_S5000x128_1_0_0_1_n_n_wf
def dot_S5000x128_S128x128_S5000x128_1_0_0_1_n_n : DotDims S5000x128 S128x128 S5000x128 where
  lhsContracting := [1]
  rhsContracting := [0]
  lhsNonContracting := [0]
  rhsNonContracting := [1]
  lhsBatch := []
  rhsBatch := []
  wf := dot_S5000x128_S128x128_S5000x128_1_0_0_1_n_n_wf
def gather_S50000x128_S640000x1_S640000x128_1_0_n_n_0_1_1128 : GatherDims S50000x128 S640000x1 S640000x128 where
  offsetDims := [1]
  collapsedSliceDims := [0]
  operandBatchingDims := []
  startIndicesBatchingDims := []
  startIndexMap := [0]
  indexVectorDim := 1
  sliceSizes := ![1, 128]
  wf := gather_S50000x128_S640000x1_S640000x128_1_0_n_n_0_1_1128_wf
def scatter_S50000x128_S640000x1_S640000x128_1_0_0_1 : ScatterDims S50000x128 S640000x1 S640000x128 where
  updateWindowDims := [1]
  insertedWindowDims := [0]
  scatterDimsToOperandDims := [0]
  indexVectorDim := 1
  wf := scatter_S50000x128_S640000x1_S640000x128_1_0_0_1_wf
def scatter_S256x128_S50000x1_S50000x128_1_0_0_1 : ScatterDims S256x128 S50000x1 S50000x128 where
  updateWindowDims := [1]
  insertedWindowDims := [0]
  scatterDimsToOperandDims := [0]
  indexVectorDim := 1
  wf := scatter_S256x128_S50000x1_S50000x128_1_0_0_1_wf
def scatter_S256_S50000x1_S50000_n_0_0_1 : ScatterDims S256 S50000x1 S50000 where
  updateWindowDims := []
  insertedWindowDims := [0]
  scatterDimsToOperandDims := [0]
  indexVectorDim := 1
  wf := scatter_S256_S50000x1_S50000_n_0_0_1_wf
def dot_S64x128_S128x64_S64x64_1_0_0_1_n_n : DotDims S64x128 S128x64 S64x64 where
  lhsContracting := [1]
  rhsContracting := [0]
  lhsNonContracting := [0]
  rhsNonContracting := [1]
  lhsBatch := []
  rhsBatch := []
  wf := dot_S64x128_S128x64_S64x64_1_0_0_1_n_n_wf
def dot_S64x64_S64x128_S64x128_1_0_0_1_n_n : DotDims S64x64 S64x128 S64x128 where
  lhsContracting := [1]
  rhsContracting := [0]
  lhsNonContracting := [0]
  rhsNonContracting := [1]
  lhsBatch := []
  rhsBatch := []
  wf := dot_S64x64_S64x128_S64x128_1_0_0_1_n_n_wf
def dot_S64x128_S128x128_S64x128_1_0_0_1_n_n : DotDims S64x128 S128x128 S64x128 where
  lhsContracting := [1]
  rhsContracting := [0]
  lhsNonContracting := [0]
  rhsNonContracting := [1]
  lhsBatch := []
  rhsBatch := []
  wf := dot_S64x128_S128x128_S64x128_1_0_0_1_n_n_wf
def dot_S64x128_S128x1600_S64x1600_1_0_0_1_n_n : DotDims S64x128 S128x1600 S64x1600 where
  lhsContracting := [1]
  rhsContracting := [0]
  lhsNonContracting := [0]
  rhsNonContracting := [1]
  lhsBatch := []
  rhsBatch := []
  wf := dot_S64x128_S128x1600_S64x1600_1_0_0_1_n_n_wf
def dot_S64x128_S128x10000_S64x10000_1_0_0_1_n_n : DotDims S64x128 S128x10000 S64x10000 where
  lhsContracting := [1]
  rhsContracting := [0]
  lhsNonContracting := [0]
  rhsNonContracting := [1]
  lhsBatch := []
  rhsBatch := []
  wf := dot_S64x128_S128x10000_S64x10000_1_0_0_1_n_n_wf

abbrev win0_0 : Pipeline.Window sig grid0 :=
  Pipeline.Window.ofSpec (Memref.whole main_v14) S5000x16.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_arg4) S16x128.size cc0_transform_1 reads0_1 false true 1 stage0_1 sem0_1
    hrank0 hreads0_1 hinb0_1 nbuf0_1 (Memref.isWhole_whole _) hwx0_1 hstage0_1

abbrev win0_2 : Pipeline.Window sig grid0 :=
  Pipeline.Window.ofSpec (Memref.whole main_v15) S1x128.size cc0_transform_2 reads0_2 false true 1 stage0_2 sem0_2
    hrank0 hreads0_2 hinb0_2 nbuf0_2 (Memref.isWhole_whole _) hwx0_2 hstage0_2

abbrev win0_3 : Pipeline.Window sig grid0 :=
  Pipeline.Window.ofSpec (Memref.whole main_arg6) S128x128.size cc0_transform_3 reads0_3 false true 1 stage0_3 sem0_3
    hrank0 hreads0_3 hinb0_3 nbuf0_3 (Memref.isWhole_whole _) hwx0_3 hstage0_3

abbrev win0_4 : Pipeline.Window sig grid0 :=
  Pipeline.Window.ofSpec (Memref.whole main_v16) S1x128.size cc0_transform_4 reads0_4 false true 1 stage0_4 sem0_4
    hrank0 hreads0_4 hinb0_4 nbuf0_4 (Memref.isWhole_whole _) hwx0_4 hstage0_4

abbrev win0_5 : Pipeline.Window sig grid0 :=
  Pipeline.Window.ofSpec (Memref.whole main_v17) S5000x128.size cc0_transform_5 reads0_5 true false 2 stage0_5 sem0_5
    hrank0 hreads0_5 hinb0_5 nbuf0_5 (Memref.isWhole_whole _) hwx0_5 hstage0_5

abbrev win0 : Fin 6 → Pipeline.Window sig grid0 := fun | 0 => win0_0 | 1 => win0_1 | 2 => win0_2 | 3 => win0_3 | 4 => win0_4 | 5 => win0_5 | ⟨_ + 6, h⟩ => absurd h (Nat.not_lt.2 (Nat.le_add_left _ _))
abbrev spec0 : Fin 6 → Pipeline.WinSpec sig grid0.rank := fun w => (win0 w).toWinSpec

abbrev win1_0 : Pipeline.Window sig grid1 :=
  Pipeline.Window.ofSpec (Memref.whole main_v28) S5000x128.size cc1_transform_0 reads1_0 false false 2 stage1_0 sem1_0
    hrank1 hreads1_0 hinb1_0 nbuf1_0 (Memref.isWhole_whole _) hwx1_0 hstage1_0

abbrev win1_1 : Pipeline.Window sig grid1 :=
  Pipeline.Window.ofSpec (Memref.whole main_arg8) S128x128.size cc1_transform_1 reads1_1 false true 1 stage1_1 sem1_1
    hrank1 hreads1_1 hinb1_1 nbuf1_1 (Memref.isWhole_whole _) hwx1_1 hstage1_1

abbrev win1_2 : Pipeline.Window sig grid1 :=
  Pipeline.Window.ofSpec (Memref.whole main_v29) S1x128.size cc1_transform_2 reads1_2 false true 1 stage1_2 sem1_2
    hrank1 hreads1_2 hinb1_2 nbuf1_2 (Memref.isWhole_whole _) hwx1_2 hstage1_2

abbrev win1_3 : Pipeline.Window sig grid1 :=
  Pipeline.Window.ofSpec (Memref.whole main_arg10) S128x128.size cc1_transform_3 reads1_3 false true 1 stage1_3 sem1_3
    hrank1 hreads1_3 hinb1_3 nbuf1_3 (Memref.isWhole_whole _) hwx1_3 hstage1_3

abbrev win1_4 : Pipeline.Window sig grid1 :=
  Pipeline.Window.ofSpec (Memref.whole main_v30) S1x128.size cc1_transform_4 reads1_4 false true 1 stage1_4 sem1_4
    hrank1 hreads1_4 hinb1_4 nbuf1_4 (Memref.isWhole_whole _) hwx1_4 hstage1_4

abbrev win1_5 : Pipeline.Window sig grid1 :=
  Pipeline.Window.ofSpec (Memref.whole main_v31) S5000x128.size cc1_transform_5 reads1_5 true false 2 stage1_5 sem1_5
    hrank1 hreads1_5 hinb1_5 nbuf1_5 (Memref.isWhole_whole _) hwx1_5 hstage1_5

abbrev win1 : Fin 6 → Pipeline.Window sig grid1 := fun | 0 => win1_0 | 1 => win1_1 | 2 => win1_2 | 3 => win1_3 | 4 => win1_4 | 5 => win1_5 | ⟨_ + 6, h⟩ => absurd h (Nat.not_lt.2 (Nat.le_add_left _ _))
abbrev spec1 : Fin 6 → Pipeline.WinSpec sig grid1.rank := fun w => (win1 w).toWinSpec

abbrev win2_0 : Pipeline.Window sig grid2 :=
  Pipeline.Window.ofSpec (Memref.whole main_v43) S64x128.size cc2_transform_0 reads2_0 false false 2 stage2_0 sem2_0
    hrank2 hreads2_0 hinb2_0 nbuf2_0 (Memref.isWhole_whole _) hwx2_0 hstage2_0

abbrev win2_1 : Pipeline.Window sig grid2 :=
  Pipeline.Window.ofSpec (Memref.whole main_arg3) S64x64.size cc2_transform_1 reads2_1 false false 2 stage2_1 sem2_1
    hrank2 hreads2_1 hinb2_1 nbuf2_1 (Memref.isWhole_whole _) hwx2_1 hstage2_1

abbrev win2_2 : Pipeline.Window sig grid2 :=
  Pipeline.Window.ofSpec (Memref.whole main_arg12) S128x64.size cc2_transform_2 reads2_2 false true 1 stage2_2 sem2_2
    hrank2 hreads2_2 hinb2_2 nbuf2_2 (Memref.isWhole_whole _) hwx2_2 hstage2_2

abbrev win2_3 : Pipeline.Window sig grid2 :=
  Pipeline.Window.ofSpec (Memref.whole main_v44) S1x64.size cc2_transform_3 reads2_3 false true 1 stage2_3 sem2_3
    hrank2 hreads2_3 hinb2_3 nbuf2_3 (Memref.isWhole_whole _) hwx2_3 hstage2_3

abbrev win2_4 : Pipeline.Window sig grid2 :=
  Pipeline.Window.ofSpec (Memref.whole main_arg14) S128x64.size cc2_transform_4 reads2_4 false true 1 stage2_4 sem2_4
    hrank2 hreads2_4 hinb2_4 nbuf2_4 (Memref.isWhole_whole _) hwx2_4 hstage2_4

abbrev win2_5 : Pipeline.Window sig grid2 :=
  Pipeline.Window.ofSpec (Memref.whole main_v45) S1x64.size cc2_transform_5 reads2_5 false true 1 stage2_5 sem2_5
    hrank2 hreads2_5 hinb2_5 nbuf2_5 (Memref.isWhole_whole _) hwx2_5 hstage2_5

abbrev win2_6 : Pipeline.Window sig grid2 :=
  Pipeline.Window.ofSpec (Memref.whole main_arg16) S64x128.size cc2_transform_6 reads2_6 false true 1 stage2_6 sem2_6
    hrank2 hreads2_6 hinb2_6 nbuf2_6 (Memref.isWhole_whole _) hwx2_6 hstage2_6

abbrev win2_7 : Pipeline.Window sig grid2 :=
  Pipeline.Window.ofSpec (Memref.whole main_v46) S1x128.size cc2_transform_7 reads2_7 false true 1 stage2_7 sem2_7
    hrank2 hreads2_7 hinb2_7 nbuf2_7 (Memref.isWhole_whole _) hwx2_7 hstage2_7

abbrev win2_8 : Pipeline.Window sig grid2 :=
  Pipeline.Window.ofSpec (Memref.whole main_arg18) S128x128.size cc2_transform_8 reads2_8 false true 1 stage2_8 sem2_8
    hrank2 hreads2_8 hinb2_8 nbuf2_8 (Memref.isWhole_whole _) hwx2_8 hstage2_8

abbrev win2_9 : Pipeline.Window sig grid2 :=
  Pipeline.Window.ofSpec (Memref.whole main_v47) S1x128.size cc2_transform_9 reads2_9 false true 1 stage2_9 sem2_9
    hrank2 hreads2_9 hinb2_9 nbuf2_9 (Memref.isWhole_whole _) hwx2_9 hstage2_9

abbrev win2_10 : Pipeline.Window sig grid2 :=
  Pipeline.Window.ofSpec (Memref.whole main_arg20) S128x1600.size cc2_transform_10 reads2_10 false true 1 stage2_10 sem2_10
    hrank2 hreads2_10 hinb2_10 nbuf2_10 (Memref.isWhole_whole _) hwx2_10 hstage2_10

abbrev win2_11 : Pipeline.Window sig grid2 :=
  Pipeline.Window.ofSpec (Memref.whole main_v48) S1x1600.size cc2_transform_11 reads2_11 false true 1 stage2_11 sem2_11
    hrank2 hreads2_11 hinb2_11 nbuf2_11 (Memref.isWhole_whole _) hwx2_11 hstage2_11

abbrev win2_12 : Pipeline.Window sig grid2 :=
  Pipeline.Window.ofSpec (Memref.whole main_arg22) S128x10000.size cc2_transform_12 reads2_12 false true 1 stage2_12 sem2_12
    hrank2 hreads2_12 hinb2_12 nbuf2_12 (Memref.isWhole_whole _) hwx2_12 hstage2_12

abbrev win2_13 : Pipeline.Window sig grid2 :=
  Pipeline.Window.ofSpec (Memref.whole main_v49) S1x10000.size cc2_transform_13 reads2_13 false true 1 stage2_13 sem2_13
    hrank2 hreads2_13 hinb2_13 nbuf2_13 (Memref.isWhole_whole _) hwx2_13 hstage2_13

abbrev win2_14 : Pipeline.Window sig grid2 :=
  Pipeline.Window.ofSpec (Memref.whole main_v50_0) S64x1600.size cc2_transform_14 reads2_14 true false 2 stage2_14 sem2_14
    hrank2 hreads2_14 hinb2_14 nbuf2_14 (Memref.isWhole_whole _) hwx2_14 hstage2_14

abbrev win2_15 : Pipeline.Window sig grid2 :=
  Pipeline.Window.ofSpec (Memref.whole main_v50_1) S64x10000.size cc2_transform_15 reads2_15 true false 2 stage2_15 sem2_15
    hrank2 hreads2_15 hinb2_15 nbuf2_15 (Memref.isWhole_whole _) hwx2_15 hstage2_15

abbrev win2_16 : Pipeline.Window sig grid2 :=
  Pipeline.Window.ofSpec (Memref.whole main_v50_2) S64x64.size cc2_transform_16 reads2_16 true false 2 stage2_16 sem2_16
    hrank2 hreads2_16 hinb2_16 nbuf2_16 (Memref.isWhole_whole _) hwx2_16 hstage2_16

abbrev win2_17 : Pipeline.Window sig grid2 :=
  Pipeline.Window.ofSpec (Memref.whole main_v50_3) S64x64.size cc2_transform_17 reads2_17 true false 2 stage2_17 sem2_17
    hrank2 hreads2_17 hinb2_17 nbuf2_17 (Memref.isWhole_whole _) hwx2_17 hstage2_17

abbrev win2 : Fin 18 → Pipeline.Window sig grid2 := fun | 0 => win2_0 | 1 => win2_1 | 2 => win2_2 | 3 => win2_3 | 4 => win2_4 | 5 => win2_5 | 6 => win2_6 | 7 => win2_7 | 8 => win2_8 | 9 => win2_9 | 10 => win2_10 | 11 => win2_11 | 12 => win2_12 | 13 => win2_13 | 14 => win2_14 | 15 => win2_15 | 16 => win2_16 | 17 => win2_17 | ⟨_ + 18, h⟩ => absurd h (Nat.not_lt.2 (Nat.le_add_left _ _))
abbrev spec2 : Fin 18 → Pipeline.WinSpec sig grid2.rank := fun w => (win2 w).toWinSpec

class Facts : Prop extends Facts₀ where

variable [Facts]
-- ==== ReferenceIdeal.lean ====
abbrev S50000x16 : Shape := ⟨2, ![50000, 16]⟩
abbrev S2x640000 : Shape := ⟨2, ![2, 640000]⟩
abbrev S50000 : Shape := ⟨1, ![50000]⟩
abbrev S256x64 : Shape := ⟨2, ![256, 64]⟩
abbrev S16x128 : Shape := ⟨2, ![16, 128]⟩
abbrev S128 : Shape := ⟨1, ![128]⟩
abbrev S128x128 : Shape := ⟨2, ![128, 128]⟩
abbrev S128x64 : Shape := ⟨2, ![128, 64]⟩
abbrev S64 : Shape := ⟨1, ![64]⟩
abbrev S64x128 : Shape := ⟨2, ![64, 128]⟩
abbrev S128x1600 : Shape := ⟨2, ![128, 1600]⟩
abbrev S1600 : Shape := ⟨1, ![1600]⟩
abbrev S128x10000 : Shape := ⟨2, ![128, 10000]⟩
abbrev S10000 : Shape := ⟨1, ![10000]⟩
abbrev S1x640000 : Shape := ⟨2, ![1, 640000]⟩
abbrev S640000 : Shape := ⟨1, ![640000]⟩
abbrev S_ : Shape := ⟨0, ![]⟩
abbrev S640000x1 : Shape := ⟨2, ![640000, 1]⟩
abbrev S640000x16 : Shape := ⟨2, ![640000, 16]⟩
abbrev S50000x128 : Shape := ⟨2, ![50000, 128]⟩
abbrev S1x128 : Shape := ⟨2, ![1, 128]⟩
abbrev S640000x128 : Shape := ⟨2, ![640000, 128]⟩
abbrev S256x128 : Shape := ⟨2, ![256, 128]⟩
abbrev S50000x1 : Shape := ⟨2, ![50000, 1]⟩
abbrev S256 : Shape := ⟨1, ![256]⟩
abbrev S256x1 : Shape := ⟨2, ![256, 1]⟩
abbrev S1x64 : Shape := ⟨2, ![1, 64]⟩
abbrev S256x1600 : Shape := ⟨2, ![256, 1600]⟩
abbrev S1x1600 : Shape := ⟨2, ![1, 1600]⟩
abbrev S256x100x16 : Shape := ⟨3, ![256, 100, 16]⟩
abbrev S256x100 : Shape := ⟨2, ![256, 100]⟩
abbrev S256x100x1 : Shape := ⟨3, ![256, 100, 1]⟩
abbrev S256x10000 : Shape := ⟨2, ![256, 10000]⟩
abbrev S1x10000 : Shape := ⟨2, ![1, 10000]⟩
abbrev S256x100x100 : Shape := ⟨3, ![256, 100, 100]⟩
abbrev S100x100 : Shape := ⟨2, ![100, 100]⟩
abbrev S1x100x100 : Shape := ⟨3, ![1, 100, 100]⟩

abbrev nBuf : Space → Nat
  | .hbm => 182
  | .vmem => 0
  | .smem => 0
  | _ => 0

abbrev hbmTy0_0 (i : Nat) : BufTy := match i % 128 with
  | 0 => ⟨S50000x16, .f32⟩
  | 1 => ⟨S2x640000, .i32⟩
  | 2 => ⟨S50000, .i32⟩
  | 3 => ⟨S256x64, .f32⟩
  | 4 => ⟨S16x128, .f32⟩
  | 5 => ⟨S128, .f32⟩
  | 6 => ⟨S128x128, .f32⟩
  | 7 => ⟨S128, .f32⟩
  | 8 => ⟨S128x128, .f32⟩
  | 9 => ⟨S128, .f32⟩
  | 10 => ⟨S128x128, .f32⟩
  | 11 => ⟨S128, .f32⟩
  | 12 => ⟨S128x64, .f32⟩
  | 13 => ⟨S64, .f32⟩
  | 14 => ⟨S128x64, .f32⟩
  | 15 => ⟨S64, .f32⟩
  | 16 => ⟨S64x128, .f32⟩
  | 17 => ⟨S128, .f32⟩
  | 18 => ⟨S128x128, .f32⟩
  | 19 => ⟨S128, .f32⟩
  | 20 => ⟨S128x1600, .f32⟩
  | 21 => ⟨S1600, .f32⟩
  | 22 => ⟨S128x10000, .f32⟩
  | 23 => ⟨S10000, .f32⟩
  | 24 => ⟨S1x640000, .i32⟩
  | 25 => ⟨S640000, .i32⟩
  | 26 => ⟨S1x640000, .i32⟩
  | 27 => ⟨S640000, .i32⟩
  | 28 => ⟨S_, .i32⟩
  | 29 => ⟨S640000, .i32⟩
  | 30 => ⟨S640000, .i1⟩
  | 31 => ⟨S_, .i32⟩
  | 32 => ⟨S640000, .i32⟩
  | 33 => ⟨S640000, .i32⟩
  | 34 => ⟨S640000, .i32⟩
  | 35 => ⟨S640000x1, .i32⟩
  | 36 => ⟨S640000x16, .f32⟩
  | 37 => ⟨S_, .f32⟩
  | 38 => ⟨S50000x16, .f32⟩
  | 39 => ⟨S640000x1, .i32⟩
  | 40 => ⟨S50000x16, .f32⟩
  | 41 => ⟨S50000x16, .f32⟩
  | 42 => ⟨S50000x128, .f32⟩
  | 43 => ⟨S1x128, .f32⟩
  | 44 => ⟨S50000x128, .f32⟩
  | 45 => ⟨S50000x128, .f32⟩
  | 46 => ⟨S_, .f32⟩
  | 47 => ⟨S50000x128, .f32⟩
  | 48 => ⟨S50000x128, .f32⟩
  | 49 => ⟨S50000x128, .f32⟩
  | 50 => ⟨S1x128, .f32⟩
  | 51 => ⟨S50000x128, .f32⟩
  | 52 => ⟨S50000x128, .f32⟩
  | 53 => ⟨S_, .f32⟩
  | 54 => ⟨S50000x128, .f32⟩
  | 55 => ⟨S50000x128, .f32⟩
  | 56 => ⟨S_, .i32⟩
  | 57 => ⟨S640000, .i32⟩
  | 58 => ⟨S640000, .i1⟩
  | 59 => ⟨S_, .i32⟩
  | 60 => ⟨S640000, .i32⟩
  | 61 => ⟨S640000, .i32⟩
  | 62 => ⟨S640000, .i32⟩
  | 63 => ⟨S640000x1, .i32⟩
  | 64 => ⟨S640000x128, .f32⟩
  | 65 => ⟨S_, .f32⟩
  | 66 => ⟨S50000x128, .f32⟩
  | 67 => ⟨S640000x1, .i32⟩
  | 68 => ⟨S50000x128, .f32⟩
  | 69 => ⟨S50000x128, .f32⟩
  | 70 => ⟨S50000x128, .f32⟩
  | 71 => ⟨S1x128, .f32⟩
  | 72 => ⟨S50000x128, .f32⟩
  | 73 => ⟨S50000x128, .f32⟩
  | 74 => ⟨S_, .f32⟩
  | 75 => ⟨S50000x128, .f32⟩
  | 76 => ⟨S50000x128, .f32⟩
  | 77 => ⟨S50000x128, .f32⟩
  | 78 => ⟨S1x128, .f32⟩
  | 79 => ⟨S50000x128, .f32⟩
  | 80 => ⟨S50000x128, .f32⟩
  | 81 => ⟨S_, .f32⟩
  | 82 => ⟨S50000x128, .f32⟩
  | 83 => ⟨S50000x128, .f32⟩
  | 84 => ⟨S_, .f32⟩
  | 85 => ⟨S256x128, .f32⟩
  | 86 => ⟨S50000x1, .i32⟩
  | 87 => ⟨S256x128, .f32⟩
  | 88 => ⟨S_, .f32⟩
  | 89 => ⟨S50000, .f32⟩
  | 90 => ⟨S_, .f32⟩
  | 91 => ⟨S256, .f32⟩
  | 92 => ⟨S50000x1, .i32⟩
  | 93 => ⟨S256, .f32⟩
  | 94 => ⟨S_, .f32⟩
  | 95 => ⟨S256, .f32⟩
  | 96 => ⟨S256, .f32⟩
  | 97 => ⟨S256x1, .f32⟩
  | 98 => ⟨S256x128, .f32⟩
  | 99 => ⟨S256x128, .f32⟩
  | 100 => ⟨S256x64, .f32⟩
  | 101 => ⟨S1x64, .f32⟩
  | 102 => ⟨S256x64, .f32⟩
  | 103 => ⟨S256x64, .f32⟩
  | 104 => ⟨S256x64, .f32⟩
  | 105 => ⟨S1x64, .f32⟩
  | 106 => ⟨S256x64, .f32⟩
  | 107 => ⟨S256x64, .f32⟩
  | 108 => ⟨S_, .f32⟩
  | 109 => ⟨S_, .f32⟩
  | 110 => ⟨S_, .f32⟩
  | 111 => ⟨S256x64, .f32⟩
  | 112 => ⟨S256x64, .f32⟩
  | 113 => ⟨S_, .f32⟩
  | 114 => ⟨S256x64, .f32⟩
  | 115 => ⟨S256x64, .f32⟩
  | 116 => ⟨S_, .f32⟩
  | 117 => ⟨S256x64, .f32⟩
  | 118 => ⟨S256x64, .f32⟩
  | 119 => ⟨S256x64, .f32⟩
  | 120 => ⟨S256x64, .f32⟩
  | 121 => ⟨S256x64, .f32⟩
  | 122 => ⟨S256x128, .f32⟩
  | 123 => ⟨S1x128, .f32⟩
  | 124 => ⟨S256x128, .f32⟩
  | 125 => ⟨S256x128, .f32⟩
  | 126 => ⟨S_, .f32⟩
  | 127 => ⟨S256x128, .f32⟩
  | _ => ⟨S50000x16, .f32⟩

abbrev hbmTy0_1 (i : Nat) : BufTy := match i % 128 with
  | 0 => ⟨S256x128, .f32⟩
  | 1 => ⟨S256x128, .f32⟩
  | 2 => ⟨S1x128, .f32⟩
  | 3 => ⟨S256x128, .f32⟩
  | 4 => ⟨S256x128, .f32⟩
  | 5 => ⟨S256x1600, .f32⟩
  | 6 => ⟨S1x1600, .f32⟩
  | 7 => ⟨S256x1600, .f32⟩
  | 8 => ⟨S256x1600, .f32⟩
  | 9 => ⟨S256x100x16, .f32⟩
  | 10 => ⟨S_, .f32⟩
  | 11 => ⟨S256x100, .f32⟩
  | 12 => ⟨S_, .f32⟩
  | 13 => ⟨S256x100, .f32⟩
  | 14 => ⟨S256x100, .f32⟩
  | 15 => ⟨S256x100x1, .f32⟩
  | 16 => ⟨S256x100x16, .f32⟩
  | 17 => ⟨S256x100x16, .f32⟩
  | 18 => ⟨S256x100x16, .f32⟩
  | 19 => ⟨S_, .f32⟩
  | 20 => ⟨S256x100, .f32⟩
  | 21 => ⟨S256x100x1, .f32⟩
  | 22 => ⟨S256x100x16, .f32⟩
  | 23 => ⟨S256x100x16, .f32⟩
  | 24 => ⟨S256x10000, .f32⟩
  | 25 => ⟨S1x10000, .f32⟩
  | 26 => ⟨S256x10000, .f32⟩
  | 27 => ⟨S256x10000, .f32⟩
  | 28 => ⟨S256x100x100, .f32⟩
  | 29 => ⟨S256x100x100, .f32⟩
  | 30 => ⟨S256x100x100, .f32⟩
  | 31 => ⟨S_, .f32⟩
  | 32 => ⟨S256x100x100, .f32⟩
  | 33 => ⟨S256x100x100, .f32⟩
  | 34 => ⟨S100x100, .i32⟩
  | 35 => ⟨S100x100, .i32⟩
  | 36 => ⟨S_, .i32⟩
  | 37 => ⟨S100x100, .i32⟩
  | 38 => ⟨S100x100, .i32⟩
  | 39 => ⟨S100x100, .i1⟩
  | 40 => ⟨S1x100x100, .i1⟩
  | 41 => ⟨S_, .f32⟩
  | 42 => ⟨S_, .f32⟩
  | 43 => ⟨S256x100x100, .i1⟩
  | 44 => ⟨S256x100x100, .f32⟩
  | 45 => ⟨S256x100x100, .f32⟩
  | 46 => ⟨S_, .f32⟩
  | 47 => ⟨S_, .f32⟩
  | 48 => ⟨S_, .f32⟩
  | 49 => ⟨S256x100x100, .f32⟩
  | 50 => ⟨S256x100x100, .f32⟩
  | 51 => ⟨S_, .f32⟩
  | 52 => ⟨S256x100x100, .f32⟩
  | 53 => ⟨S256x100x100, .f32⟩
  | _ => ⟨S50000x16, .f32⟩

abbrev hbmTy (i : Nat) : BufTy := match i / 128 with
  | 0 => hbmTy0_0 i
  | 1 => hbmTy0_1 i
  | _ => ⟨S50000x16, .f32⟩

abbrev bufTy : (tb : Table) → Fin (tcTables nBuf tb) → BufTy
  | .hbm, ⟨i, _⟩ => hbmTy i
  | _, _ => ⟨S50000x16, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_arg10 : Ref sig .tc := ⟨.hbm, 10, rfl⟩
abbrev main_arg11 : Ref sig .tc := ⟨.hbm, 11, rfl⟩
abbrev main_arg12 : Ref sig .tc := ⟨.hbm, 12, rfl⟩
abbrev main_arg13 : Ref sig .tc := ⟨.hbm, 13, rfl⟩
abbrev main_arg14 : Ref sig .tc := ⟨.hbm, 14, rfl⟩
abbrev main_arg15 : Ref sig .tc := ⟨.hbm, 15, rfl⟩
abbrev main_arg16 : Ref sig .tc := ⟨.hbm, 16, rfl⟩
abbrev main_arg17 : Ref sig .tc := ⟨.hbm, 17, rfl⟩
abbrev main_arg18 : Ref sig .tc := ⟨.hbm, 18, rfl⟩
abbrev main_arg19 : Ref sig .tc := ⟨.hbm, 19, rfl⟩
abbrev main_arg20 : Ref sig .tc := ⟨.hbm, 20, rfl⟩
abbrev main_arg21 : Ref sig .tc := ⟨.hbm, 21, rfl⟩
abbrev main_arg22 : Ref sig .tc := ⟨.hbm, 22, rfl⟩
abbrev main_arg23 : Ref sig .tc := ⟨.hbm, 23, rfl⟩
abbrev main_v0 : Ref sig .tc := ⟨.hbm, 24, rfl⟩
abbrev main_v1 : Ref sig .tc := ⟨.hbm, 25, rfl⟩
abbrev main_v2 : Ref sig .tc := ⟨.hbm, 26, rfl⟩
abbrev main_v3 : Ref sig .tc := ⟨.hbm, 27, rfl⟩
abbrev main_c : Ref sig .tc := ⟨.hbm, 28, rfl⟩
abbrev main_v4 : Ref sig .tc := ⟨.hbm, 29, rfl⟩
abbrev main_v5 : Ref sig .tc := ⟨.hbm, 30, rfl⟩
abbrev main_c_0 : Ref sig .tc := ⟨.hbm, 31, rfl⟩
abbrev main_v6 : Ref sig .tc := ⟨.hbm, 32, rfl⟩
abbrev main_v7 : Ref sig .tc := ⟨.hbm, 33, rfl⟩
abbrev main_v8 : Ref sig .tc := ⟨.hbm, 34, rfl⟩
abbrev main_v9 : Ref sig .tc := ⟨.hbm, 35, rfl⟩
abbrev main_v10 : Ref sig .tc := ⟨.hbm, 36, rfl⟩
abbrev main_cst : Ref sig .tc := ⟨.hbm, 37, rfl⟩
abbrev main_v11 : Ref sig .tc := ⟨.hbm, 38, rfl⟩
abbrev main_v12 : Ref sig .tc := ⟨.hbm, 39, rfl⟩
abbrev main_v13 : Ref sig .tc := ⟨.hbm, 40, rfl⟩
abbrev main_v14 : Ref sig .tc := ⟨.hbm, 41, rfl⟩
abbrev main_v15 : Ref sig .tc := ⟨.hbm, 42, rfl⟩
abbrev main_v16 : Ref sig .tc := ⟨.hbm, 43, rfl⟩
abbrev main_v17 : Ref sig .tc := ⟨.hbm, 44, rfl⟩
abbrev main_v18 : Ref sig .tc := ⟨.hbm, 45, rfl⟩
abbrev main_call0_cst : Ref sig .tc := ⟨.hbm, 46, rfl⟩
abbrev main_call0_v0 : Ref sig .tc := ⟨.hbm, 47, rfl⟩
abbrev main_v19 : Ref sig .tc := ⟨.hbm, 48, rfl⟩
abbrev main_v20 : Ref sig .tc := ⟨.hbm, 49, rfl⟩
abbrev main_v21 : Ref sig .tc := ⟨.hbm, 50, rfl⟩
abbrev main_v22 : Ref sig .tc := ⟨.hbm, 51, rfl⟩
abbrev main_v23 : Ref sig .tc := ⟨.hbm, 52, rfl⟩
abbrev main_call1_cst : Ref sig .tc := ⟨.hbm, 53, rfl⟩
abbrev main_call1_v0 : Ref sig .tc := ⟨.hbm, 54, rfl⟩
abbrev main_v24 : Ref sig .tc := ⟨.hbm, 55, rfl⟩
abbrev main_c_1 : Ref sig .tc := ⟨.hbm, 56, rfl⟩
abbrev main_v25 : Ref sig .tc := ⟨.hbm, 57, rfl⟩
abbrev main_v26 : Ref sig .tc := ⟨.hbm, 58, rfl⟩
abbrev main_c_2 : Ref sig .tc := ⟨.hbm, 59, rfl⟩
abbrev main_v27 : Ref sig .tc := ⟨.hbm, 60, rfl⟩
abbrev main_v28 : Ref sig .tc := ⟨.hbm, 61, rfl⟩
abbrev main_v29 : Ref sig .tc := ⟨.hbm, 62, rfl⟩
abbrev main_v30 : Ref sig .tc := ⟨.hbm, 63, rfl⟩
abbrev main_v31 : Ref sig .tc := ⟨.hbm, 64, rfl⟩
abbrev main_cst_3 : Ref sig .tc := ⟨.hbm, 65, rfl⟩
abbrev main_v32 : Ref sig .tc := ⟨.hbm, 66, rfl⟩
abbrev main_v33 : Ref sig .tc := ⟨.hbm, 67, rfl⟩
abbrev main_v34 : Ref sig .tc := ⟨.hbm, 68, rfl⟩
abbrev main_v35 : Ref sig .tc := ⟨.hbm, 69, rfl⟩
abbrev main_v36 : Ref sig .tc := ⟨.hbm, 70, rfl⟩
abbrev main_v37 : Ref sig .tc := ⟨.hbm, 71, rfl⟩
abbrev main_v38 : Ref sig .tc := ⟨.hbm, 72, rfl⟩
abbrev main_v39 : Ref sig .tc := ⟨.hbm, 73, rfl⟩
abbrev main_call2_cst : Ref sig .tc := ⟨.hbm, 74, rfl⟩
abbrev main_call2_v0 : Ref sig .tc := ⟨.hbm, 75, rfl⟩
abbrev main_v40 : Ref sig .tc := ⟨.hbm, 76, rfl⟩
abbrev main_v41 : Ref sig .tc := ⟨.hbm, 77, rfl⟩
abbrev main_v42 : Ref sig .tc := ⟨.hbm, 78, rfl⟩
abbrev main_v43 : Ref sig .tc := ⟨.hbm, 79, rfl⟩
abbrev main_v44 : Ref sig .tc := ⟨.hbm, 80, rfl⟩
abbrev main_call3_cst : Ref sig .tc := ⟨.hbm, 81, rfl⟩
abbrev main_call3_v0 : Ref sig .tc := ⟨.hbm, 82, rfl⟩
abbrev main_v45 : Ref sig .tc := ⟨.hbm, 83, rfl⟩
abbrev main_cst_4 : Ref sig .tc := ⟨.hbm, 84, rfl⟩
abbrev main_v46 : Ref sig .tc := ⟨.hbm, 85, rfl⟩
abbrev main_v47 : Ref sig .tc := ⟨.hbm, 86, rfl⟩
abbrev main_v48 : Ref sig .tc := ⟨.hbm, 87, rfl⟩
abbrev main_cst_5 : Ref sig .tc := ⟨.hbm, 88, rfl⟩
abbrev main_v49 : Ref sig .tc := ⟨.hbm, 89, rfl⟩
abbrev main_cst_6 : Ref sig .tc := ⟨.hbm, 90, rfl⟩
abbrev main_v50 : Ref sig .tc := ⟨.hbm, 91, rfl⟩
abbrev main_v51 : Ref sig .tc := ⟨.hbm, 92, rfl⟩
abbrev main_v52 : Ref sig .tc := ⟨.hbm, 93, rfl⟩
abbrev main_cst_7 : Ref sig .tc := ⟨.hbm, 94, rfl⟩
abbrev main_v53 : Ref sig .tc := ⟨.hbm, 95, rfl⟩
abbrev main_v54 : Ref sig .tc := ⟨.hbm, 96, rfl⟩
abbrev main_v55 : Ref sig .tc := ⟨.hbm, 97, rfl⟩
abbrev main_v56 : Ref sig .tc := ⟨.hbm, 98, rfl⟩
abbrev main_v57 : Ref sig .tc := ⟨.hbm, 99, rfl⟩
abbrev main_v58 : Ref sig .tc := ⟨.hbm, 100, rfl⟩
abbrev main_v59 : Ref sig .tc := ⟨.hbm, 101, rfl⟩
abbrev main_v60 : Ref sig .tc := ⟨.hbm, 102, rfl⟩
abbrev main_v61 : Ref sig .tc := ⟨.hbm, 103, rfl⟩
abbrev main_v62 : Ref sig .tc := ⟨.hbm, 104, rfl⟩
abbrev main_v63 : Ref sig .tc := ⟨.hbm, 105, rfl⟩
abbrev main_v64 : Ref sig .tc := ⟨.hbm, 106, rfl⟩
abbrev main_v65 : Ref sig .tc := ⟨.hbm, 107, rfl⟩
abbrev main_cst_8 : Ref sig .tc := ⟨.hbm, 108, rfl⟩
abbrev main_cst_9 : Ref sig .tc := ⟨.hbm, 109, rfl⟩
abbrev main_call4_v0 : Ref sig .tc := ⟨.hbm, 110, rfl⟩
abbrev main_call4_v1 : Ref sig .tc := ⟨.hbm, 111, rfl⟩
abbrev main_call4_v2 : Ref sig .tc := ⟨.hbm, 112, rfl⟩
abbrev main_call4_v3 : Ref sig .tc := ⟨.hbm, 113, rfl⟩
abbrev main_call4_v4 : Ref sig .tc := ⟨.hbm, 114, rfl⟩
abbrev main_v66 : Ref sig .tc := ⟨.hbm, 115, rfl⟩
abbrev main_cst_10 : Ref sig .tc := ⟨.hbm, 116, rfl⟩
abbrev main_v67 : Ref sig .tc := ⟨.hbm, 117, rfl⟩
abbrev main_v68 : Ref sig .tc := ⟨.hbm, 118, rfl⟩
abbrev main_v69 : Ref sig .tc := ⟨.hbm, 119, rfl⟩
abbrev main_v70 : Ref sig .tc := ⟨.hbm, 120, rfl⟩
abbrev main_v71 : Ref sig .tc := ⟨.hbm, 121, rfl⟩
abbrev main_v72 : Ref sig .tc := ⟨.hbm, 122, rfl⟩
abbrev main_v73 : Ref sig .tc := ⟨.hbm, 123, rfl⟩
abbrev main_v74 : Ref sig .tc := ⟨.hbm, 124, rfl⟩
abbrev main_v75 : Ref sig .tc := ⟨.hbm, 125, rfl⟩
abbrev main_call5_cst : Ref sig .tc := ⟨.hbm, 126, rfl⟩
abbrev main_call5_v0 : Ref sig .tc := ⟨.hbm, 127, rfl⟩
abbrev main_v76 : Ref sig .tc := ⟨.hbm, 128, rfl⟩
abbrev main_v77 : Ref sig .tc := ⟨.hbm, 129, rfl⟩
abbrev main_v78 : Ref sig .tc := ⟨.hbm, 130, rfl⟩
abbrev main_v79 : Ref sig .tc := ⟨.hbm, 131, rfl⟩
abbrev main_v80 : Ref sig .tc := ⟨.hbm, 132, rfl⟩
abbrev main_v81 : Ref sig .tc := ⟨.hbm, 133, rfl⟩
abbrev main_v82 : Ref sig .tc := ⟨.hbm, 134, rfl⟩
abbrev main_v83 : Ref sig .tc := ⟨.hbm, 135, rfl⟩
abbrev main_v84 : Ref sig .tc := ⟨.hbm, 136, rfl⟩
abbrev main_v85 : Ref sig .tc := ⟨.hbm, 137, rfl⟩
abbrev main_cst_11 : Ref sig .tc := ⟨.hbm, 138, rfl⟩
abbrev main_v86 : Ref sig .tc := ⟨.hbm, 139, rfl⟩
abbrev main_cst_12 : Ref sig .tc := ⟨.hbm, 140, rfl⟩
abbrev main_v87 : Ref sig .tc := ⟨.hbm, 141, rfl⟩
abbrev main_v88 : Ref sig .tc := ⟨.hbm, 142, rfl⟩
abbrev main_v89 : Ref sig .tc := ⟨.hbm, 143, rfl⟩
abbrev main_v90 : Ref sig .tc := ⟨.hbm, 144, rfl⟩
abbrev main_v91 : Ref sig .tc := ⟨.hbm, 145, rfl⟩
abbrev main_v92 : Ref sig .tc := ⟨.hbm, 146, rfl⟩
abbrev main_cst_13 : Ref sig .tc := ⟨.hbm, 147, rfl⟩
abbrev main_v93 : Ref sig .tc := ⟨.hbm, 148, rfl⟩
abbrev main_v94 : Ref sig .tc := ⟨.hbm, 149, rfl⟩
abbrev main_v95 : Ref sig .tc := ⟨.hbm, 150, rfl⟩
abbrev main_v96 : Ref sig .tc := ⟨.hbm, 151, rfl⟩
abbrev main_v97 : Ref sig .tc := ⟨.hbm, 152, rfl⟩
abbrev main_v98 : Ref sig .tc := ⟨.hbm, 153, rfl⟩
abbrev main_v99 : Ref sig .tc := ⟨.hbm, 154, rfl⟩
abbrev main_v100 : Ref sig .tc := ⟨.hbm, 155, rfl⟩
abbrev main_v101 : Ref sig .tc := ⟨.hbm, 156, rfl⟩
abbrev main_v102 : Ref sig .tc := ⟨.hbm, 157, rfl⟩
abbrev main_v103 : Ref sig .tc := ⟨.hbm, 158, rfl⟩
abbrev main_cst_14 : Ref sig .tc := ⟨.hbm, 159, rfl⟩
abbrev main_v104 : Ref sig .tc := ⟨.hbm, 160, rfl⟩
abbrev main_v105 : Ref sig .tc := ⟨.hbm, 161, rfl⟩
abbrev main_v106 : Ref sig .tc := ⟨.hbm, 162, rfl⟩
abbrev main_v107 : Ref sig .tc := ⟨.hbm, 163, rfl⟩
abbrev main_c_15 : Ref sig .tc := ⟨.hbm, 164, rfl⟩
abbrev main_v108 : Ref sig .tc := ⟨.hbm, 165, rfl⟩
abbrev main_v109 : Ref sig .tc := ⟨.hbm, 166, rfl⟩
abbrev main_v110 : Ref sig .tc := ⟨.hbm, 167, rfl⟩
abbrev main_v111 : Ref sig .tc := ⟨.hbm, 168, rfl⟩
abbrev main_cst_16 : Ref sig .tc := ⟨.hbm, 169, rfl⟩
abbrev main_call6_v0 : Ref sig .tc := ⟨.hbm, 170, rfl⟩
abbrev main_call6_v1 : Ref sig .tc := ⟨.hbm, 171, rfl⟩
abbrev main_call6_v2 : Ref sig .tc := ⟨.hbm, 172, rfl⟩
abbrev main_v112 : Ref sig .tc := ⟨.hbm, 173, rfl⟩
abbrev main_cst_17 : Ref sig .tc := ⟨.hbm, 174, rfl⟩
abbrev main_cst_18 : Ref sig .tc := ⟨.hbm, 175, rfl⟩
abbrev main_call7_v0 : Ref sig .tc := ⟨.hbm, 176, rfl⟩
abbrev main_call7_v1 : Ref sig .tc := ⟨.hbm, 177, rfl⟩
abbrev main_call7_v2 : Ref sig .tc := ⟨.hbm, 178, rfl⟩
abbrev main_call7_v3 : Ref sig .tc := ⟨.hbm, 179, rfl⟩
abbrev main_call7_v4 : Ref sig .tc := ⟨.hbm, 180, rfl⟩
abbrev main_v113 : Ref sig .tc := ⟨.hbm, 181, rfl⟩

abbrev nD : Nat := 1
abbrev τ : Topo := Topo.v7x

variable {F : FTy → Type} [FloatOps F]

class Facts₀ : Prop where
  slices_S2x640000_S1x640000_0_0 : S2x640000.Slices ![0, 0] S1x640000
  shapeCasts_S1x640000_S640000 : S1x640000.ShapeCasts S640000
  slices_S2x640000_S1x640000_1_0 : S2x640000.Slices ![1, 0] S1x640000
  bcast_S_S640000 : S_.BroadcastsInDim S640000 (![] : Fin 0 → Fin S640000.rank)
  bcast_S640000_S640000x1_0 : S640000.BroadcastsInDim S640000x1 (![0] : Fin 1 → Fin S640000x1.rank)
  bcast_S_S50000x16 : S_.BroadcastsInDim S50000x16 (![] : Fin 0 → Fin S50000x16.rank)
  bcast_S128_S1x128_1 : S128.BroadcastsInDim S1x128 (![1] : Fin 1 → Fin S1x128.rank)
  bcast_S1x128_S50000x128_0_1 : S1x128.BroadcastsInDim S50000x128 (![0, 1] : Fin 2 → Fin S50000x128.rank)
  bcast_S_S50000x128 : S_.BroadcastsInDim S50000x128 (![] : Fin 0 → Fin S50000x128.rank)
  bcast_S_S256x128 : S_.BroadcastsInDim S256x128 (![] : Fin 0 → Fin S256x128.rank)
  bcast_S50000_S50000x1_0 : S50000.BroadcastsInDim S50000x1 (![0] : Fin 1 → Fin S50000x1.rank)
  bcast_S_S50000 : S_.BroadcastsInDim S50000 (![] : Fin 0 → Fin S50000.rank)
  bcast_S_S256 : S_.BroadcastsInDim S256 (![] : Fin 0 → Fin S256.rank)
  bcast_S256_S256x1_0 : S256.BroadcastsInDim S256x1 (![0] : Fin 1 → Fin S256x1.rank)
  bcast_S256x1_S256x128_0_1 : S256x1.BroadcastsInDim S256x128 (![0, 1] : Fin 2 → Fin S256x128.rank)
  bcast_S64_S1x64_1 : S64.BroadcastsInDim S1x64 (![1] : Fin 1 → Fin S1x64.rank)
  bcast_S1x64_S256x64_0_1 : S1x64.BroadcastsInDim S256x64 (![0, 1] : Fin 2 → Fin S256x64.rank)
  bcast_S_S256x64 : S_.BroadcastsInDim S256x64 (![] : Fin 0 → Fin S256x64.rank)
  bcast_S1x128_S256x128_0_1 : S1x128.BroadcastsInDim S256x128 (![0, 1] : Fin 2 → Fin S256x128.rank)
  bcast_S1600_S1x1600_1 : S1600.BroadcastsInDim S1x1600 (![1] : Fin 1 → Fin S1x1600.rank)
  bcast_S1x1600_S256x1600_0_1 : S1x1600.BroadcastsInDim S256x1600 (![0, 1] : Fin 2 → Fin S256x1600.rank)
  shapeCasts_S256x1600_S256x100x16 : S256x1600.ShapeCasts S256x100x16
  reducesTo_S256x100x16_S256x100_d2 : S256x100x16.ReducesTo [2] S256x100
  h_S_ : 0 < S_.numel
  bcast_S_S256x100 : S_.BroadcastsInDim S256x100 (![] : Fin 0 → Fin S256x100.rank)
  bcast_S256x100_S256x100x1_0_1 : S256x100.BroadcastsInDim S256x100x1 (![0, 1] : Fin 2 → Fin S256x100x1.rank)
  bcast_S256x100x1_S256x100x16_0_1_2 : S256x100x1.BroadcastsInDim S256x100x16 (![0, 1, 2] : Fin 3 → Fin S256x100x16.rank)
  bcast_S10000_S1x10000_1 : S10000.BroadcastsInDim S1x10000 (![1] : Fin 1 → Fin S1x10000.rank)
  bcast_S1x10000_S256x10000_0_1 : S1x10000.BroadcastsInDim S256x10000 (![0, 1] : Fin 2 → Fin S256x10000.rank)
  shapeCasts_S256x10000_S256x100x100 : S256x10000.ShapeCasts S256x100x100
  transposes_S256x100x100_S256x100x100_0_2_1 : S256x100x100.Transposes [0, 2, 1] S256x100x100
  bcast_S_S256x100x100 : S_.BroadcastsInDim S256x100x100 (![] : Fin 0 → Fin S256x100x100.rank)
  bcast_S_S100x100 : S_.BroadcastsInDim S100x100 (![] : Fin 0 → Fin S100x100.rank)
  bcast_S100x100_S1x100x100_1_2 : S100x100.BroadcastsInDim S1x100x100 (![1, 2] : Fin 2 → Fin S1x100x100.rank)
  bcast_S1x100x100_S256x100x100_0_1_2 : S1x100x100.BroadcastsInDim S256x100x100 (![0, 1, 2] : Fin 3 → Fin S256x100x100.rank)
  gather_S50000x16_S640000x1_S640000x16_1_0_n_n_0_1_116_wf : GatherDims.WF S50000x16 S640000x1 S640000x16 [1] [0] [] [0] [] 1 ![1, 16]
  scatter_S50000x16_S640000x1_S640000x16_1_0_0_1_wf : ScatterDims.WF S50000x16 S640000x1 S640000x16 [1] [0] [0] 1
  dot_S50000x16_S16x128_S50000x128_1_0_0_1_n_n_wf : DotDims.WF S50000x16 S16x128 S50000x128 [1] [0] [0] [1] [] []
  dot_S50000x128_S128x128_S50000x128_1_0_0_1_n_n_wf : DotDims.WF S50000x128 S128x128 S50000x128 [1] [0] [0] [1] [] []
  gather_S50000x128_S640000x1_S640000x128_1_0_n_n_0_1_1128_wf : GatherDims.WF S50000x128 S640000x1 S640000x128 [1] [0] [] [0] [] 1 ![1, 128]
  scatter_S50000x128_S640000x1_S640000x128_1_0_0_1_wf : ScatterDims.WF S50000x128 S640000x1 S640000x128 [1] [0] [0] 1
  scatter_S256x128_S50000x1_S50000x128_1_0_0_1_wf : ScatterDims.WF S256x128 S50000x1 S50000x128 [1] [0] [0] 1
  scatter_S256_S50000x1_S50000_n_0_0_1_wf : ScatterDims.WF S256 S50000x1 S50000 [] [0] [0] 1
  dot_S256x128_S128x64_S256x64_1_0_0_1_n_n_wf : DotDims.WF S256x128 S128x64 S256x64 [1] [0] [0] [1] [] []
  dot_S256x64_S64x128_S256x128_1_0_0_1_n_n_wf : DotDims.WF S256x64 S64x128 S256x128 [1] [0] [0] [1] [] []
  dot_S256x128_S128x128_S256x128_1_0_0_1_n_n_wf : DotDims.WF S256x128 S128x128 S256x128 [1] [0] [0] [1] [] []
  dot_S256x128_S128x1600_S256x1600_1_0_0_1_n_n_wf : DotDims.WF S256x128 S128x1600 S256x1600 [1] [0] [0] [1] [] []
  dot_S256x128_S128x10000_S256x10000_1_0_0_1_n_n_wf : DotDims.WF S256x128 S128x10000 S256x10000 [1] [0] [0] [1] [] []

variable [Facts₀]

def gather_S50000x16_S640000x1_S640000x16_1_0_n_n_0_1_116 : GatherDims S50000x16 S640000x1 S640000x16 where
  offsetDims := [1]
  collapsedSliceDims := [0]
  operandBatchingDims := []
  startIndicesBatchingDims := []
  startIndexMap := [0]
  indexVectorDim := 1
  sliceSizes := ![1, 16]
  wf := gather_S50000x16_S640000x1_S640000x16_1_0_n_n_0_1_116_wf
def scatter_S50000x16_S640000x1_S640000x16_1_0_0_1 : ScatterDims S50000x16 S640000x1 S640000x16 where
  updateWindowDims := [1]
  insertedWindowDims := [0]
  scatterDimsToOperandDims := [0]
  indexVectorDim := 1
  wf := scatter_S50000x16_S640000x1_S640000x16_1_0_0_1_wf
def dot_S50000x16_S16x128_S50000x128_1_0_0_1_n_n : DotDims S50000x16 S16x128 S50000x128 where
  lhsContracting := [1]
  rhsContracting := [0]
  lhsNonContracting := [0]
  rhsNonContracting := [1]
  lhsBatch := []
  rhsBatch := []
  wf := dot_S50000x16_S16x128_S50000x128_1_0_0_1_n_n_wf
def dot_S50000x128_S128x128_S50000x128_1_0_0_1_n_n : DotDims S50000x128 S128x128 S50000x128 where
  lhsContracting := [1]
  rhsContracting := [0]
  lhsNonContracting := [0]
  rhsNonContracting := [1]
  lhsBatch := []
  rhsBatch := []
  wf := dot_S50000x128_S128x128_S50000x128_1_0_0_1_n_n_wf
def gather_S50000x128_S640000x1_S640000x128_1_0_n_n_0_1_1128 : GatherDims S50000x128 S640000x1 S640000x128 where
  offsetDims := [1]
  collapsedSliceDims := [0]
  operandBatchingDims := []
  startIndicesBatchingDims := []
  startIndexMap := [0]
  indexVectorDim := 1
  sliceSizes := ![1, 128]
  wf := gather_S50000x128_S640000x1_S640000x128_1_0_n_n_0_1_1128_wf
def scatter_S50000x128_S640000x1_S640000x128_1_0_0_1 : ScatterDims S50000x128 S640000x1 S640000x128 where
  updateWindowDims := [1]
  insertedWindowDims := [0]
  scatterDimsToOperandDims := [0]
  indexVectorDim := 1
  wf := scatter_S50000x128_S640000x1_S640000x128_1_0_0_1_wf
def scatter_S256x128_S50000x1_S50000x128_1_0_0_1 : ScatterDims S256x128 S50000x1 S50000x128 where
  updateWindowDims := [1]
  insertedWindowDims := [0]
  scatterDimsToOperandDims := [0]
  indexVectorDim := 1
  wf := scatter_S256x128_S50000x1_S50000x128_1_0_0_1_wf
def scatter_S256_S50000x1_S50000_n_0_0_1 : ScatterDims S256 S50000x1 S50000 where
  updateWindowDims := []
  insertedWindowDims := [0]
  scatterDimsToOperandDims := [0]
  indexVectorDim := 1
  wf := scatter_S256_S50000x1_S50000_n_0_0_1_wf
def dot_S256x128_S128x64_S256x64_1_0_0_1_n_n : DotDims S256x128 S128x64 S256x64 where
  lhsContracting := [1]
  rhsContracting := [0]
  lhsNonContracting := [0]
  rhsNonContracting := [1]
  lhsBatch := []
  rhsBatch := []
  wf := dot_S256x128_S128x64_S256x64_1_0_0_1_n_n_wf
def dot_S256x64_S64x128_S256x128_1_0_0_1_n_n : DotDims S256x64 S64x128 S256x128 where
  lhsContracting := [1]
  rhsContracting := [0]
  lhsNonContracting := [0]
  rhsNonContracting := [1]
  lhsBatch := []
  rhsBatch := []
  wf := dot_S256x64_S64x128_S256x128_1_0_0_1_n_n_wf
def dot_S256x128_S128x128_S256x128_1_0_0_1_n_n : DotDims S256x128 S128x128 S256x128 where
  lhsContracting := [1]
  rhsContracting := [0]
  lhsNonContracting := [0]
  rhsNonContracting := [1]
  lhsBatch := []
  rhsBatch := []
  wf := dot_S256x128_S128x128_S256x128_1_0_0_1_n_n_wf
def dot_S256x128_S128x1600_S256x1600_1_0_0_1_n_n : DotDims S256x128 S128x1600 S256x1600 where
  lhsContracting := [1]
  rhsContracting := [0]
  lhsNonContracting := [0]
  rhsNonContracting := [1]
  lhsBatch := []
  rhsBatch := []
  wf := dot_S256x128_S128x1600_S256x1600_1_0_0_1_n_n_wf
def dot_S256x128_S128x10000_S256x10000_1_0_0_1_n_n : DotDims S256x128 S128x10000 S256x10000 where
  lhsContracting := [1]
  rhsContracting := [0]
  lhsNonContracting := [0]
  rhsNonContracting := [1]
  lhsBatch := []
  rhsBatch := []
  wf := dot_S256x128_S128x10000_S256x10000_1_0_0_1_n_n_wf

class Facts : Prop extends Facts₀ where

variable [Facts]
-- ==== Proof.KRun.lean ====
/-
  The idealized kernel's run with every buffer named at the end.

  @main is ten segments: a stretch of host operations, the first graph-isomorphism region, a stretch, the second
  region, a stretch, the decoder region, and four stretches of host operations. The buffer contents at each segment
  boundary are a fold from the launch memory: a stretch's operations applied to the contents before it; a region's
  arrays at what its write-backs leave, everything else as before. Every weakly fair execution of @main terminates,
  nothing faulting, and every buffer that outlives the regions — the four results among them — ends at the last
  boundary's contents.
-/
import proofs.«123664_j28810640621902_1_alg».proof.Proof.Gen.KernelIdeal.Frame

set_option maxRecDepth 16384

noncomputable section

namespace Cert.KernelIdeal.KRun

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

set_option backward.isDefEq.respectTransparency.types false in
/-- Every weakly fair execution of @main from the launch memory terminates without a fault, and every buffer that
    is not a region's private staging space ends at the contents of the last segment boundary. -/
theorem run_named : θ_run defs (onTc (τ := τ) (main (F := F))) ⟨m, fun _ => 0, ρ⟩ (fun r => ∀ c : Dev nD,
      ∀ b ∈ Pipeline.ucRefs τ sig, r.2.mem (((c : Thread nD τ)).1, b) = W10 m ρ c b) :=
  Pipeline.θ_run_regions_kit (pcfgs (F := F)) adm (pdats m ρ) () cellOf_inj emb₁ defs₀ 𝒱₀ L lv m ρ main (segs m ρ)
    (fun c Q => by rw [main_run m ρ c])
    (by simp only [segs, Pipeline.Seg.pipes_host, Pipeline.Seg.pipes_region, Pipeline.Seg.pipes_nil]; decide)
    (O₀ := 0) (hL := fun _ _ => rfl) (G := fun _ => iprop(emp))
    (u₀ := initOf (Pipeline.cells cfgs cellOf_inj) (Pipeline.launchToks cfgs cellOf_inj))
    (hu₀ := by
      iintro Hu; imodintro
      isplitl [Hu]
      · iapply (show (ownU (initOf (Pipeline.cells cfgs cellOf_inj) (Pipeline.launchToks cfgs cellOf_inj)) : sProp 𝕄)
            ⊢ BI.own (emb₁ (initOf (Pipeline.cells cfgs cellOf_inj) (Pipeline.launchToks cfgs cellOf_inj))) from .rfl)
        iexact Hu
      iapply (show (BI.emp : sProp 𝕄) ⊢ bigSep Finset.univ (fun _ : Dev nD => (BI.emp : sProp 𝕄)) from by rw [BI.bigSep_emp_const])
      iempintro)
    (T₀ := fun c => iprop(StableHlo.held (c : Thread nD τ) (Pipeline.ucRefs τ sig) (W0 m ρ c) ∗ R c)) (Tₙ := Tₙ m ρ)
    (hch := ⟨fun _ => .rfl, fun _ => .rfl, fun _ => .rfl, fun _ => .rfl, fun _ => .rfl, fun _ => .rfl, fun _ => .rfl, fun _ => .rfl, fun _ => .rfl, fun _ => .rfl, fun c => by
      dsimp only [Pipeline.Seg.post, hseg, Pipeline.HostSeg.ofOps]
      iintro ⟨Hh, Hp, HO⟩
      isplitl [Hh Hp]
      · isplitl [Hh]; · iexact Hh
        iexact Hp
      iexact HO⟩)
    (hinit := by
      refine Pipeline.initEach L lv fun c => ?_
      rw [show unscopedBufs c (fun b => m ((c : Thread nD τ).loc b)) = StableHlo.held (c : Thread nD τ) (Pipeline.ucRefs τ sig) (W0 m ρ c)
        from Pipeline.unscopedBufs_held c (W0 m ρ c)]
      iintro ⟨⟨Hh, -, HO, -, Hp, -⟩, -⟩
      imodintro
      isplitl [Hh]; · iexact Hh
      isplitl [Hp]; · iexists _; iexact Hp
      iexists ∅; iexact HO)
    (QY := fun c s => ∀ b ∈ Pipeline.ucRefs τ sig, s.mem (((c : Thread nD τ)).1, b) = W10 m ρ c b)
    (hfin := fun c s' => by
      iintro ⟨⟨Hh, -⟩, HSI⟩
      unfold StableHlo.held
      imodintro
      iapply (pointsTo_read_all (Pipeline.ucRefs τ sig) (fun b => (((c : Thread nD τ)).1, b)) (W10 m ρ c) s')
      isplitl [Hh] <;> iassumption)
    (hQ := fun s h c => h c)

end Cert.KernelIdeal.KRun

end
-- ==== Proof.HostChains.lean ====
/-
  The host stretches the two programs share, as functions of the value they are applied to.

  Both programs aggregate along the edges (gather the source node's row for every edge, add it into the target
  node's row, add the node's own row), pool the nodes of every graph (sum the rows of a graph's nodes and divide by
  the larger of the node count and one), turn the node logits into a softmax over the last axis, and symmetrize
  the adjacency logits, put -10 on the diagonal and clip to [-10, 10]. Each of these is a fixed chain of host
  operations applied to one array; the reference's stages are these chains applied to its dense layers' results.
  Nothing below opens a chain: the certificate only needs that the two programs apply the same one.
-/
import proofs.«123664_j28810640621902_1_alg».proof.Proof.Gen.ReferenceIdeal.Read

noncomputable section

namespace Cert.ReferenceIdeal.Chains

open Cert.ReferenceIdeal Cert.ReferenceIdeal.Gen Cert.ReferenceIdeal.Read Idealize.ShloMosaic

variable {F : FTy → Type} [FloatOps F]

/-- Aggregation of 128-wide rows along the edges: for every node the sum of its in-neighbours' rows, plus its own. -/
def aggr128 (h : (⟨S50000x128, .f32⟩ : BufTy).Contents (Elt F)) (x1 : (⟨S2x640000, .i32⟩ : BufTy).Contents (Elt F)) :
    (⟨S50000x128, .f32⟩ : BufTy).Contents (Elt F) :=
  addf (Host.scatterAdd scatter_S50000x128_S640000x1_S640000x128_1_0_0_1 (val_main_v32 (F := F)) (val_main_v33 (F := F) x1)
    (Host.gather gather_S50000x128_S640000x1_S640000x128_1_0_n_n_0_1_1128 h (val_main_v30 (F := F) x1))) h

/-- Mean pooling: the rows of every graph's nodes summed, divided by max(number of its nodes, 1). -/
def pool (h : (⟨S50000x128, .f32⟩ : BufTy).Contents (Elt F)) (x2 : (⟨S50000, .i32⟩ : BufTy).Contents (Elt F)) :
    (⟨S256x128, .f32⟩ : BufTy).Contents (Elt F) :=
  Host.divf (Host.scatterAdd scatter_S256x128_S50000x1_S50000x128_1_0_0_1 (val_main_v46 (F := F)) (val_main_v47 (F := F) x2) h)
    (val_main_v56 (F := F) x2)

/-- The node logits as a [256, 100, 16] array. -/
def nodeCube (nf : (⟨S256x1600, .f32⟩ : BufTy).Contents (Elt F)) : (⟨S256x100x16, .f32⟩ : BufTy).Contents (Elt F) :=
  shapeCast S256x100x16 nf shapeCasts_S256x1600_S256x100x16

/-- exp(logit - max over the last axis). -/
def nodeExp (nf : (⟨S256x1600, .f32⟩ : BufTy).Contents (Elt F)) : (⟨S256x100x16, .f32⟩ : BufTy).Contents (Elt F) :=
  Host.exp (subf (nodeCube nf) (broadcastInDim S256x100x16 ![0, 1, 2] bcast_S256x100x1_S256x100x16_0_1_2
    (broadcastInDim S256x100x1 ![0, 1] bcast_S256x100_S256x100x1_0_1
      (maximumf (val_main_v87 (F := F)) (Host.reduce FloatOps.maximumf (nodeCube nf) (val_main_cst_11 (F := F)) reducesTo_S256x100x16_S256x100_d2 h_S_)))))

/-- The softmax of the node logits over the last axis. -/
def nodeSoftmax (nf : (⟨S256x1600, .f32⟩ : BufTy).Contents (Elt F)) : (⟨S256x100x16, .f32⟩ : BufTy).Contents (Elt F) :=
  Host.divf (nodeExp nf) (broadcastInDim S256x100x16 ![0, 1, 2] bcast_S256x100x1_S256x100x16_0_1_2
    (broadcastInDim S256x100x1 ![0, 1] bcast_S256x100_S256x100x1_0_1
      (Host.reduceAdd (nodeExp nf) (val_main_cst_13 (F := F)) reducesTo_S256x100x16_S256x100_d2 h_S_)))

/-- The adjacency logits as a [256, 100, 100] array. -/
def adjCube (af : (⟨S256x10000, .f32⟩ : BufTy).Contents (Elt F)) : (⟨S256x100x100, .f32⟩ : BufTy).Contents (Elt F) :=
  shapeCast S256x100x100 af shapeCasts_S256x10000_S256x100x100

/-- (a + aᵀ) / 2 with -10 on the diagonal, clipped to [-10, 10]. -/
def adjTail (af : (⟨S256x10000, .f32⟩ : BufTy).Contents (Elt F)) : (⟨S256x100x100, .f32⟩ : BufTy).Contents (Elt F) :=
  minimumf (val_main_call7_v4 (F := F)) (maximumf (val_main_call7_v1 (F := F))
    (select (val_main_call6_v1 (F := F)) (val_main_call6_v2 (F := F))
      (mulf (addf (adjCube af) (transpose S256x100x100 [0, 2, 1] (adjCube af) transposes_S256x100x100_S256x100x100_0_2_1))
        (val_main_v104 (F := F)))))

/-! ## The reference's stages are these chains -/

theorem v35_eq (x0 : (⟨S50000x16, .f32⟩ : BufTy).Contents (Elt F)) (x1 : (⟨S2x640000, .i32⟩ : BufTy).Contents (Elt F))
    (x4 : (⟨S16x128, .f32⟩ : BufTy).Contents (Elt F)) (x5 : (⟨S128, .f32⟩ : BufTy).Contents (Elt F))
    (x6 : (⟨S128x128, .f32⟩ : BufTy).Contents (Elt F)) (x7 : (⟨S128, .f32⟩ : BufTy).Contents (Elt F)) :
    val_main_v35 (F := F) x0 x1 x4 x5 x6 x7 = aggr128 (val_main_v24 (F := F) x0 x1 x4 x5 x6 x7) x1 := rfl

end Cert.ReferenceIdeal.Chains

end
-- ==== Proof.FoldHost.lean ====
/-
  The buffer contents at the segment boundaries of the idealized kernel's @main, read.

  The fold from the launch memory (a stretch of host operations applied to the contents before it; a region's
  arrays at what its write-backs leave, everything else untouched) is read here one boundary at a time. A buffer that
  a stretch computes is the composed term of the stretch's operations; a buffer it does not write, and a buffer that is
  not one of a region's arrays, keeps its contents. Each array the kernel's program computes turns out to be the
  reference's own stage of the same name: the first aggregation; the first layer's node features (the region's blocks
  tile the rows, and each row is the layer's update of that row); the second aggregation and layer; the pooled rows;
  the decoder's four outputs; and, through the shared tails, the node features and the adjacency.
-/
import proofs.«123664_j28810640621902_1_alg».proof.Proof.Gen.KernelIdeal.Frame
import proofs.«123664_j28810640621902_1_alg».proof.Proof.Gen.ReferenceIdeal.Read
import proofs.«123664_j28810640621902_1_alg».proof.Proof.HostChains
import Idealize.ShloMosaic.Lib.StableHlo.Run
import Idealize.ShloMosaic.Lib.Pipeline.Value
import Idealize.ShloMosaic.Lib.ValueIdx

set_option maxRecDepth 16384

noncomputable section

namespace Cert.KernelIdeal.Fold

open Cert.KernelIdeal Cert.KernelIdeal.Gen
open Idealize.ShloMosaic Idealize.ShloMosaic.TcCoe Idealize.ShloMosaic.Tactic Idealize.SL.Sem Idealize.ShloMosaic.StableHlo
open Idealize.ShloMosaic.ValueIdx

/-- A [b] vector viewed as a [1, b] row reads, at (0, k), the vector's entry k. -/
theorem shapeCast_b_1b_apply {α : Type} {b : ℕ} (x : (⟨1, ![b]⟩ : Shape).Idx → α) (h : (⟨1, ![b]⟩ : Shape).ShapeCasts ⟨2, ![1, b]⟩)
    (k : Fin b) : shapeCast ⟨2, ![1, b]⟩ x h (ix2 (0 : Fin 1) k) = x (ix1 k) :=
  shapeCast_apply x h _ _ (by
    rw [Shape.rowMajor_val_two, Shape.rowMajor_val_one]
    show k.val = 0 * b + k.val
    omega)

/-- No operation of the named stretch writes the buffer at hand: each operation writes one buffer, another one. -/
local macro "not_written" ops:ident : term => `(List.forall_iff_forall_mem.mp (by
  simp only [$ops:ident, List.flatten_cons, List.flatten_nil, List.append_nil, List.cons_append, List.nil_append, List.Forall,
    StableHlo.nullary_writes, StableHlo.unary_writes, StableHlo.binary_writes, StableHlo.ternary_writes, StableHlo.quaternary_writes,
    StableHlo.reshape_writes, StableHlo.binaryIndexed_writes, Finset.mem_singleton]
  repeat' apply And.intro
  all_goals exact StableHlo.devRef_ne_of_ne (by decide)))

variable (m : (ℓ : Loc nD τ sig) → Buf (Elt Ideal) ℓ) (ρ : Dev nD → PrngReg) (c : Dev nD)

/-! ## After the first stretch -/

set_option maxHeartbeats 4000000 in
/-- The aggregated input features are the reference's. -/
theorem W1_v14 : W1 (F := Ideal) m ρ c (Proc.devRef .tc main_v14) = Cert.ReferenceIdeal.Read.val_main_v14 (F := Ideal) (m ((c : Thread nD τ).loc main_arg0)) (m ((c : Thread nD τ).loc main_arg1)) := by
  show StableHlo.after hostOps0 (fun b => (s₀ m ρ).mem ((c : Dev nD), b)) (Proc.devRef .tc main_v14) = _
  after_results
  rfl

set_option maxHeartbeats 4000000 in
/-- The edges' source nodes and target nodes, as the reference reads them off the edge list. -/
theorem W1_v1 : W1 (F := Ideal) m ρ c (Proc.devRef .tc main_v1) = Cert.ReferenceIdeal.Read.val_main_v1 (F := Ideal) (m ((c : Thread nD τ).loc main_arg1)) := by
  show StableHlo.after hostOps0 (fun b => (s₀ m ρ).mem ((c : Dev nD), b)) (Proc.devRef .tc main_v1) = _
  after_results
  rfl
set_option maxHeartbeats 4000000 in
theorem W1_v3 : W1 (F := Ideal) m ρ c (Proc.devRef .tc main_v3) = Cert.ReferenceIdeal.Read.val_main_v3 (F := Ideal) (m ((c : Thread nD τ).loc main_arg1)) := by
  show StableHlo.after hostOps0 (fun b => (s₀ m ρ).mem ((c : Dev nD), b)) (Proc.devRef .tc main_v3) = _
  after_results
  rfl

set_option maxHeartbeats 4000000 in
/-- The first layer's two bias vectors, viewed as rows. -/
theorem W1_v15 : W1 (F := Ideal) m ρ c (Proc.devRef .tc main_v15) = shapeCast S1x128 (m ((c : Thread nD τ).loc main_arg5)) shapeCasts_S128_S1x128 := by
  show StableHlo.after hostOps0 (fun b => (s₀ m ρ).mem ((c : Dev nD), b)) (Proc.devRef .tc main_v15) = _
  after_results
  rfl
set_option maxHeartbeats 4000000 in
theorem W1_v16 : W1 (F := Ideal) m ρ c (Proc.devRef .tc main_v16) = shapeCast S1x128 (m ((c : Thread nD τ).loc main_arg7)) shapeCasts_S128_S1x128 := by
  show StableHlo.after hostOps0 (fun b => (s₀ m ρ).mem ((c : Dev nD), b)) (Proc.devRef .tc main_v16) = _
  after_results
  rfl

/-- The first stretch writes no argument. -/
theorem W1_arg2 : W1 (F := Ideal) m ρ c (Proc.devRef .tc main_arg2) = (m ((c : Thread nD τ).loc main_arg2)) :=
  StableHlo.after_of_forall_not_mem (b := Proc.devRef .tc main_arg2) _ _ (not_written hostOps0)
theorem W1_arg3 : W1 (F := Ideal) m ρ c (Proc.devRef .tc main_arg3) = (m ((c : Thread nD τ).loc main_arg3)) :=
  StableHlo.after_of_forall_not_mem (b := Proc.devRef .tc main_arg3) _ _ (not_written hostOps0)
theorem W1_arg4 : W1 (F := Ideal) m ρ c (Proc.devRef .tc main_arg4) = (m ((c : Thread nD τ).loc main_arg4)) :=
  StableHlo.after_of_forall_not_mem (b := Proc.devRef .tc main_arg4) _ _ (not_written hostOps0)
theorem W1_arg6 : W1 (F := Ideal) m ρ c (Proc.devRef .tc main_arg6) = (m ((c : Thread nD τ).loc main_arg6)) :=
  StableHlo.after_of_forall_not_mem (b := Proc.devRef .tc main_arg6) _ _ (not_written hostOps0)
theorem W1_arg8 : W1 (F := Ideal) m ρ c (Proc.devRef .tc main_arg8) = (m ((c : Thread nD τ).loc main_arg8)) :=
  StableHlo.after_of_forall_not_mem (b := Proc.devRef .tc main_arg8) _ _ (not_written hostOps0)
theorem W1_arg9 : W1 (F := Ideal) m ρ c (Proc.devRef .tc main_arg9) = (m ((c : Thread nD τ).loc main_arg9)) :=
  StableHlo.after_of_forall_not_mem (b := Proc.devRef .tc main_arg9) _ _ (not_written hostOps0)
theorem W1_arg10 : W1 (F := Ideal) m ρ c (Proc.devRef .tc main_arg10) = (m ((c : Thread nD τ).loc main_arg10)) :=
  StableHlo.after_of_forall_not_mem (b := Proc.devRef .tc main_arg10) _ _ (not_written hostOps0)
theorem W1_arg11 : W1 (F := Ideal) m ρ c (Proc.devRef .tc main_arg11) = (m ((c : Thread nD τ).loc main_arg11)) :=
  StableHlo.after_of_forall_not_mem (b := Proc.devRef .tc main_arg11) _ _ (not_written hostOps0)
theorem W1_arg12 : W1 (F := Ideal) m ρ c (Proc.devRef .tc main_arg12) = (m ((c : Thread nD τ).loc main_arg12)) :=
  StableHlo.after_of_forall_not_mem (b := Proc.devRef .tc main_arg12) _ _ (not_written hostOps0)
theorem W1_arg13 : W1 (F := Ideal) m ρ c (Proc.devRef .tc main_arg13) = (m ((c : Thread nD τ).loc main_arg13)) :=
  StableHlo.after_of_forall_not_mem (b := Proc.devRef .tc main_arg13) _ _ (not_written hostOps0)
theorem W1_arg14 : W1 (F := Ideal) m ρ c (Proc.devRef .tc main_arg14) = (m ((c : Thread nD τ).loc main_arg14)) :=
  StableHlo.after_of_forall_not_mem (b := Proc.devRef .tc main_arg14) _ _ (not_written hostOps0)
theorem W1_arg15 : W1 (F := Ideal) m ρ c (Proc.devRef .tc main_arg15) = (m ((c : Thread nD τ).loc main_arg15)) :=
  StableHlo.after_of_forall_not_mem (b := Proc.devRef .tc main_arg15) _ _ (not_written hostOps0)
theorem W1_arg16 : W1 (F := Ideal) m ρ c (Proc.devRef .tc main_arg16) = (m ((c : Thread nD τ).loc main_arg16)) :=
  StableHlo.after_of_forall_not_mem (b := Proc.devRef .tc main_arg16) _ _ (not_written hostOps0)
theorem W1_arg17 : W1 (F := Ideal) m ρ c (Proc.devRef .tc main_arg17) = (m ((c : Thread nD τ).loc main_arg17)) :=
  StableHlo.after_of_forall_not_mem (b := Proc.devRef .tc main_arg17) _ _ (not_written hostOps0)
theorem W1_arg18 : W1 (F := Ideal) m ρ c (Proc.devRef .tc main_arg18) = (m ((c : Thread nD τ).loc main_arg18)) :=
  StableHlo.after_of_forall_not_mem (b := Proc.devRef .tc main_arg18) _ _ (not_written hostOps0)
theorem W1_arg19 : W1 (F := Ideal) m ρ c (Proc.devRef .tc main_arg19) = (m ((c : Thread nD τ).loc main_arg19)) :=
  StableHlo.after_of_forall_not_mem (b := Proc.devRef .tc main_arg19) _ _ (not_written hostOps0)
theorem W1_arg20 : W1 (F := Ideal) m ρ c (Proc.devRef .tc main_arg20) = (m ((c : Thread nD τ).loc main_arg20)) :=
  StableHlo.after_of_forall_not_mem (b := Proc.devRef .tc main_arg20) _ _ (not_written hostOps0)
theorem W1_arg21 : W1 (F := Ideal) m ρ c (Proc.devRef .tc main_arg21) = (m ((c : Thread nD τ).loc main_arg21)) :=
  StableHlo.after_of_forall_not_mem (b := Proc.devRef .tc main_arg21) _ _ (not_written hostOps0)
theorem W1_arg22 : W1 (F := Ideal) m ρ c (Proc.devRef .tc main_arg22) = (m ((c : Thread nD τ).loc main_arg22)) :=
  StableHlo.after_of_forall_not_mem (b := Proc.devRef .tc main_arg22) _ _ (not_written hostOps0)
theorem W1_arg23 : W1 (F := Ideal) m ρ c (Proc.devRef .tc main_arg23) = (m ((c : Thread nD τ).loc main_arg23)) :=
  StableHlo.after_of_forall_not_mem (b := Proc.devRef .tc main_arg23) _ _ (not_written hostOps0)

/-! ## At the first region's exit: only its arrays may have changed -/

theorem W2_v1 : W2 (F := Ideal) m ρ c (Proc.devRef .tc main_v1) = Cert.ReferenceIdeal.Read.val_main_v1 (F := Ideal) (m ((c : Thread nD τ).loc main_arg1)) :=
  (W2_of_ne m ρ c main_v1 (by decide)).trans (W1_v1 m ρ c)
theorem W2_v3 : W2 (F := Ideal) m ρ c (Proc.devRef .tc main_v3) = Cert.ReferenceIdeal.Read.val_main_v3 (F := Ideal) (m ((c : Thread nD τ).loc main_arg1)) :=
  (W2_of_ne m ρ c main_v3 (by decide)).trans (W1_v3 m ρ c)
theorem W2_arg2 : W2 (F := Ideal) m ρ c (Proc.devRef .tc main_arg2) = (m ((c : Thread nD τ).loc main_arg2)) :=
  (W2_of_ne m ρ c main_arg2 (by decide)).trans (W1_arg2 m ρ c)
theorem W2_arg3 : W2 (F := Ideal) m ρ c (Proc.devRef .tc main_arg3) = (m ((c : Thread nD τ).loc main_arg3)) :=
  (W2_of_ne m ρ c main_arg3 (by decide)).trans (W1_arg3 m ρ c)
theorem W2_arg8 : W2 (F := Ideal) m ρ c (Proc.devRef .tc main_arg8) = (m ((c : Thread nD τ).loc main_arg8)) :=
  (W2_of_ne m ρ c main_arg8 (by decide)).trans (W1_arg8 m ρ c)
theorem W2_arg9 : W2 (F := Ideal) m ρ c (Proc.devRef .tc main_arg9) = (m ((c : Thread nD τ).loc main_arg9)) :=
  (W2_of_ne m ρ c main_arg9 (by decide)).trans (W1_arg9 m ρ c)
theorem W2_arg10 : W2 (F := Ideal) m ρ c (Proc.devRef .tc main_arg10) = (m ((c : Thread nD τ).loc main_arg10)) :=
  (W2_of_ne m ρ c main_arg10 (by decide)).trans (W1_arg10 m ρ c)
theorem W2_arg11 : W2 (F := Ideal) m ρ c (Proc.devRef .tc main_arg11) = (m ((c : Thread nD τ).loc main_arg11)) :=
  (W2_of_ne m ρ c main_arg11 (by decide)).trans (W1_arg11 m ρ c)
theorem W2_arg12 : W2 (F := Ideal) m ρ c (Proc.devRef .tc main_arg12) = (m ((c : Thread nD τ).loc main_arg12)) :=
  (W2_of_ne m ρ c main_arg12 (by decide)).trans (W1_arg12 m ρ c)
theorem W2_arg13 : W2 (F := Ideal) m ρ c (Proc.devRef .tc main_arg13) = (m ((c : Thread nD τ).loc main_arg13)) :=
  (W2_of_ne m ρ c main_arg13 (by decide)).trans (W1_arg13 m ρ c)
theorem W2_arg14 : W2 (F := Ideal) m ρ c (Proc.devRef .tc main_arg14) = (m ((c : Thread nD τ).loc main_arg14)) :=
  (W2_of_ne m ρ c main_arg14 (by decide)).trans (W1_arg14 m ρ c)
theorem W2_arg15 : W2 (F := Ideal) m ρ c (Proc.devRef .tc main_arg15) = (m ((c : Thread nD τ).loc main_arg15)) :=
  (W2_of_ne m ρ c main_arg15 (by decide)).trans (W1_arg15 m ρ c)
theorem W2_arg16 : W2 (F := Ideal) m ρ c (Proc.devRef .tc main_arg16) = (m ((c : Thread nD τ).loc main_arg16)) :=
  (W2_of_ne m ρ c main_arg16 (by decide)).trans (W1_arg16 m ρ c)
theorem W2_arg17 : W2 (F := Ideal) m ρ c (Proc.devRef .tc main_arg17) = (m ((c : Thread nD τ).loc main_arg17)) :=
  (W2_of_ne m ρ c main_arg17 (by decide)).trans (W1_arg17 m ρ c)
theorem W2_arg18 : W2 (F := Ideal) m ρ c (Proc.devRef .tc main_arg18) = (m ((c : Thread nD τ).loc main_arg18)) :=
  (W2_of_ne m ρ c main_arg18 (by decide)).trans (W1_arg18 m ρ c)
theorem W2_arg19 : W2 (F := Ideal) m ρ c (Proc.devRef .tc main_arg19) = (m ((c : Thread nD τ).loc main_arg19)) :=
  (W2_of_ne m ρ c main_arg19 (by decide)).trans (W1_arg19 m ρ c)
theorem W2_arg20 : W2 (F := Ideal) m ρ c (Proc.devRef .tc main_arg20) = (m ((c : Thread nD τ).loc main_arg20)) :=
  (W2_of_ne m ρ c main_arg20 (by decide)).trans (W1_arg20 m ρ c)
theorem W2_arg21 : W2 (F := Ideal) m ρ c (Proc.devRef .tc main_arg21) = (m ((c : Thread nD τ).loc main_arg21)) :=
  (W2_of_ne m ρ c main_arg21 (by decide)).trans (W1_arg21 m ρ c)
theorem W2_arg22 : W2 (F := Ideal) m ρ c (Proc.devRef .tc main_arg22) = (m ((c : Thread nD τ).loc main_arg22)) :=
  (W2_of_ne m ρ c main_arg22 (by decide)).trans (W1_arg22 m ρ c)
theorem W2_arg23 : W2 (F := Ideal) m ρ c (Proc.devRef .tc main_arg23) = (m ((c : Thread nD τ).loc main_arg23)) :=
  (W2_of_ne m ρ c main_arg23 (by decide)).trans (W1_arg23 m ρ c)

/-! ## After the second stretch -/

set_option maxHeartbeats 4000000 in
/-- The second aggregation is the shared chain applied to the first region's output array. -/
theorem W3_v28 : W3 (F := Ideal) m ρ c (Proc.devRef .tc main_v28)
    = Cert.ReferenceIdeal.Chains.aggr128 (F := Ideal) (W2 (F := Ideal) m ρ c (Proc.devRef .tc main_v17)) (m ((c : Thread nD τ).loc main_arg1)) := by
  show StableHlo.after hostOps1 (W2 (F := Ideal) m ρ c) (Proc.devRef .tc main_v28) = _
  after_results
  rw [W2_v1, W2_v3]
  rfl

set_option maxHeartbeats 4000000 in
/-- The second layer's two bias vectors, viewed as rows. -/
theorem W3_v29 : W3 (F := Ideal) m ρ c (Proc.devRef .tc main_v29) = shapeCast S1x128 (m ((c : Thread nD τ).loc main_arg9)) shapeCasts_S128_S1x128 := by
  show StableHlo.after hostOps1 (W2 (F := Ideal) m ρ c) (Proc.devRef .tc main_v29) = _
  after_results
  rw [W2_arg9]
  rfl
set_option maxHeartbeats 4000000 in
theorem W3_v30 : W3 (F := Ideal) m ρ c (Proc.devRef .tc main_v30) = shapeCast S1x128 (m ((c : Thread nD τ).loc main_arg11)) shapeCasts_S128_S1x128 := by
  show StableHlo.after hostOps1 (W2 (F := Ideal) m ρ c) (Proc.devRef .tc main_v30) = _
  after_results
  rw [W2_arg11]
  rfl
theorem W3_arg2 : W3 (F := Ideal) m ρ c (Proc.devRef .tc main_arg2) = (m ((c : Thread nD τ).loc main_arg2)) :=
  (StableHlo.after_of_forall_not_mem (b := Proc.devRef .tc main_arg2) _ _ (not_written hostOps1)).trans (W2_arg2 m ρ c)
theorem W3_arg3 : W3 (F := Ideal) m ρ c (Proc.devRef .tc main_arg3) = (m ((c : Thread nD τ).loc main_arg3)) :=
  (StableHlo.after_of_forall_not_mem (b := Proc.devRef .tc main_arg3) _ _ (not_written hostOps1)).trans (W2_arg3 m ρ c)
theorem W3_arg8 : W3 (F := Ideal) m ρ c (Proc.devRef .tc main_arg8) = (m ((c : Thread nD τ).loc main_arg8)) :=
  (StableHlo.after_of_forall_not_mem (b := Proc.devRef .tc main_arg8) _ _ (not_written hostOps1)).trans (W2_arg8 m ρ c)
theorem W3_arg10 : W3 (F := Ideal) m ρ c (Proc.devRef .tc main_arg10) = (m ((c : Thread nD τ).loc main_arg10)) :=
  (StableHlo.after_of_forall_not_mem (b := Proc.devRef .tc main_arg10) _ _ (not_written hostOps1)).trans (W2_arg10 m ρ c)
theorem W3_arg12 : W3 (F := Ideal) m ρ c (Proc.devRef .tc main_arg12) = (m ((c : Thread nD τ).loc main_arg12)) :=
  (StableHlo.after_of_forall_not_mem (b := Proc.devRef .tc main_arg12) _ _ (not_written hostOps1)).trans (W2_arg12 m ρ c)
theorem W3_arg13 : W3 (F := Ideal) m ρ c (Proc.devRef .tc main_arg13) = (m ((c : Thread nD τ).loc main_arg13)) :=
  (StableHlo.after_of_forall_not_mem (b := Proc.devRef .tc main_arg13) _ _ (not_written hostOps1)).trans (W2_arg13 m ρ c)
theorem W3_arg14 : W3 (F := Ideal) m ρ c (Proc.devRef .tc main_arg14) = (m ((c : Thread nD τ).loc main_arg14)) :=
  (StableHlo.after_of_forall_not_mem (b := Proc.devRef .tc main_arg14) _ _ (not_written hostOps1)).trans (W2_arg14 m ρ c)
theorem W3_arg15 : W3 (F := Ideal) m ρ c (Proc.devRef .tc main_arg15) = (m ((c : Thread nD τ).loc main_arg15)) :=
  (StableHlo.after_of_forall_not_mem (b := Proc.devRef .tc main_arg15) _ _ (not_written hostOps1)).trans (W2_arg15 m ρ c)
theorem W3_arg16 : W3 (F := Ideal) m ρ c (Proc.devRef .tc main_arg16) = (m ((c : Thread nD τ).loc main_arg16)) :=
  (StableHlo.after_of_forall_not_mem (b := Proc.devRef .tc main_arg16) _ _ (not_written hostOps1)).trans (W2_arg16 m ρ c)
theorem W3_arg17 : W3 (F := Ideal) m ρ c (Proc.devRef .tc main_arg17) = (m ((c : Thread nD τ).loc main_arg17)) :=
  (StableHlo.after_of_forall_not_mem (b := Proc.devRef .tc main_arg17) _ _ (not_written hostOps1)).trans (W2_arg17 m ρ c)
theorem W3_arg18 : W3 (F := Ideal) m ρ c (Proc.devRef .tc main_arg18) = (m ((c : Thread nD τ).loc main_arg18)) :=
  (StableHlo.after_of_forall_not_mem (b := Proc.devRef .tc main_arg18) _ _ (not_written hostOps1)).trans (W2_arg18 m ρ c)
theorem W3_arg19 : W3 (F := Ideal) m ρ c (Proc.devRef .tc main_arg19) = (m ((c : Thread nD τ).loc main_arg19)) :=
  (StableHlo.after_of_forall_not_mem (b := Proc.devRef .tc main_arg19) _ _ (not_written hostOps1)).trans (W2_arg19 m ρ c)
theorem W3_arg20 : W3 (F := Ideal) m ρ c (Proc.devRef .tc main_arg20) = (m ((c : Thread nD τ).loc main_arg20)) :=
  (StableHlo.after_of_forall_not_mem (b := Proc.devRef .tc main_arg20) _ _ (not_written hostOps1)).trans (W2_arg20 m ρ c)
theorem W3_arg21 : W3 (F := Ideal) m ρ c (Proc.devRef .tc main_arg21) = (m ((c : Thread nD τ).loc main_arg21)) :=
  (StableHlo.after_of_forall_not_mem (b := Proc.devRef .tc main_arg21) _ _ (not_written hostOps1)).trans (W2_arg21 m ρ c)
theorem W3_arg22 : W3 (F := Ideal) m ρ c (Proc.devRef .tc main_arg22) = (m ((c : Thread nD τ).loc main_arg22)) :=
  (StableHlo.after_of_forall_not_mem (b := Proc.devRef .tc main_arg22) _ _ (not_written hostOps1)).trans (W2_arg22 m ρ c)
theorem W3_arg23 : W3 (F := Ideal) m ρ c (Proc.devRef .tc main_arg23) = (m ((c : Thread nD τ).loc main_arg23)) :=
  (StableHlo.after_of_forall_not_mem (b := Proc.devRef .tc main_arg23) _ _ (not_written hostOps1)).trans (W2_arg23 m ρ c)

/-! ## At the second region's exit -/

theorem W4_arg2 : W4 (F := Ideal) m ρ c (Proc.devRef .tc main_arg2) = (m ((c : Thread nD τ).loc main_arg2)) :=
  (W4_of_ne m ρ c main_arg2 (by decide)).trans (W3_arg2 m ρ c)
theorem W4_arg3 : W4 (F := Ideal) m ρ c (Proc.devRef .tc main_arg3) = (m ((c : Thread nD τ).loc main_arg3)) :=
  (W4_of_ne m ρ c main_arg3 (by decide)).trans (W3_arg3 m ρ c)
theorem W4_arg12 : W4 (F := Ideal) m ρ c (Proc.devRef .tc main_arg12) = (m ((c : Thread nD τ).loc main_arg12)) :=
  (W4_of_ne m ρ c main_arg12 (by decide)).trans (W3_arg12 m ρ c)
theorem W4_arg13 : W4 (F := Ideal) m ρ c (Proc.devRef .tc main_arg13) = (m ((c : Thread nD τ).loc main_arg13)) :=
  (W4_of_ne m ρ c main_arg13 (by decide)).trans (W3_arg13 m ρ c)
theorem W4_arg14 : W4 (F := Ideal) m ρ c (Proc.devRef .tc main_arg14) = (m ((c : Thread nD τ).loc main_arg14)) :=
  (W4_of_ne m ρ c main_arg14 (by decide)).trans (W3_arg14 m ρ c)
theorem W4_arg15 : W4 (F := Ideal) m ρ c (Proc.devRef .tc main_arg15) = (m ((c : Thread nD τ).loc main_arg15)) :=
  (W4_of_ne m ρ c main_arg15 (by decide)).trans (W3_arg15 m ρ c)
theorem W4_arg16 : W4 (F := Ideal) m ρ c (Proc.devRef .tc main_arg16) = (m ((c : Thread nD τ).loc main_arg16)) :=
  (W4_of_ne m ρ c main_arg16 (by decide)).trans (W3_arg16 m ρ c)
theorem W4_arg17 : W4 (F := Ideal) m ρ c (Proc.devRef .tc main_arg17) = (m ((c : Thread nD τ).loc main_arg17)) :=
  (W4_of_ne m ρ c main_arg17 (by decide)).trans (W3_arg17 m ρ c)
theorem W4_arg18 : W4 (F := Ideal) m ρ c (Proc.devRef .tc main_arg18) = (m ((c : Thread nD τ).loc main_arg18)) :=
  (W4_of_ne m ρ c main_arg18 (by decide)).trans (W3_arg18 m ρ c)
theorem W4_arg19 : W4 (F := Ideal) m ρ c (Proc.devRef .tc main_arg19) = (m ((c : Thread nD τ).loc main_arg19)) :=
  (W4_of_ne m ρ c main_arg19 (by decide)).trans (W3_arg19 m ρ c)
theorem W4_arg20 : W4 (F := Ideal) m ρ c (Proc.devRef .tc main_arg20) = (m ((c : Thread nD τ).loc main_arg20)) :=
  (W4_of_ne m ρ c main_arg20 (by decide)).trans (W3_arg20 m ρ c)
theorem W4_arg21 : W4 (F := Ideal) m ρ c (Proc.devRef .tc main_arg21) = (m ((c : Thread nD τ).loc main_arg21)) :=
  (W4_of_ne m ρ c main_arg21 (by decide)).trans (W3_arg21 m ρ c)
theorem W4_arg22 : W4 (F := Ideal) m ρ c (Proc.devRef .tc main_arg22) = (m ((c : Thread nD τ).loc main_arg22)) :=
  (W4_of_ne m ρ c main_arg22 (by decide)).trans (W3_arg22 m ρ c)
theorem W4_arg23 : W4 (F := Ideal) m ρ c (Proc.devRef .tc main_arg23) = (m ((c : Thread nD τ).loc main_arg23)) :=
  (W4_of_ne m ρ c main_arg23 (by decide)).trans (W3_arg23 m ρ c)

/-! ## After the third stretch -/

set_option maxHeartbeats 4000000 in
/-- The pooled rows are the shared pooling chain applied to the second region's output array. -/
theorem W5_v43 : W5 (F := Ideal) m ρ c (Proc.devRef .tc main_v43)
    = Cert.ReferenceIdeal.Chains.pool (F := Ideal) (W4 (F := Ideal) m ρ c (Proc.devRef .tc main_v31)) (m ((c : Thread nD τ).loc main_arg2)) := by
  show StableHlo.after hostOps2 (W4 (F := Ideal) m ρ c) (Proc.devRef .tc main_v43) = _
  after_results
  rw [W4_arg2]
  rfl

set_option maxHeartbeats 4000000 in
/-- The decoder's six bias vectors, viewed as rows. -/
theorem W5_v44 : W5 (F := Ideal) m ρ c (Proc.devRef .tc main_v44) = shapeCast S1x64 (m ((c : Thread nD τ).loc main_arg13)) shapeCasts_S64_S1x64 := by
  show StableHlo.after hostOps2 (W4 (F := Ideal) m ρ c) (Proc.devRef .tc main_v44) = _
  after_results
  rw [W4_arg13]
  rfl
set_option maxHeartbeats 4000000 in
theorem W5_v45 : W5 (F := Ideal) m ρ c (Proc.devRef .tc main_v45) = shapeCast S1x64 (m ((c : Thread nD τ).loc main_arg15)) shapeCasts_S64_S1x64 := by
  show StableHlo.after hostOps2 (W4 (F := Ideal) m ρ c) (Proc.devRef .tc main_v45) = _
  after_results
  rw [W4_arg15]
  rfl
set_option maxHeartbeats 4000000 in
theorem W5_v46 : W5 (F := Ideal) m ρ c (Proc.devRef .tc main_v46) = shapeCast S1x128 (m ((c : Thread nD τ).loc main_arg17)) shapeCasts_S128_S1x128 := by
  show StableHlo.after hostOps2 (W4 (F := Ideal) m ρ c) (Proc.devRef .tc main_v46) = _
  after_results
  rw [W4_arg17]
  rfl
set_option maxHeartbeats 4000000 in
theorem W5_v47 : W5 (F := Ideal) m ρ c (Proc.devRef .tc main_v47) = shapeCast S1x128 (m ((c : Thread nD τ).loc main_arg19)) shapeCasts_S128_S1x128 := by
  show StableHlo.after hostOps2 (W4 (F := Ideal) m ρ c) (Proc.devRef .tc main_v47) = _
  after_results
  rw [W4_arg19]
  rfl
set_option maxHeartbeats 4000000 in
theorem W5_v48 : W5 (F := Ideal) m ρ c (Proc.devRef .tc main_v48) = shapeCast S1x1600 (m ((c : Thread nD τ).loc main_arg21)) shapeCasts_S1600_S1x1600 := by
  show StableHlo.after hostOps2 (W4 (F := Ideal) m ρ c) (Proc.devRef .tc main_v48) = _
  after_results
  rw [W4_arg21]
  rfl
set_option maxHeartbeats 4000000 in
theorem W5_v49 : W5 (F := Ideal) m ρ c (Proc.devRef .tc main_v49) = shapeCast S1x10000 (m ((c : Thread nD τ).loc main_arg23)) shapeCasts_S10000_S1x10000 := by
  show StableHlo.after hostOps2 (W4 (F := Ideal) m ρ c) (Proc.devRef .tc main_v49) = _
  after_results
  rw [W4_arg23]
  rfl
theorem W5_arg3 : W5 (F := Ideal) m ρ c (Proc.devRef .tc main_arg3) = (m ((c : Thread nD τ).loc main_arg3)) :=
  (StableHlo.after_of_forall_not_mem (b := Proc.devRef .tc main_arg3) _ _ (not_written hostOps2)).trans (W4_arg3 m ρ c)
theorem W5_arg12 : W5 (F := Ideal) m ρ c (Proc.devRef .tc main_arg12) = (m ((c : Thread nD τ).loc main_arg12)) :=
  (StableHlo.after_of_forall_not_mem (b := Proc.devRef .tc main_arg12) _ _ (not_written hostOps2)).trans (W4_arg12 m ρ c)
theorem W5_arg14 : W5 (F := Ideal) m ρ c (Proc.devRef .tc main_arg14) = (m ((c : Thread nD τ).loc main_arg14)) :=
  (StableHlo.after_of_forall_not_mem (b := Proc.devRef .tc main_arg14) _ _ (not_written hostOps2)).trans (W4_arg14 m ρ c)
theorem W5_arg16 : W5 (F := Ideal) m ρ c (Proc.devRef .tc main_arg16) = (m ((c : Thread nD τ).loc main_arg16)) :=
  (StableHlo.after_of_forall_not_mem (b := Proc.devRef .tc main_arg16) _ _ (not_written hostOps2)).trans (W4_arg16 m ρ c)
theorem W5_arg18 : W5 (F := Ideal) m ρ c (Proc.devRef .tc main_arg18) = (m ((c : Thread nD τ).loc main_arg18)) :=
  (StableHlo.after_of_forall_not_mem (b := Proc.devRef .tc main_arg18) _ _ (not_written hostOps2)).trans (W4_arg18 m ρ c)
theorem W5_arg20 : W5 (F := Ideal) m ρ c (Proc.devRef .tc main_arg20) = (m ((c : Thread nD τ).loc main_arg20)) :=
  (StableHlo.after_of_forall_not_mem (b := Proc.devRef .tc main_arg20) _ _ (not_written hostOps2)).trans (W4_arg20 m ρ c)
theorem W5_arg22 : W5 (F := Ideal) m ρ c (Proc.devRef .tc main_arg22) = (m ((c : Thread nD τ).loc main_arg22)) :=
  (StableHlo.after_of_forall_not_mem (b := Proc.devRef .tc main_arg22) _ _ (not_written hostOps2)).trans (W4_arg22 m ρ c)

/-! ## The four stretches after the decoder region -/

set_option maxHeartbeats 4000000 in
/-- The node features are the shared softmax chain applied to the decoder's first output array; the later stretches
    do not write them. -/
theorem W10_v62 : W10 (F := Ideal) m ρ c (Proc.devRef .tc main_v62)
    = Cert.ReferenceIdeal.Chains.nodeSoftmax (F := Ideal) (W6 (F := Ideal) m ρ c (Proc.devRef .tc main_v50_0)) := by
  have h7 : W7 (F := Ideal) m ρ c (Proc.devRef .tc main_v62)
      = Cert.ReferenceIdeal.Chains.nodeSoftmax (F := Ideal) (W6 (F := Ideal) m ρ c (Proc.devRef .tc main_v50_0)) := by
    show StableHlo.after hostOps3 (W6 (F := Ideal) m ρ c) (Proc.devRef .tc main_v62) = _
    after_results
    rfl
  exact ((StableHlo.after_of_forall_not_mem (b := Proc.devRef .tc main_v62) _ _ (not_written hostOps3_3)).trans
    ((StableHlo.after_of_forall_not_mem (b := Proc.devRef .tc main_v62) _ _ (not_written hostOps3_2)).trans
      (StableHlo.after_of_forall_not_mem (b := Proc.devRef .tc main_v62) _ _ (not_written hostOps3_1)))).trans h7

/-- mu and the log-variance are written by no stretch after the decoder region. -/
theorem W10_v50_2 : W10 (F := Ideal) m ρ c (Proc.devRef .tc main_v50_2) = W6 (F := Ideal) m ρ c (Proc.devRef .tc main_v50_2) :=
  (StableHlo.after_of_forall_not_mem (b := Proc.devRef .tc main_v50_2) _ _ (not_written hostOps3_3)).trans
    ((StableHlo.after_of_forall_not_mem (b := Proc.devRef .tc main_v50_2) _ _ (not_written hostOps3_2)).trans
      ((StableHlo.after_of_forall_not_mem (b := Proc.devRef .tc main_v50_2) _ _ (not_written hostOps3_1)).trans
        (StableHlo.after_of_forall_not_mem (b := Proc.devRef .tc main_v50_2) _ _ (not_written hostOps3))))
theorem W10_v50_3 : W10 (F := Ideal) m ρ c (Proc.devRef .tc main_v50_3) = W6 (F := Ideal) m ρ c (Proc.devRef .tc main_v50_3) :=
  (StableHlo.after_of_forall_not_mem (b := Proc.devRef .tc main_v50_3) _ _ (not_written hostOps3_3)).trans
    ((StableHlo.after_of_forall_not_mem (b := Proc.devRef .tc main_v50_3) _ _ (not_written hostOps3_2)).trans
      ((StableHlo.after_of_forall_not_mem (b := Proc.devRef .tc main_v50_3) _ _ (not_written hostOps3_1)).trans
        (StableHlo.after_of_forall_not_mem (b := Proc.devRef .tc main_v50_3) _ _ (not_written hostOps3))))

set_option maxHeartbeats 4000000 in
/-- The adjacency is the shared symmetrize-mask-clip chain applied to the decoder's second output array. -/
theorem W10_v75 : W10 (F := Ideal) m ρ c (Proc.devRef .tc main_v75)
    = Cert.ReferenceIdeal.Chains.adjTail (F := Ideal) (W6 (F := Ideal) m ρ c (Proc.devRef .tc main_v50_1)) := by
  show StableHlo.after hostOps3_3 (W9 (F := Ideal) m ρ c) (Proc.devRef .tc main_v75) = _
  after_results
  rfl

end Cert.KernelIdeal.Fold

end
-- ==== Proof.Spec.lean ====
/-
  The mathematics both programs compute, row by row, over the extended reals.

  A dense layer sends a row x to x·w + b: entry q of the result is the sum over k of x k * w k q, plus b q.
  A graph-isomorphism layer's update of one node is two dense layers, each followed by max(·, 0).
  The decoder of one graph: from the pooled row, mu and the clipped log-variance are two dense layers;
  the latent row is mu + eps * exp(logvar / 2); two more dense layers (the first followed by max(·, 0)) give the
  hidden row, and two dense layers of it give the node logits and the adjacency logits.
  Every function here reads row p of its result from row p of its first argument only (`*_row`): this is what lets
  a program that works on blocks of rows agree with one that works on all rows at once.
-/
import Idealize.ShloMosaic.PureOps.Ideal

noncomputable section

open scoped BigOperators

namespace Cert.Spec

open Idealize.ShloMosaic

/-- The f32 zero word's value (the literal both programs compare against in max(·, 0)). -/
abbrev zero32 : EReal := Ideal.ofBits .f32 0x00000000#32
/-- The clip bounds -5 and 5 and the factor 1/2, as the f32 words both programs carry. -/
abbrev neg5 : EReal := Ideal.ofBits .f32 0xC0A00000#32
abbrev pos5 : EReal := Ideal.ofBits .f32 0x40A00000#32
abbrev half : EReal := Ideal.ofBits .f32 0x3F000000#32

variable {R R' K H N : ℕ}

/-- A dense layer: row p of x times w, plus the bias. -/
def dense (x : Fin R → Fin K → EReal) (w : Fin K → Fin N → EReal) (b : Fin N → EReal) : Fin R → Fin N → EReal :=
  fun p q => (∑ k : Fin K, x p k * w k q) + b q

/-- max(·, 0), entry by entry. -/
def relu (y : Fin R → Fin N → EReal) : Fin R → Fin N → EReal := fun p q => max (y p q) zero32

/-- One graph-isomorphism layer's update: max(max(x·w1 + b1, 0)·w2 + b2, 0). -/
def gin (x : Fin R → Fin K → EReal) (w1 : Fin K → Fin H → EReal) (b1 : Fin H → EReal)
    (w2 : Fin H → Fin N → EReal) (b2 : Fin N → EReal) : Fin R → Fin N → EReal :=
  relu (dense (relu (dense x w1 b1)) w2 b2)

/-- The clipped log-variance: min(5, max(-5, x·w + b)). -/
def logvar (x : Fin R → Fin K → EReal) (w : Fin K → Fin N → EReal) (b : Fin N → EReal) : Fin R → Fin N → EReal :=
  fun p q => min pos5 (max neg5 (dense x w b p q))

/-- The latent row: mu + eps * exp(logvar / 2). -/
def latent (x : Fin R → Fin K → EReal) (eps : Fin R → Fin N → EReal) (wmu : Fin K → Fin N → EReal) (bmu : Fin N → EReal)
    (wlv : Fin K → Fin N → EReal) (blv : Fin N → EReal) : Fin R → Fin N → EReal :=
  fun p q => dense x wmu bmu p q + eps p q * Ideal.exp (half * logvar x wlv blv p q)

/-- The decoder's hidden row: max(z·wd1 + bd1, 0)·wd2 + bd2. -/
def hidden {L : ℕ} (z : Fin R → Fin L → EReal) (wd1 : Fin L → Fin H → EReal) (bd1 : Fin H → EReal)
    (wd2 : Fin H → Fin N → EReal) (bd2 : Fin N → EReal) : Fin R → Fin N → EReal :=
  dense (relu (dense z wd1 bd1)) wd2 bd2

/-! ## Rows -/

/-- Row p of a dense layer depends on row p of its input only. -/
theorem dense_row {x : Fin R → Fin K → EReal} {x' : Fin R' → Fin K → EReal} {p : Fin R} {p' : Fin R'}
    (h : ∀ k, x p k = x' p' k) (w : Fin K → Fin N → EReal) (b : Fin N → EReal) (q : Fin N) :
    dense x w b p q = dense x' w b p' q := by
  unfold dense
  exact congrArg (· + b q) (Finset.sum_congr rfl fun k _ => by rw [h k])

theorem relu_row {y : Fin R → Fin N → EReal} {y' : Fin R' → Fin N → EReal} {p : Fin R} {p' : Fin R'}
    (h : ∀ q, y p q = y' p' q) (q : Fin N) : relu y p q = relu y' p' q := by
  unfold relu; rw [h q]

theorem gin_row {x : Fin R → Fin K → EReal} {x' : Fin R' → Fin K → EReal} {p : Fin R} {p' : Fin R'}
    (h : ∀ k, x p k = x' p' k) (w1 : Fin K → Fin H → EReal) (b1 : Fin H → EReal)
    (w2 : Fin H → Fin N → EReal) (b2 : Fin N → EReal) (q : Fin N) :
    gin x w1 b1 w2 b2 p q = gin x' w1 b1 w2 b2 p' q :=
  relu_row (fun q => dense_row (fun k => relu_row (fun k => dense_row h w1 b1 k) k) w2 b2 q) q

theorem logvar_row {x : Fin R → Fin K → EReal} {x' : Fin R' → Fin K → EReal} {p : Fin R} {p' : Fin R'}
    (h : ∀ k, x p k = x' p' k) (w : Fin K → Fin N → EReal) (b : Fin N → EReal) (q : Fin N) :
    logvar x w b p q = logvar x' w b p' q := by
  unfold logvar; rw [dense_row h w b q]

theorem latent_row {x : Fin R → Fin K → EReal} {x' : Fin R' → Fin K → EReal} {eps : Fin R → Fin N → EReal}
    {eps' : Fin R' → Fin N → EReal} {p : Fin R} {p' : Fin R'} (h : ∀ k, x p k = x' p' k) (he : ∀ q, eps p q = eps' p' q)
    (wmu : Fin K → Fin N → EReal) (bmu : Fin N → EReal) (wlv : Fin K → Fin N → EReal) (blv : Fin N → EReal) (q : Fin N) :
    latent x eps wmu bmu wlv blv p q = latent x' eps' wmu bmu wlv blv p' q := by
  unfold latent; rw [dense_row h wmu bmu q, logvar_row h wlv blv q, he q]

theorem hidden_row {L : ℕ} {z : Fin R → Fin L → EReal} {z' : Fin R' → Fin L → EReal} {p : Fin R} {p' : Fin R'}
    (h : ∀ k, z p k = z' p' k) (wd1 : Fin L → Fin H → EReal) (bd1 : Fin H → EReal)
    (wd2 : Fin H → Fin N → EReal) (bd2 : Fin N → EReal) (q : Fin N) :
    hidden z wd1 bd1 wd2 bd2 p q = hidden z' wd1 bd1 wd2 bd2 p' q :=
  dense_row (fun k => relu_row (fun k => dense_row h wd1 bd1 k) k) wd2 bd2 q

end Cert.Spec

end
-- ==== Proof.RefRead.lean ====
/-
  The reference's dense layers, read at an entry, over the extended reals.

  The reference applies every dense layer to all rows at once: a host matrix product, the bias spread along the rows,
  max(·, 0) where the model has one. Over the extended reals the host's product at (P, q) is the sum over k of
  l (P, k) * r (k, q), so at entry (P, q) each stage is the row function of Spec applied to row P of the stage's
  input. The pooling, the softmax of the node logits and the symmetrized, clipped adjacency are the host chains of
  HostChains applied to these stages.
-/
import proofs.«123664_j28810640621902_1_alg».proof.Proof.Gen.ReferenceIdeal.Read
import proofs.«123664_j28810640621902_1_alg».proof.Proof.HostChains
import proofs.«123664_j28810640621902_1_alg».proof.Proof.Spec
import Idealize.ShloMosaic.Lib.Pipeline.Value
import Idealize.ShloMosaic.Lib.ValueIdx
import Idealize.ShloMosaic.Lib.ValueLayout
import Idealize.ShloMosaic.PureOps.Ideal.Laws

noncomputable section

namespace Cert.ReferenceIdeal.RefValue

open Cert.ReferenceIdeal Cert.ReferenceIdeal.Read Cert.ReferenceIdeal.Chains Idealize.ShloMosaic Idealize.ShloMosaic.ValueIdx Cert.Spec

variable (x0 : (⟨S50000x16, .f32⟩ : BufTy).Contents (Elt Ideal)) (x1 : (⟨S2x640000, .i32⟩ : BufTy).Contents (Elt Ideal)) (x2 : (⟨S50000, .i32⟩ : BufTy).Contents (Elt Ideal)) (x3 : (⟨S256x64, .f32⟩ : BufTy).Contents (Elt Ideal))
  (x4 : (⟨S16x128, .f32⟩ : BufTy).Contents (Elt Ideal)) (x5 : (⟨S128, .f32⟩ : BufTy).Contents (Elt Ideal)) (x6 : (⟨S128x128, .f32⟩ : BufTy).Contents (Elt Ideal)) (x7 : (⟨S128, .f32⟩ : BufTy).Contents (Elt Ideal))
  (x8 : (⟨S128x128, .f32⟩ : BufTy).Contents (Elt Ideal)) (x9 : (⟨S128, .f32⟩ : BufTy).Contents (Elt Ideal)) (x10 : (⟨S128x128, .f32⟩ : BufTy).Contents (Elt Ideal)) (x11 : (⟨S128, .f32⟩ : BufTy).Contents (Elt Ideal))
  (x12 : (⟨S128x64, .f32⟩ : BufTy).Contents (Elt Ideal)) (x13 : (⟨S64, .f32⟩ : BufTy).Contents (Elt Ideal)) (x14 : (⟨S128x64, .f32⟩ : BufTy).Contents (Elt Ideal)) (x15 : (⟨S64, .f32⟩ : BufTy).Contents (Elt Ideal))
  (x16 : (⟨S64x128, .f32⟩ : BufTy).Contents (Elt Ideal)) (x17 : (⟨S128, .f32⟩ : BufTy).Contents (Elt Ideal)) (x18 : (⟨S128x128, .f32⟩ : BufTy).Contents (Elt Ideal)) (x19 : (⟨S128, .f32⟩ : BufTy).Contents (Elt Ideal))
  (x20 : (⟨S128x1600, .f32⟩ : BufTy).Contents (Elt Ideal)) (x21 : (⟨S1600, .f32⟩ : BufTy).Contents (Elt Ideal)) (x22 : (⟨S128x10000, .f32⟩ : BufTy).Contents (Elt Ideal)) (x23 : (⟨S10000, .f32⟩ : BufTy).Contents (Elt Ideal))

/-- Two indices of rank one (of rank two) are equal when their coordinates are: the coordinates compute. -/
local macro "same_idx1" : tactic =>
  `(tactic| exact funext fun a => Fin.ext (by match a with | ⟨0, _⟩ => rfl))
local macro "same_idx2" : tactic =>
  `(tactic| exact funext fun a => Fin.ext (by match a with | ⟨0, _⟩ => rfl | ⟨1, _⟩ => rfl))

/-! ## The first layer -/

/-- The first product plus its bias at (P, q): the dense layer of row P of the aggregated features. -/
theorem v18_at (P : Fin 50000) (q : Fin 128) :
    val_main_v18 (F := Ideal) x0 x1 x4 x5 (ix2 P q)
      = dense (fun (P : Fin 50000) (k : Fin 16) => (val_main_v14 (F := Ideal) x0 x1 (ix2 P k) : EReal))
          (fun (j : Fin 16) (k : Fin 128) => (x4 (ix2 j k) : EReal)) (fun (k : Fin 128) => (x5 (ix1 k) : EReal)) P q := by
  have hb : idx_main_v16 (idx_main_v17 (ix2 P q)) = ix1 q := by same_idx1
  have hl : ∀ k : Fin 16, lidx_main_v15 (ix2 P q) k = ix2 P k := fun k => by same_idx2
  have hr : ∀ k : Fin 16, ridx_main_v15 (ix2 P q) k = ix2 k q := fun k => by same_idx2
  rw [val_main_v18_apply, val_main_v15_apply, val_main_v17_apply, val_main_v16_apply]
  simp only [hb, hl, hr, Ideal.addf_def]
  rfl

/-- max(·, 0) of it: the reference compares with the zero word spread over the array. -/
theorem v19_at (P : Fin 50000) (q : Fin 128) :
    val_main_v19 (F := Ideal) x0 x1 x4 x5 (ix2 P q)
      = relu (dense (fun (P : Fin 50000) (k : Fin 16) => (val_main_v14 (F := Ideal) x0 x1 (ix2 P k) : EReal))
          (fun (j : Fin 16) (k : Fin 128) => (x4 (ix2 j k) : EReal)) (fun (k : Fin 128) => (x5 (ix1 k) : EReal))) P q := by
  rw [val_main_v19_apply, val_main_call0_v0_apply, val_main_call0_cst_apply, v18_at]
  rfl

/-- The second product plus its bias at (P, q): the dense layer of row P of the stage before. -/
theorem v23_at (P : Fin 50000) (q : Fin 128) :
    val_main_v23 (F := Ideal) x0 x1 x4 x5 x6 x7 (ix2 P q)
      = dense (relu (dense (fun (P : Fin 50000) (k : Fin 16) => (val_main_v14 (F := Ideal) x0 x1 (ix2 P k) : EReal))
          (fun (j : Fin 16) (k : Fin 128) => (x4 (ix2 j k) : EReal)) (fun (k : Fin 128) => (x5 (ix1 k) : EReal))))
          (fun (k : Fin 128) (q : Fin 128) => (x6 (ix2 k q) : EReal)) (fun (q : Fin 128) => (x7 (ix1 q) : EReal)) P q := by
  have hb : idx_main_v21 (idx_main_v22 (ix2 P q)) = ix1 q := by same_idx1
  have hl : ∀ k : Fin 128, lidx_main_v20 (ix2 P q) k = ix2 P k := fun k => by same_idx2
  have hr : ∀ k : Fin 128, ridx_main_v20 (ix2 P q) k = ix2 k q := fun k => by same_idx2
  rw [val_main_v23_apply, val_main_v20_apply, val_main_v22_apply, val_main_v21_apply]
  simp only [hb, hl, hr, v19_at, Ideal.addf_def]
  rfl

/-- The first layer's result at (P, q): the layer's update of row P of the aggregated features. -/
theorem v24_apply (P : Fin 50000) (q : Fin 128) :
    val_main_v24 (F := Ideal) x0 x1 x4 x5 x6 x7 (ix2 P q)
      = gin (fun (P : Fin 50000) (k : Fin 16) => (val_main_v14 (F := Ideal) x0 x1 (ix2 P k) : EReal))
          (fun (j : Fin 16) (k : Fin 128) => (x4 (ix2 j k) : EReal)) (fun (k : Fin 128) => (x5 (ix1 k) : EReal))
          (fun (k : Fin 128) (q : Fin 128) => (x6 (ix2 k q) : EReal)) (fun (q : Fin 128) => (x7 (ix1 q) : EReal)) P q := by
  rw [val_main_v24_apply, val_main_call1_v0_apply, val_main_call1_cst_apply, v23_at]
  rfl

/-! ## The second layer -/

/-- The first product plus its bias at (P, q): the dense layer of row P of the aggregated first-layer rows. -/
theorem v39_at (P : Fin 50000) (q : Fin 128) :
    val_main_v39 (F := Ideal) x0 x1 x4 x5 x6 x7 x8 x9 (ix2 P q)
      = dense (fun (P : Fin 50000) (k : Fin 128) => (val_main_v35 (F := Ideal) x0 x1 x4 x5 x6 x7 (ix2 P k) : EReal))
          (fun (j : Fin 128) (k : Fin 128) => (x8 (ix2 j k) : EReal)) (fun (k : Fin 128) => (x9 (ix1 k) : EReal)) P q := by
  have hb : idx_main_v37 (idx_main_v38 (ix2 P q)) = ix1 q := by same_idx1
  have hl : ∀ k : Fin 128, lidx_main_v36 (ix2 P q) k = ix2 P k := fun k => by same_idx2
  have hr : ∀ k : Fin 128, ridx_main_v36 (ix2 P q) k = ix2 k q := fun k => by same_idx2
  rw [val_main_v39_apply, val_main_v36_apply, val_main_v38_apply, val_main_v37_apply]
  simp only [hb, hl, hr, Ideal.addf_def]
  rfl

/-- max(·, 0) of it. -/
theorem v40_at (P : Fin 50000) (q : Fin 128) :
    val_main_v40 (F := Ideal) x0 x1 x4 x5 x6 x7 x8 x9 (ix2 P q)
      = relu (dense (fun (P : Fin 50000) (k : Fin 128) => (val_main_v35 (F := Ideal) x0 x1 x4 x5 x6 x7 (ix2 P k) : EReal))
          (fun (j : Fin 128) (k : Fin 128) => (x8 (ix2 j k) : EReal)) (fun (k : Fin 128) => (x9 (ix1 k) : EReal))) P q := by
  rw [val_main_v40_apply, val_main_call2_v0_apply, val_main_call2_cst_apply, v39_at]
  rfl

/-- The second product plus its bias at (P, q). -/
theorem v44_at (P : Fin 50000) (q : Fin 128) :
    val_main_v44 (F := Ideal) x0 x1 x4 x5 x6 x7 x8 x9 x10 x11 (ix2 P q)
      = dense (relu (dense (fun (P : Fin 50000) (k : Fin 128) => (val_main_v35 (F := Ideal) x0 x1 x4 x5 x6 x7 (ix2 P k) : EReal))
          (fun (j : Fin 128) (k : Fin 128) => (x8 (ix2 j k) : EReal)) (fun (k : Fin 128) => (x9 (ix1 k) : EReal))))
          (fun (k : Fin 128) (q : Fin 128) => (x10 (ix2 k q) : EReal)) (fun (q : Fin 128) => (x11 (ix1 q) : EReal)) P q := by
  have hb : idx_main_v42 (idx_main_v43 (ix2 P q)) = ix1 q := by same_idx1
  have hl : ∀ k : Fin 128, lidx_main_v41 (ix2 P q) k = ix2 P k := fun k => by same_idx2
  have hr : ∀ k : Fin 128, ridx_main_v41 (ix2 P q) k = ix2 k q := fun k => by same_idx2
  rw [val_main_v44_apply, val_main_v41_apply, val_main_v43_apply, val_main_v42_apply]
  simp only [hb, hl, hr, v40_at, Ideal.addf_def]
  rfl

/-- The second layer's result at (P, q). -/
theorem v45_apply (P : Fin 50000) (q : Fin 128) :
    val_main_v45 (F := Ideal) x0 x1 x4 x5 x6 x7 x8 x9 x10 x11 (ix2 P q)
      = gin (fun (P : Fin 50000) (k : Fin 128) => (val_main_v35 (F := Ideal) x0 x1 x4 x5 x6 x7 (ix2 P k) : EReal))
          (fun (j : Fin 128) (k : Fin 128) => (x8 (ix2 j k) : EReal)) (fun (k : Fin 128) => (x9 (ix1 k) : EReal))
          (fun (k : Fin 128) (q : Fin 128) => (x10 (ix2 k q) : EReal)) (fun (q : Fin 128) => (x11 (ix1 q) : EReal)) P q := by
  rw [val_main_v45_apply, val_main_call3_v0_apply, val_main_call3_cst_apply, v44_at]
  rfl

/-- The pooled rows (the stage the decoder's layers read). -/
abbrev pooled : (⟨S256x128, .f32⟩ : BufTy).Contents (Elt Ideal) := val_main_v57 (F := Ideal) x0 x1 x2 x4 x5 x6 x7 x8 x9 x10 x11

/-- The decoder's hidden rows of the pooled rows and the noise x3. -/
def hid : Fin 256 → Fin 128 → EReal :=
  hidden (latent (fun (g : Fin 256) (k : Fin 128) => (pooled x0 x1 x2 x4 x5 x6 x7 x8 x9 x10 x11 (ix2 g k) : EReal))
      (fun (g : Fin 256) (k : Fin 64) => (x3 (ix2 g k) : EReal))
      (fun (k : Fin 128) (q : Fin 64) => (x12 (ix2 k q) : EReal)) (fun (q : Fin 64) => (x13 (ix1 q) : EReal))
      (fun (k : Fin 128) (q : Fin 64) => (x14 (ix2 k q) : EReal)) (fun (q : Fin 64) => (x15 (ix1 q) : EReal)))
    (fun (k : Fin 64) (q : Fin 128) => (x16 (ix2 k q) : EReal)) (fun (q : Fin 128) => (x17 (ix1 q) : EReal))
    (fun (k : Fin 128) (q : Fin 128) => (x18 (ix2 k q) : EReal)) (fun (q : Fin 128) => (x19 (ix1 q) : EReal))

/-- mu at (g, q). -/
theorem v61_apply (g : Fin 256) (q : Fin 64) :
    val_main_v61 (F := Ideal) x0 x1 x2 x4 x5 x6 x7 x8 x9 x10 x11 x12 x13 (ix2 g q)
      = dense (fun (g : Fin 256) (k : Fin 128) => (pooled x0 x1 x2 x4 x5 x6 x7 x8 x9 x10 x11 (ix2 g k) : EReal))
          (fun (k : Fin 128) (q : Fin 64) => (x12 (ix2 k q) : EReal)) (fun (q : Fin 64) => (x13 (ix1 q) : EReal)) g q := by
  have hb : idx_main_v59 (idx_main_v60 (ix2 g q)) = ix1 q := by same_idx1
  have hl : ∀ k : Fin 128, lidx_main_v58 (ix2 g q) k = ix2 g k := fun k => by same_idx2
  have hr : ∀ k : Fin 128, ridx_main_v58 (ix2 g q) k = ix2 k q := fun k => by same_idx2
  rw [val_main_v61_apply, val_main_v58_apply, val_main_v60_apply, val_main_v59_apply]
  simp only [hb, hl, hr, Ideal.addf_def]
  rfl

/-- The log-variance product plus its bias at (g, q), before the clip. -/
theorem v65_at (g : Fin 256) (q : Fin 64) :
    val_main_v65 (F := Ideal) x0 x1 x2 x4 x5 x6 x7 x8 x9 x10 x11 x14 x15 (ix2 g q)
      = dense (fun (g : Fin 256) (k : Fin 128) => (pooled x0 x1 x2 x4 x5 x6 x7 x8 x9 x10 x11 (ix2 g k) : EReal))
          (fun (k : Fin 128) (q : Fin 64) => (x14 (ix2 k q) : EReal)) (fun (q : Fin 64) => (x15 (ix1 q) : EReal)) g q := by
  have hb : idx_main_v63 (idx_main_v64 (ix2 g q)) = ix1 q := by same_idx1
  have hl : ∀ k : Fin 128, lidx_main_v62 (ix2 g q) k = ix2 g k := fun k => by same_idx2
  have hr : ∀ k : Fin 128, ridx_main_v62 (ix2 g q) k = ix2 k q := fun k => by same_idx2
  rw [val_main_v65_apply, val_main_v62_apply, val_main_v64_apply, val_main_v63_apply]
  simp only [hb, hl, hr, Ideal.addf_def]
  rfl

/-- The clipped log-variance at (g, q). -/
theorem v66_apply (g : Fin 256) (q : Fin 64) :
    val_main_v66 (F := Ideal) x0 x1 x2 x4 x5 x6 x7 x8 x9 x10 x11 x14 x15 (ix2 g q)
      = logvar (fun (g : Fin 256) (k : Fin 128) => (pooled x0 x1 x2 x4 x5 x6 x7 x8 x9 x10 x11 (ix2 g k) : EReal))
          (fun (k : Fin 128) (q : Fin 64) => (x14 (ix2 k q) : EReal)) (fun (q : Fin 64) => (x15 (ix1 q) : EReal)) g q := by
  rw [val_main_v66_apply, val_main_call4_v4_apply, val_main_call4_v3_apply, val_main_cst_9_apply, val_main_call4_v2_apply,
    val_main_call4_v1_apply, val_main_call4_v0_apply, val_main_cst_8_apply, v65_at]
  rfl

/-! ## The decoder's hidden rows -/

/-- The latent row at (g, q): mu + eps * exp(logvar / 2), the factor 1/2 being the f32 word spread over the array. -/
theorem v71_at (g : Fin 256) (q : Fin 64) :
    val_main_v71 (F := Ideal) x0 x1 x2 x3 x4 x5 x6 x7 x8 x9 x10 x11 x12 x13 x14 x15 (ix2 g q)
      = (latent (fun (g : Fin 256) (k : Fin 128) => (pooled x0 x1 x2 x4 x5 x6 x7 x8 x9 x10 x11 (ix2 g k) : EReal))
          (fun (g : Fin 256) (k : Fin 64) => (x3 (ix2 g k) : EReal))
          (fun (k : Fin 128) (q : Fin 64) => (x12 (ix2 k q) : EReal)) (fun (q : Fin 64) => (x13 (ix1 q) : EReal))
          (fun (k : Fin 128) (q : Fin 64) => (x14 (ix2 k q) : EReal)) (fun (q : Fin 64) => (x15 (ix1 q) : EReal))) g q := by
  rw [val_main_v71_apply, val_main_v70_apply, val_main_v69_apply, val_main_v68_apply, val_main_v67_apply, val_main_cst_10_apply,
    v61_apply, v66_apply]
  simp only [Ideal.addf_def, Ideal.mulf_def, Ideal.hostUnary_exp_def, Ideal.ofBits_def]
  rfl

/-- The decoder's first product plus its bias at (g, q). -/
theorem v75_at (g : Fin 256) (q : Fin 128) :
    val_main_v75 (F := Ideal) x0 x1 x2 x3 x4 x5 x6 x7 x8 x9 x10 x11 x12 x13 x14 x15 x16 x17 (ix2 g q)
      = dense (latent (fun (g : Fin 256) (k : Fin 128) => (pooled x0 x1 x2 x4 x5 x6 x7 x8 x9 x10 x11 (ix2 g k) : EReal))
          (fun (g : Fin 256) (k : Fin 64) => (x3 (ix2 g k) : EReal))
          (fun (k : Fin 128) (q : Fin 64) => (x12 (ix2 k q) : EReal)) (fun (q : Fin 64) => (x13 (ix1 q) : EReal))
          (fun (k : Fin 128) (q : Fin 64) => (x14 (ix2 k q) : EReal)) (fun (q : Fin 64) => (x15 (ix1 q) : EReal)))
          (fun (k : Fin 64) (q : Fin 128) => (x16 (ix2 k q) : EReal)) (fun (q : Fin 128) => (x17 (ix1 q) : EReal)) g q := by
  have hb : idx_main_v73 (idx_main_v74 (ix2 g q)) = ix1 q := by same_idx1
  have hl : ∀ k : Fin 64, lidx_main_v72 (ix2 g q) k = ix2 g k := fun k => by same_idx2
  have hr : ∀ k : Fin 64, ridx_main_v72 (ix2 g q) k = ix2 k q := fun k => by same_idx2
  rw [val_main_v75_apply, val_main_v72_apply, val_main_v74_apply, val_main_v73_apply]
  simp only [hb, hl, hr, v71_at, Ideal.addf_def]
  rfl

/-- max(·, 0) of it. -/
theorem v76_at (g : Fin 256) (q : Fin 128) :
    val_main_v76 (F := Ideal) x0 x1 x2 x3 x4 x5 x6 x7 x8 x9 x10 x11 x12 x13 x14 x15 x16 x17 (ix2 g q)
      = relu (dense (latent (fun (g : Fin 256) (k : Fin 128) => (pooled x0 x1 x2 x4 x5 x6 x7 x8 x9 x10 x11 (ix2 g k) : EReal))
          (fun (g : Fin 256) (k : Fin 64) => (x3 (ix2 g k) : EReal))
          (fun (k : Fin 128) (q : Fin 64) => (x12 (ix2 k q) : EReal)) (fun (q : Fin 64) => (x13 (ix1 q) : EReal))
          (fun (k : Fin 128) (q : Fin 64) => (x14 (ix2 k q) : EReal)) (fun (q : Fin 64) => (x15 (ix1 q) : EReal)))
          (fun (k : Fin 64) (q : Fin 128) => (x16 (ix2 k q) : EReal)) (fun (q : Fin 128) => (x17 (ix1 q) : EReal))) g q := by
  rw [val_main_v76_apply, val_main_call5_v0_apply, val_main_call5_cst_apply, v75_at]
  rfl

/-- The decoder's second product plus its bias at (g, q): the hidden rows. -/
theorem v80_at (g : Fin 256) (q : Fin 128) :
    val_main_v80 (F := Ideal) x0 x1 x2 x3 x4 x5 x6 x7 x8 x9 x10 x11 x12 x13 x14 x15 x16 x17 x18 x19 (ix2 g q)
      = hid x0 x1 x2 x3 x4 x5 x6 x7 x8 x9 x10 x11 x12 x13 x14 x15 x16 x17 x18 x19 g q := by
  have hb : idx_main_v78 (idx_main_v79 (ix2 g q)) = ix1 q := by same_idx1
  have hl : ∀ k : Fin 128, lidx_main_v77 (ix2 g q) k = ix2 g k := fun k => by same_idx2
  have hr : ∀ k : Fin 128, ridx_main_v77 (ix2 g q) k = ix2 k q := fun k => by same_idx2
  rw [val_main_v80_apply, val_main_v77_apply, val_main_v79_apply, val_main_v78_apply]
  simp only [hb, hl, hr, v76_at, Ideal.addf_def]
  rfl

/-- The node logits at (g, q). -/
theorem v84_apply (g : Fin 256) (q : Fin 1600) :
    val_main_v84 (F := Ideal) x0 x1 x2 x3 x4 x5 x6 x7 x8 x9 x10 x11 x12 x13 x14 x15 x16 x17 x18 x19 x20 x21 (ix2 g q)
      = dense (hid x0 x1 x2 x3 x4 x5 x6 x7 x8 x9 x10 x11 x12 x13 x14 x15 x16 x17 x18 x19)
          (fun (k : Fin 128) (q : Fin 1600) => (x20 (ix2 k q) : EReal)) (fun (q : Fin 1600) => (x21 (ix1 q) : EReal)) g q := by
  have hb : idx_main_v82 (idx_main_v83 (ix2 g q)) = ix1 q := by same_idx1
  have hl : ∀ k : Fin 128, lidx_main_v81 (ix2 g q) k = ix2 g k := fun k => by same_idx2
  have hr : ∀ k : Fin 128, ridx_main_v81 (ix2 g q) k = ix2 k q := fun k => by same_idx2
  rw [val_main_v84_apply, val_main_v81_apply, val_main_v83_apply, val_main_v82_apply]
  simp only [hb, hl, hr, v80_at, Ideal.addf_def]
  rfl

/-- The adjacency logits at (g, q). -/
theorem v100_apply (g : Fin 256) (q : Fin 10000) :
    val_main_v100 (F := Ideal) x0 x1 x2 x3 x4 x5 x6 x7 x8 x9 x10 x11 x12 x13 x14 x15 x16 x17 x18 x19 x22 x23 (ix2 g q)
      = dense (hid x0 x1 x2 x3 x4 x5 x6 x7 x8 x9 x10 x11 x12 x13 x14 x15 x16 x17 x18 x19)
          (fun (k : Fin 128) (q : Fin 10000) => (x22 (ix2 k q) : EReal)) (fun (q : Fin 10000) => (x23 (ix1 q) : EReal)) g q := by
  have hb : idx_main_v98 (idx_main_v99 (ix2 g q)) = ix1 q := by same_idx1
  have hl : ∀ k : Fin 128, lidx_main_v97 (ix2 g q) k = ix2 g k := fun k => by same_idx2
  have hr : ∀ k : Fin 128, ridx_main_v97 (ix2 g q) k = ix2 k q := fun k => by same_idx2
  rw [val_main_v100_apply, val_main_v97_apply, val_main_v99_apply, val_main_v98_apply]
  simp only [hb, hl, hr, v80_at, Ideal.addf_def]
  rfl

/-! ## The host chains -/

/-- The pooled rows are the pooling chain applied to the second layer's result. -/
theorem v57_eq : val_main_v57 (F := Ideal) x0 x1 x2 x4 x5 x6 x7 x8 x9 x10 x11
    = pool (val_main_v45 (F := Ideal) x0 x1 x4 x5 x6 x7 x8 x9 x10 x11) x2 := rfl

/-- The node features are the softmax chain applied to the node logits. -/
theorem v96_eq : val_main_v96 (F := Ideal) x0 x1 x2 x3 x4 x5 x6 x7 x8 x9 x10 x11 x12 x13 x14 x15 x16 x17 x18 x19 x20 x21
    = nodeSoftmax (val_main_v84 (F := Ideal) x0 x1 x2 x3 x4 x5 x6 x7 x8 x9 x10 x11 x12 x13 x14 x15 x16 x17 x18 x19 x20 x21) := rfl

/-- The adjacency is the symmetrize-mask-clip chain applied to the adjacency logits. -/
theorem v113_eq : val_main_v113 (F := Ideal) x0 x1 x2 x3 x4 x5 x6 x7 x8 x9 x10 x11 x12 x13 x14 x15 x16 x17 x18 x19 x22 x23
    = adjTail (val_main_v100 (F := Ideal) x0 x1 x2 x3 x4 x5 x6 x7 x8 x9 x10 x11 x12 x13 x14 x15 x16 x17 x18 x19 x22 x23) := rfl

end Cert.ReferenceIdeal.RefValue

end
-- ==== Proof.LibMatmulPlain.lean ====
/-
  A plain matrix product into a zero accumulator, read at an entry, over the extended reals.

  For the dimension numbers `DotDims.plain M K N` (an `M × K` left operand, a `K × N` right operand, the left one's
  columns contracted with the right one's rows, no batch axis) entry `(p, q)` of the product accumulated into the
  zero matrix is `Σ_{k < K} l (p, k) * r (k, q)`: the contraction index has one coordinate, which runs over `Fin K`.
-/
import Idealize.ShloMosaic.PureOps.Ideal.Laws
import Idealize.ShloMosaic.Lib.ValueIdx

noncomputable section

open scoped BigOperators

namespace Cert.Lib

open Idealize.ShloMosaic Idealize.ShloMosaic.ValueIdx

/-- The left operand's index at output entry `(p, q)` and contraction coordinate `k` is `(p, k)`. -/
theorem plain_lhsIdx (M K N : Nat) (p : Fin M) (q : Fin N) (k : Fin K) :
    (DotDims.plain M K N).lhsIdx (ix2 p q) ((contrEquiv1 (DotDims.plain M K N) K rfl rfl).symm k) = ix2 p k := by
  have hk := contrEquiv1_symm_val (DotDims.plain M K N) K rfl rfl k
  funext a
  refine Fin.ext ?_
  match a with
  | ⟨0, _⟩ => rfl
  | ⟨1, _⟩ => exact ((DotDims.plain M K N).lhsIdx_val_of_single rfl (ix2 p q) _).trans hk

/-- The right operand's index there is `(k, q)`. -/
theorem plain_rhsIdx (M K N : Nat) (p : Fin M) (q : Fin N) (k : Fin K) :
    (DotDims.plain M K N).rhsIdx (ix2 p q) ((contrEquiv1 (DotDims.plain M K N) K rfl rfl).symm k) = ix2 k q := by
  have hk := contrEquiv1_symm_val (DotDims.plain M K N) K rfl rfl k
  funext a
  refine Fin.ext ?_
  match a with
  | ⟨0, _⟩ => exact ((DotDims.plain M K N).rhsIdx_val_of_single rfl (ix2 p q) _).trans hk
  | ⟨1, _⟩ => rfl

/-- ENTRY `(p, q)` OF A PLAIN PRODUCT INTO ZERO: the sum over `k : Fin K` of `l (p, k) * r (k, q)`. -/
theorem matmul_plain_zero_apply {φ₁ φ₂ : FTy} (M K N : Nat) (prec : Option ContractPrecision)
    (l : FVec Ideal ⟨2, ![M, K]⟩ φ₁) (r : FVec Ideal ⟨2, ![K, N]⟩ φ₂) (p : Fin M) (q : Fin N) :
    FloatOps.matmul (DotDims.plain M K N) prec l r (constant ⟨2, ![M, N]⟩ .f32 0x00000000#32) (ix2 p q)
      = ∑ k : Fin K, l (ix2 p k) * r (ix2 k q) := by
  rw [Ideal.matmul_constant_zero_apply, ← Equiv.sum_comp (contrEquiv1 (DotDims.plain M K N) K rfl rfl).symm]
  refine Finset.sum_congr rfl fun k _ => ?_
  rw [plain_lhsIdx, plain_rhsIdx]

end Cert.Lib

end
-- ==== Proof.KPay.lean ====
/-
  What each region's body leaves in an output block, read at an entry, over the extended reals.

  The body of a graph-isomorphism region loads a block of rows and the two weight matrices and bias rows whole and
  stores max(max(x·w1 + b1, 0)·w2 + b2, 0); the decoder's body loads a block of pooled rows and of noise rows and
  stores the node logits, the adjacency logits, mu and the clipped log-variance of those rows. A change of float
  format is the identity on the extended reals and a matrix product into zero is the sum of products, so at entry
  (p, q) each stored value is the row function of Spec applied to row p of the loaded block.
-/
import proofs.«123664_j28810640621902_1_alg».proof.Proof.Gen.KernelIdeal.Frame
import proofs.«123664_j28810640621902_1_alg».proof.Proof.Spec
import proofs.«123664_j28810640621902_1_alg».proof.Proof.LibMatmulPlain
import Idealize.ShloMosaic.Lib.Pipeline.Value
import Idealize.ShloMosaic.Lib.ValueIdx
import Idealize.ShloMosaic.Lib.ValueLayout
import Idealize.ShloMosaic.PureOps.Ideal.Laws

noncomputable section

namespace Cert.KernelIdeal.Pay

open Cert.KernelIdeal Cert.KernelIdeal.Gen Idealize.ShloMosaic Idealize.ShloMosaic.ValueIdx Cert.Spec

/-! ## The layers at an entry -/

/-- The zero offsets of a whole-block rectangle are the constant zero function. -/
theorem hz : (![0, 0] : Fin 2 → Nat) = fun _ => 0 := funext fun a => by fin_cases a <;> rfl

/-- A dense layer at an entry: the plain product of l and r into the zero matrix, plus the bias row b broadcast over
    the rows, is at (p, q) the sum over k of l (p, k) * r (k, q), plus b (0, q). -/
theorem dense_entry {M K N : Nat} {φ₁ φ₂ : FTy} (l : FVec Ideal ⟨2, ![M, K]⟩ φ₁) (r : FVec Ideal ⟨2, ![K, N]⟩ φ₂)
    (b : FVec Ideal ⟨2, ![1, N]⟩ .f32) (hc : (⟨2, ![1, N]⟩ : Shape).ShapeCasts ⟨2, ![1, N]⟩)
    (hb : (⟨2, ![1, N]⟩ : Shape).Broadcasts ⟨2, ![M, N]⟩) (p : Fin M) (q : Fin N) :
    addf (matmul (DotDims.plain M K N) none l r (constant ⟨2, ![M, N]⟩ .f32 0x00000000#32))
        (broadcastTo ⟨2, ![M, N]⟩ (shapeCast ⟨2, ![1, N]⟩ b hc) hb) (ix2 p q)
      = dense (fun (p : Fin M) (k : Fin K) => (l (ix2 p k) : EReal)) (fun (k : Fin K) (q : Fin N) => (r (ix2 k q) : EReal))
          (fun (q : Fin N) => (b (ix2 (0 : Fin 1) q) : EReal)) p q := by
  rw [addf_apply, shapeCast_self, broadcastTo_1b_ab_apply]
  exact congrArg (· + b (ix2 (0 : Fin 1) q)) (Cert.Lib.matmul_plain_zero_apply M K N none l r p q)

/-- A graph-isomorphism layer's update at an entry: two dense layers, each followed by max(·, 0); the changes of
    format and the cast of x to its own shape are the identity. -/
theorem gin_entry {M K H N : Nat} (x : FVec Ideal ⟨2, ![M, K]⟩ .f32) (w1 : FVec Ideal ⟨2, ![K, H]⟩ .f32)
    (b1 : FVec Ideal ⟨2, ![1, H]⟩ .f32) (w2 : FVec Ideal ⟨2, ![H, N]⟩ .f32) (b2 : FVec Ideal ⟨2, ![1, N]⟩ .f32)
    (hx : (⟨2, ![M, K]⟩ : Shape).ShapeCasts ⟨2, ![M, K]⟩) (h16 : FTy.bits .bf16 < FTy.bits .f32)
    (hc1 : (⟨2, ![1, H]⟩ : Shape).ShapeCasts ⟨2, ![1, H]⟩) (hb1 : (⟨2, ![1, H]⟩ : Shape).Broadcasts ⟨2, ![M, H]⟩)
    (hc2 : (⟨2, ![1, N]⟩ : Shape).ShapeCasts ⟨2, ![1, N]⟩) (hb2 : (⟨2, ![1, N]⟩ : Shape).Broadcasts ⟨2, ![M, N]⟩)
    (p : Fin M) (q : Fin N) :
    maximumf
        (addf (matmul (DotDims.plain M H N) none
            (truncf .bf16 (maximumf
              (addf (matmul (DotDims.plain M K H) none (truncf .bf16 (shapeCast ⟨2, ![M, K]⟩ x hx) h16) (truncf .bf16 w1 h16)
                  (constant ⟨2, ![M, H]⟩ .f32 0x00000000#32))
                (broadcastTo ⟨2, ![M, H]⟩ (shapeCast ⟨2, ![1, H]⟩ b1 hc1) hb1))
              (broadcast ⟨2, ![M, H]⟩ (Scalar.ofBits (F := Ideal) .f32 0x00000000#32))) h16)
            (truncf .bf16 w2 h16) (constant ⟨2, ![M, N]⟩ .f32 0x00000000#32))
          (broadcastTo ⟨2, ![M, N]⟩ (shapeCast ⟨2, ![1, N]⟩ b2 hc2) hb2))
        (broadcast ⟨2, ![M, N]⟩ (Scalar.ofBits (F := Ideal) .f32 0x00000000#32)) (ix2 p q)
      = gin (fun (p : Fin M) (k : Fin K) => (x (ix2 p k) : EReal)) (fun (j : Fin K) (k : Fin H) => (w1 (ix2 j k) : EReal))
          (fun (k : Fin H) => (b1 (ix2 (0 : Fin 1) k) : EReal)) (fun (k : Fin H) (q : Fin N) => (w2 (ix2 k q) : EReal))
          (fun (q : Fin N) => (b2 (ix2 (0 : Fin 1) q) : EReal)) p q := by
  refine (congrArg (fun t : EReal => max t zero32) (dense_entry _ _ b2 hc2 hb2 p q)).trans ?_
  unfold gin relu
  refine congrArg (fun t : EReal => max t zero32) (dense_row (fun k => ?_) _ _ q)
  refine (congrArg (fun t : EReal => max t zero32) (dense_entry _ _ b1 hc1 hb1 p k)).trans ?_
  exact congrArg (fun t : EReal => max t zero32)
    (dense_row (fun j => congrFun (shapeCast_self x hx) (ix2 p j)) _ _ k)

/-! ## Regions 0 and 1 -/

/-- Region 0's output block at (p, q): the layer's update of row p of the loaded block. -/
theorem out0_5_apply (x0 : Vec Ideal S5000x16 .f32) (x1 : Vec Ideal S16x128 .f32) (x2 : Vec Ideal S1x128 .f32)
    (x3 : Vec Ideal S128x128 .f32) (x4 : Vec Ideal S1x128 .f32) (p : Fin 5000) (q : Fin 128) :
    out0_5 (F := Ideal) x0 x1 x2 x3 x4 (ix2 p q)
      = gin (fun (p : Fin 5000) (k : Fin 16) => (x0 (ix2 p k) : EReal)) (fun (j : Fin 16) (k : Fin 128) => (x1 (ix2 j k) : EReal))
          (fun (k : Fin 128) => (x2 (ix2 (0 : Fin 1) k) : EReal)) (fun (k : Fin 128) (q : Fin 128) => (x3 (ix2 k q) : EReal))
          (fun (q : Fin 128) => (x4 (ix2 (0 : Fin 1) q) : EReal)) p q := by
  unfold out0_5
  rw [View.canon_unit_zero hz]
  simp only [View.ld_unit_zero (S := S5000x16) hz, View.ld_unit_zero (S := S16x128) hz, View.ld_unit_zero (S := S1x128) hz,
    View.ld_unit_zero (S := S128x128) hz]
  exact gin_entry (M := 5000) (K := 16) (H := 128) (N := 128) x0 x1 x2 x3 x4 _ _ _ _ _ _ p q

/-- Region 1's output block at (p, q): the same with 128-wide input rows. -/
theorem out1_5_apply (x0 : Vec Ideal S5000x128 .f32) (x1 : Vec Ideal S128x128 .f32) (x2 : Vec Ideal S1x128 .f32)
    (x3 : Vec Ideal S128x128 .f32) (x4 : Vec Ideal S1x128 .f32) (p : Fin 5000) (q : Fin 128) :
    out1_5 (F := Ideal) x0 x1 x2 x3 x4 (ix2 p q)
      = gin (fun (p : Fin 5000) (k : Fin 128) => (x0 (ix2 p k) : EReal)) (fun (j : Fin 128) (k : Fin 128) => (x1 (ix2 j k) : EReal))
          (fun (k : Fin 128) => (x2 (ix2 (0 : Fin 1) k) : EReal)) (fun (k : Fin 128) (q : Fin 128) => (x3 (ix2 k q) : EReal))
          (fun (q : Fin 128) => (x4 (ix2 (0 : Fin 1) q) : EReal)) p q := by
  unfold out1_5
  rw [View.canon_unit_zero hz]
  simp only [View.ld_unit_zero (S := S5000x128) hz, View.ld_unit_zero (S := S1x128) hz, View.ld_unit_zero (S := S128x128) hz]
  exact gin_entry (M := 5000) (K := 128) (H := 128) (N := 128) x0 x1 x2 x3 x4 _ _ _ _ _ _ p q

/-! ## The decoder's payloads at an entry -/

/-- The pooled rows after the cast to their own shape and the change of format: themselves. -/
theorem pay4_apply (v0 : Vec Ideal S64x128 .f32) (p : Fin 64) (k : Fin 128) :
    k2_pay4 (F := Ideal) v0 (ix2 p k) = v0 (ix2 p k) :=
  congrFun (shapeCast_self v0 shapeCasts_S64x128_S64x128) (ix2 p k)

/-- mu at an entry: a dense layer of the pooled rows. -/
theorem pay5_apply (v0 : Vec Ideal S64x128 .f32) (v4 : Vec Ideal S128x64 .f32) (v7 : Vec Ideal S1x64 .f32) (p q : Fin 64) :
    k2_pay5 (F := Ideal) v0 v4 v7 (ix2 p q)
      = dense (fun (p : Fin 64) (k : Fin 128) => (v0 (ix2 p k) : EReal)) (fun (k : Fin 128) (q : Fin 64) => (v4 (ix2 k q) : EReal))
          (fun (q : Fin 64) => (v7 (ix2 (0 : Fin 1) q) : EReal)) p q := by
  refine (dense_entry (M := 64) (K := 128) (N := 64) (k2_pay4 v0) (truncf .bf16 v4 bitsLt_bf16_f32) v7 _ _ p q).trans ?_
  exact dense_row (fun k => pay4_apply v0 p k) _ _ q

/-- The clipped log-variance at an entry: min(5, max(-5, ·)) of a dense layer of the pooled rows. -/
theorem pay6_apply (v0 : Vec Ideal S64x128 .f32) (v11 : Vec Ideal S128x64 .f32) (v14 : Vec Ideal S1x64 .f32) (p q : Fin 64) :
    k2_pay6 (F := Ideal) v0 v11 v14 (ix2 p q)
      = logvar (fun (p : Fin 64) (k : Fin 128) => (v0 (ix2 p k) : EReal)) (fun (k : Fin 128) (q : Fin 64) => (v11 (ix2 k q) : EReal))
          (fun (q : Fin 64) => (v14 (ix2 (0 : Fin 1) q) : EReal)) p q := by
  unfold logvar
  refine congrArg (fun t : EReal => min pos5 (max neg5 t)) ?_
  refine (dense_entry (M := 64) (K := 128) (N := 64) (k2_pay4 v0) (truncf .bf16 v11 bitsLt_bf16_f32) v14 _ _ p q).trans ?_
  exact dense_row (fun k => pay4_apply v0 p k) _ _ q

/-- The hidden layer before its max(·, 0), at an entry: a dense layer of the latent rows mu + eps * exp(logvar / 2). -/
theorem pay7_apply (v0 : Vec Ideal S64x128 .f32) (v2 : Vec Ideal S64x64 .f32) (v4 : Vec Ideal S128x64 .f32) (v7 : Vec Ideal S1x64 .f32)
    (v11 : Vec Ideal S128x64 .f32) (v14 : Vec Ideal S1x64 .f32) (v28 : Vec Ideal S64x128 .f32) (v31 : Vec Ideal S1x128 .f32)
    (p : Fin 64) (q : Fin 128) :
    k2_pay7 (F := Ideal) v0 v2 v4 v7 v11 v14 v28 v31 (ix2 p q)
      = dense (latent (fun (p : Fin 64) (k : Fin 128) => (v0 (ix2 p k) : EReal)) (fun (p : Fin 64) (k : Fin 64) => (v2 (ix2 p k) : EReal))
            (fun (k : Fin 128) (q : Fin 64) => (v4 (ix2 k q) : EReal)) (fun (q : Fin 64) => (v7 (ix2 (0 : Fin 1) q) : EReal))
            (fun (k : Fin 128) (q : Fin 64) => (v11 (ix2 k q) : EReal)) (fun (q : Fin 64) => (v14 (ix2 (0 : Fin 1) q) : EReal)))
          (fun (k : Fin 64) (q : Fin 128) => (v28 (ix2 k q) : EReal)) (fun (q : Fin 128) => (v31 (ix2 (0 : Fin 1) q) : EReal)) p q := by
  refine (dense_entry (M := 64) (K := 64) (N := 128) _ (truncf .bf16 v28 bitsLt_bf16_f32) v31 _ _ p q).trans ?_
  refine dense_row (fun k => ?_) _ _ q
  unfold latent
  show k2_pay5 (F := Ideal) v0 v4 v7 (ix2 p k) + v2 (ix2 p k) * Ideal.exp (half * k2_pay6 (F := Ideal) v0 v11 v14 (ix2 p k)) = _
  rw [pay5_apply, pay6_apply]

/-- The hidden layer's second dense layer at an entry, from the pre-activation v34 and the zero block v35. -/
theorem pay1_apply (v34 v35 : FVec Ideal S64x128 .f32) (v38 : Vec Ideal S128x128 .f32) (v41 : Vec Ideal S1x128 .f32)
    (p : Fin 64) (q : Fin 128) :
    k2_pay1 (F := Ideal) v34 v35 v38 v41 (ix2 p q)
      = dense (fun (p : Fin 64) (k : Fin 128) => (max (v34 (ix2 p k)) (v35 (ix2 p k)) : EReal))
          (fun (k : Fin 128) (q : Fin 128) => (v38 (ix2 k q) : EReal)) (fun (q : Fin 128) => (v41 (ix2 (0 : Fin 1) q) : EReal)) p q :=
  dense_entry (M := 64) (K := 128) (N := 128) (truncf .bf16 (maximumf v34 v35) bitsLt_bf16_f32)
    (truncf .bf16 v38 bitsLt_bf16_f32) v41 _ _ p q

/-- The node logits at an entry: a dense layer of the hidden rows. -/
theorem pay2_apply (v34 v35 : FVec Ideal S64x128 .f32) (v38 : Vec Ideal S128x128 .f32) (v41 : Vec Ideal S1x128 .f32)
    (v46 : Vec Ideal S128x1600 .f32) (v49 : Vec Ideal S1x1600 .f32) (p : Fin 64) (q : Fin 1600) :
    k2_pay2 (F := Ideal) v34 v35 v38 v41 v46 v49 (ix2 p q)
      = dense (fun (p : Fin 64) (k : Fin 128) => (k2_pay1 (F := Ideal) v34 v35 v38 v41 (ix2 p k) : EReal))
          (fun (k : Fin 128) (q : Fin 1600) => (v46 (ix2 k q) : EReal)) (fun (q : Fin 1600) => (v49 (ix2 (0 : Fin 1) q) : EReal)) p q :=
  dense_entry (M := 64) (K := 128) (N := 1600) (k2_pay1 v34 v35 v38 v41) (truncf .bf16 v46 bitsLt_bf16_f32) v49 _ _ p q

/-- The adjacency logits at an entry: a dense layer of the hidden rows. -/
theorem pay3_apply (v34 v35 : FVec Ideal S64x128 .f32) (v38 : Vec Ideal S128x128 .f32) (v41 : Vec Ideal S1x128 .f32)
    (v54 : Vec Ideal S128x10000 .f32) (v57 : Vec Ideal S1x10000 .f32) (p : Fin 64) (q : Fin 10000) :
    k2_pay3 (F := Ideal) v34 v35 v38 v41 v54 v57 (ix2 p q)
      = dense (fun (p : Fin 64) (k : Fin 128) => (k2_pay1 (F := Ideal) v34 v35 v38 v41 (ix2 p k) : EReal))
          (fun (k : Fin 128) (q : Fin 10000) => (v54 (ix2 k q) : EReal)) (fun (q : Fin 10000) => (v57 (ix2 (0 : Fin 1) q) : EReal)) p q :=
  dense_entry (M := 64) (K := 128) (N := 10000) (k2_pay1 v34 v35 v38 v41) (truncf .bf16 v54 bitsLt_bf16_f32) v57 _ _ p q

/-! ## Region 2 -/

section Decode
variable (x0 : Vec Ideal S64x128 .f32) (x1 : Vec Ideal S64x64 .f32) (x2 : Vec Ideal S128x64 .f32) (x3 : Vec Ideal S1x64 .f32)
  (x4 : Vec Ideal S128x64 .f32) (x5 : Vec Ideal S1x64 .f32) (x6 : Vec Ideal S64x128 .f32) (x7 : Vec Ideal S1x128 .f32)
  (x8 : Vec Ideal S128x128 .f32) (x9 : Vec Ideal S1x128 .f32) (x10 : Vec Ideal S128x1600 .f32) (x11 : Vec Ideal S1x1600 .f32)
  (x12 : Vec Ideal S128x10000 .f32) (x13 : Vec Ideal S1x10000 .f32)

/-- The decoder's hidden rows of the loaded block of pooled rows x0 and noise rows x1. -/
def hid : Fin 64 → Fin 128 → EReal :=
  hidden (latent (fun (p : Fin 64) (k : Fin 128) => (x0 (ix2 p k) : EReal)) (fun (p : Fin 64) (k : Fin 64) => (x1 (ix2 p k) : EReal))
      (fun (k : Fin 128) (q : Fin 64) => (x2 (ix2 k q) : EReal)) (fun (q : Fin 64) => (x3 (ix2 (0 : Fin 1) q) : EReal))
      (fun (k : Fin 128) (q : Fin 64) => (x4 (ix2 k q) : EReal)) (fun (q : Fin 64) => (x5 (ix2 (0 : Fin 1) q) : EReal)))
    (fun (k : Fin 64) (q : Fin 128) => (x6 (ix2 k q) : EReal)) (fun (q : Fin 128) => (x7 (ix2 (0 : Fin 1) q) : EReal))
    (fun (k : Fin 128) (q : Fin 128) => (x8 (ix2 k q) : EReal)) (fun (q : Fin 128) => (x9 (ix2 (0 : Fin 1) q) : EReal))

/-- The hidden rows the two logit layers read, at an entry: the second dense layer of max(·, 0) of the first. -/
theorem hid_apply (p : Fin 64) (k : Fin 128) :
    k2_pay1 (F := Ideal) (k2_pay7 x0 x1 x2 x3 x4 x5 x6 x7) (k2_pay8 (F := Ideal)) x8 x9 (ix2 p k)
      = hid x0 x1 x2 x3 x4 x5 x6 x7 x8 x9 p k := by
  refine (pay1_apply _ _ x8 x9 p k).trans ?_
  unfold hid Cert.Spec.hidden
  refine dense_row (fun j => ?_) _ _ k
  unfold relu
  exact congrArg (fun t : EReal => max t zero32) (pay7_apply x0 x1 x2 x3 x4 x5 x6 x7 p j)

/-- Window 14 (node logits) at (p, q). -/
theorem out2_14_apply (p : Fin 64) (q : Fin 1600) :
    out2_14 (F := Ideal) x0 x1 x2 x3 x4 x5 x6 x7 x8 x9 x10 x11 x12 x13 (ix2 p q)
      = dense (hid x0 x1 x2 x3 x4 x5 x6 x7 x8 x9) (fun (k : Fin 128) (q : Fin 1600) => (x10 (ix2 k q) : EReal))
          (fun (q : Fin 1600) => (x11 (ix2 (0 : Fin 1) q) : EReal)) p q := by
  unfold out2_14
  rw [View.canon_unit_zero hz]
  simp only [View.ld_unit_zero (S := S64x128) hz, View.ld_unit_zero (S := S64x64) hz, View.ld_unit_zero (S := S128x64) hz,
    View.ld_unit_zero (S := S1x64) hz, View.ld_unit_zero (S := S1x128) hz, View.ld_unit_zero (S := S128x128) hz,
    View.ld_unit_zero (S := S128x1600) hz, View.ld_unit_zero (S := S1x1600) hz]
  refine (pay2_apply _ _ x8 x9 x10 x11 p q).trans ?_
  exact dense_row (fun k => hid_apply x0 x1 x2 x3 x4 x5 x6 x7 x8 x9 p k) _ _ q

/-- Window 15 (adjacency logits) at (p, q). -/
theorem out2_15_apply (p : Fin 64) (q : Fin 10000) :
    out2_15 (F := Ideal) x0 x1 x2 x3 x4 x5 x6 x7 x8 x9 x10 x11 x12 x13 (ix2 p q)
      = dense (hid x0 x1 x2 x3 x4 x5 x6 x7 x8 x9) (fun (k : Fin 128) (q : Fin 10000) => (x12 (ix2 k q) : EReal))
          (fun (q : Fin 10000) => (x13 (ix2 (0 : Fin 1) q) : EReal)) p q := by
  unfold out2_15
  rw [View.canon_unit_zero hz]
  simp only [View.ld_unit_zero (S := S64x128) hz, View.ld_unit_zero (S := S64x64) hz, View.ld_unit_zero (S := S128x64) hz,
    View.ld_unit_zero (S := S1x64) hz, View.ld_unit_zero (S := S1x128) hz, View.ld_unit_zero (S := S128x128) hz,
    View.ld_unit_zero (S := S128x10000) hz, View.ld_unit_zero (S := S1x10000) hz]
  refine (pay3_apply _ _ x8 x9 x12 x13 p q).trans ?_
  exact dense_row (fun k => hid_apply x0 x1 x2 x3 x4 x5 x6 x7 x8 x9 p k) _ _ q

/-- Window 16 (mu) at (p, q). -/
theorem out2_16_apply (p : Fin 64) (q : Fin 64) :
    out2_16 (F := Ideal) x0 x1 x2 x3 x4 x5 x6 x7 x8 x9 x10 x11 x12 x13 (ix2 p q)
      = dense (fun (p : Fin 64) (k : Fin 128) => (x0 (ix2 p k) : EReal)) (fun (k : Fin 128) (q : Fin 64) => (x2 (ix2 k q) : EReal))
          (fun (q : Fin 64) => (x3 (ix2 (0 : Fin 1) q) : EReal)) p q := by
  unfold out2_16
  rw [View.canon_unit_zero hz]
  simp only [View.ld_unit_zero (S := S64x128) hz, View.ld_unit_zero (S := S128x64) hz, View.ld_unit_zero (S := S1x64) hz]
  exact pay5_apply x0 x2 x3 p q

/-- Window 17 (clipped log-variance) at (p, q). -/
theorem out2_17_apply (p : Fin 64) (q : Fin 64) :
    out2_17 (F := Ideal) x0 x1 x2 x3 x4 x5 x6 x7 x8 x9 x10 x11 x12 x13 (ix2 p q)
      = logvar (fun (p : Fin 64) (k : Fin 128) => (x0 (ix2 p k) : EReal)) (fun (k : Fin 128) (q : Fin 64) => (x4 (ix2 k q) : EReal))
          (fun (q : Fin 64) => (x5 (ix2 (0 : Fin 1) q) : EReal)) p q := by
  unfold out2_17
  rw [View.canon_unit_zero hz]
  simp only [View.ld_unit_zero (S := S64x128) hz, View.ld_unit_zero (S := S128x64) hz, View.ld_unit_zero (S := S1x64) hz]
  exact pay6_apply x0 x4 x5 p q

end Decode

end Cert.KernelIdeal.Pay

end
-- ==== Proof.KBlocks.lean ====
/-
  From blocks to arrays: what each region's output arrays hold once every grid point has written its block back.

  A graph-isomorphism region walks the 50000 rows in 10 blocks of 5000; the decoder walks the 256 graphs in 4 blocks
  of 64. At point t the row-blocked windows hold rows t·5000 … t·5000 + 4999 (t·64 … t·64 + 63) of their arrays and
  every other window holds its whole array, so row p of the block the body reads is row t·5000 + p (t·64 + p) of the
  array, and row p of the block it writes back is that row of the result. The blocks tile the rows, so every entry
  (P, q) of an output array ends at the row function of Spec applied to row P of the region-entry arrays.
-/
import proofs.«123664_j28810640621902_1_alg».proof.Proof.Gen.KernelIdeal.Frame
import proofs.«123664_j28810640621902_1_alg».proof.Proof.KPay
import proofs.«123664_j28810640621902_1_alg».proof.Proof.Spec
import Idealize.ShloMosaic.Lib.Pipeline.Value
import Idealize.ShloMosaic.Lib.ValueIdx

set_option maxRecDepth 16384

noncomputable section

namespace Cert.KernelIdeal.Blocks

open Cert.KernelIdeal Cert.KernelIdeal.Gen Idealize.ShloMosaic Idealize.ShloMosaic.TcCoe Idealize.ShloMosaic.ValueIdx Idealize.SL.Sem Cert.Spec
open Idealize.ShloMosaic.Pipeline (Dat Cfg Window)

variable (V : (c : Dev nD) → (b : Ref sig .tc) → Buf (Elt Ideal) ((c : Thread nD τ).loc b))

/-! ## Region 0 -/

/-- Where region 0's blocks sit, decided over its 10 points: the two row-blocked windows (the node features read and
    the node features written) are at block (t, 0) at point t, every other window at block (0, 0). -/
theorem index0 : ∀ t : Fin cfg0.N, win0_0.index t (0 : Fin 2) = t.val ∧ win0_0.index t (1 : Fin 2) = 0
    ∧ win0_1.index t (0 : Fin 2) = 0 ∧ win0_1.index t (1 : Fin 2) = 0
    ∧ win0_2.index t (0 : Fin 2) = 0 ∧ win0_2.index t (1 : Fin 2) = 0
    ∧ win0_3.index t (0 : Fin 2) = 0 ∧ win0_3.index t (1 : Fin 2) = 0
    ∧ win0_4.index t (0 : Fin 2) = 0 ∧ win0_4.index t (1 : Fin 2) = 0
    ∧ win0_5.index t (0 : Fin 2) = t.val ∧ win0_5.index t (1 : Fin 2) = 0 :=
  (by decide +kernel : ∀ t : Fin grid0.N, _)

/-- Row p of the block of input rows at point t is row t·5000 + p of the array. -/
theorem rows0_read (c : Dev nD) (t : Fin cfg0.N) (p : Fin 5000) (k : Fin 16) (P : Fin 50000)
    (hP : P.val = t.val * 5000 + p.val) :
    (iblk0 (F := Ideal) V c 0 t : Vec Ideal S5000x16 .f32) (ix2 p k) = (V c main_v14 (ix2 P k) : EReal) := by
  obtain ⟨e0, e1, -⟩ := index0 t
  show V c main_v14 (((cfg0.win 0).blk t).view.emb (ix2 p k)) = V c main_v14 (ix2 P k)
  congr 1
  funext a
  apply Fin.ext
  match a with
  | ⟨0, _⟩ => show win0_0.index t (0 : Fin 2) * 5000 + 1 * p.val = P.val; omega
  | ⟨1, _⟩ => show win0_0.index t (1 : Fin 2) * 16 + 1 * k.val = k.val; omega

/-- The first weight matrix's window holds the whole matrix at every point. -/
theorem whole0_1 (c : Dev nD) (t : Fin cfg0.N) :
    (iblk0 (F := Ideal) V c 1 t : Vec Ideal S16x128 .f32) = (V c main_arg4 : S16x128.Idx → EReal) := by
  obtain ⟨-, -, e0, e1, -⟩ := index0 t
  funext y
  show V c main_arg4 (((cfg0.win 1).blk t).view.emb y) = V c main_arg4 y
  congr 1
  funext a
  apply Fin.ext
  match a with
  | ⟨0, _⟩ => show win0_1.index t (0 : Fin 2) * 16 + 1 * (y 0).val = (y 0).val; omega
  | ⟨1, _⟩ => show win0_1.index t (1 : Fin 2) * 128 + 1 * (y 1).val = (y 1).val; omega

/-- The first bias row's window holds the whole row at every point. -/
theorem whole0_2 (c : Dev nD) (t : Fin cfg0.N) :
    (iblk0 (F := Ideal) V c 2 t : Vec Ideal S1x128 .f32) = (V c main_v15 : S1x128.Idx → EReal) := by
  obtain ⟨-, -, -, -, e0, e1, -⟩ := index0 t
  funext y
  show V c main_v15 (((cfg0.win 2).blk t).view.emb y) = V c main_v15 y
  congr 1
  funext a
  apply Fin.ext
  match a with
  | ⟨0, _⟩ => show win0_2.index t (0 : Fin 2) * 1 + 1 * (y 0).val = (y 0).val; omega
  | ⟨1, _⟩ => show win0_2.index t (1 : Fin 2) * 128 + 1 * (y 1).val = (y 1).val; omega

/-- The second weight matrix's window holds the whole matrix at every point. -/
theorem whole0_3 (c : Dev nD) (t : Fin cfg0.N) :
    (iblk0 (F := Ideal) V c 3 t : Vec Ideal S128x128 .f32) = (V c main_arg6 : S128x128.Idx → EReal) := by
  obtain ⟨-, -, -, -, -, -, e0, e1, -⟩ := index0 t
  funext y
  show V c main_arg6 (((cfg0.win 3).blk t).view.emb y) = V c main_arg6 y
  congr 1
  funext a
  apply Fin.ext
  match a with
  | ⟨0, _⟩ => show win0_3.index t (0 : Fin 2) * 128 + 1 * (y 0).val = (y 0).val; omega
  | ⟨1, _⟩ => show win0_3.index t (1 : Fin 2) * 128 + 1 * (y 1).val = (y 1).val; omega

/-- The second bias row's window holds the whole row at every point. -/
theorem whole0_4 (c : Dev nD) (t : Fin cfg0.N) :
    (iblk0 (F := Ideal) V c 4 t : Vec Ideal S1x128 .f32) = (V c main_v16 : S1x128.Idx → EReal) := by
  obtain ⟨-, -, -, -, -, -, -, -, e0, e1, -⟩ := index0 t
  funext y
  show V c main_v16 (((cfg0.win 4).blk t).view.emb y) = V c main_v16 y
  congr 1
  funext a
  apply Fin.ext
  match a with
  | ⟨0, _⟩ => show win0_4.index t (0 : Fin 2) * 1 + 1 * (y 0).val = (y 0).val; omega
  | ⟨1, _⟩ => show win0_4.index t (1 : Fin 2) * 128 + 1 * (y 1).val = (y 1).val; omega

/-- The layer's update of the rows of an array, entry by entry: what region 0's output array ends holding. -/
def rows0 (c : Dev nD) : S50000x128.Idx → EReal := fun i =>
  gin (fun (P : Fin 50000) (k : Fin 16) => (V c main_v14 (ix2 P k) : EReal)) (fun (j : Fin 16) (k : Fin 128) => (V c main_arg4 (ix2 j k) : EReal))
    (fun (k : Fin 128) => (V c main_v15 (ix2 (0 : Fin 1) k) : EReal)) (fun (k : Fin 128) (q : Fin 128) => (V c main_arg6 (ix2 k q) : EReal))
    (fun (q : Fin 128) => (V c main_v16 (ix2 (0 : Fin 1) q) : EReal)) (i 0) (i 1)

/-- The body's result at (p, q), for a block of rows whose row p is row P of an array and whole weights and biases:
    the layer's update of row P of the array. -/
theorem block_row0 (x0 : Vec Ideal S5000x16 .f32) (x1 : Vec Ideal S16x128 .f32) (x2 : Vec Ideal S1x128 .f32)
    (x3 : Vec Ideal S128x128 .f32) (x4 : Vec Ideal S1x128 .f32)
    (A0 : S50000x16.Idx → EReal) (A1 : S16x128.Idx → EReal) (A2 : S1x128.Idx → EReal) (A3 : S128x128.Idx → EReal) (A4 : S1x128.Idx → EReal)
    (p : Fin 5000) (q : Fin 128) (P : Fin 50000)
    (h0 : ∀ k : Fin 16, (x0 (ix2 p k) : EReal) = A0 (ix2 P k)) (h1 : x1 = A1) (h2 : x2 = A2) (h3 : x3 = A3) (h4 : x4 = A4) :
    out0_5 (F := Ideal) x0 x1 x2 x3 x4 (ix2 p q)
      = gin (fun (P : Fin 50000) (k : Fin 16) => A0 (ix2 P k)) (fun (j : Fin 16) (k : Fin 128) => A1 (ix2 j k))
          (fun (k : Fin 128) => A2 (ix2 (0 : Fin 1) k)) (fun (k : Fin 128) (q : Fin 128) => A3 (ix2 k q))
          (fun (q : Fin 128) => A4 (ix2 (0 : Fin 1) q)) P q := by
  subst h1 h2 h3 h4
  rw [Pay.out0_5_apply]
  exact gin_row h0 _ _ _ _ q

/-- What point t writes back is its block of the layer's update of the region-entry rows. -/
theorem flushed0 (c : Dev nD) (t : Fin cfg0.N) :
    (dat0 (F := Ideal) V c).flushed 5 t = ((cfg0.win 5).blk t).view.read (Elt Ideal) (rows0 V c) := by
  show (cfg0.win 5).cut (grid0.coords t) ((dat0 V c).after 5 t) = _
  rw [after0_5]
  funext j
  obtain ⟨p, q, rfl⟩ : ∃ (p : Fin 5000) (q : Fin 128), j = ix2 p q := ⟨j 0, j 1, eq_ix2 (n0 := 5000) (n1 := 128) j⟩
  have hN : grid0.N = 10 := N_0
  have ht : t.val < 10 := hN ▸ t.isLt
  obtain ⟨P, hP⟩ : ∃ P : Fin 50000, P.val = t.val * 5000 + p.val := ⟨⟨t.val * 5000 + p.val, by omega⟩, rfl⟩
  obtain ⟨-, -, -, -, -, -, -, -, -, -, e0, e1⟩ := index0 t
  have hi : ((cfg0.win 5).blk t).view.emb (ix2 p q) = (ix2 P q : S50000x128.Idx) := by
    funext a
    apply Fin.ext
    match a with
    | ⟨0, _⟩ => show win0_5.index t (0 : Fin 2) * 5000 + 1 * p.val = P.val; omega
    | ⟨1, _⟩ => show win0_5.index t (1 : Fin 2) * 128 + 1 * q.val = q.val; omega
  show out0_5 (iblk0 V c 0 t) (iblk0 V c 1 t) (iblk0 V c 2 t) (iblk0 V c 3 t) (iblk0 V c 4 t) (ix2 p q)
    = rows0 V c (((cfg0.win 5).blk t).view.emb (ix2 p q))
  rw [hi]
  exact block_row0 _ _ _ _ _ (V c main_v14) (V c main_arg4) (V c main_v15) (V c main_arg6) (V c main_v16) p q P
    (fun k => rows0_read V c t p k P hP) (whole0_1 V c t) (whole0_2 V c t) (whole0_3 V c t) (whole0_4 V c t)

/-- An entry of the output array is in point t's block iff each coordinate is in the block's range on its axis. -/
theorem mem_block0 (t : Fin cfg0.N) (i : S50000x128.Idx) :
    i ∈ ((cfg0.win 5).blk t).view.set ↔ ∀ a : Fin 2, win0_5.index t a * S5000x128.size a ≤ (i a).val ∧ (i a).val < win0_5.index t a * S5000x128.size a + S5000x128.size a := by
  show i ∈ ((View.whole main_v17).slice (win0_5.rect t)).set ↔ _
  rw [View.set_slice_whole, Rect.mem_set_unit]
  exact Iff.rfl

/-- The blocks tile the rows: row P lies in the block of point P / 5000. -/
theorem cover0 (i : S50000x128.Idx) : ∃ t : Fin cfg0.N, (cfg0.win 5).flush t = true ∧ i ∈ ((cfg0.win 5).blk t).view.set := by
  have hi0 : (i 0).val < 50000 := idx2_lt0 i
  have hi1 : (i 1).val < 128 := idx2_lt1 i
  have hN : grid0.N = 10 := N_0
  obtain ⟨t, ht⟩ : ∃ t : Fin cfg0.N, t.val = (i 0).val / 5000 := ⟨⟨(i 0).val / 5000, by show _ < grid0.N; omega⟩, rfl⟩
  obtain ⟨-, -, -, -, -, -, -, -, -, -, e0, e1⟩ := index0 t
  refine ⟨t, flush0_5 t, ?_⟩
  rw [mem_block0]
  intro a
  match a with
  | ⟨0, _⟩ => show win0_5.index t (0 : Fin 2) * 5000 ≤ (i 0).val ∧ (i 0).val < win0_5.index t (0 : Fin 2) * 5000 + 5000; omega
  | ⟨1, _⟩ => show win0_5.index t (1 : Fin 2) * 128 ≤ (i 1).val ∧ (i 1).val < win0_5.index t (1 : Fin 2) * 128 + 128; omega

/-- Region 0's output array (the first layer's node features) at (P, q). -/
theorem region0_array (c : Dev nD) (P : Fin 50000) (q : Fin 128) :
    ((dat0 (F := Ideal) V c).arrAt 5 cfg0.N : S50000x128.Idx → EReal) (ix2 P q)
      = gin (fun (P : Fin 50000) (k : Fin 16) => (V c main_v14 (ix2 P k) : EReal)) (fun (j : Fin 16) (k : Fin 128) => (V c main_arg4 (ix2 j k) : EReal))
          (fun (k : Fin 128) => (V c main_v15 (ix2 (0 : Fin 1) k) : EReal)) (fun (k : Fin 128) (q : Fin 128) => (V c main_arg6 (ix2 k q) : EReal))
          (fun (q : Fin 128) => (V c main_v16 (ix2 (0 : Fin 1) q) : EReal)) P q := by
  have h := (dat0 (F := Ideal) V c).arrAt_eq_of_cover 5 (rows0 V c) (fun t _ => flushed0 V c t) cover0
  rw [h]
  rfl

/-! ## Region 1 -/

/-- Where region 1's blocks sit, decided over its 10 points: the two row-blocked windows (the node features read and
    the node features written) are at block (t, 0) at point t, every other window at block (0, 0). -/
theorem index1 : ∀ t : Fin cfg1.N, win1_0.index t (0 : Fin 2) = t.val ∧ win1_0.index t (1 : Fin 2) = 0
    ∧ win1_1.index t (0 : Fin 2) = 0 ∧ win1_1.index t (1 : Fin 2) = 0
    ∧ win1_2.index t (0 : Fin 2) = 0 ∧ win1_2.index t (1 : Fin 2) = 0
    ∧ win1_3.index t (0 : Fin 2) = 0 ∧ win1_3.index t (1 : Fin 2) = 0
    ∧ win1_4.index t (0 : Fin 2) = 0 ∧ win1_4.index t (1 : Fin 2) = 0
    ∧ win1_5.index t (0 : Fin 2) = t.val ∧ win1_5.index t (1 : Fin 2) = 0 :=
  (by decide +kernel : ∀ t : Fin grid1.N, _)

/-- Row p of the block of input rows at point t is row t·5000 + p of the array. -/
theorem rows1_read (c : Dev nD) (t : Fin cfg1.N) (p : Fin 5000) (k : Fin 128) (P : Fin 50000)
    (hP : P.val = t.val * 5000 + p.val) :
    (iblk1 (F := Ideal) V c 0 t : Vec Ideal S5000x128 .f32) (ix2 p k) = (V c main_v28 (ix2 P k) : EReal) := by
  obtain ⟨e0, e1, -⟩ := index1 t
  show V c main_v28 (((cfg1.win 0).blk t).view.emb (ix2 p k)) = V c main_v28 (ix2 P k)
  congr 1
  funext a
  apply Fin.ext
  match a with
  | ⟨0, _⟩ => show win1_0.index t (0 : Fin 2) * 5000 + 1 * p.val = P.val; omega
  | ⟨1, _⟩ => show win1_0.index t (1 : Fin 2) * 128 + 1 * k.val = k.val; omega

/-- The first weight matrix's window holds the whole matrix at every point. -/
theorem whole1_1 (c : Dev nD) (t : Fin cfg1.N) :
    (iblk1 (F := Ideal) V c 1 t : Vec Ideal S128x128 .f32) = (V c main_arg8 : S128x128.Idx → EReal) := by
  obtain ⟨-, -, e0, e1, -⟩ := index1 t
  funext y
  show V c main_arg8 (((cfg1.win 1).blk t).view.emb y) = V c main_arg8 y
  congr 1
  funext a
  apply Fin.ext
  match a with
  | ⟨0, _⟩ => show win1_1.index t (0 : Fin 2) * 128 + 1 * (y 0).val = (y 0).val; omega
  | ⟨1, _⟩ => show win1_1.index t (1 : Fin 2) * 128 + 1 * (y 1).val = (y 1).val; omega

/-- The first bias row's window holds the whole row at every point. -/
theorem whole1_2 (c : Dev nD) (t : Fin cfg1.N) :
    (iblk1 (F := Ideal) V c 2 t : Vec Ideal S1x128 .f32) = (V c main_v29 : S1x128.Idx → EReal) := by
  obtain ⟨-, -, -, -, e0, e1, -⟩ := index1 t
  funext y
  show V c main_v29 (((cfg1.win 2).blk t).view.emb y) = V c main_v29 y
  congr 1
  funext a
  apply Fin.ext
  match a with
  | ⟨0, _⟩ => show win1_2.index t (0 : Fin 2) * 1 + 1 * (y 0).val = (y 0).val; omega
  | ⟨1, _⟩ => show win1_2.index t (1 : Fin 2) * 128 + 1 * (y 1).val = (y 1).val; omega

/-- The second weight matrix's window holds the whole matrix at every point. -/
theorem whole1_3 (c : Dev nD) (t : Fin cfg1.N) :
    (iblk1 (F := Ideal) V c 3 t : Vec Ideal S128x128 .f32) = (V c main_arg10 : S128x128.Idx → EReal) := by
  obtain ⟨-, -, -, -, -, -, e0, e1, -⟩ := index1 t
  funext y
  show V c main_arg10 (((cfg1.win 3).blk t).view.emb y) = V c main_arg10 y
  congr 1
  funext a
  apply Fin.ext
  match a with
  | ⟨0, _⟩ => show win1_3.index t (0 : Fin 2) * 128 + 1 * (y 0).val = (y 0).val; omega
  | ⟨1, _⟩ => show win1_3.index t (1 : Fin 2) * 128 + 1 * (y 1).val = (y 1).val; omega

/-- The second bias row's window holds the whole row at every point. -/
theorem whole1_4 (c : Dev nD) (t : Fin cfg1.N) :
    (iblk1 (F := Ideal) V c 4 t : Vec Ideal S1x128 .f32) = (V c main_v30 : S1x128.Idx → EReal) := by
  obtain ⟨-, -, -, -, -, -, -, -, e0, e1, -⟩ := index1 t
  funext y
  show V c main_v30 (((cfg1.win 4).blk t).view.emb y) = V c main_v30 y
  congr 1
  funext a
  apply Fin.ext
  match a with
  | ⟨0, _⟩ => show win1_4.index t (0 : Fin 2) * 1 + 1 * (y 0).val = (y 0).val; omega
  | ⟨1, _⟩ => show win1_4.index t (1 : Fin 2) * 128 + 1 * (y 1).val = (y 1).val; omega

/-- The layer's update of the rows of an array, entry by entry: what region 1's output array ends holding. -/
def rows1 (c : Dev nD) : S50000x128.Idx → EReal := fun i =>
  gin (fun (P : Fin 50000) (k : Fin 128) => (V c main_v28 (ix2 P k) : EReal)) (fun (j : Fin 128) (k : Fin 128) => (V c main_arg8 (ix2 j k) : EReal))
    (fun (k : Fin 128) => (V c main_v29 (ix2 (0 : Fin 1) k) : EReal)) (fun (k : Fin 128) (q : Fin 128) => (V c main_arg10 (ix2 k q) : EReal))
    (fun (q : Fin 128) => (V c main_v30 (ix2 (0 : Fin 1) q) : EReal)) (i 0) (i 1)

/-- The body's result at (p, q), for a block of rows whose row p is row P of an array and whole weights and biases:
    the layer's update of row P of the array. -/
theorem block_row1 (x0 : Vec Ideal S5000x128 .f32) (x1 : Vec Ideal S128x128 .f32) (x2 : Vec Ideal S1x128 .f32)
    (x3 : Vec Ideal S128x128 .f32) (x4 : Vec Ideal S1x128 .f32)
    (A0 : S50000x128.Idx → EReal) (A1 : S128x128.Idx → EReal) (A2 : S1x128.Idx → EReal) (A3 : S128x128.Idx → EReal) (A4 : S1x128.Idx → EReal)
    (p : Fin 5000) (q : Fin 128) (P : Fin 50000)
    (h0 : ∀ k : Fin 128, (x0 (ix2 p k) : EReal) = A0 (ix2 P k)) (h1 : x1 = A1) (h2 : x2 = A2) (h3 : x3 = A3) (h4 : x4 = A4) :
    out1_5 (F := Ideal) x0 x1 x2 x3 x4 (ix2 p q)
      = gin (fun (P : Fin 50000) (k : Fin 128) => A0 (ix2 P k)) (fun (j : Fin 128) (k : Fin 128) => A1 (ix2 j k))
          (fun (k : Fin 128) => A2 (ix2 (0 : Fin 1) k)) (fun (k : Fin 128) (q : Fin 128) => A3 (ix2 k q))
          (fun (q : Fin 128) => A4 (ix2 (0 : Fin 1) q)) P q := by
  subst h1 h2 h3 h4
  rw [Pay.out1_5_apply]
  exact gin_row h0 _ _ _ _ q

/-- What point t writes back is its block of the layer's update of the region-entry rows. -/
theorem flushed1 (c : Dev nD) (t : Fin cfg1.N) :
    (dat1 (F := Ideal) V c).flushed 5 t = ((cfg1.win 5).blk t).view.read (Elt Ideal) (rows1 V c) := by
  show (cfg1.win 5).cut (grid1.coords t) ((dat1 V c).after 5 t) = _
  rw [after1_5]
  funext j
  obtain ⟨p, q, rfl⟩ : ∃ (p : Fin 5000) (q : Fin 128), j = ix2 p q := ⟨j 0, j 1, eq_ix2 (n0 := 5000) (n1 := 128) j⟩
  have hN : grid1.N = 10 := N_1
  have ht : t.val < 10 := hN ▸ t.isLt
  obtain ⟨P, hP⟩ : ∃ P : Fin 50000, P.val = t.val * 5000 + p.val := ⟨⟨t.val * 5000 + p.val, by omega⟩, rfl⟩
  obtain ⟨-, -, -, -, -, -, -, -, -, -, e0, e1⟩ := index1 t
  have hi : ((cfg1.win 5).blk t).view.emb (ix2 p q) = (ix2 P q : S50000x128.Idx) := by
    funext a
    apply Fin.ext
    match a with
    | ⟨0, _⟩ => show win1_5.index t (0 : Fin 2) * 5000 + 1 * p.val = P.val; omega
    | ⟨1, _⟩ => show win1_5.index t (1 : Fin 2) * 128 + 1 * q.val = q.val; omega
  show out1_5 (iblk1 V c 0 t) (iblk1 V c 1 t) (iblk1 V c 2 t) (iblk1 V c 3 t) (iblk1 V c 4 t) (ix2 p q)
    = rows1 V c (((cfg1.win 5).blk t).view.emb (ix2 p q))
  rw [hi]
  exact block_row1 _ _ _ _ _ (V c main_v28) (V c main_arg8) (V c main_v29) (V c main_arg10) (V c main_v30) p q P
    (fun k => rows1_read V c t p k P hP) (whole1_1 V c t) (whole1_2 V c t) (whole1_3 V c t) (whole1_4 V c t)

/-- An entry of the output array is in point t's block iff each coordinate is in the block's range on its axis. -/
theorem mem_block1 (t : Fin cfg1.N) (i : S50000x128.Idx) :
    i ∈ ((cfg1.win 5).blk t).view.set ↔ ∀ a : Fin 2, win1_5.index t a * S5000x128.size a ≤ (i a).val ∧ (i a).val < win1_5.index t a * S5000x128.size a + S5000x128.size a := by
  show i ∈ ((View.whole main_v31).slice (win1_5.rect t)).set ↔ _
  rw [View.set_slice_whole, Rect.mem_set_unit]
  exact Iff.rfl

/-- The blocks tile the rows: row P lies in the block of point P / 5000. -/
theorem cover1 (i : S50000x128.Idx) : ∃ t : Fin cfg1.N, (cfg1.win 5).flush t = true ∧ i ∈ ((cfg1.win 5).blk t).view.set := by
  have hi0 : (i 0).val < 50000 := idx2_lt0 i
  have hi1 : (i 1).val < 128 := idx2_lt1 i
  have hN : grid1.N = 10 := N_1
  obtain ⟨t, ht⟩ : ∃ t : Fin cfg1.N, t.val = (i 0).val / 5000 := ⟨⟨(i 0).val / 5000, by show _ < grid1.N; omega⟩, rfl⟩
  obtain ⟨-, -, -, -, -, -, -, -, -, -, e0, e1⟩ := index1 t
  refine ⟨t, flush1_5 t, ?_⟩
  rw [mem_block1]
  intro a
  match a with
  | ⟨0, _⟩ => show win1_5.index t (0 : Fin 2) * 5000 ≤ (i 0).val ∧ (i 0).val < win1_5.index t (0 : Fin 2) * 5000 + 5000; omega
  | ⟨1, _⟩ => show win1_5.index t (1 : Fin 2) * 128 ≤ (i 1).val ∧ (i 1).val < win1_5.index t (1 : Fin 2) * 128 + 128; omega

/-- Region 1's output array (the second layer's node features) at (P, q). -/
theorem region1_array (c : Dev nD) (P : Fin 50000) (q : Fin 128) :
    ((dat1 (F := Ideal) V c).arrAt 5 cfg1.N : S50000x128.Idx → EReal) (ix2 P q)
      = gin (fun (P : Fin 50000) (k : Fin 128) => (V c main_v28 (ix2 P k) : EReal)) (fun (j : Fin 128) (k : Fin 128) => (V c main_arg8 (ix2 j k) : EReal))
          (fun (k : Fin 128) => (V c main_v29 (ix2 (0 : Fin 1) k) : EReal)) (fun (k : Fin 128) (q : Fin 128) => (V c main_arg10 (ix2 k q) : EReal))
          (fun (q : Fin 128) => (V c main_v30 (ix2 (0 : Fin 1) q) : EReal)) P q := by
  have h := (dat1 (F := Ideal) V c).arrAt_eq_of_cover 5 (rows1 V c) (fun t _ => flushed1 V c t) cover1
  rw [h]
  rfl

/-- The decoder's hidden rows of the region-entry arrays. -/
def hid (c : Dev nD) : Fin 256 → Fin 128 → EReal :=
  hidden (latent (fun (g : Fin 256) (k : Fin 128) => (V c main_v43 (ix2 g k) : EReal)) (fun (g : Fin 256) (k : Fin 64) => (V c main_arg3 (ix2 g k) : EReal))
      (fun (k : Fin 128) (q : Fin 64) => (V c main_arg12 (ix2 k q) : EReal)) (fun (q : Fin 64) => (V c main_v44 (ix2 (0 : Fin 1) q) : EReal))
      (fun (k : Fin 128) (q : Fin 64) => (V c main_arg14 (ix2 k q) : EReal)) (fun (q : Fin 64) => (V c main_v45 (ix2 (0 : Fin 1) q) : EReal)))
    (fun (k : Fin 64) (q : Fin 128) => (V c main_arg16 (ix2 k q) : EReal)) (fun (q : Fin 128) => (V c main_v46 (ix2 (0 : Fin 1) q) : EReal))
    (fun (k : Fin 128) (q : Fin 128) => (V c main_arg18 (ix2 k q) : EReal)) (fun (q : Fin 128) => (V c main_v47 (ix2 (0 : Fin 1) q) : EReal))

/-! ## Region 2 -/

/-- Where region 2's row-blocked windows sit, decided over its 4 points: the pooled rows, the noise rows and the four
    outputs are at block (t, 0) at point t. -/
theorem index2_rows : ∀ t : Fin cfg2.N, win2_0.index t (0 : Fin 2) = t.val ∧ win2_0.index t (1 : Fin 2) = 0
    ∧ win2_1.index t (0 : Fin 2) = t.val ∧ win2_1.index t (1 : Fin 2) = 0
    ∧ win2_14.index t (0 : Fin 2) = t.val ∧ win2_14.index t (1 : Fin 2) = 0
    ∧ win2_15.index t (0 : Fin 2) = t.val ∧ win2_15.index t (1 : Fin 2) = 0
    ∧ win2_16.index t (0 : Fin 2) = t.val ∧ win2_16.index t (1 : Fin 2) = 0
    ∧ win2_17.index t (0 : Fin 2) = t.val ∧ win2_17.index t (1 : Fin 2) = 0 :=
  (by decide +kernel : ∀ t : Fin grid2.N, _)

/-- Window 2 is at block (0, 0) at every point. -/
theorem index2_2 : ∀ t : Fin cfg2.N, win2_2.index t (0 : Fin 2) = 0 ∧ win2_2.index t (1 : Fin 2) = 0 :=
  (by decide +kernel : ∀ t : Fin grid2.N, _)

/-- Window 3 is at block (0, 0) at every point. -/
theorem index2_3 : ∀ t : Fin cfg2.N, win2_3.index t (0 : Fin 2) = 0 ∧ win2_3.index t (1 : Fin 2) = 0 :=
  (by decide +kernel : ∀ t : Fin grid2.N, _)

/-- Window 4 is at block (0, 0) at every point. -/
theorem index2_4 : ∀ t : Fin cfg2.N, win2_4.index t (0 : Fin 2) = 0 ∧ win2_4.index t (1 : Fin 2) = 0 :=
  (by decide +kernel : ∀ t : Fin grid2.N, _)

/-- Window 5 is at block (0, 0) at every point. -/
theorem index2_5 : ∀ t : Fin cfg2.N, win2_5.index t (0 : Fin 2) = 0 ∧ win2_5.index t (1 : Fin 2) = 0 :=
  (by decide +kernel : ∀ t : Fin grid2.N, _)

/-- Window 6 is at block (0, 0) at every point. -/
theorem index2_6 : ∀ t : Fin cfg2.N, win2_6.index t (0 : Fin 2) = 0 ∧ win2_6.index t (1 : Fin 2) = 0 :=
  (by decide +kernel : ∀ t : Fin grid2.N, _)

/-- Window 7 is at block (0, 0) at every point. -/
theorem index2_7 : ∀ t : Fin cfg2.N, win2_7.index t (0 : Fin 2) = 0 ∧ win2_7.index t (1 : Fin 2) = 0 :=
  (by decide +kernel : ∀ t : Fin grid2.N, _)

/-- Window 8 is at block (0, 0) at every point. -/
theorem index2_8 : ∀ t : Fin cfg2.N, win2_8.index t (0 : Fin 2) = 0 ∧ win2_8.index t (1 : Fin 2) = 0 :=
  (by decide +kernel : ∀ t : Fin grid2.N, _)

/-- Window 9 is at block (0, 0) at every point. -/
theorem index2_9 : ∀ t : Fin cfg2.N, win2_9.index t (0 : Fin 2) = 0 ∧ win2_9.index t (1 : Fin 2) = 0 :=
  (by decide +kernel : ∀ t : Fin grid2.N, _)

/-- Window 10 is at block (0, 0) at every point. -/
theorem index2_10 : ∀ t : Fin cfg2.N, win2_10.index t (0 : Fin 2) = 0 ∧ win2_10.index t (1 : Fin 2) = 0 :=
  (by decide +kernel : ∀ t : Fin grid2.N, _)

/-- Window 11 is at block (0, 0) at every point. -/
theorem index2_11 : ∀ t : Fin cfg2.N, win2_11.index t (0 : Fin 2) = 0 ∧ win2_11.index t (1 : Fin 2) = 0 :=
  (by decide +kernel : ∀ t : Fin grid2.N, _)

/-- Window 12 is at block (0, 0) at every point. -/
theorem index2_12 : ∀ t : Fin cfg2.N, win2_12.index t (0 : Fin 2) = 0 ∧ win2_12.index t (1 : Fin 2) = 0 :=
  (by decide +kernel : ∀ t : Fin grid2.N, _)

/-- Window 13 is at block (0, 0) at every point. -/
theorem index2_13 : ∀ t : Fin cfg2.N, win2_13.index t (0 : Fin 2) = 0 ∧ win2_13.index t (1 : Fin 2) = 0 :=
  (by decide +kernel : ∀ t : Fin grid2.N, _)

/-- Row p of the block of pooled rows at point t is row t·64 + p of the array. -/
theorem pooled2_read (c : Dev nD) (t : Fin cfg2.N) (p : Fin 64) (k : Fin 128) (P : Fin 256)
    (hP : P.val = t.val * 64 + p.val) :
    (iblk2 (F := Ideal) V c 0 t : Vec Ideal S64x128 .f32) (ix2 p k) = (V c main_v43 (ix2 P k) : EReal) := by
  obtain ⟨e0, e1, -⟩ := index2_rows t
  show V c main_v43 (((cfg2.win 0).blk t).view.emb (ix2 p k)) = V c main_v43 (ix2 P k)
  congr 1
  funext a
  apply Fin.ext
  match a with
  | ⟨0, _⟩ => show win2_0.index t (0 : Fin 2) * 64 + 1 * p.val = P.val; omega
  | ⟨1, _⟩ => show win2_0.index t (1 : Fin 2) * 128 + 1 * k.val = k.val; omega

/-- Row p of the block of noise rows at point t is row t·64 + p of the array. -/
theorem noise2_read (c : Dev nD) (t : Fin cfg2.N) (p : Fin 64) (k : Fin 64) (P : Fin 256)
    (hP : P.val = t.val * 64 + p.val) :
    (iblk2 (F := Ideal) V c 1 t : Vec Ideal S64x64 .f32) (ix2 p k) = (V c main_arg3 (ix2 P k) : EReal) := by
  obtain ⟨-, -, e0, e1, -⟩ := index2_rows t
  show V c main_arg3 (((cfg2.win 1).blk t).view.emb (ix2 p k)) = V c main_arg3 (ix2 P k)
  congr 1
  funext a
  apply Fin.ext
  match a with
  | ⟨0, _⟩ => show win2_1.index t (0 : Fin 2) * 64 + 1 * p.val = P.val; omega
  | ⟨1, _⟩ => show win2_1.index t (1 : Fin 2) * 64 + 1 * k.val = k.val; omega

/-- The mu weights' window holds the whole matrix at every point. -/
theorem whole2_2 (c : Dev nD) (t : Fin cfg2.N) :
    (iblk2 (F := Ideal) V c 2 t : Vec Ideal S128x64 .f32) = (V c main_arg12 : S128x64.Idx → EReal) := by
  obtain ⟨e0, e1⟩ := index2_2 t
  funext y
  show V c main_arg12 (((cfg2.win 2).blk t).view.emb y) = V c main_arg12 y
  congr 1
  funext a
  apply Fin.ext
  match a with
  | ⟨0, _⟩ => show win2_2.index t (0 : Fin 2) * 128 + 1 * (y 0).val = (y 0).val; omega
  | ⟨1, _⟩ => show win2_2.index t (1 : Fin 2) * 64 + 1 * (y 1).val = (y 1).val; omega

/-- The mu bias row's window holds the whole row at every point. -/
theorem whole2_3 (c : Dev nD) (t : Fin cfg2.N) :
    (iblk2 (F := Ideal) V c 3 t : Vec Ideal S1x64 .f32) = (V c main_v44 : S1x64.Idx → EReal) := by
  obtain ⟨e0, e1⟩ := index2_3 t
  funext y
  show V c main_v44 (((cfg2.win 3).blk t).view.emb y) = V c main_v44 y
  congr 1
  funext a
  apply Fin.ext
  match a with
  | ⟨0, _⟩ => show win2_3.index t (0 : Fin 2) * 1 + 1 * (y 0).val = (y 0).val; omega
  | ⟨1, _⟩ => show win2_3.index t (1 : Fin 2) * 64 + 1 * (y 1).val = (y 1).val; omega

/-- The log-variance weights' window holds the whole matrix at every point. -/
theorem whole2_4 (c : Dev nD) (t : Fin cfg2.N) :
    (iblk2 (F := Ideal) V c 4 t : Vec Ideal S128x64 .f32) = (V c main_arg14 : S128x64.Idx → EReal) := by
  obtain ⟨e0, e1⟩ := index2_4 t
  funext y
  show V c main_arg14 (((cfg2.win 4).blk t).view.emb y) = V c main_arg14 y
  congr 1
  funext a
  apply Fin.ext
  match a with
  | ⟨0, _⟩ => show win2_4.index t (0 : Fin 2) * 128 + 1 * (y 0).val = (y 0).val; omega
  | ⟨1, _⟩ => show win2_4.index t (1 : Fin 2) * 64 + 1 * (y 1).val = (y 1).val; omega

/-- The log-variance bias row's window holds the whole row at every point. -/
theorem whole2_5 (c : Dev nD) (t : Fin cfg2.N) :
    (iblk2 (F := Ideal) V c 5 t : Vec Ideal S1x64 .f32) = (V c main_v45 : S1x64.Idx → EReal) := by
  obtain ⟨e0, e1⟩ := index2_5 t
  funext y
  show V c main_v45 (((cfg2.win 5).blk t).view.emb y) = V c main_v45 y
  congr 1
  funext a
  apply Fin.ext
  match a with
  | ⟨0, _⟩ => show win2_5.index t (0 : Fin 2) * 1 + 1 * (y 0).val = (y 0).val; omega
  | ⟨1, _⟩ => show win2_5.index t (1 : Fin 2) * 64 + 1 * (y 1).val = (y 1).val; omega

/-- The decoder's first weight matrix's window holds the whole matrix at every point. -/
theorem whole2_6 (c : Dev nD) (t : Fin cfg2.N) :
    (iblk2 (F := Ideal) V c 6 t : Vec Ideal S64x128 .f32) = (V c main_arg16 : S64x128.Idx → EReal) := by
  obtain ⟨e0, e1⟩ := index2_6 t
  funext y
  show V c main_arg16 (((cfg2.win 6).blk t).view.emb y) = V c main_arg16 y
  congr 1
  funext a
  apply Fin.ext
  match a with
  | ⟨0, _⟩ => show win2_6.index t (0 : Fin 2) * 64 + 1 * (y 0).val = (y 0).val; omega
  | ⟨1, _⟩ => show win2_6.index t (1 : Fin 2) * 128 + 1 * (y 1).val = (y 1).val; omega

/-- The decoder's first bias row's window holds the whole row at every point. -/
theorem whole2_7 (c : Dev nD) (t : Fin cfg2.N) :
    (iblk2 (F := Ideal) V c 7 t : Vec Ideal S1x128 .f32) = (V c main_v46 : S1x128.Idx → EReal) := by
  obtain ⟨e0, e1⟩ := index2_7 t
  funext y
  show V c main_v46 (((cfg2.win 7).blk t).view.emb y) = V c main_v46 y
  congr 1
  funext a
  apply Fin.ext
  match a with
  | ⟨0, _⟩ => show win2_7.index t (0 : Fin 2) * 1 + 1 * (y 0).val = (y 0).val; omega
  | ⟨1, _⟩ => show win2_7.index t (1 : Fin 2) * 128 + 1 * (y 1).val = (y 1).val; omega

/-- The decoder's second weight matrix's window holds the whole matrix at every point. -/
theorem whole2_8 (c : Dev nD) (t : Fin cfg2.N) :
    (iblk2 (F := Ideal) V c 8 t : Vec Ideal S128x128 .f32) = (V c main_arg18 : S128x128.Idx → EReal) := by
  obtain ⟨e0, e1⟩ := index2_8 t
  funext y
  show V c main_arg18 (((cfg2.win 8).blk t).view.emb y) = V c main_arg18 y
  congr 1
  funext a
  apply Fin.ext
  match a with
  | ⟨0, _⟩ => show win2_8.index t (0 : Fin 2) * 128 + 1 * (y 0).val = (y 0).val; omega
  | ⟨1, _⟩ => show win2_8.index t (1 : Fin 2) * 128 + 1 * (y 1).val = (y 1).val; omega

/-- The decoder's second bias row's window holds the whole row at every point. -/
theorem whole2_9 (c : Dev nD) (t : Fin cfg2.N) :
    (iblk2 (F := Ideal) V c 9 t : Vec Ideal S1x128 .f32) = (V c main_v47 : S1x128.Idx → EReal) := by
  obtain ⟨e0, e1⟩ := index2_9 t
  funext y
  show V c main_v47 (((cfg2.win 9).blk t).view.emb y) = V c main_v47 y
  congr 1
  funext a
  apply Fin.ext
  match a with
  | ⟨0, _⟩ => show win2_9.index t (0 : Fin 2) * 1 + 1 * (y 0).val = (y 0).val; omega
  | ⟨1, _⟩ => show win2_9.index t (1 : Fin 2) * 128 + 1 * (y 1).val = (y 1).val; omega

/-- The node-logit weights' window holds the whole matrix at every point. -/
theorem whole2_10 (c : Dev nD) (t : Fin cfg2.N) :
    (iblk2 (F := Ideal) V c 10 t : Vec Ideal S128x1600 .f32) = (V c main_arg20 : S128x1600.Idx → EReal) := by
  obtain ⟨e0, e1⟩ := index2_10 t
  funext y
  show V c main_arg20 (((cfg2.win 10).blk t).view.emb y) = V c main_arg20 y
  congr 1
  funext a
  apply Fin.ext
  match a with
  | ⟨0, _⟩ => show win2_10.index t (0 : Fin 2) * 128 + 1 * (y 0).val = (y 0).val; omega
  | ⟨1, _⟩ => show win2_10.index t (1 : Fin 2) * 1600 + 1 * (y 1).val = (y 1).val; omega

/-- The node-logit bias row's window holds the whole row at every point. -/
theorem whole2_11 (c : Dev nD) (t : Fin cfg2.N) :
    (iblk2 (F := Ideal) V c 11 t : Vec Ideal S1x1600 .f32) = (V c main_v48 : S1x1600.Idx → EReal) := by
  obtain ⟨e0, e1⟩ := index2_11 t
  funext y
  show V c main_v48 (((cfg2.win 11).blk t).view.emb y) = V c main_v48 y
  congr 1
  funext a
  apply Fin.ext
  match a with
  | ⟨0, _⟩ => show win2_11.index t (0 : Fin 2) * 1 + 1 * (y 0).val = (y 0).val; omega
  | ⟨1, _⟩ => show win2_11.index t (1 : Fin 2) * 1600 + 1 * (y 1).val = (y 1).val; omega

/-- The adjacency-logit weights' window holds the whole matrix at every point. -/
theorem whole2_12 (c : Dev nD) (t : Fin cfg2.N) :
    (iblk2 (F := Ideal) V c 12 t : Vec Ideal S128x10000 .f32) = (V c main_arg22 : S128x10000.Idx → EReal) := by
  obtain ⟨e0, e1⟩ := index2_12 t
  funext y
  show V c main_arg22 (((cfg2.win 12).blk t).view.emb y) = V c main_arg22 y
  congr 1
  funext a
  apply Fin.ext
  match a with
  | ⟨0, _⟩ => show win2_12.index t (0 : Fin 2) * 128 + 1 * (y 0).val = (y 0).val; omega
  | ⟨1, _⟩ => show win2_12.index t (1 : Fin 2) * 10000 + 1 * (y 1).val = (y 1).val; omega

/-- The adjacency-logit bias row's window holds the whole row at every point. -/
theorem whole2_13 (c : Dev nD) (t : Fin cfg2.N) :
    (iblk2 (F := Ideal) V c 13 t : Vec Ideal S1x10000 .f32) = (V c main_v49 : S1x10000.Idx → EReal) := by
  obtain ⟨e0, e1⟩ := index2_13 t
  funext y
  show V c main_v49 (((cfg2.win 13).blk t).view.emb y) = V c main_v49 y
  congr 1
  funext a
  apply Fin.ext
  match a with
  | ⟨0, _⟩ => show win2_13.index t (0 : Fin 2) * 1 + 1 * (y 0).val = (y 0).val; omega
  | ⟨1, _⟩ => show win2_13.index t (1 : Fin 2) * 10000 + 1 * (y 1).val = (y 1).val; omega

/-- The decoder's hidden row p of a block whose pooled and noise rows p are rows P of two arrays, with whole weights
    and biases: the hidden row P of the arrays. -/
theorem hid_row (x0 : Vec Ideal S64x128 .f32) (x1 : Vec Ideal S64x64 .f32) (x2 : Vec Ideal S128x64 .f32) (x3 : Vec Ideal S1x64 .f32)
    (x4 : Vec Ideal S128x64 .f32) (x5 : Vec Ideal S1x64 .f32) (x6 : Vec Ideal S64x128 .f32) (x7 : Vec Ideal S1x128 .f32)
    (x8 : Vec Ideal S128x128 .f32) (x9 : Vec Ideal S1x128 .f32) (x10 : Vec Ideal S128x1600 .f32) (x11 : Vec Ideal S1x1600 .f32)
    (x12 : Vec Ideal S128x10000 .f32) (x13 : Vec Ideal S1x10000 .f32)
    (A0 : S256x128.Idx → EReal) (A1 : S256x64.Idx → EReal) (A2 : S128x64.Idx → EReal) (A3 : S1x64.Idx → EReal)
    (A4 : S128x64.Idx → EReal) (A5 : S1x64.Idx → EReal) (A6 : S64x128.Idx → EReal) (A7 : S1x128.Idx → EReal)
    (A8 : S128x128.Idx → EReal) (A9 : S1x128.Idx → EReal)
    (p : Fin 64) (P : Fin 256) (h0 : ∀ k : Fin 128, (x0 (ix2 p k) : EReal) = A0 (ix2 P k)) (h1 : ∀ k : Fin 64, (x1 (ix2 p k) : EReal) = A1 (ix2 P k))
    (h2 : x2 = A2) (h3 : x3 = A3) (h4 : x4 = A4) (h5 : x5 = A5) (h6 : x6 = A6) (h7 : x7 = A7) (h8 : x8 = A8) (h9 : x9 = A9) (k : Fin 128) :
    Pay.hid x0 x1 x2 x3 x4 x5 x6 x7 x8 x9 p k
      = (hidden (latent (fun (g : Fin 256) (k : Fin 128) => A0 (ix2 g k)) (fun (g : Fin 256) (k : Fin 64) => A1 (ix2 g k))
              (fun (k : Fin 128) (q : Fin 64) => A2 (ix2 k q)) (fun (q : Fin 64) => A3 (ix2 (0 : Fin 1) q))
              (fun (k : Fin 128) (q : Fin 64) => A4 (ix2 k q)) (fun (q : Fin 64) => A5 (ix2 (0 : Fin 1) q)))
            (fun (k : Fin 64) (q : Fin 128) => A6 (ix2 k q)) (fun (q : Fin 128) => A7 (ix2 (0 : Fin 1) q))
            (fun (k : Fin 128) (q : Fin 128) => A8 (ix2 k q)) (fun (q : Fin 128) => A9 (ix2 (0 : Fin 1) q))) P k := by
  subst h2 h3 h4 h5 h6 h7 h8 h9
  exact hidden_row (fun k => latent_row h0 h1 _ _ _ _ k) _ _ _ _ k

/-- The node logits the body leaves at (p, q): those of row P of the arrays. -/
theorem block_row2_14 (x0 : Vec Ideal S64x128 .f32) (x1 : Vec Ideal S64x64 .f32) (x2 : Vec Ideal S128x64 .f32) (x3 : Vec Ideal S1x64 .f32)
    (x4 : Vec Ideal S128x64 .f32) (x5 : Vec Ideal S1x64 .f32) (x6 : Vec Ideal S64x128 .f32) (x7 : Vec Ideal S1x128 .f32)
    (x8 : Vec Ideal S128x128 .f32) (x9 : Vec Ideal S1x128 .f32) (x10 : Vec Ideal S128x1600 .f32) (x11 : Vec Ideal S1x1600 .f32)
    (x12 : Vec Ideal S128x10000 .f32) (x13 : Vec Ideal S1x10000 .f32)
    (A0 : S256x128.Idx → EReal) (A1 : S256x64.Idx → EReal) (A2 : S128x64.Idx → EReal) (A3 : S1x64.Idx → EReal)
    (A4 : S128x64.Idx → EReal) (A5 : S1x64.Idx → EReal) (A6 : S64x128.Idx → EReal) (A7 : S1x128.Idx → EReal)
    (A8 : S128x128.Idx → EReal) (A9 : S1x128.Idx → EReal) (A10 : S128x1600.Idx → EReal) (A11 : S1x1600.Idx → EReal)
    (p : Fin 64) (q : Fin 1600) (P : Fin 256) (h0 : ∀ k : Fin 128, (x0 (ix2 p k) : EReal) = A0 (ix2 P k)) (h1 : ∀ k : Fin 64, (x1 (ix2 p k) : EReal) = A1 (ix2 P k))
    (h2 : x2 = A2) (h3 : x3 = A3) (h4 : x4 = A4) (h5 : x5 = A5) (h6 : x6 = A6) (h7 : x7 = A7) (h8 : x8 = A8) (h9 : x9 = A9) (h10 : x10 = A10) (h11 : x11 = A11) :
    out2_14 (F := Ideal) x0 x1 x2 x3 x4 x5 x6 x7 x8 x9 x10 x11 x12 x13 (ix2 p q)
      = dense (hidden (latent (fun (g : Fin 256) (k : Fin 128) => A0 (ix2 g k)) (fun (g : Fin 256) (k : Fin 64) => A1 (ix2 g k))
              (fun (k : Fin 128) (q : Fin 64) => A2 (ix2 k q)) (fun (q : Fin 64) => A3 (ix2 (0 : Fin 1) q))
              (fun (k : Fin 128) (q : Fin 64) => A4 (ix2 k q)) (fun (q : Fin 64) => A5 (ix2 (0 : Fin 1) q)))
            (fun (k : Fin 64) (q : Fin 128) => A6 (ix2 k q)) (fun (q : Fin 128) => A7 (ix2 (0 : Fin 1) q))
            (fun (k : Fin 128) (q : Fin 128) => A8 (ix2 k q)) (fun (q : Fin 128) => A9 (ix2 (0 : Fin 1) q)))
          (fun (k : Fin 128) (q : Fin 1600) => A10 (ix2 k q)) (fun (q : Fin 1600) => A11 (ix2 (0 : Fin 1) q)) P q := by
  subst h10 h11
  rw [Pay.out2_14_apply]
  exact dense_row (fun k => hid_row x0 x1 x2 x3 x4 x5 x6 x7 x8 x9 x10 x11 x12 x13 A0 A1 A2 A3 A4 A5 A6 A7 A8 A9 p P h0 h1 h2 h3 h4 h5 h6 h7 h8 h9 k) _ _ q

/-- The adjacency logits the body leaves at (p, q): those of row P of the arrays. -/
theorem block_row2_15 (x0 : Vec Ideal S64x128 .f32) (x1 : Vec Ideal S64x64 .f32) (x2 : Vec Ideal S128x64 .f32) (x3 : Vec Ideal S1x64 .f32)
    (x4 : Vec Ideal S128x64 .f32) (x5 : Vec Ideal S1x64 .f32) (x6 : Vec Ideal S64x128 .f32) (x7 : Vec Ideal S1x128 .f32)
    (x8 : Vec Ideal S128x128 .f32) (x9 : Vec Ideal S1x128 .f32) (x10 : Vec Ideal S128x1600 .f32) (x11 : Vec Ideal S1x1600 .f32)
    (x12 : Vec Ideal S128x10000 .f32) (x13 : Vec Ideal S1x10000 .f32)
    (A0 : S256x128.Idx → EReal) (A1 : S256x64.Idx → EReal) (A2 : S128x64.Idx → EReal) (A3 : S1x64.Idx → EReal)
    (A4 : S128x64.Idx → EReal) (A5 : S1x64.Idx → EReal) (A6 : S64x128.Idx → EReal) (A7 : S1x128.Idx → EReal)
    (A8 : S128x128.Idx → EReal) (A9 : S1x128.Idx → EReal) (A12 : S128x10000.Idx → EReal) (A13 : S1x10000.Idx → EReal)
    (p : Fin 64) (q : Fin 10000) (P : Fin 256) (h0 : ∀ k : Fin 128, (x0 (ix2 p k) : EReal) = A0 (ix2 P k)) (h1 : ∀ k : Fin 64, (x1 (ix2 p k) : EReal) = A1 (ix2 P k))
    (h2 : x2 = A2) (h3 : x3 = A3) (h4 : x4 = A4) (h5 : x5 = A5) (h6 : x6 = A6) (h7 : x7 = A7) (h8 : x8 = A8) (h9 : x9 = A9) (h12 : x12 = A12) (h13 : x13 = A13) :
    out2_15 (F := Ideal) x0 x1 x2 x3 x4 x5 x6 x7 x8 x9 x10 x11 x12 x13 (ix2 p q)
      = dense (hidden (latent (fun (g : Fin 256) (k : Fin 128) => A0 (ix2 g k)) (fun (g : Fin 256) (k : Fin 64) => A1 (ix2 g k))
              (fun (k : Fin 128) (q : Fin 64) => A2 (ix2 k q)) (fun (q : Fin 64) => A3 (ix2 (0 : Fin 1) q))
              (fun (k : Fin 128) (q : Fin 64) => A4 (ix2 k q)) (fun (q : Fin 64) => A5 (ix2 (0 : Fin 1) q)))
            (fun (k : Fin 64) (q : Fin 128) => A6 (ix2 k q)) (fun (q : Fin 128) => A7 (ix2 (0 : Fin 1) q))
            (fun (k : Fin 128) (q : Fin 128) => A8 (ix2 k q)) (fun (q : Fin 128) => A9 (ix2 (0 : Fin 1) q)))
          (fun (k : Fin 128) (q : Fin 10000) => A12 (ix2 k q)) (fun (q : Fin 10000) => A13 (ix2 (0 : Fin 1) q)) P q := by
  subst h12 h13
  rw [Pay.out2_15_apply]
  exact dense_row (fun k => hid_row x0 x1 x2 x3 x4 x5 x6 x7 x8 x9 x10 x11 x12 x13 A0 A1 A2 A3 A4 A5 A6 A7 A8 A9 p P h0 h1 h2 h3 h4 h5 h6 h7 h8 h9 k) _ _ q

/-- mu as the body leaves it at (p, q): that of row P of the array. -/
theorem block_row2_16 (x0 : Vec Ideal S64x128 .f32) (x1 : Vec Ideal S64x64 .f32) (x2 : Vec Ideal S128x64 .f32) (x3 : Vec Ideal S1x64 .f32)
    (x4 : Vec Ideal S128x64 .f32) (x5 : Vec Ideal S1x64 .f32) (x6 : Vec Ideal S64x128 .f32) (x7 : Vec Ideal S1x128 .f32)
    (x8 : Vec Ideal S128x128 .f32) (x9 : Vec Ideal S1x128 .f32) (x10 : Vec Ideal S128x1600 .f32) (x11 : Vec Ideal S1x1600 .f32)
    (x12 : Vec Ideal S128x10000 .f32) (x13 : Vec Ideal S1x10000 .f32)
    (A0 : S256x128.Idx → EReal) (A2 : S128x64.Idx → EReal) (A3 : S1x64.Idx → EReal)
    (p : Fin 64) (q : Fin 64) (P : Fin 256) (h0 : ∀ k : Fin 128, (x0 (ix2 p k) : EReal) = A0 (ix2 P k))
    (h2 : x2 = A2) (h3 : x3 = A3) :
    out2_16 (F := Ideal) x0 x1 x2 x3 x4 x5 x6 x7 x8 x9 x10 x11 x12 x13 (ix2 p q)
      = dense (fun (g : Fin 256) (k : Fin 128) => A0 (ix2 g k)) (fun (k : Fin 128) (q : Fin 64) => A2 (ix2 k q))
          (fun (q : Fin 64) => A3 (ix2 (0 : Fin 1) q)) P q := by
  subst h2 h3
  rw [Pay.out2_16_apply]
  exact dense_row h0 _ _ q

/-- The clipped log-variance as the body leaves it at (p, q): that of row P of the array. -/
theorem block_row2_17 (x0 : Vec Ideal S64x128 .f32) (x1 : Vec Ideal S64x64 .f32) (x2 : Vec Ideal S128x64 .f32) (x3 : Vec Ideal S1x64 .f32)
    (x4 : Vec Ideal S128x64 .f32) (x5 : Vec Ideal S1x64 .f32) (x6 : Vec Ideal S64x128 .f32) (x7 : Vec Ideal S1x128 .f32)
    (x8 : Vec Ideal S128x128 .f32) (x9 : Vec Ideal S1x128 .f32) (x10 : Vec Ideal S128x1600 .f32) (x11 : Vec Ideal S1x1600 .f32)
    (x12 : Vec Ideal S128x10000 .f32) (x13 : Vec Ideal S1x10000 .f32)
    (A0 : S256x128.Idx → EReal) (A4 : S128x64.Idx → EReal) (A5 : S1x64.Idx → EReal)
    (p : Fin 64) (q : Fin 64) (P : Fin 256) (h0 : ∀ k : Fin 128, (x0 (ix2 p k) : EReal) = A0 (ix2 P k))
    (h4 : x4 = A4) (h5 : x5 = A5) :
    out2_17 (F := Ideal) x0 x1 x2 x3 x4 x5 x6 x7 x8 x9 x10 x11 x12 x13 (ix2 p q)
      = logvar (fun (g : Fin 256) (k : Fin 128) => A0 (ix2 g k)) (fun (k : Fin 128) (q : Fin 64) => A4 (ix2 k q))
          (fun (q : Fin 64) => A5 (ix2 (0 : Fin 1) q)) P q := by
  subst h4 h5
  rw [Pay.out2_17_apply]
  exact logvar_row h0 _ _ q

/-- The node logits of every graph, entry by entry: what window 14's array ends holding. -/
def nodes2 (c : Dev nD) : S256x1600.Idx → EReal := fun i =>
  dense (hid V c) (fun (k : Fin 128) (q : Fin 1600) => (V c main_arg20 (ix2 k q) : EReal))
    (fun (q : Fin 1600) => (V c main_v48 (ix2 (0 : Fin 1) q) : EReal)) (i 0) (i 1)

/-- What point t writes back to window 14's array is its block of that function of the region-entry arrays. -/
theorem flushed2_14 (c : Dev nD) (t : Fin cfg2.N) :
    (dat2 (F := Ideal) V c).flushed 14 t = ((cfg2.win 14).blk t).view.read (Elt Ideal) (nodes2 V c) := by
  show (cfg2.win 14).cut (grid2.coords t) ((dat2 V c).after 14 t) = _
  rw [after2_14]
  funext j
  obtain ⟨p, q, rfl⟩ : ∃ (p : Fin 64) (q : Fin 1600), j = ix2 p q := ⟨j 0, j 1, eq_ix2 (n0 := 64) (n1 := 1600) j⟩
  have hN : grid2.N = 4 := N_2
  have ht : t.val < 4 := hN ▸ t.isLt
  obtain ⟨P, hP⟩ : ∃ P : Fin 256, P.val = t.val * 64 + p.val := ⟨⟨t.val * 64 + p.val, by omega⟩, rfl⟩
  obtain ⟨-, -, -, -, e0, e1, -⟩ := index2_rows t
  have hi : ((cfg2.win 14).blk t).view.emb (ix2 p q) = (ix2 P q : S256x1600.Idx) := by
    funext a
    apply Fin.ext
    match a with
    | ⟨0, _⟩ => show win2_14.index t (0 : Fin 2) * 64 + 1 * p.val = P.val; omega
    | ⟨1, _⟩ => show win2_14.index t (1 : Fin 2) * 1600 + 1 * q.val = q.val; omega
  show out2_14 (iblk2 V c 0 t) (iblk2 V c 1 t) (iblk2 V c 2 t) (iblk2 V c 3 t) (iblk2 V c 4 t) (iblk2 V c 5 t) (iblk2 V c 6 t) (iblk2 V c 7 t) (iblk2 V c 8 t) (iblk2 V c 9 t) (iblk2 V c 10 t) (iblk2 V c 11 t) (iblk2 V c 12 t) (iblk2 V c 13 t) (ix2 p q)
    = nodes2 V c (((cfg2.win 14).blk t).view.emb (ix2 p q))
  rw [hi]
  exact block_row2_14 _ _ _ _ _ _ _ _ _ _ _ _ _ _ (V c main_v43) (V c main_arg3) (V c main_arg12) (V c main_v44) (V c main_arg14) (V c main_v45)
    (V c main_arg16) (V c main_v46) (V c main_arg18) (V c main_v47) (V c main_arg20) (V c main_v48) p q P
    (fun k => pooled2_read V c t p k P hP) (fun k => noise2_read V c t p k P hP) (whole2_2 V c t) (whole2_3 V c t) (whole2_4 V c t) (whole2_5 V c t)
    (whole2_6 V c t) (whole2_7 V c t) (whole2_8 V c t) (whole2_9 V c t) (whole2_10 V c t) (whole2_11 V c t)

/-- An entry of window 14's array is in point t's block iff each coordinate is in the block's range on its axis. -/
theorem mem_block2_14 (t : Fin cfg2.N) (i : S256x1600.Idx) :
    i ∈ ((cfg2.win 14).blk t).view.set ↔ ∀ a : Fin 2, win2_14.index t a * S64x1600.size a ≤ (i a).val ∧ (i a).val < win2_14.index t a * S64x1600.size a + S64x1600.size a := by
  show i ∈ ((View.whole main_v50_0).slice (win2_14.rect t)).set ↔ _
  rw [View.set_slice_whole, Rect.mem_set_unit]
  exact Iff.rfl

/-- The blocks tile the graphs: row g lies in the block of point g / 64. -/
theorem cover2_14_rows (i : S256x1600.Idx) : ∃ t : Fin cfg2.N, (cfg2.win 14).flush t = true ∧ i ∈ ((cfg2.win 14).blk t).view.set := by
  have hi0 : (i 0).val < 256 := idx2_lt0 i
  have hi1 : (i 1).val < 1600 := idx2_lt1 i
  have hN : grid2.N = 4 := N_2
  obtain ⟨t, ht⟩ : ∃ t : Fin cfg2.N, t.val = (i 0).val / 64 := ⟨⟨(i 0).val / 64, by show _ < grid2.N; omega⟩, rfl⟩
  obtain ⟨-, -, -, -, e0, e1, -⟩ := index2_rows t
  refine ⟨t, flush2_14 t, ?_⟩
  rw [mem_block2_14]
  intro a
  match a with
  | ⟨0, _⟩ => show win2_14.index t (0 : Fin 2) * 64 ≤ (i 0).val ∧ (i 0).val < win2_14.index t (0 : Fin 2) * 64 + 64; omega
  | ⟨1, _⟩ => show win2_14.index t (1 : Fin 2) * 1600 ≤ (i 1).val ∧ (i 1).val < win2_14.index t (1 : Fin 2) * 1600 + 1600; omega

/-- Region 2, window 14: the node logits at (g, q). -/
theorem region2_node (c : Dev nD) (g : Fin 256) (q : Fin 1600) :
    ((dat2 (F := Ideal) V c).arrAt 14 cfg2.N : S256x1600.Idx → EReal) (ix2 g q)
      = dense (hid V c) (fun (k : Fin 128) (q : Fin 1600) => (V c main_arg20 (ix2 k q) : EReal))
          (fun (q : Fin 1600) => (V c main_v48 (ix2 (0 : Fin 1) q) : EReal)) g q := by
  have h := (dat2 (F := Ideal) V c).arrAt_eq_of_cover 14 (nodes2 V c) (fun t _ => flushed2_14 V c t) cover2_14_rows
  rw [h]
  rfl

/-- The adjacency logits of every graph, entry by entry: what window 15's array ends holding. -/
def adjs2 (c : Dev nD) : S256x10000.Idx → EReal := fun i =>
  dense (hid V c) (fun (k : Fin 128) (q : Fin 10000) => (V c main_arg22 (ix2 k q) : EReal))
    (fun (q : Fin 10000) => (V c main_v49 (ix2 (0 : Fin 1) q) : EReal)) (i 0) (i 1)

/-- What point t writes back to window 15's array is its block of that function of the region-entry arrays. -/
theorem flushed2_15 (c : Dev nD) (t : Fin cfg2.N) :
    (dat2 (F := Ideal) V c).flushed 15 t = ((cfg2.win 15).blk t).view.read (Elt Ideal) (adjs2 V c) := by
  show (cfg2.win 15).cut (grid2.coords t) ((dat2 V c).after 15 t) = _
  rw [after2_15]
  funext j
  obtain ⟨p, q, rfl⟩ : ∃ (p : Fin 64) (q : Fin 10000), j = ix2 p q := ⟨j 0, j 1, eq_ix2 (n0 := 64) (n1 := 10000) j⟩
  have hN : grid2.N = 4 := N_2
  have ht : t.val < 4 := hN ▸ t.isLt
  obtain ⟨P, hP⟩ : ∃ P : Fin 256, P.val = t.val * 64 + p.val := ⟨⟨t.val * 64 + p.val, by omega⟩, rfl⟩
  obtain ⟨-, -, -, -, -, -, e0, e1, -⟩ := index2_rows t
  have hi : ((cfg2.win 15).blk t).view.emb (ix2 p q) = (ix2 P q : S256x10000.Idx) := by
    funext a
    apply Fin.ext
    match a with
    | ⟨0, _⟩ => show win2_15.index t (0 : Fin 2) * 64 + 1 * p.val = P.val; omega
    | ⟨1, _⟩ => show win2_15.index t (1 : Fin 2) * 10000 + 1 * q.val = q.val; omega
  show out2_15 (iblk2 V c 0 t) (iblk2 V c 1 t) (iblk2 V c 2 t) (iblk2 V c 3 t) (iblk2 V c 4 t) (iblk2 V c 5 t) (iblk2 V c 6 t) (iblk2 V c 7 t) (iblk2 V c 8 t) (iblk2 V c 9 t) (iblk2 V c 10 t) (iblk2 V c 11 t) (iblk2 V c 12 t) (iblk2 V c 13 t) (ix2 p q)
    = adjs2 V c (((cfg2.win 15).blk t).view.emb (ix2 p q))
  rw [hi]
  exact block_row2_15 _ _ _ _ _ _ _ _ _ _ _ _ _ _ (V c main_v43) (V c main_arg3) (V c main_arg12) (V c main_v44) (V c main_arg14) (V c main_v45)
    (V c main_arg16) (V c main_v46) (V c main_arg18) (V c main_v47) (V c main_arg22) (V c main_v49) p q P
    (fun k => pooled2_read V c t p k P hP) (fun k => noise2_read V c t p k P hP) (whole2_2 V c t) (whole2_3 V c t) (whole2_4 V c t) (whole2_5 V c t)
    (whole2_6 V c t) (whole2_7 V c t) (whole2_8 V c t) (whole2_9 V c t) (whole2_12 V c t) (whole2_13 V c t)

/-- An entry of window 15's array is in point t's block iff each coordinate is in the block's range on its axis. -/
theorem mem_block2_15 (t : Fin cfg2.N) (i : S256x10000.Idx) :
    i ∈ ((cfg2.win 15).blk t).view.set ↔ ∀ a : Fin 2, win2_15.index t a * S64x10000.size a ≤ (i a).val ∧ (i a).val < win2_15.index t a * S64x10000.size a + S64x10000.size a := by
  show i ∈ ((View.whole main_v50_1).slice (win2_15.rect t)).set ↔ _
  rw [View.set_slice_whole, Rect.mem_set_unit]
  exact Iff.rfl

/-- The blocks tile the graphs: row g lies in the block of point g / 64. -/
theorem cover2_15_rows (i : S256x10000.Idx) : ∃ t : Fin cfg2.N, (cfg2.win 15).flush t = true ∧ i ∈ ((cfg2.win 15).blk t).view.set := by
  have hi0 : (i 0).val < 256 := idx2_lt0 i
  have hi1 : (i 1).val < 10000 := idx2_lt1 i
  have hN : grid2.N = 4 := N_2
  obtain ⟨t, ht⟩ : ∃ t : Fin cfg2.N, t.val = (i 0).val / 64 := ⟨⟨(i 0).val / 64, by show _ < grid2.N; omega⟩, rfl⟩
  obtain ⟨-, -, -, -, -, -, e0, e1, -⟩ := index2_rows t
  refine ⟨t, flush2_15 t, ?_⟩
  rw [mem_block2_15]
  intro a
  match a with
  | ⟨0, _⟩ => show win2_15.index t (0 : Fin 2) * 64 ≤ (i 0).val ∧ (i 0).val < win2_15.index t (0 : Fin 2) * 64 + 64; omega
  | ⟨1, _⟩ => show win2_15.index t (1 : Fin 2) * 10000 ≤ (i 1).val ∧ (i 1).val < win2_15.index t (1 : Fin 2) * 10000 + 10000; omega

/-- Region 2, window 15: the adjacency logits at (g, q). -/
theorem region2_adj (c : Dev nD) (g : Fin 256) (q : Fin 10000) :
    ((dat2 (F := Ideal) V c).arrAt 15 cfg2.N : S256x10000.Idx → EReal) (ix2 g q)
      = dense (hid V c) (fun (k : Fin 128) (q : Fin 10000) => (V c main_arg22 (ix2 k q) : EReal))
          (fun (q : Fin 10000) => (V c main_v49 (ix2 (0 : Fin 1) q) : EReal)) g q := by
  have h := (dat2 (F := Ideal) V c).arrAt_eq_of_cover 15 (adjs2 V c) (fun t _ => flushed2_15 V c t) cover2_15_rows
  rw [h]
  rfl

/-- mu of every graph, entry by entry: what window 16's array ends holding. -/
def mus2 (c : Dev nD) : S256x64.Idx → EReal := fun i =>
  dense (fun (g : Fin 256) (k : Fin 128) => (V c main_v43 (ix2 g k) : EReal)) (fun (k : Fin 128) (q : Fin 64) => (V c main_arg12 (ix2 k q) : EReal))
    (fun (q : Fin 64) => (V c main_v44 (ix2 (0 : Fin 1) q) : EReal)) (i 0) (i 1)

/-- What point t writes back to window 16's array is its block of that function of the region-entry arrays. -/
theorem flushed2_16 (c : Dev nD) (t : Fin cfg2.N) :
    (dat2 (F := Ideal) V c).flushed 16 t = ((cfg2.win 16).blk t).view.read (Elt Ideal) (mus2 V c) := by
  show (cfg2.win 16).cut (grid2.coords t) ((dat2 V c).after 16 t) = _
  rw [after2_16]
  funext j
  obtain ⟨p, q, rfl⟩ : ∃ (p : Fin 64) (q : Fin 64), j = ix2 p q := ⟨j 0, j 1, eq_ix2 (n0 := 64) (n1 := 64) j⟩
  have hN : grid2.N = 4 := N_2
  have ht : t.val < 4 := hN ▸ t.isLt
  obtain ⟨P, hP⟩ : ∃ P : Fin 256, P.val = t.val * 64 + p.val := ⟨⟨t.val * 64 + p.val, by omega⟩, rfl⟩
  obtain ⟨-, -, -, -, -, -, -, -, e0, e1, -⟩ := index2_rows t
  have hi : ((cfg2.win 16).blk t).view.emb (ix2 p q) = (ix2 P q : S256x64.Idx) := by
    funext a
    apply Fin.ext
    match a with
    | ⟨0, _⟩ => show win2_16.index t (0 : Fin 2) * 64 + 1 * p.val = P.val; omega
    | ⟨1, _⟩ => show win2_16.index t (1 : Fin 2) * 64 + 1 * q.val = q.val; omega
  show out2_16 (iblk2 V c 0 t) (iblk2 V c 1 t) (iblk2 V c 2 t) (iblk2 V c 3 t) (iblk2 V c 4 t) (iblk2 V c 5 t) (iblk2 V c 6 t) (iblk2 V c 7 t) (iblk2 V c 8 t) (iblk2 V c 9 t) (iblk2 V c 10 t) (iblk2 V c 11 t) (iblk2 V c 12 t) (iblk2 V c 13 t) (ix2 p q)
    = mus2 V c (((cfg2.win 16).blk t).view.emb (ix2 p q))
  rw [hi]
  exact block_row2_16 _ _ _ _ _ _ _ _ _ _ _ _ _ _ (V c main_v43) (V c main_arg12) (V c main_v44) p q P
    (fun k => pooled2_read V c t p k P hP) (whole2_2 V c t) (whole2_3 V c t)

/-- An entry of window 16's array is in point t's block iff each coordinate is in the block's range on its axis. -/
theorem mem_block2_16 (t : Fin cfg2.N) (i : S256x64.Idx) :
    i ∈ ((cfg2.win 16).blk t).view.set ↔ ∀ a : Fin 2, win2_16.index t a * S64x64.size a ≤ (i a).val ∧ (i a).val < win2_16.index t a * S64x64.size a + S64x64.size a := by
  show i ∈ ((View.whole main_v50_2).slice (win2_16.rect t)).set ↔ _
  rw [View.set_slice_whole, Rect.mem_set_unit]
  exact Iff.rfl

/-- The blocks tile the graphs: row g lies in the block of point g / 64. -/
theorem cover2_16_rows (i : S256x64.Idx) : ∃ t : Fin cfg2.N, (cfg2.win 16).flush t = true ∧ i ∈ ((cfg2.win 16).blk t).view.set := by
  have hi0 : (i 0).val < 256 := idx2_lt0 i
  have hi1 : (i 1).val < 64 := idx2_lt1 i
  have hN : grid2.N = 4 := N_2
  obtain ⟨t, ht⟩ : ∃ t : Fin cfg2.N, t.val = (i 0).val / 64 := ⟨⟨(i 0).val / 64, by show _ < grid2.N; omega⟩, rfl⟩
  obtain ⟨-, -, -, -, -, -, -, -, e0, e1, -⟩ := index2_rows t
  refine ⟨t, flush2_16 t, ?_⟩
  rw [mem_block2_16]
  intro a
  match a with
  | ⟨0, _⟩ => show win2_16.index t (0 : Fin 2) * 64 ≤ (i 0).val ∧ (i 0).val < win2_16.index t (0 : Fin 2) * 64 + 64; omega
  | ⟨1, _⟩ => show win2_16.index t (1 : Fin 2) * 64 ≤ (i 1).val ∧ (i 1).val < win2_16.index t (1 : Fin 2) * 64 + 64; omega

/-- Region 2, window 16: mu at (g, q). -/
theorem region2_mu (c : Dev nD) (g : Fin 256) (q : Fin 64) :
    ((dat2 (F := Ideal) V c).arrAt 16 cfg2.N : S256x64.Idx → EReal) (ix2 g q)
      = dense (fun (g : Fin 256) (k : Fin 128) => (V c main_v43 (ix2 g k) : EReal)) (fun (k : Fin 128) (q : Fin 64) => (V c main_arg12 (ix2 k q) : EReal))
          (fun (q : Fin 64) => (V c main_v44 (ix2 (0 : Fin 1) q) : EReal)) g q := by
  have h := (dat2 (F := Ideal) V c).arrAt_eq_of_cover 16 (mus2 V c) (fun t _ => flushed2_16 V c t) cover2_16_rows
  rw [h]
  rfl

/-- The clipped log-variance of every graph, entry by entry: what window 17's array ends holding. -/
def logvars2 (c : Dev nD) : S256x64.Idx → EReal := fun i =>
  logvar (fun (g : Fin 256) (k : Fin 128) => (V c main_v43 (ix2 g k) : EReal)) (fun (k : Fin 128) (q : Fin 64) => (V c main_arg14 (ix2 k q) : EReal))
    (fun (q : Fin 64) => (V c main_v45 (ix2 (0 : Fin 1) q) : EReal)) (i 0) (i 1)

/-- What point t writes back to window 17's array is its block of that function of the region-entry arrays. -/
theorem flushed2_17 (c : Dev nD) (t : Fin cfg2.N) :
    (dat2 (F := Ideal) V c).flushed 17 t = ((cfg2.win 17).blk t).view.read (Elt Ideal) (logvars2 V c) := by
  show (cfg2.win 17).cut (grid2.coords t) ((dat2 V c).after 17 t) = _
  rw [after2_17]
  funext j
  obtain ⟨p, q, rfl⟩ : ∃ (p : Fin 64) (q : Fin 64), j = ix2 p q := ⟨j 0, j 1, eq_ix2 (n0 := 64) (n1 := 64) j⟩
  have hN : grid2.N = 4 := N_2
  have ht : t.val < 4 := hN ▸ t.isLt
  obtain ⟨P, hP⟩ : ∃ P : Fin 256, P.val = t.val * 64 + p.val := ⟨⟨t.val * 64 + p.val, by omega⟩, rfl⟩
  obtain ⟨-, -, -, -, -, -, -, -, -, -, e0, e1⟩ := index2_rows t
  have hi : ((cfg2.win 17).blk t).view.emb (ix2 p q) = (ix2 P q : S256x64.Idx) := by
    funext a
    apply Fin.ext
    match a with
    | ⟨0, _⟩ => show win2_17.index t (0 : Fin 2) * 64 + 1 * p.val = P.val; omega
    | ⟨1, _⟩ => show win2_17.index t (1 : Fin 2) * 64 + 1 * q.val = q.val; omega
  show out2_17 (iblk2 V c 0 t) (iblk2 V c 1 t) (iblk2 V c 2 t) (iblk2 V c 3 t) (iblk2 V c 4 t) (iblk2 V c 5 t) (iblk2 V c 6 t) (iblk2 V c 7 t) (iblk2 V c 8 t) (iblk2 V c 9 t) (iblk2 V c 10 t) (iblk2 V c 11 t) (iblk2 V c 12 t) (iblk2 V c 13 t) (ix2 p q)
    = logvars2 V c (((cfg2.win 17).blk t).view.emb (ix2 p q))
  rw [hi]
  exact block_row2_17 _ _ _ _ _ _ _ _ _ _ _ _ _ _ (V c main_v43) (V c main_arg14) (V c main_v45) p q P
    (fun k => pooled2_read V c t p k P hP) (whole2_4 V c t) (whole2_5 V c t)

/-- An entry of window 17's array is in point t's block iff each coordinate is in the block's range on its axis. -/
theorem mem_block2_17 (t : Fin cfg2.N) (i : S256x64.Idx) :
    i ∈ ((cfg2.win 17).blk t).view.set ↔ ∀ a : Fin 2, win2_17.index t a * S64x64.size a ≤ (i a).val ∧ (i a).val < win2_17.index t a * S64x64.size a + S64x64.size a := by
  show i ∈ ((View.whole main_v50_3).slice (win2_17.rect t)).set ↔ _
  rw [View.set_slice_whole, Rect.mem_set_unit]
  exact Iff.rfl

/-- The blocks tile the graphs: row g lies in the block of point g / 64. -/
theorem cover2_17_rows (i : S256x64.Idx) : ∃ t : Fin cfg2.N, (cfg2.win 17).flush t = true ∧ i ∈ ((cfg2.win 17).blk t).view.set := by
  have hi0 : (i 0).val < 256 := idx2_lt0 i
  have hi1 : (i 1).val < 64 := idx2_lt1 i
  have hN : grid2.N = 4 := N_2
  obtain ⟨t, ht⟩ : ∃ t : Fin cfg2.N, t.val = (i 0).val / 64 := ⟨⟨(i 0).val / 64, by show _ < grid2.N; omega⟩, rfl⟩
  obtain ⟨-, -, -, -, -, -, -, -, -, -, e0, e1⟩ := index2_rows t
  refine ⟨t, flush2_17 t, ?_⟩
  rw [mem_block2_17]
  intro a
  match a with
  | ⟨0, _⟩ => show win2_17.index t (0 : Fin 2) * 64 ≤ (i 0).val ∧ (i 0).val < win2_17.index t (0 : Fin 2) * 64 + 64; omega
  | ⟨1, _⟩ => show win2_17.index t (1 : Fin 2) * 64 ≤ (i 1).val ∧ (i 1).val < win2_17.index t (1 : Fin 2) * 64 + 64; omega

/-- Region 2, window 17: the clipped log-variance at (g, q). -/
theorem region2_logvar (c : Dev nD) (g : Fin 256) (q : Fin 64) :
    ((dat2 (F := Ideal) V c).arrAt 17 cfg2.N : S256x64.Idx → EReal) (ix2 g q)
      = logvar (fun (g : Fin 256) (k : Fin 128) => (V c main_v43 (ix2 g k) : EReal)) (fun (k : Fin 128) (q : Fin 64) => (V c main_arg14 (ix2 k q) : EReal))
          (fun (q : Fin 64) => (V c main_v45 (ix2 (0 : Fin 1) q) : EReal)) g q := by
  have h := (dat2 (F := Ideal) V c).arrAt_eq_of_cover 17 (logvars2 V c) (fun t _ => flushed2_17 V c t) cover2_17_rows
  rw [h]
  rfl

end Cert.KernelIdeal.Blocks

end
-- ==== Proof.SpecCongr.lean ====
/-
  The row functions respect entry-wise equality of their inputs.

  Each function of Spec is built from its inputs' entries alone, so two families of inputs that agree entry by entry
  give the same result. This is how an array read out of one program's memory is exchanged for the equal array of
  the other program inside a layer.
-/
import proofs.«123664_j28810640621902_1_alg».proof.Proof.Spec

noncomputable section

namespace Cert.Spec

variable {R K H N L : ℕ}

theorem dense_congr {x x' : Fin R → Fin K → EReal} {w w' : Fin K → Fin N → EReal} {b b' : Fin N → EReal}
    (hx : ∀ p k, x p k = x' p k) (hw : ∀ k q, w k q = w' k q) (hb : ∀ q, b q = b' q) (p : Fin R) (q : Fin N) :
    dense x w b p q = dense x' w' b' p q := by
  have ex : x = x' := funext fun p => funext fun k => hx p k
  have ew : w = w' := funext fun k => funext fun q => hw k q
  have eb : b = b' := funext hb
  rw [ex, ew, eb]

theorem gin_congr {x x' : Fin R → Fin K → EReal} {w1 w1' : Fin K → Fin H → EReal} {b1 b1' : Fin H → EReal}
    {w2 w2' : Fin H → Fin N → EReal} {b2 b2' : Fin N → EReal}
    (hx : ∀ p k, x p k = x' p k) (hw1 : ∀ k q, w1 k q = w1' k q) (hb1 : ∀ q, b1 q = b1' q)
    (hw2 : ∀ k q, w2 k q = w2' k q) (hb2 : ∀ q, b2 q = b2' q) (p : Fin R) (q : Fin N) :
    gin x w1 b1 w2 b2 p q = gin x' w1' b1' w2' b2' p q := by
  have ex : x = x' := funext fun p => funext fun k => hx p k
  have e1 : w1 = w1' := funext fun k => funext fun q => hw1 k q
  have e2 : b1 = b1' := funext hb1
  have e3 : w2 = w2' := funext fun k => funext fun q => hw2 k q
  have e4 : b2 = b2' := funext hb2
  rw [ex, e1, e2, e3, e4]

theorem logvar_congr {x x' : Fin R → Fin K → EReal} {w w' : Fin K → Fin N → EReal} {b b' : Fin N → EReal}
    (hx : ∀ p k, x p k = x' p k) (hw : ∀ k q, w k q = w' k q) (hb : ∀ q, b q = b' q) (p : Fin R) (q : Fin N) :
    logvar x w b p q = logvar x' w' b' p q := by
  have ex : x = x' := funext fun p => funext fun k => hx p k
  have ew : w = w' := funext fun k => funext fun q => hw k q
  have eb : b = b' := funext hb
  rw [ex, ew, eb]

theorem latent_congr {x x' : Fin R → Fin K → EReal} {eps eps' : Fin R → Fin N → EReal}
    {wmu wmu' : Fin K → Fin N → EReal} {bmu bmu' : Fin N → EReal} {wlv wlv' : Fin K → Fin N → EReal} {blv blv' : Fin N → EReal}
    (hx : ∀ p k, x p k = x' p k) (he : ∀ p q, eps p q = eps' p q) (hwmu : ∀ k q, wmu k q = wmu' k q) (hbmu : ∀ q, bmu q = bmu' q)
    (hwlv : ∀ k q, wlv k q = wlv' k q) (hblv : ∀ q, blv q = blv' q) (p : Fin R) (q : Fin N) :
    latent x eps wmu bmu wlv blv p q = latent x' eps' wmu' bmu' wlv' blv' p q := by
  have ex : x = x' := funext fun p => funext fun k => hx p k
  have ee : eps = eps' := funext fun p => funext fun q => he p q
  have e1 : wmu = wmu' := funext fun k => funext fun q => hwmu k q
  have e2 : bmu = bmu' := funext hbmu
  have e3 : wlv = wlv' := funext fun k => funext fun q => hwlv k q
  have e4 : blv = blv' := funext hblv
  rw [ex, ee, e1, e2, e3, e4]

theorem hidden_congr {z z' : Fin R → Fin L → EReal} {wd1 wd1' : Fin L → Fin H → EReal} {bd1 bd1' : Fin H → EReal}
    {wd2 wd2' : Fin H → Fin N → EReal} {bd2 bd2' : Fin N → EReal}
    (hz : ∀ p k, z p k = z' p k) (hw1 : ∀ k q, wd1 k q = wd1' k q) (hb1 : ∀ q, bd1 q = bd1' q)
    (hw2 : ∀ k q, wd2 k q = wd2' k q) (hb2 : ∀ q, bd2 q = bd2' q) (p : Fin R) (q : Fin N) :
    hidden z wd1 bd1 wd2 bd2 p q = hidden z' wd1' bd1' wd2' bd2' p q := by
  have ez : z = z' := funext fun p => funext fun k => hz p k
  have e1 : wd1 = wd1' := funext fun k => funext fun q => hw1 k q
  have e2 : bd1 = bd1' := funext hb1
  have e3 : wd2 = wd2' := funext fun k => funext fun q => hw2 k q
  have e4 : bd2 = bd2' := funext hb2
  rw [ez, e1, e2, e3, e4]

end Cert.Spec

end
-- ==== Proof.FoldRegions.lean ====
/-
  The kernel's arrays at the segment boundaries are the reference's stages.

  Going through @main in order: the first region's output array is the reference's first layer (every row of the
  array is the layer's update of the same row of the aggregated features, which are the reference's); the second
  aggregation, being the shared chain applied to that array, is the reference's; the second region's output array is
  the reference's second layer; the pooled rows are the reference's; the decoder region's four output arrays are the
  reference's node logits, adjacency logits, mu and clipped log-variance; and the tails, being the shared chains
  applied to those, are the reference's node features and adjacency.
-/
import proofs.«123664_j28810640621902_1_alg».proof.Proof.FoldHost
import proofs.«123664_j28810640621902_1_alg».proof.Proof.RefRead
import proofs.«123664_j28810640621902_1_alg».proof.Proof.KBlocks
import proofs.«123664_j28810640621902_1_alg».proof.Proof.SpecCongr

set_option maxRecDepth 16384

noncomputable section

namespace Cert.KernelIdeal.Fold

open Cert.KernelIdeal Cert.KernelIdeal.Gen
open Idealize.ShloMosaic Idealize.ShloMosaic.TcCoe Idealize.SL.Sem Idealize.ShloMosaic.StableHlo
open Idealize.ShloMosaic.ValueIdx

variable (m : (ℓ : Loc nD τ sig) → Buf (Elt Ideal) ℓ) (ρ : Dev nD → PrngReg) (c : Dev nD)

/-- The first region's output array is the reference's first layer. -/
theorem W2_v17 : W2 (F := Ideal) m ρ c (Proc.devRef .tc main_v17) = Cert.ReferenceIdeal.Read.val_main_v24 (F := Ideal) (m ((c : Thread nD τ).loc main_arg0)) (m ((c : Thread nD τ).loc main_arg1)) (m ((c : Thread nD τ).loc main_arg4)) (m ((c : Thread nD τ).loc main_arg5)) (m ((c : Thread nD τ).loc main_arg6)) (m ((c : Thread nD τ).loc main_arg7)) := by
  refine (W2_arr (F := Ideal) m ρ c 5).trans ?_
  refine funext fun (i : S50000x128.Idx) => ?_
  obtain ⟨p, q, rfl⟩ : ∃ (p : Fin 50000) (q : Fin 128), i = ix2 p q := ⟨i 0, i 1, eq_ix2 i⟩
  refine (Cert.KernelIdeal.Blocks.region0_array (V1 (F := Ideal) m ρ) c p q).trans ?_
  rw [Cert.ReferenceIdeal.RefValue.v24_apply]
  exact Cert.Spec.gin_congr (fun a b => congrFun (W1_v14 m ρ c) (ix2 a b)) (fun a b => congrFun (W1_arg4 m ρ c) (ix2 a b)) (fun k => (congrFun (W1_v15 m ρ c) (ix2 (0 : Fin 1) k)).trans (shapeCast_b_1b_apply _ _ k)) (fun a b => congrFun (W1_arg6 m ρ c) (ix2 a b)) (fun k => (congrFun (W1_v16 m ρ c) (ix2 (0 : Fin 1) k)).trans (shapeCast_b_1b_apply _ _ k)) p q

/-- The second aggregation is the reference's. -/
theorem W3_v28_ref : W3 (F := Ideal) m ρ c (Proc.devRef .tc main_v28) = Cert.ReferenceIdeal.Read.val_main_v35 (F := Ideal) (m ((c : Thread nD τ).loc main_arg0)) (m ((c : Thread nD τ).loc main_arg1)) (m ((c : Thread nD τ).loc main_arg4)) (m ((c : Thread nD τ).loc main_arg5)) (m ((c : Thread nD τ).loc main_arg6)) (m ((c : Thread nD τ).loc main_arg7)) := by
  rw [W3_v28, W2_v17]
  exact (Cert.ReferenceIdeal.Chains.v35_eq (F := Ideal) (m ((c : Thread nD τ).loc main_arg0)) (m ((c : Thread nD τ).loc main_arg1)) (m ((c : Thread nD τ).loc main_arg4)) (m ((c : Thread nD τ).loc main_arg5)) (m ((c : Thread nD τ).loc main_arg6)) (m ((c : Thread nD τ).loc main_arg7))).symm

/-- The second region's output array is the reference's second layer. -/
theorem W4_v31 : W4 (F := Ideal) m ρ c (Proc.devRef .tc main_v31) = Cert.ReferenceIdeal.Read.val_main_v45 (F := Ideal) (m ((c : Thread nD τ).loc main_arg0)) (m ((c : Thread nD τ).loc main_arg1)) (m ((c : Thread nD τ).loc main_arg4)) (m ((c : Thread nD τ).loc main_arg5)) (m ((c : Thread nD τ).loc main_arg6)) (m ((c : Thread nD τ).loc main_arg7)) (m ((c : Thread nD τ).loc main_arg8)) (m ((c : Thread nD τ).loc main_arg9)) (m ((c : Thread nD τ).loc main_arg10)) (m ((c : Thread nD τ).loc main_arg11)) := by
  refine (W4_arr (F := Ideal) m ρ c 5).trans ?_
  refine funext fun (i : S50000x128.Idx) => ?_
  obtain ⟨p, q, rfl⟩ : ∃ (p : Fin 50000) (q : Fin 128), i = ix2 p q := ⟨i 0, i 1, eq_ix2 i⟩
  refine (Cert.KernelIdeal.Blocks.region1_array (V3 (F := Ideal) m ρ) c p q).trans ?_
  rw [Cert.ReferenceIdeal.RefValue.v45_apply]
  exact Cert.Spec.gin_congr (fun a b => congrFun (W3_v28_ref m ρ c) (ix2 a b)) (fun a b => congrFun (W3_arg8 m ρ c) (ix2 a b)) (fun k => (congrFun (W3_v29 m ρ c) (ix2 (0 : Fin 1) k)).trans (shapeCast_b_1b_apply _ _ k)) (fun a b => congrFun (W3_arg10 m ρ c) (ix2 a b)) (fun k => (congrFun (W3_v30 m ρ c) (ix2 (0 : Fin 1) k)).trans (shapeCast_b_1b_apply _ _ k)) p q

/-- The pooled rows are the reference's. -/
theorem W5_v43_ref : W5 (F := Ideal) m ρ c (Proc.devRef .tc main_v43) = Cert.ReferenceIdeal.Read.val_main_v57 (F := Ideal) (m ((c : Thread nD τ).loc main_arg0)) (m ((c : Thread nD τ).loc main_arg1)) (m ((c : Thread nD τ).loc main_arg2)) (m ((c : Thread nD τ).loc main_arg4)) (m ((c : Thread nD τ).loc main_arg5)) (m ((c : Thread nD τ).loc main_arg6)) (m ((c : Thread nD τ).loc main_arg7)) (m ((c : Thread nD τ).loc main_arg8)) (m ((c : Thread nD τ).loc main_arg9)) (m ((c : Thread nD τ).loc main_arg10)) (m ((c : Thread nD τ).loc main_arg11)) := by
  rw [W5_v43, W4_v31]
  exact (Cert.ReferenceIdeal.RefValue.v57_eq (m ((c : Thread nD τ).loc main_arg0)) (m ((c : Thread nD τ).loc main_arg1)) (m ((c : Thread nD τ).loc main_arg2)) (m ((c : Thread nD τ).loc main_arg4)) (m ((c : Thread nD τ).loc main_arg5)) (m ((c : Thread nD τ).loc main_arg6)) (m ((c : Thread nD τ).loc main_arg7)) (m ((c : Thread nD τ).loc main_arg8)) (m ((c : Thread nD τ).loc main_arg9)) (m ((c : Thread nD τ).loc main_arg10)) (m ((c : Thread nD τ).loc main_arg11))).symm

/-- The decoder's hidden rows read off the kernel's memory at the decoder region's entry are the reference's. -/
theorem hid_eq (p : Fin 256) (k : Fin 128) :
    Cert.KernelIdeal.Blocks.hid (V5 (F := Ideal) m ρ) c p k = Cert.ReferenceIdeal.RefValue.hid (m ((c : Thread nD τ).loc main_arg0)) (m ((c : Thread nD τ).loc main_arg1)) (m ((c : Thread nD τ).loc main_arg2)) (m ((c : Thread nD τ).loc main_arg3)) (m ((c : Thread nD τ).loc main_arg4)) (m ((c : Thread nD τ).loc main_arg5)) (m ((c : Thread nD τ).loc main_arg6)) (m ((c : Thread nD τ).loc main_arg7)) (m ((c : Thread nD τ).loc main_arg8)) (m ((c : Thread nD τ).loc main_arg9)) (m ((c : Thread nD τ).loc main_arg10)) (m ((c : Thread nD τ).loc main_arg11)) (m ((c : Thread nD τ).loc main_arg12)) (m ((c : Thread nD τ).loc main_arg13)) (m ((c : Thread nD τ).loc main_arg14)) (m ((c : Thread nD τ).loc main_arg15)) (m ((c : Thread nD τ).loc main_arg16)) (m ((c : Thread nD τ).loc main_arg17)) (m ((c : Thread nD τ).loc main_arg18)) (m ((c : Thread nD τ).loc main_arg19)) p k := by
  unfold Cert.KernelIdeal.Blocks.hid Cert.ReferenceIdeal.RefValue.hid
  exact Cert.Spec.hidden_congr
    (fun p k => Cert.Spec.latent_congr (fun a b => congrFun (W5_v43_ref m ρ c) (ix2 a b)) (fun a b => congrFun (W5_arg3 m ρ c) (ix2 a b)) (fun a b => congrFun (W5_arg12 m ρ c) (ix2 a b)) (fun k => (congrFun (W5_v44 m ρ c) (ix2 (0 : Fin 1) k)).trans (shapeCast_b_1b_apply _ _ k)) (fun a b => congrFun (W5_arg14 m ρ c) (ix2 a b)) (fun k => (congrFun (W5_v45 m ρ c) (ix2 (0 : Fin 1) k)).trans (shapeCast_b_1b_apply _ _ k)) p k)
    (fun a b => congrFun (W5_arg16 m ρ c) (ix2 a b)) (fun k => (congrFun (W5_v46 m ρ c) (ix2 (0 : Fin 1) k)).trans (shapeCast_b_1b_apply _ _ k)) (fun a b => congrFun (W5_arg18 m ρ c) (ix2 a b)) (fun k => (congrFun (W5_v47 m ρ c) (ix2 (0 : Fin 1) k)).trans (shapeCast_b_1b_apply _ _ k)) p k

/-- The decoder region's third output array is the reference's mu. -/
theorem W6_v50_2 : W6 (F := Ideal) m ρ c (Proc.devRef .tc main_v50_2) = Cert.ReferenceIdeal.Read.val_main_v61 (F := Ideal) (m ((c : Thread nD τ).loc main_arg0)) (m ((c : Thread nD τ).loc main_arg1)) (m ((c : Thread nD τ).loc main_arg2)) (m ((c : Thread nD τ).loc main_arg4)) (m ((c : Thread nD τ).loc main_arg5)) (m ((c : Thread nD τ).loc main_arg6)) (m ((c : Thread nD τ).loc main_arg7)) (m ((c : Thread nD τ).loc main_arg8)) (m ((c : Thread nD τ).loc main_arg9)) (m ((c : Thread nD τ).loc main_arg10)) (m ((c : Thread nD τ).loc main_arg11)) (m ((c : Thread nD τ).loc main_arg12)) (m ((c : Thread nD τ).loc main_arg13)) := by
  refine (W6_arr (F := Ideal) m ρ c 16).trans ?_
  refine funext fun (i : S256x64.Idx) => ?_
  obtain ⟨p, q, rfl⟩ : ∃ (p : Fin 256) (q : Fin 64), i = ix2 p q := ⟨i 0, i 1, eq_ix2 i⟩
  refine (Cert.KernelIdeal.Blocks.region2_mu (V5 (F := Ideal) m ρ) c p q).trans ?_
  rw [Cert.ReferenceIdeal.RefValue.v61_apply]
  exact Cert.Spec.dense_congr (fun a b => congrFun (W5_v43_ref m ρ c) (ix2 a b)) (fun a b => congrFun (W5_arg12 m ρ c) (ix2 a b)) (fun k => (congrFun (W5_v44 m ρ c) (ix2 (0 : Fin 1) k)).trans (shapeCast_b_1b_apply _ _ k)) p q

/-- Its fourth output array is the reference's clipped log-variance. -/
theorem W6_v50_3 : W6 (F := Ideal) m ρ c (Proc.devRef .tc main_v50_3) = Cert.ReferenceIdeal.Read.val_main_v66 (F := Ideal) (m ((c : Thread nD τ).loc main_arg0)) (m ((c : Thread nD τ).loc main_arg1)) (m ((c : Thread nD τ).loc main_arg2)) (m ((c : Thread nD τ).loc main_arg4)) (m ((c : Thread nD τ).loc main_arg5)) (m ((c : Thread nD τ).loc main_arg6)) (m ((c : Thread nD τ).loc main_arg7)) (m ((c : Thread nD τ).loc main_arg8)) (m ((c : Thread nD τ).loc main_arg9)) (m ((c : Thread nD τ).loc main_arg10)) (m ((c : Thread nD τ).loc main_arg11)) (m ((c : Thread nD τ).loc main_arg14)) (m ((c : Thread nD τ).loc main_arg15)) := by
  refine (W6_arr (F := Ideal) m ρ c 17).trans ?_
  refine funext fun (i : S256x64.Idx) => ?_
  obtain ⟨p, q, rfl⟩ : ∃ (p : Fin 256) (q : Fin 64), i = ix2 p q := ⟨i 0, i 1, eq_ix2 i⟩
  refine (Cert.KernelIdeal.Blocks.region2_logvar (V5 (F := Ideal) m ρ) c p q).trans ?_
  rw [Cert.ReferenceIdeal.RefValue.v66_apply]
  exact Cert.Spec.logvar_congr (fun a b => congrFun (W5_v43_ref m ρ c) (ix2 a b)) (fun a b => congrFun (W5_arg14 m ρ c) (ix2 a b)) (fun k => (congrFun (W5_v45 m ρ c) (ix2 (0 : Fin 1) k)).trans (shapeCast_b_1b_apply _ _ k)) p q

/-- Its first output array is the reference's node logits. -/
theorem W6_v50_0 : W6 (F := Ideal) m ρ c (Proc.devRef .tc main_v50_0) = Cert.ReferenceIdeal.Read.val_main_v84 (F := Ideal) (m ((c : Thread nD τ).loc main_arg0)) (m ((c : Thread nD τ).loc main_arg1)) (m ((c : Thread nD τ).loc main_arg2)) (m ((c : Thread nD τ).loc main_arg3)) (m ((c : Thread nD τ).loc main_arg4)) (m ((c : Thread nD τ).loc main_arg5)) (m ((c : Thread nD τ).loc main_arg6)) (m ((c : Thread nD τ).loc main_arg7)) (m ((c : Thread nD τ).loc main_arg8)) (m ((c : Thread nD τ).loc main_arg9)) (m ((c : Thread nD τ).loc main_arg10)) (m ((c : Thread nD τ).loc main_arg11)) (m ((c : Thread nD τ).loc main_arg12)) (m ((c : Thread nD τ).loc main_arg13)) (m ((c : Thread nD τ).loc main_arg14)) (m ((c : Thread nD τ).loc main_arg15)) (m ((c : Thread nD τ).loc main_arg16)) (m ((c : Thread nD τ).loc main_arg17)) (m ((c : Thread nD τ).loc main_arg18)) (m ((c : Thread nD τ).loc main_arg19)) (m ((c : Thread nD τ).loc main_arg20)) (m ((c : Thread nD τ).loc main_arg21)) := by
  refine (W6_arr (F := Ideal) m ρ c 14).trans ?_
  refine funext fun (i : S256x1600.Idx) => ?_
  obtain ⟨p, q, rfl⟩ : ∃ (p : Fin 256) (q : Fin 1600), i = ix2 p q := ⟨i 0, i 1, eq_ix2 i⟩
  refine (Cert.KernelIdeal.Blocks.region2_node (V5 (F := Ideal) m ρ) c p q).trans ?_
  rw [Cert.ReferenceIdeal.RefValue.v84_apply]
  exact Cert.Spec.dense_congr (hid_eq m ρ c) (fun a b => congrFun (W5_arg20 m ρ c) (ix2 a b)) (fun k => (congrFun (W5_v48 m ρ c) (ix2 (0 : Fin 1) k)).trans (shapeCast_b_1b_apply _ _ k)) p q

/-- Its second output array is the reference's adjacency logits. -/
theorem W6_v50_1 : W6 (F := Ideal) m ρ c (Proc.devRef .tc main_v50_1) = Cert.ReferenceIdeal.Read.val_main_v100 (F := Ideal) (m ((c : Thread nD τ).loc main_arg0)) (m ((c : Thread nD τ).loc main_arg1)) (m ((c : Thread nD τ).loc main_arg2)) (m ((c : Thread nD τ).loc main_arg3)) (m ((c : Thread nD τ).loc main_arg4)) (m ((c : Thread nD τ).loc main_arg5)) (m ((c : Thread nD τ).loc main_arg6)) (m ((c : Thread nD τ).loc main_arg7)) (m ((c : Thread nD τ).loc main_arg8)) (m ((c : Thread nD τ).loc main_arg9)) (m ((c : Thread nD τ).loc main_arg10)) (m ((c : Thread nD τ).loc main_arg11)) (m ((c : Thread nD τ).loc main_arg12)) (m ((c : Thread nD τ).loc main_arg13)) (m ((c : Thread nD τ).loc main_arg14)) (m ((c : Thread nD τ).loc main_arg15)) (m ((c : Thread nD τ).loc main_arg16)) (m ((c : Thread nD τ).loc main_arg17)) (m ((c : Thread nD τ).loc main_arg18)) (m ((c : Thread nD τ).loc main_arg19)) (m ((c : Thread nD τ).loc main_arg22)) (m ((c : Thread nD τ).loc main_arg23)) := by
  refine (W6_arr (F := Ideal) m ρ c 15).trans ?_
  refine funext fun (i : S256x10000.Idx) => ?_
  obtain ⟨p, q, rfl⟩ : ∃ (p : Fin 256) (q : Fin 10000), i = ix2 p q := ⟨i 0, i 1, eq_ix2 i⟩
  refine (Cert.KernelIdeal.Blocks.region2_adj (V5 (F := Ideal) m ρ) c p q).trans ?_
  rw [Cert.ReferenceIdeal.RefValue.v100_apply]
  exact Cert.Spec.dense_congr (hid_eq m ρ c) (fun a b => congrFun (W5_arg22 m ρ c) (ix2 a b)) (fun k => (congrFun (W5_v49 m ρ c) (ix2 (0 : Fin 1) k)).trans (shapeCast_b_1b_apply _ _ k)) p q

/-! ## The four results -/

/-- The adjacency the kernel's program returns is the reference's. -/
theorem res_adj : W10 (F := Ideal) m ρ c (Proc.devRef .tc main_v75) = Cert.ReferenceIdeal.Read.val_main_v113 (F := Ideal) (m ((c : Thread nD τ).loc main_arg0)) (m ((c : Thread nD τ).loc main_arg1)) (m ((c : Thread nD τ).loc main_arg2)) (m ((c : Thread nD τ).loc main_arg3)) (m ((c : Thread nD τ).loc main_arg4)) (m ((c : Thread nD τ).loc main_arg5)) (m ((c : Thread nD τ).loc main_arg6)) (m ((c : Thread nD τ).loc main_arg7)) (m ((c : Thread nD τ).loc main_arg8)) (m ((c : Thread nD τ).loc main_arg9)) (m ((c : Thread nD τ).loc main_arg10)) (m ((c : Thread nD τ).loc main_arg11)) (m ((c : Thread nD τ).loc main_arg12)) (m ((c : Thread nD τ).loc main_arg13)) (m ((c : Thread nD τ).loc main_arg14)) (m ((c : Thread nD τ).loc main_arg15)) (m ((c : Thread nD τ).loc main_arg16)) (m ((c : Thread nD τ).loc main_arg17)) (m ((c : Thread nD τ).loc main_arg18)) (m ((c : Thread nD τ).loc main_arg19)) (m ((c : Thread nD τ).loc main_arg22)) (m ((c : Thread nD τ).loc main_arg23)) := by
  rw [W10_v75, W6_v50_1]
  exact (Cert.ReferenceIdeal.RefValue.v113_eq (m ((c : Thread nD τ).loc main_arg0)) (m ((c : Thread nD τ).loc main_arg1)) (m ((c : Thread nD τ).loc main_arg2)) (m ((c : Thread nD τ).loc main_arg3)) (m ((c : Thread nD τ).loc main_arg4)) (m ((c : Thread nD τ).loc main_arg5)) (m ((c : Thread nD τ).loc main_arg6)) (m ((c : Thread nD τ).loc main_arg7)) (m ((c : Thread nD τ).loc main_arg8)) (m ((c : Thread nD τ).loc main_arg9)) (m ((c : Thread nD τ).loc main_arg10)) (m ((c : Thread nD τ).loc main_arg11)) (m ((c : Thread nD τ).loc main_arg12)) (m ((c : Thread nD τ).loc main_arg13)) (m ((c : Thread nD τ).loc main_arg14)) (m ((c : Thread nD τ).loc main_arg15)) (m ((c : Thread nD τ).loc main_arg16)) (m ((c : Thread nD τ).loc main_arg17)) (m ((c : Thread nD τ).loc main_arg18)) (m ((c : Thread nD τ).loc main_arg19)) (m ((c : Thread nD τ).loc main_arg22)) (m ((c : Thread nD τ).loc main_arg23))).symm

/-- The node features it returns are the reference's. -/
theorem res_node : W10 (F := Ideal) m ρ c (Proc.devRef .tc main_v62) = Cert.ReferenceIdeal.Read.val_main_v96 (F := Ideal) (m ((c : Thread nD τ).loc main_arg0)) (m ((c : Thread nD τ).loc main_arg1)) (m ((c : Thread nD τ).loc main_arg2)) (m ((c : Thread nD τ).loc main_arg3)) (m ((c : Thread nD τ).loc main_arg4)) (m ((c : Thread nD τ).loc main_arg5)) (m ((c : Thread nD τ).loc main_arg6)) (m ((c : Thread nD τ).loc main_arg7)) (m ((c : Thread nD τ).loc main_arg8)) (m ((c : Thread nD τ).loc main_arg9)) (m ((c : Thread nD τ).loc main_arg10)) (m ((c : Thread nD τ).loc main_arg11)) (m ((c : Thread nD τ).loc main_arg12)) (m ((c : Thread nD τ).loc main_arg13)) (m ((c : Thread nD τ).loc main_arg14)) (m ((c : Thread nD τ).loc main_arg15)) (m ((c : Thread nD τ).loc main_arg16)) (m ((c : Thread nD τ).loc main_arg17)) (m ((c : Thread nD τ).loc main_arg18)) (m ((c : Thread nD τ).loc main_arg19)) (m ((c : Thread nD τ).loc main_arg20)) (m ((c : Thread nD τ).loc main_arg21)) := by
  rw [W10_v62, W6_v50_0]
  exact (Cert.ReferenceIdeal.RefValue.v96_eq (m ((c : Thread nD τ).loc main_arg0)) (m ((c : Thread nD τ).loc main_arg1)) (m ((c : Thread nD τ).loc main_arg2)) (m ((c : Thread nD τ).loc main_arg3)) (m ((c : Thread nD τ).loc main_arg4)) (m ((c : Thread nD τ).loc main_arg5)) (m ((c : Thread nD τ).loc main_arg6)) (m ((c : Thread nD τ).loc main_arg7)) (m ((c : Thread nD τ).loc main_arg8)) (m ((c : Thread nD τ).loc main_arg9)) (m ((c : Thread nD τ).loc main_arg10)) (m ((c : Thread nD τ).loc main_arg11)) (m ((c : Thread nD τ).loc main_arg12)) (m ((c : Thread nD τ).loc main_arg13)) (m ((c : Thread nD τ).loc main_arg14)) (m ((c : Thread nD τ).loc main_arg15)) (m ((c : Thread nD τ).loc main_arg16)) (m ((c : Thread nD τ).loc main_arg17)) (m ((c : Thread nD τ).loc main_arg18)) (m ((c : Thread nD τ).loc main_arg19)) (m ((c : Thread nD τ).loc main_arg20)) (m ((c : Thread nD τ).loc main_arg21))).symm

/-- mu and the clipped log-variance it returns are the reference's. -/
theorem res_mu : W10 (F := Ideal) m ρ c (Proc.devRef .tc main_v50_2) = Cert.ReferenceIdeal.Read.val_main_v61 (F := Ideal) (m ((c : Thread nD τ).loc main_arg0)) (m ((c : Thread nD τ).loc main_arg1)) (m ((c : Thread nD τ).loc main_arg2)) (m ((c : Thread nD τ).loc main_arg4)) (m ((c : Thread nD τ).loc main_arg5)) (m ((c : Thread nD τ).loc main_arg6)) (m ((c : Thread nD τ).loc main_arg7)) (m ((c : Thread nD τ).loc main_arg8)) (m ((c : Thread nD τ).loc main_arg9)) (m ((c : Thread nD τ).loc main_arg10)) (m ((c : Thread nD τ).loc main_arg11)) (m ((c : Thread nD τ).loc main_arg12)) (m ((c : Thread nD τ).loc main_arg13)) :=
  (W10_v50_2 m ρ c).trans (W6_v50_2 m ρ c)
theorem res_logvar : W10 (F := Ideal) m ρ c (Proc.devRef .tc main_v50_3) = Cert.ReferenceIdeal.Read.val_main_v66 (F := Ideal) (m ((c : Thread nD τ).loc main_arg0)) (m ((c : Thread nD τ).loc main_arg1)) (m ((c : Thread nD τ).loc main_arg2)) (m ((c : Thread nD τ).loc main_arg4)) (m ((c : Thread nD τ).loc main_arg5)) (m ((c : Thread nD τ).loc main_arg6)) (m ((c : Thread nD τ).loc main_arg7)) (m ((c : Thread nD τ).loc main_arg8)) (m ((c : Thread nD τ).loc main_arg9)) (m ((c : Thread nD τ).loc main_arg10)) (m ((c : Thread nD τ).loc main_arg11)) (m ((c : Thread nD τ).loc main_arg14)) (m ((c : Thread nD τ).loc main_arg15)) :=
  (W10_v50_3 m ρ c).trans (W6_v50_3 m ρ c)

end Cert.KernelIdeal.Fold

end
-- ==== Proof.lean ====
/-
  The certificate of a graph variational autoencoder: two graph-isomorphism layers, mean pooling over the graphs,
  the two heads (mu and a clipped log-variance), the reparameterized latent, a two-layer decoder, and the node and
  adjacency logits with their tails (a softmax over the last axis; symmetrize, mask the diagonal, clip).

  The kernel's program keeps the irregular parts on the host exactly as the reference writes them — the gather and
  scatter-add along the edges, the pooling, the tails — and runs the dense parts as three pipelined regions: each
  graph-isomorphism layer over blocks of 5000 node rows, the decoder over blocks of 64 graphs, the weights resident.
  Over the extended reals a change of float format is the identity and a matrix product into a zero accumulator is
  the sum of the products, so the block a region writes back holds, row by row, the same dense layers of the same rows
  that the reference computes on all rows at once; the blocks tile the rows. No law beyond that is used: the sums are
  the same sums in the same order, so the precondition (finite inputs) is never opened.

  The three frames: the two kernel programs' are the generated frame certificates; the reference's is its generated
  run with the results dropped. The ideal pass rewrote nothing, so the idealization claim is trivial. For the value
  claim the kernel's run is read with every buffer named at the end of the fold through @main's ten segments
  (KRun), the fold is read boundary by boundary down to the reference's own stages (FoldHost, FoldRegions, over the
  entry-level lemmas of KPay, KBlocks and RefRead), and the reference's run is its generated one.
-/
import proofs.«123664_j28810640621902_1_alg».proof.Defs
import proofs.«123664_j28810640621902_1_alg».proof.Proof.Gen.Kernel
import proofs.«123664_j28810640621902_1_alg».proof.Proof.Gen.Kernel.Frame
import proofs.«123664_j28810640621902_1_alg».proof.Proof.Gen.KernelIdeal
import proofs.«123664_j28810640621902_1_alg».proof.Proof.Gen.KernelIdeal.Frame
import proofs.«123664_j28810640621902_1_alg».proof.Proof.Gen.ReferenceIdeal
import proofs.«123664_j28810640621902_1_alg».proof.Proof.Gen.Pre_finite_inputs
import proofs.«123664_j28810640621902_1_alg».proof.Proof.Gen.ReferenceIdeal.Run
import proofs.«123664_j28810640621902_1_alg».proof.Proof.Gen.ReferenceIdeal.Read
import proofs.«123664_j28810640621902_1_alg».proof.Proof.KRun
import proofs.«123664_j28810640621902_1_alg».proof.Proof.FoldRegions
import Idealize.ShloMosaic.Adequacy
import Idealize.ShloMosaic.Init

set_option maxRecDepth 16384

noncomputable section

namespace Cert.Proof

open Idealize.ShloMosaic Idealize.ShloMosaic.TcCoe Idealize.SL.Sem

/-- The word-level kernel terminates without a fault and leaves its arguments as launched. -/
theorem frame_kernel : Cert.frame_Kernel := fun m ρ _ => Cert.Kernel.Gen.frame m ρ

/-- So does the idealized kernel. -/
theorem frame_kernelIdeal : Cert.frame_KernelIdeal := fun m ρ _ => Cert.KernelIdeal.Gen.frame m ρ

/-- The reference is a line of host operations: its run, with the results dropped. -/
theorem frame_referenceIdeal : Cert.frame_ReferenceIdeal := fun m ρ _ =>
  (θ_run Cert.ReferenceIdeal.defs _ _).mono (fun _ h c => (h c).2.2.2.2) (Cert.ReferenceIdeal.Value.run (F := Ideal) m ρ)

/-- The ideal pass rewrote no operation. -/
theorem preserves : Cert.preserves_Kernel_KernelIdeal := trivial

section Algebraic
open Cert.KernelIdeal Cert.KernelIdeal.Gen

/-- From memories that agree on the arguments both programs run to the end, and the adjacency, the node features,
    mu and the clipped log-variance they return are equal entry by entry: each of the kernel's results is, at the end
    of the fold through its segments, the reference's stage of the arguments. -/
theorem algebraic : Cert.algebraic_KernelIdeal_ReferenceIdeal := by
  intro m ρ m' ρ' _ hagree
  refine ⟨fun c => W10 (F := Ideal) m ρ c (Proc.devRef .tc main_v75), fun c => W10 (F := Ideal) m ρ c (Proc.devRef .tc main_v62),
    fun c => W10 (F := Ideal) m ρ c (Proc.devRef .tc main_v50_2), fun c => W10 (F := Ideal) m ρ c (Proc.devRef .tc main_v50_3), ?_, ?_⟩
  · refine (θ_run Cert.KernelIdeal.defs _ _).mono (fun r h c => ?_) (Cert.KernelIdeal.KRun.run_named (F := Ideal) m ρ)
    exact ⟨h c _ (mem_uc main_v75 (by decide)), h c _ (mem_uc main_v62 (by decide)),
      h c _ (mem_uc main_v50_2 (by decide)), h c _ (mem_uc main_v50_3 (by decide)),
      (h c _ (mem_uc main_arg0 (by decide))).trans (W10_main_arg0 m ρ c),
      (h c _ (mem_uc main_arg1 (by decide))).trans (W10_main_arg1 m ρ c),
      (h c _ (mem_uc main_arg2 (by decide))).trans (W10_main_arg2 m ρ c),
      (h c _ (mem_uc main_arg3 (by decide))).trans (W10_main_arg3 m ρ c),
      (h c _ (mem_uc main_arg4 (by decide))).trans (W10_main_arg4 m ρ c),
      (h c _ (mem_uc main_arg5 (by decide))).trans (W10_main_arg5 m ρ c),
      (h c _ (mem_uc main_arg6 (by decide))).trans (W10_main_arg6 m ρ c),
      (h c _ (mem_uc main_arg7 (by decide))).trans (W10_main_arg7 m ρ c),
      (h c _ (mem_uc main_arg8 (by decide))).trans (W10_main_arg8 m ρ c),
      (h c _ (mem_uc main_arg9 (by decide))).trans (W10_main_arg9 m ρ c),
      (h c _ (mem_uc main_arg10 (by decide))).trans (W10_main_arg10 m ρ c),
      (h c _ (mem_uc main_arg11 (by decide))).trans (W10_main_arg11 m ρ c),
      (h c _ (mem_uc main_arg12 (by decide))).trans (W10_main_arg12 m ρ c),
      (h c _ (mem_uc main_arg13 (by decide))).trans (W10_main_arg13 m ρ c),
      (h c _ (mem_uc main_arg14 (by decide))).trans (W10_main_arg14 m ρ c),
      (h c _ (mem_uc main_arg15 (by decide))).trans (W10_main_arg15 m ρ c),
      (h c _ (mem_uc main_arg16 (by decide))).trans (W10_main_arg16 m ρ c),
      (h c _ (mem_uc main_arg17 (by decide))).trans (W10_main_arg17 m ρ c),
      (h c _ (mem_uc main_arg18 (by decide))).trans (W10_main_arg18 m ρ c),
      (h c _ (mem_uc main_arg19 (by decide))).trans (W10_main_arg19 m ρ c),
      (h c _ (mem_uc main_arg20 (by decide))).trans (W10_main_arg20 m ρ c),
      (h c _ (mem_uc main_arg21 (by decide))).trans (W10_main_arg21 m ρ c),
      (h c _ (mem_uc main_arg22 (by decide))).trans (W10_main_arg22 m ρ c),
      (h c _ (mem_uc main_arg23 (by decide))).trans (W10_main_arg23 m ρ c)⟩
  · refine (θ_run Cert.ReferenceIdeal.defs _ _).mono (fun r h c => ?_) (Cert.ReferenceIdeal.Value.run (F := Ideal) m' ρ')
    obtain ⟨h0, h1, h2, h3, hrest⟩ := h c
    obtain ⟨a0, a1, a2, a3, a4, a5, a6, a7, a8, a9, a10, a11, a12, a13, a14, a15, a16, a17, a18, a19, a20, a21, a22, a23⟩ := hagree c
    refine ⟨h0.trans ?_, h1.trans ?_, h2.trans ?_, h3.trans ?_, hrest⟩
    · rw [Cert.ReferenceIdeal.Read.val_main_v113_eq]
      simp only [a0, a1, a2, a3, a4, a5, a6, a7, a8, a9, a10, a11, a12, a13, a14, a15, a16, a17, a18, a19, a20, a21, a22, a23]
      exact (Cert.KernelIdeal.Fold.res_adj m ρ c).symm
    · rw [Cert.ReferenceIdeal.Read.val_main_v96_eq]
      simp only [a0, a1, a2, a3, a4, a5, a6, a7, a8, a9, a10, a11, a12, a13, a14, a15, a16, a17, a18, a19, a20, a21, a22, a23]
      exact (Cert.KernelIdeal.Fold.res_node m ρ c).symm
    · rw [Cert.ReferenceIdeal.Read.val_main_v61_eq]
      simp only [a0, a1, a2, a3, a4, a5, a6, a7, a8, a9, a10, a11, a12, a13, a14, a15, a16, a17, a18, a19, a20, a21, a22, a23]
      exact (Cert.KernelIdeal.Fold.res_mu m ρ c).symm
    · rw [Cert.ReferenceIdeal.Read.val_main_v66_eq]
      simp only [a0, a1, a2, a3, a4, a5, a6, a7, a8, a9, a10, a11, a12, a13, a14, a15, a16, a17, a18, a19, a20, a21, a22, a23]
      exact (Cert.KernelIdeal.Fold.res_logvar m ρ c).symm

end Algebraic

theorem claim : Cert.Claim :=
  ⟨Cert.Kernel.Gen.facts, Cert.KernelIdeal.Gen.facts, Cert.ReferenceIdeal.Gen.facts, Cert.Pre_finite_inputs.Gen.facts,
    frame_kernel, frame_kernelIdeal, frame_referenceIdeal, preserves, algebraic⟩

end Cert.Proof

end
